-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x64x56x56 : Shape := ⟨4, ![32, 64, 56, 56]⟩
abbrev S3x3x64x128 : Shape := ⟨4, ![3, 3, 64, 128]⟩
abbrev S3x3x128x128 : Shape := ⟨4, ![3, 3, 128, 128]⟩
abbrev S64x128 : Shape := ⟨2, ![64, 128]⟩
abbrev S128 : Shape := ⟨1, ![128]⟩
abbrev S_ : Shape := ⟨0, ![]⟩

class Facts : Prop where
  bcast_S_S32x64x56x56 : S_.BroadcastsInDim S32x64x56x56 (![] : Fin 0 → Fin S32x64x56x56.rank)
  reducesTo_S32x64x56x56_S_d0_1_2_3 : S32x64x56x56.ReducesTo [0, 1, 2, 3] S_
  h_S_ : 0 < S_.numel
  bcast_S_S3x3x64x128 : S_.BroadcastsInDim S3x3x64x128 (![] : Fin 0 → Fin S3x3x64x128.rank)
  reducesTo_S3x3x64x128_S_d0_1_2_3 : S3x3x64x128.ReducesTo [0, 1, 2, 3] S_
  bcast_S_S3x3x128x128 : S_.BroadcastsInDim S3x3x128x128 (![] : Fin 0 → Fin S3x3x128x128.rank)
  reducesTo_S3x3x128x128_S_d0_1_2_3 : S3x3x128x128.ReducesTo [0, 1, 2, 3] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128 .f32) (main_arg8 : FVec F S128 .f32) (main_arg9 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg9
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg4 : FVec F S128 .f32) (main_arg5 : FVec F S128 .f32) (main_arg6 : FVec F S128 .f32) (main_arg7 : FVec F S128 .f32) (main_arg8 : FVec F S128 .f32) (main_arg9 : FVec F S128 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_v33

def fn {F : FTy → Type} [FloatOps F] (main_arg0 : FVec F S32x64x56x56 .f32) (main_arg1 : FVec F S3x3x64x128 .f32) (main_arg2 : FVec F S3x3x128x128 .f32) (main_arg3 : FVec F S64x128 .f32) (main_arg4 : FVec F S128 .f32) (main_arg5 : FVec F S128 .f32) (main_arg6 : FVec F S128 .f32) (main_arg7 : FVec F S128 .f32) (main_arg8 : FVec F S128 .f32) (main_arg9 : FVec F S128 .f32) : IVec S_ 1 :=
  let main_v0 : FVec F S32x64x56x56 .f32 := Host.absf main_arg0
  let main_cst : FVec F S_ .f32 := constant S_ .f32 0x7F800000#32
  let main_v1 : FVec F S32x64x56x56 .f32 := broadcastInDim S32x64x56x56 ![] bcast_S_S32x64x56x56 main_cst
  let main_v2 : IVec S32x64x56x56 1 := cmpf .olt main_v0 main_v1
  let main_c : IVec S_ 1 := constantI S_ 1 1#1
  let main_v3 : IVec S_ 1 := (fun x v => Host.reduce IntOp.andi x v reducesTo_S32x64x56x56_S_d0_1_2_3 h_S_) main_v2 main_c
  let main_v4 : FVec F S3x3x64x128 .f32 := Host.absf main_arg1
  let main_cst_0 : FVec F S_ .f32 := constant S_ .f32 0x7F800000#32
  let main_v5 : FVec F S3x3x64x128 .f32 := broadcastInDim S3x3x64x128 ![] bcast_S_S3x3x64x128 main_cst_0
  let main_v6 : IVec S3x3x64x128 1 := cmpf .olt main_v4 main_v5
  let main_c_1 : IVec S_ 1 := constantI S_ 1 1#1
  let main_v7 : IVec S_ 1 := (fun x v => Host.reduce IntOp.andi x v reducesTo_S3x3x64x128_S_d0_1_2_3 h_S_) main_v6 main_c_1
  let main_v8 : IVec S_ 1 := andi main_v3 main_v7
  let main_v9 : FVec F S3x3x128x128 .f32 := Host.absf main_arg2
  let main_cst_2 : FVec F S_ .f32 := constant S_ .f32 0x7F800000#32
  let main_v10 : FVec F S3x3x128x128 .f32 := broadcastInDim S3x3x128x128 ![] bcast_S_S3x3x128x128 main_cst_2
  let main_v11 : IVec S3x3x128x128 1 := cmpf .olt main_v9 main_v10
  let main_c_3 : IVec S_ 1 := constantI S_ 1 1#1
  let main_v12 : IVec S_ 1 := (fun x v => Host.reduce IntOp.andi x v reducesTo_S3x3x128x128_S_d0_1_2_3 h_S_) main_v11 main_c_3
  let main_v13 : IVec S_ 1 := andi main_v8 main_v12
  let main_v14 : FVec F S64x128 .f32 := Host.absf main_arg3
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg4 main_arg5 main_arg6 main_arg7 main_arg8 main_arg9 main_v13 main_v16
-- ==== Kernel.lean ====
abbrev S32x64x56x56 : Shape := ⟨4, ![32, 64, 56, 56]⟩
abbrev S3x3x64x128 : Shape := ⟨4, ![3, 3, 64, 128]⟩
abbrev S3x3x128x128 : Shape := ⟨4, ![3, 3, 128, 128]⟩
abbrev S64x128 : Shape := ⟨2, ![64, 128]⟩
abbrev S128 : Shape := ⟨1, ![128]⟩
abbrev S32x56x56x64 : Shape := ⟨4, ![32, 56, 56, 64]⟩
abbrev S_ : Shape := ⟨0, ![]⟩
abbrev S32x58x58x64 : Shape := ⟨4, ![32, 58, 58, 64]⟩
abbrev S576x128 : Shape := ⟨2, ![576, 128]⟩
abbrev S1152x128 : Shape := ⟨2, ![1152, 128]⟩
abbrev S32x56x56x128 : Shape := ⟨4, ![32, 56, 56, 128]⟩
abbrev S32x8x128 : Shape := ⟨3, ![32, 8, 128]⟩
abbrev S1x58x58x64 : Shape := ⟨4, ![1, 58, 58, 64]⟩
abbrev S1x56x56x128 : Shape := ⟨4, ![1, 56, 56, 128]⟩
abbrev S1x8x128 : Shape := ⟨3, ![1, 8, 128]⟩
abbrev S58x58x64 : Shape := ⟨3, ![58, 58, 64]⟩
abbrev S3136x128 : Shape := ⟨2, ![3136, 128]⟩
abbrev S56x56x64 : Shape := ⟨3, ![56, 56, 64]⟩
abbrev S3136x64 : Shape := ⟨2, ![3136, 64]⟩
abbrev S1x128 : Shape := ⟨2, ![1, 128]⟩
abbrev S4x128 : Shape := ⟨2, ![4, 128]⟩
abbrev S8x128 : Shape := ⟨2, ![8, 128]⟩
abbrev S58x58x128 : Shape := ⟨3, ![58, 58, 128]⟩
abbrev S1x58x128 : Shape := ⟨3, ![1, 58, 128]⟩
abbrev S58x1x128 : Shape := ⟨3, ![58, 1, 128]⟩
abbrev S58x2x128 : Shape := ⟨3, ![58, 2, 128]⟩
abbrev S1x1x1x128 : Shape := ⟨4, ![1, 1, 1, 128]⟩
abbrev S56x56x128 : Shape := ⟨3, ![56, 56, 128]⟩
abbrev S56x58x128 : Shape := ⟨3, ![56, 58, 128]⟩
abbrev S128x128 : Shape := ⟨2, ![128, 128]⟩
abbrev S6x128 : Shape := ⟨2, ![6, 128]⟩
abbrev S32x128x3136 : Shape := ⟨3, ![32, 128, 3136]⟩
abbrev S1x128x3136 : Shape := ⟨3, ![1, 128, 3136]⟩
abbrev S128x3136 : Shape := ⟨2, ![128, 3136]⟩
abbrev S32x128x56x56 : Shape := ⟨4, ![32, 128, 56, 56]⟩

abbrev nBuf : Space → Nat
  | .hbm => 102
  | .vmem => 29
  | .smem => 0
  | _ => 0

abbrev bufTy : (tb : Table) → Fin (tcTables nBuf tb) → BufTy
  | .hbm, ⟨0, _⟩ => ⟨S32x64x56x56, .f32⟩
  | .hbm, ⟨1, _⟩ => ⟨S3x3x64x128, .f32⟩
  | .hbm, ⟨2, _⟩ => ⟨S3x3x128x128, .f32⟩
  | .hbm, ⟨3, _⟩ => ⟨S64x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S32x56x56x64, .f32⟩
  | .hbm, ⟨11, _⟩ => ⟨S_, .i32⟩
  | .hbm, ⟨12, _⟩ => ⟨S_, .f32⟩
  | .hbm, ⟨13, _⟩ => ⟨S32x58x58x64, .f32⟩
  | .hbm, ⟨14, _⟩ => ⟨S32x58x58x64, .bf16⟩
  | .hbm, ⟨15, _⟩ => ⟨S576x128, .f32⟩
  | .hbm, ⟨16, _⟩ => ⟨S576x128, .bf16⟩
  | .hbm, ⟨17, _⟩ => ⟨S1152x128, .f32⟩
  | .hbm, ⟨18, _⟩ => ⟨S1152x128, .bf16⟩
  | .hbm, ⟨19, _⟩ => ⟨S64x128, .bf16⟩
  | .hbm, ⟨20, _⟩ => ⟨S32x56x56x128, .bf16⟩
  | .hbm, ⟨21, _⟩ => ⟨S32x8x128, .f32⟩
  | .hbm, ⟨22, _⟩ => ⟨S_, .f32⟩
  | .hbm, ⟨23, _⟩ => ⟨S8x128, .f32⟩
  | .hbm, ⟨24, _⟩ => ⟨S1x128, .f32⟩
  | .hbm, ⟨25, _⟩ => ⟨S128, .f32⟩
  | .hbm, ⟨26, _⟩ => ⟨S1x128, .f32⟩
  | .hbm, ⟨27, _⟩ => ⟨S128, .f32⟩
  | .hbm, ⟨28, _⟩ => ⟨S_, .f32⟩
  | .hbm, ⟨29, _⟩ => ⟨S128, .f32⟩
  | .hbm, ⟨30, _⟩ => ⟨S128, .f32⟩
  | .hbm, ⟨31, _⟩ => ⟨S_, .f32⟩
  | .hbm, ⟨32, _⟩ => ⟨S128, .f32⟩
  | .hbm, ⟨33, _⟩ => ⟨S128, .f32⟩
  | .hbm, ⟨34, _⟩ => ⟨S128, .f32⟩
  | .hbm, ⟨35, _⟩ => ⟨S128, .f32⟩
  | .hbm, ⟨36, _⟩ => ⟨S_, .f32⟩
  | .hbm, ⟨37, _⟩ => ⟨S128, .f32⟩
  | .hbm, ⟨38, _⟩ => ⟨S128, .f32⟩
  | .hbm, ⟨39, _⟩ => ⟨S_, .f32⟩
  | .hbm, ⟨40, _⟩ => ⟨S128, .f32⟩
  | .hbm, ⟨41, _⟩ => ⟨S128, .f32⟩
  | .hbm, ⟨42, _⟩ => ⟨S128, .f32⟩
  | .hbm, ⟨43, _⟩ => ⟨S128, .f32⟩
  | .hbm, ⟨44, _⟩ => ⟨S1x128, .f32⟩
  | .hbm, ⟨45, _⟩ => ⟨S128, .f32⟩
  | .hbm, ⟨46, _⟩ => ⟨S128, .f32⟩
  | .hbm, ⟨47, _⟩ => ⟨S1x128, .f32⟩
  | .hbm, ⟨48, _⟩ => ⟨S1x128, .f32⟩
  | .hbm, ⟨49, _⟩ => ⟨S128, .f32⟩
  | .hbm, ⟨50, _⟩ => ⟨S1x128, .f32⟩
  | .hbm, ⟨51, _⟩ => ⟨S128, .f32⟩
  | .hbm, ⟨52, _⟩ => ⟨S_, .f32⟩
  | .hbm, ⟨53, _⟩ => ⟨S128, .f32⟩
  | .hbm, ⟨54, _⟩ => ⟨S128, .f32⟩
  | .hbm, ⟨55, _⟩ => ⟨S_, .f32⟩
  | .hbm, ⟨56, _⟩ => ⟨S128, .f32⟩
  | .hbm, ⟨57, _⟩ => ⟨S128, .f32⟩
  | .hbm, ⟨58, _⟩ => ⟨S128, .f32⟩
  | .hbm, ⟨59, _⟩ => ⟨S128, .f32⟩
  | .hbm, ⟨60, _⟩ => ⟨S_, .f32⟩
  | .hbm, ⟨61, _⟩ => ⟨S128, .f32⟩
  | .hbm, ⟨62, _⟩ => ⟨S128, .f32⟩
  | .hbm, ⟨63, _⟩ => ⟨S_, .f32⟩
  | .hbm, ⟨64, _⟩ => ⟨S128, .f32⟩
  | .hbm, ⟨65, _⟩ => ⟨S128, .f32⟩
  | .hbm, ⟨66, _⟩ => ⟨S128, .f32⟩
  | .hbm, ⟨67, _⟩ => ⟨S128, .f32⟩
  | .hbm, ⟨68, _⟩ => ⟨S1x128, .f32⟩
  | .hbm, ⟨69, _⟩ => ⟨S128, .f32⟩
  | .hbm, ⟨70, _⟩ => ⟨S128, .f32⟩
  | .hbm, ⟨71, _⟩ => ⟨S1x128, .f32⟩
  | .hbm, ⟨72, _⟩ => ⟨S32x56x56x128, .bf16⟩
  | .hbm, ⟨73, _⟩ => ⟨S32x8x128, .f32⟩
  | .hbm, ⟨74, _⟩ => ⟨S_, .f32⟩
  | .hbm, ⟨75, _⟩ => ⟨S8x128, .f32⟩
  | .hbm, ⟨76, _⟩ => ⟨S1x128, .f32⟩
  | .hbm, ⟨77, _⟩ => ⟨S128, .f32⟩
  | .hbm, ⟨78, _⟩ => ⟨S1x128, .f32⟩
  | .hbm, ⟨79, _⟩ => ⟨S128, .f32⟩
  | .hbm, ⟨80, _⟩ => ⟨S_, .f32⟩
  | .hbm, ⟨81, _⟩ => ⟨S128, .f32⟩
  | .hbm, ⟨82, _⟩ => ⟨S128, .f32⟩
  | .hbm, ⟨83, _⟩ => ⟨S_, .f32⟩
  | .hbm, ⟨84, _⟩ => ⟨S128, .f32⟩
  | .hbm, ⟨85, _⟩ => ⟨S128, .f32⟩
  | .hbm, ⟨86, _⟩ => ⟨S128, .f32⟩
  | .hbm, ⟨87, _⟩ => ⟨S128, .f32⟩
  | .hbm, ⟨88, _⟩ => ⟨S_, .f32⟩
  | .hbm, ⟨89, _⟩ => ⟨S128, .f32⟩
  | .hbm, ⟨90, _⟩ => ⟨S128, .f32⟩
  | .hbm, ⟨91, _⟩ => ⟨S_, .f32⟩
  | .hbm, ⟨92, _⟩ => ⟨S128, .f32⟩
  | .hbm, ⟨93, _⟩ => ⟨S128, .f32⟩
  | .hbm, ⟨94, _⟩ => ⟨S128, .f32⟩
  | .hbm, ⟨95, _⟩ => ⟨S128, .f32⟩
  | .hbm, ⟨96, _⟩ => ⟨S1x128, .f32⟩
  | .hbm, ⟨97, _⟩ => ⟨S128, .f32⟩
  | .hbm, ⟨98, _⟩ => ⟨S128, .f32⟩
  | .hbm, ⟨99, _⟩ => ⟨S1x128, .f32⟩
  | .hbm, ⟨100, _⟩ => ⟨S32x128x3136, .f32⟩
  | .hbm, ⟨101, _⟩ => ⟨S32x128x56x56, .f32⟩
  | .local _ .vmem, ⟨0, _⟩ => ⟨S1x58x58x64, .bf16⟩
  | .local _ .vmem, ⟨1, _⟩ => ⟨S1x58x58x64, .bf16⟩
  | .local _ .vmem, ⟨2, _⟩ => ⟨S576x128, .bf16⟩
  | .local _ .vmem, ⟨3, _⟩ => ⟨S64x128, .bf16⟩
  | .local _ .vmem, ⟨4, _⟩ => ⟨S1x56x56x128, .bf16⟩
  | .local _ .vmem, ⟨5, _⟩ => ⟨S1x56x56x128, .bf16⟩
  | .local _ .vmem, ⟨6, _⟩ => ⟨S1x8x128, .f32⟩
  | .local _ .vmem, ⟨7, _⟩ => ⟨S1x8x128, .f32⟩
  | .local _ .vmem, ⟨8, _⟩ => ⟨S1x56x56x128, .bf16⟩
  | .local _ .vmem, ⟨9, _⟩ => ⟨S1x56x56x128, .bf16⟩
  | .local _ .vmem, ⟨10, _⟩ => ⟨S1x128, .f32⟩
  | .local _ .vmem, ⟨11, _⟩ => ⟨S1x128, .f32⟩
  | .local _ .vmem, ⟨12, _⟩ => ⟨S1152x128, .bf16⟩
  | .local _ .vmem, ⟨13, _⟩ => ⟨S1x56x56x128, .bf16⟩
  | .local _ .vmem, ⟨14, _⟩ => ⟨S1x56x56x128, .bf16⟩
  | .local _ .vmem, ⟨15, _⟩ => ⟨S1x8x128, .f32⟩
  | .local _ .vmem, ⟨16, _⟩ => ⟨S1x8x128, .f32⟩
  | .local _ .vmem, ⟨17, _⟩ => ⟨S58x58x128, .bf16⟩
  | .local _ .vmem, ⟨18, _⟩ => ⟨S1x56x56x128, .bf16⟩
  | .local _ .vmem, ⟨19, _⟩ => ⟨S1x56x56x128, .bf16⟩
  | .local _ .vmem, ⟨20, _⟩ => ⟨S1x58x58x64, .bf16⟩
  | .local _ .vmem, ⟨21, _⟩ => ⟨S1x58x58x64, .bf16⟩
  | .local _ .vmem, ⟨22, _⟩ => ⟨S64x128, .bf16⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S1x128, .f32⟩
  | .local _ .vmem, ⟨27, _⟩ => ⟨S1x128x3136, .f32⟩
  | .local _ .vmem, ⟨28, _⟩ => ⟨S1x128x3136, .f32⟩
  | _, _ => ⟨S32x64x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8_0 : Ref sig .tc := ⟨.hbm, 20, rfl⟩
abbrev main_v8_1 : Ref sig .tc := ⟨.hbm, 21, rfl⟩
abbrev main_cst : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_0 : Ref sig .tc := ⟨.hbm, 28, rfl⟩
abbrev main_v14 : Ref sig .tc := ⟨.hbm, 29, rfl⟩
abbrev main_v15 : Ref sig .tc := ⟨.hbm, 30, rfl⟩
abbrev main_cst_1 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_4 : Ref sig .tc := ⟨.hbm, 52, rfl⟩
abbrev main_v34 : Ref sig .tc := ⟨.hbm, 53, rfl⟩
abbrev main_v35 : Ref sig .tc := ⟨.hbm, 54, rfl⟩
abbrev main_cst_5 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_6 : Ref sig .tc := ⟨.hbm, 60, rfl⟩
abbrev main_v40 : Ref sig .tc := ⟨.hbm, 61, rfl⟩
abbrev main_v41 : Ref sig .tc := ⟨.hbm, 62, rfl⟩
abbrev main_cst_7 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50_0 : Ref sig .tc := ⟨.hbm, 72, rfl⟩
abbrev main_v50_1 : Ref sig .tc := ⟨.hbm, 73, rfl⟩
abbrev main_cst_8 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_9 : Ref sig .tc := ⟨.hbm, 80, rfl⟩
abbrev main_v56 : Ref sig .tc := ⟨.hbm, 81, rfl⟩
abbrev main_v57 : Ref sig .tc := ⟨.hbm, 82, rfl⟩
abbrev main_cst_10 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_11 : Ref sig .tc := ⟨.hbm, 88, rfl⟩
abbrev main_v62 : Ref sig .tc := ⟨.hbm, 89, rfl⟩
abbrev main_v63 : Ref sig .tc := ⟨.hbm, 90, rfl⟩
abbrev main_cst_12 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc1_scratch0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg7_0 : Ref sig .tc := ⟨.vmem, 27, rfl⟩
abbrev cc2_stg7_1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem4_1 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem7_0 : DmaSem sig := 26
abbrev cc2_sem7_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x58x58x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S576x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x56x56x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![32], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x56x56x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1152x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1x56x56x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x8x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![32], ![false]⟩

def cc2_transform_0 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_1 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x56x56x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x58x58x64 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x128 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S1x128x3136 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  transposes_S32x64x56x56_S32x56x56x64_0_2_3_1 : S32x64x56x56.Transposes [0, 2, 3, 1] S32x56x56x64
  pads_S32x56x56x64_S32x58x58x64_000_110_110_000 : S32x56x56x64.Pads (![0, 1, 1, 0] : Fin 4 → Nat) ![0, 1, 1, 0] ![0, 0, 0, 0] S32x58x58x64
  h_S_ : 0 < S_.numel
  bitsLt_bf16_f32 : FTy.bits .bf16 < FTy.bits .f32
  shapeCasts_S3x3x64x128_S576x128 : S3x3x64x128.ShapeCasts S576x128
  shapeCasts_S3x3x128x128_S1152x128 : S3x3x128x128.ShapeCasts S1152x128
  inb_S1x58x58x64_S1x58x58x64_0_0_0_0 : ∀ a, (![0, 0, 0, 0] : Fin 4 → Nat) a + S1x58x58x64.size a ≤ S1x58x58x64.size a
  h_S1x58x58x64 : 0 < S1x58x58x64.numel
  shapeCasts_S1x58x58x64_S1x58x58x64 : S1x58x58x64.ShapeCasts S1x58x58x64
  shapeCasts_S1x58x58x64_S58x58x64 : S1x58x58x64.ShapeCasts S58x58x64
  slices_S58x58x64_o0_0_0_S56x56x64 : S58x58x64.Slices ![0, 0, 0] S56x56x64
  shapeCasts_S56x56x64_S3136x64 : S56x56x64.ShapeCasts S3136x64
  inb_S576x128_S64x128_0_0 : ∀ a, (![0, 0] : Fin 2 → Nat) a + S64x128.size a ≤ S576x128.size a
  h_S64x128 : 0 < S64x128.numel
  shapeCasts_S64x128_S64x128 : S64x128.ShapeCasts S64x128
  slices_S58x58x64_o0_1_0_S56x56x64 : S58x58x64.Slices ![0, 1, 0] S56x56x64
  inb_S576x128_S64x128_64_0 : ∀ a, (![64, 0] : Fin 2 → Nat) a + S64x128.size a ≤ S576x128.size a
  slices_S58x58x64_o0_2_0_S56x56x64 : S58x58x64.Slices ![0, 2, 0] S56x56x64
  inb_S576x128_S64x128_128_0 : ∀ a, (![128, 0] : Fin 2 → Nat) a + S64x128.size a ≤ S576x128.size a
  slices_S58x58x64_o1_0_0_S56x56x64 : S58x58x64.Slices ![1, 0, 0] S56x56x64
  inb_S576x128_S64x128_192_0 : ∀ a, (![192, 0] : Fin 2 → Nat) a + S64x128.size a ≤ S576x128.size a
  slices_S58x58x64_o1_1_0_S56x56x64 : S58x58x64.Slices ![1, 1, 0] S56x56x64
  inb_S576x128_S64x128_256_0 : ∀ a, (![256, 0] : Fin 2 → Nat) a + S64x128.size a ≤ S576x128.size a
  slices_S58x58x64_o1_2_0_S56x56x64 : S58x58x64.Slices ![1, 2, 0] S56x56x64
  inb_S576x128_S64x128_320_0 : ∀ a, (![320, 0] : Fin 2 → Nat) a + S64x128.size a ≤ S576x128.size a
  slices_S58x58x64_o2_0_0_S56x56x64 : S58x58x64.Slices ![2, 0, 0] S56x56x64
  inb_S576x128_S64x128_384_0 : ∀ a, (![384, 0] : Fin 2 → Nat) a + S64x128.size a ≤ S576x128.size a
  slices_S58x58x64_o2_1_0_S56x56x64 : S58x58x64.Slices ![2, 1, 0] S56x56x64
  inb_S576x128_S64x128_448_0 : ∀ a, (![448, 0] : Fin 2 → Nat) a + S64x128.size a ≤ S576x128.size a
  slices_S58x58x64_o2_2_0_S56x56x64 : S58x58x64.Slices ![2, 2, 0] S56x56x64
  inb_S576x128_S64x128_512_0 : ∀ a, (![512, 0] : Fin 2 → Nat) a + S64x128.size a ≤ S576x128.size a
  inb_S64x128_S64x128_0_0 : ∀ a, (![0, 0] : Fin 2 → Nat) a + S64x128.size a ≤ S64x128.size a
  shapeCasts_S3136x128_S1x56x56x128 : S3136x128.ShapeCasts S1x56x56x128
  inb_S1x56x56x128_S1x56x56x128_0_0_0_0 : ∀ a, (![0, 0, 0, 0] : Fin 4 → Nat) a + S1x56x56x128.size a ≤ S1x56x56x128.size a
  h_S1x56x56x128 : 0 < S1x56x56x128.numel
  packedbf16_S1x56x56x128_S1x56x56x128_0_0_0_0 : (Rect.unit (s := S1x56x56x128) ![0, 0, 0, 0] S1x56x56x128.size inb_S1x56x56x128_S1x56x56x128_0_0_0_0).PackedRows (EltTy.packing .bf16)
  reduces_S3136x128_S128 : S3136x128.Reduces [0] S128
  shapeCasts_S128_S1x128 : S128.ShapeCasts S1x128
  concatenates_S1x128_S1x128_S1x128_S1x128_S4x128_S8x128_d0 : Shape.Concatenates [S1x128, S1x128, S1x128, S1x128, S4x128] S8x128 0
  shapeCasts_S8x128_S1x8x128 : S8x128.ShapeCasts S1x8x128
  inb_S1x8x128_S1x8x128_0_0_0 : ∀ a, (![0, 0, 0] : Fin 3 → Nat) a + S1x8x128.size a ≤ S1x8x128.size a
  h_S1x8x128 : 0 < S1x8x128.numel
  reducesTo_S32x8x128_S8x128_d0 : S32x8x128.ReducesTo [0] S8x128
  slices_S8x128_S1x128_0_0 : S8x128.Slices ![0, 0] S1x128
  shapeCasts_S1x128_S128 : S1x128.ShapeCasts S128
  slices_S8x128_S1x128_1_0 : S8x128.Slices ![1, 0] S1x128
  bcast_S_S128 : S_.BroadcastsInDim S128 (![] : Fin 0 → Fin S128.rank)
  slices_S8x128_S1x128_2_0 : S8x128.Slices ![2, 0] S1x128
  slices_S8x128_S1x128_3_0 : S8x128.Slices ![3, 0] S1x128
  inb_S58x58x128_S1x58x128_0_0_0 : ∀ a, (![0, 0, 0] : Fin 3 → Nat) a + S1x58x128.size a ≤ S58x58x128.size a
  h_S1x58x128 : 0 < S1x58x128.numel
  shapeCasts_S1x58x128_S1x58x128 : S1x58x128.ShapeCasts S1x58x128
  packedbf16_S58x58x128_S1x58x128_0_0_0 : (Rect.unit (s := S58x58x128) ![0, 0, 0] S1x58x128.size inb_S58x58x128_S1x58x128_0_0_0).PackedRows (EltTy.packing .bf16)
  inb_S58x58x128_S1x58x128_57_0_0 : ∀ a, (![57, 0, 0] : Fin 3 → Nat) a + S1x58x128.size a ≤ S58x58x128.size a
  packedbf16_S58x58x128_S1x58x128_57_0_0 : (Rect.unit (s := S58x58x128) ![57, 0, 0] S1x58x128.size inb_S58x58x128_S1x58x128_57_0_0).PackedRows (EltTy.packing .bf16)
  inb_S58x58x128_S58x1x128_0_0_0 : ∀ a, (![0, 0, 0] : Fin 3 → Nat) a + S58x1x128.size a ≤ S58x58x128.size a
  h_S58x1x128 : 0 < S58x1x128.numel
  shapeCasts_S58x1x128_S58x1x128 : S58x1x128.ShapeCasts S58x1x128
  inb_S58x58x128_S58x2x128_0_0_0 : ∀ a, (![0, 0, 0] : Fin 3 → Nat) a + S58x2x128.size a ≤ S58x58x128.size a
  h_S58x2x128 : 0 < S58x2x128.numel
  slices_S58x2x128_S58x1x128_0_0_0 : S58x2x128.Slices ![0, 0, 0] S58x1x128
  packedbf16_S58x58x128_S58x2x128_0_0_0 : (Rect.unit (s := S58x58x128) ![0, 0, 0] S58x2x128.size inb_S58x58x128_S58x2x128_0_0_0).PackedRows (EltTy.packing .bf16)
  inb_S58x58x128_S58x1x128_0_57_0 : ∀ a, (![0, 57, 0] : Fin 3 → Nat) a + S58x1x128.size a ≤ S58x58x128.size a
  inb_S58x58x128_S58x2x128_0_56_0 : ∀ a, (![0, 56, 0] : Fin 3 → Nat) a + S58x2x128.size a ≤ S58x58x128.size a
  slices_S58x2x128_S58x1x128_0_1_0 : S58x2x128.Slices ![0, 1, 0] S58x1x128
  packedbf16_S58x58x128_S58x2x128_0_56_0 : (Rect.unit (s := S58x58x128) ![0, 56, 0] S58x2x128.size inb_S58x58x128_S58x2x128_0_56_0).PackedRows (EltTy.packing .bf16)
  shapeCasts_S1x56x56x128_S1x56x56x128 : S1x56x56x128.ShapeCasts S1x56x56x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S1x128_S1x1x1x128 : S1x128.ShapeCasts S1x1x1x128
  broadcasts_S1x1x1x128_S1x56x56x128 : S1x1x1x128.Broadcasts S1x56x56x128
  shapeCasts_S1x56x56x128_S56x56x128 : S1x56x56x128.ShapeCasts S56x56x128
  inb_S58x58x128_S56x56x128_1_1_0 : ∀ a, (![1, 1, 0] : Fin 3 → Nat) a + S56x56x128.size a ≤ S58x58x128.size a
  h_S56x56x128 : 0 < S56x56x128.numel
  shapeCasts_S56x56x128_S56x56x128 : S56x56x128.ShapeCasts S56x56x128
  inb_S58x58x128_S56x58x128_1_0_0 : ∀ a, (![1, 0, 0] : Fin 3 → Nat) a + S56x58x128.size a ≤ S58x58x128.size a
  h_S56x58x128 : 0 < S56x58x128.numel
  slices_S56x58x128_S56x56x128_0_1_0 : S56x58x128.Slices ![0, 1, 0] S56x56x128
  packedbf16_S58x58x128_S56x58x128_1_0_0 : (Rect.unit (s := S58x58x128) ![1, 0, 0] S56x58x128.size inb_S58x58x128_S56x58x128_1_0_0).PackedRows (EltTy.packing .bf16)
  inb_S58x58x128_S58x58x128_0_0_0 : ∀ a, (![0, 0, 0] : Fin 3 → Nat) a + S58x58x128.size a ≤ S58x58x128.size a
  h_S58x58x128 : 0 < S58x58x128.numel
  slices_S58x58x128_o0_0_0_S56x56x128 : S58x58x128.Slices ![0, 0, 0] S56x56x128
  shapeCasts_S56x56x128_S3136x128 : S56x56x128.ShapeCasts S3136x128
  inb_S1152x128_S128x128_0_0 : ∀ a, (![0, 0] : Fin 2 → Nat) a + S128x128.size a ≤ S1152x128.size a
  h_S128x128 : 0 < S128x128.numel
  shapeCasts_S128x128_S128x128 : S128x128.ShapeCasts S128x128
  slices_S58x58x128_o0_1_0_S56x56x128 : S58x58x128.Slices ![0, 1, 0] S56x56x128
  inb_S1152x128_S128x128_128_0 : ∀ a, (![128, 0] : Fin 2 → Nat) a + S128x128.size a ≤ S1152x128.size a
  slices_S58x58x128_o0_2_0_S56x56x128 : S58x58x128.Slices ![0, 2, 0] S56x56x128
  inb_S1152x128_S128x128_256_0 : ∀ a, (![256, 0] : Fin 2 → Nat) a + S128x128.size a ≤ S1152x128.size a
  slices_S58x58x128_o1_0_0_S56x56x128 : S58x58x128.Slices ![1, 0, 0] S56x56x128
  inb_S1152x128_S128x128_384_0 : ∀ a, (![384, 0] : Fin 2 → Nat) a + S128x128.size a ≤ S1152x128.size a
  slices_S58x58x128_o1_1_0_S56x56x128 : S58x58x128.Slices ![1, 1, 0] S56x56x128
  inb_S1152x128_S128x128_512_0 : ∀ a, (![512, 0] : Fin 2 → Nat) a + S128x128.size a ≤ S1152x128.size a
  slices_S58x58x128_o1_2_0_S56x56x128 : S58x58x128.Slices ![1, 2, 0] S56x56x128
  inb_S1152x128_S128x128_640_0 : ∀ a, (![640, 0] : Fin 2 → Nat) a + S128x128.size a ≤ S1152x128.size a
  slices_S58x58x128_o2_0_0_S56x56x128 : S58x58x128.Slices ![2, 0, 0] S56x56x128
  inb_S1152x128_S128x128_768_0 : ∀ a, (![768, 0] : Fin 2 → Nat) a + S128x128.size a ≤ S1152x128.size a
  slices_S58x58x128_o2_1_0_S56x56x128 : S58x58x128.Slices ![2, 1, 0] S56x56x128
  inb_S1152x128_S128x128_896_0 : ∀ a, (![896, 0] : Fin 2 → Nat) a + S128x128.size a ≤ S1152x128.size a
  slices_S58x58x128_o2_2_0_S56x56x128 : S58x58x128.Slices ![2, 2, 0] S56x56x128
  inb_S1152x128_S128x128_1024_0 : ∀ a, (![1024, 0] : Fin 2 → Nat) a + S128x128.size a ≤ S1152x128.size a
  concatenates_S1x128_S1x128_S6x128_S8x128_d0 : Shape.Concatenates [S1x128, S1x128, S6x128] S8x128 0
  shapeCasts_S1x56x56x128_S3136x128 : S1x56x56x128.ShapeCasts S3136x128
  broadcasts_S1x128_S3136x128 : S1x128.Broadcasts S3136x128
  transposes_S3136x128_p1_0_S128x3136 : S3136x128.Transposes [1, 0] S128x3136
  shapeCasts_S128x3136_S1x128x3136 : S128x3136.ShapeCasts S1x128x3136
  inb_S1x128x3136_S1x128x3136_0_0_0 : ∀ a, (![0, 0, 0] : Fin 3 → Nat) a + S1x128x3136.size a ≤ S1x128x3136.size a
  h_S1x128x3136 : 0 < S1x128x3136.numel
  shapeCasts_S32x128x3136_S32x128x56x56 : S32x128x3136.ShapeCasts S32x128x56x56
  dot_S3136x64_S64x128_S3136x128_1_0_0_1_n_n_wf : DotDims.WF S3136x64 S64x128 S3136x128 [1] [0] [0] [1] [] []
  dot_S3136x128_S128x128_S3136x128_1_0_0_1_n_n_wf : DotDims.WF S3136x128 S128x128 S3136x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x58x58x64.size a ≤ S32x58x58x64.size a
  hwx0_0 : ∀ i : grid0.Coords, EltTy.bits .bf16 = 32 ∨ (Rect.block (s := S32x58x58x64) S1x58x58x64.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S576x128.size a ≤ S576x128.size a
  hwx0_1 : ∀ i : grid0.Coords, EltTy.bits .bf16 = 32 ∨ (Rect.block (s := S576x128) S576x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .bf16 = 32 ∨ (Rect.block (s := S64x128) S64x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x56x56x128.size a ≤ S32x56x56x128.size a
  hwx0_3 : ∀ i : grid0.Coords, EltTy.bits .bf16 = 32 ∨ (Rect.block (s := S32x56x56x128) S1x56x56x128.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x128.size a ≤ S32x8x128.size a
  hwx0_4 : ∀ i : grid0.Coords, EltTy.bits .f32 = 32 ∨ (Rect.block (s := S32x8x128) S1x8x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x56x56x128.size a ≤ S32x56x56x128.size a
  hwx1_0 : ∀ i : grid1.Coords, EltTy.bits .bf16 = 32 ∨ (Rect.block (s := S32x56x56x128) S1x56x56x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1152x128.size a ≤ S1152x128.size a
  hwx1_3 : ∀ i : grid1.Coords, EltTy.bits .bf16 = 32 ∨ (Rect.block (s := S1152x128) S1152x128.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x56x56x128.size a ≤ S32x56x56x128.size a
  hwx1_4 : ∀ i : grid1.Coords, EltTy.bits .bf16 = 32 ∨ (Rect.block (s := S32x56x56x128) S1x56x56x128.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x8x128.size a ≤ S32x8x128.size a
  hwx1_5 : ∀ i : grid1.Coords, EltTy.bits .f32 = 32 ∨ (Rect.block (s := S32x8x128) S1x8x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x56x56x128.size a ≤ S32x56x56x128.size a
  hwx2_0 : ∀ i : grid2.Coords, EltTy.bits .bf16 = 32 ∨ (Rect.block (s := S32x56x56x128) S1x56x56x128.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x58x58x64.size a ≤ S32x58x58x64.size a
  hwx2_1 : ∀ i : grid2.Coords, EltTy.bits .bf16 = 32 ∨ (Rect.block (s := S32x58x58x64) S1x58x58x64.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x128.size a ≤ S64x128.size a
  hwx2_2 : ∀ i : grid2.Coords, EltTy.bits .bf16 = 32 ∨ (Rect.block (s := S64x128) S64x128.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1x128x3136.size a ≤ S32x128x3136.size a
  hwx2_7 : ∀ i : grid2.Coords, EltTy.bits .f32 = 32 ∨ (Rect.block (s := S32x128x3136) S1x128x3136.size (cc2_transform_7 i) (hinb2_7 i)).WholeWords (EltTy.packing .f32)

variable [Facts₀]

def dot_S3136x64_S64x128_S3136x128_1_0_0_1_n_n : DotDims S3136x64 S64x128 S3136x128 where
  lhsContracting := [1]
  rhsContracting := [0]
  lhsNonContracting := [0]
  rhsNonContracting := [1]
  lhsBatch := []
  rhsBatch := []
  wf := dot_S3136x64_S64x128_S3136x128_1_0_0_1_n_n_wf
def dot_S3136x128_S128x128_S3136x128_1_0_0_1_n_n : DotDims S3136x128 S128x128 S3136x128 where
  lhsContracting := [1]
  rhsContracting := [0]
  lhsNonContracting := [0]
  rhsNonContracting := [1]
  lhsBatch := []
  rhsBatch := []
  wf := dot_S3136x128_S128x128_S3136x128_1_0_0_1_n_n_wf

abbrev win0_0 : Pipeline.Window sig grid0 :=
  Pipeline.Window.ofSpec (Memref.whole main_v2) S1x58x58x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S576x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8_0) S1x56x56x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8_1) S1x8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v8_0) S1x56x56x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1152x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v50_0) S1x56x56x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v50_1) S1x8x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v50_0) S1x56x56x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v2) S1x58x58x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v7) S64x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v68) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v71) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v46) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v49) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v72) S1x128x3136.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S32x64x56x56 : Shape := ⟨4, ![32, 64, 56, 56]⟩
abbrev S3x3x64x128 : Shape := ⟨4, ![3, 3, 64, 128]⟩
abbrev S3x3x128x128 : Shape := ⟨4, ![3, 3, 128, 128]⟩
abbrev S64x128 : Shape := ⟨2, ![64, 128]⟩
abbrev S128 : Shape := ⟨1, ![128]⟩
abbrev S32x56x56x64 : Shape := ⟨4, ![32, 56, 56, 64]⟩
abbrev S_ : Shape := ⟨0, ![]⟩
abbrev S32x58x58x128 : Shape := ⟨4, ![32, 58, 58, 128]⟩
abbrev S1152x128 : Shape := ⟨2, ![1152, 128]⟩
abbrev S128x128 : Shape := ⟨2, ![128, 128]⟩
abbrev S32x56x56x128 : Shape := ⟨4, ![32, 56, 56, 128]⟩
abbrev S4x128 : Shape := ⟨2, ![4, 128]⟩
abbrev S1x58x58x128 : Shape := ⟨4, ![1, 58, 58, 128]⟩
abbrev S1x56x56x128 : Shape := ⟨4, ![1, 56, 56, 128]⟩
abbrev S58x58x128 : Shape := ⟨3, ![58, 58, 128]⟩
abbrev S3136x128 : Shape := ⟨2, ![3136, 128]⟩
abbrev S56x56x128 : Shape := ⟨3, ![56, 56, 128]⟩
abbrev S1x128 : Shape := ⟨2, ![1, 128]⟩
abbrev S2x128 : Shape := ⟨2, ![2, 128]⟩
abbrev S1x1x1x128 : Shape := ⟨4, ![1, 1, 1, 128]⟩
abbrev S56x58x128 : Shape := ⟨3, ![56, 58, 128]⟩
abbrev S32x128x56x56 : Shape := ⟨4, ![32, 128, 56, 56]⟩

abbrev nBuf : Space → Nat
  | .hbm => 126
  | .vmem => 28
  | .smem => 0
  | _ => 0

abbrev bufTy : (tb : Table) → Fin (tcTables nBuf tb) → BufTy
  | .hbm, ⟨0, _⟩ => ⟨S32x64x56x56, .f32⟩
  | .hbm, ⟨1, _⟩ => ⟨S3x3x64x128, .f32⟩
  | .hbm, ⟨2, _⟩ => ⟨S3x3x128x128, .f32⟩
  | .hbm, ⟨3, _⟩ => ⟨S64x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S128, .f32⟩
  | .hbm, ⟨10, _⟩ => ⟨S32x56x56x64, .f32⟩
  | .hbm, ⟨11, _⟩ => ⟨S_, .i32⟩
  | .hbm, ⟨12, _⟩ => ⟨S_, .f32⟩
  | .hbm, ⟨13, _⟩ => ⟨S32x58x58x128, .f32⟩
  | .hbm, ⟨14, _⟩ => ⟨S32x58x58x128, .bf16⟩
  | .hbm, ⟨15, _⟩ => ⟨S_, .i32⟩
  | .hbm, ⟨16, _⟩ => ⟨S_, .f32⟩
  | .hbm, ⟨17, _⟩ => ⟨S3x3x128x128, .f32⟩
  | .hbm, ⟨18, _⟩ => ⟨S1152x128, .f32⟩
  | .hbm, ⟨19, _⟩ => ⟨S1152x128, .bf16⟩
  | .hbm, ⟨20, _⟩ => ⟨S_, .i32⟩
  | .hbm, ⟨21, _⟩ => ⟨S_, .f32⟩
  | .hbm, ⟨22, _⟩ => ⟨S3x3x128x128, .f32⟩
  | .hbm, ⟨23, _⟩ => ⟨S1152x128, .f32⟩
  | .hbm, ⟨24, _⟩ => ⟨S1152x128, .bf16⟩
  | .hbm, ⟨25, _⟩ => ⟨S_, .i32⟩
  | .hbm, ⟨26, _⟩ => ⟨S_, .f32⟩
  | .hbm, ⟨27, _⟩ => ⟨S128x128, .f32⟩
  | .hbm, ⟨28, _⟩ => ⟨S128x128, .bf16⟩
  | .hbm, ⟨29, _⟩ => ⟨S_, .i32⟩
  | .hbm, ⟨30, _⟩ => ⟨S_, .f32⟩
  | .hbm, ⟨31, _⟩ => ⟨S128, .f32⟩
  | .hbm, ⟨32, _⟩ => ⟨S_, .i32⟩
  | .hbm, ⟨33, _⟩ => ⟨S_, .f32⟩
  | .hbm, ⟨34, _⟩ => ⟨S128, .f32⟩
  | .hbm, ⟨35, _⟩ => ⟨S_, .i32⟩
  | .hbm, ⟨36, _⟩ => ⟨S_, .f32⟩
  | .hbm, ⟨37, _⟩ => ⟨S128, .f32⟩
  | .hbm, ⟨38, _⟩ => ⟨S_, .i32⟩
  | .hbm, ⟨39, _⟩ => ⟨S_, .f32⟩
  | .hbm, ⟨40, _⟩ => ⟨S128, .f32⟩
  | .hbm, ⟨41, _⟩ => ⟨S_, .i32⟩
  | .hbm, ⟨42, _⟩ => ⟨S_, .f32⟩
  | .hbm, ⟨43, _⟩ => ⟨S128, .f32⟩
  | .hbm, ⟨44, _⟩ => ⟨S_, .i32⟩
  | .hbm, ⟨45, _⟩ => ⟨S_, .f32⟩
  | .hbm, ⟨46, _⟩ => ⟨S128, .f32⟩
  | .hbm, ⟨47, _⟩ => ⟨S32x56x56x128, .f32⟩
  | .hbm, ⟨48, _⟩ => ⟨S32x56x56x128, .f32⟩
  | .hbm, ⟨49, _⟩ => ⟨S4x128, .f32⟩
  | .hbm, ⟨50, _⟩ => ⟨S1x128, .f32⟩
  | .hbm, ⟨51, _⟩ => ⟨S128, .f32⟩
  | .hbm, ⟨52, _⟩ => ⟨S1x128, .f32⟩
  | .hbm, ⟨53, _⟩ => ⟨S128, .f32⟩
  | .hbm, ⟨54, _⟩ => ⟨S_, .f32⟩
  | .hbm, ⟨55, _⟩ => ⟨S128, .f32⟩
  | .hbm, ⟨56, _⟩ => ⟨S128, .f32⟩
  | .hbm, ⟨57, _⟩ => ⟨S_, .f32⟩
  | .hbm, ⟨58, _⟩ => ⟨S128, .f32⟩
  | .hbm, ⟨59, _⟩ => ⟨S128, .f32⟩
  | .hbm, ⟨60, _⟩ => ⟨S128, .f32⟩
  | .hbm, ⟨61, _⟩ => ⟨S128, .f32⟩
  | .hbm, ⟨62, _⟩ => ⟨S_, .f32⟩
  | .hbm, ⟨63, _⟩ => ⟨S128, .f32⟩
  | .hbm, ⟨64, _⟩ => ⟨S128, .f32⟩
  | .hbm, ⟨65, _⟩ => ⟨S_, .f32⟩
  | .hbm, ⟨66, _⟩ => ⟨S128, .f32⟩
  | .hbm, ⟨67, _⟩ => ⟨S128, .f32⟩
  | .hbm, ⟨68, _⟩ => ⟨S128, .f32⟩
  | .hbm, ⟨69, _⟩ => ⟨S128, .f32⟩
  | .hbm, ⟨70, _⟩ => ⟨S1x128, .f32⟩
  | .hbm, ⟨71, _⟩ => ⟨S128, .f32⟩
  | .hbm, ⟨72, _⟩ => ⟨S128, .f32⟩
  | .hbm, ⟨73, _⟩ => ⟨S1x128, .f32⟩
  | .hbm, ⟨74, _⟩ => ⟨S1x128, .f32⟩
  | .hbm, ⟨75, _⟩ => ⟨S128, .f32⟩
  | .hbm, ⟨76, _⟩ => ⟨S1x128, .f32⟩
  | .hbm, ⟨77, _⟩ => ⟨S128, .f32⟩
  | .hbm, ⟨78, _⟩ => ⟨S_, .f32⟩
  | .hbm, ⟨79, _⟩ => ⟨S128, .f32⟩
  | .hbm, ⟨80, _⟩ => ⟨S128, .f32⟩
  | .hbm, ⟨81, _⟩ => ⟨S_, .f32⟩
  | .hbm, ⟨82, _⟩ => ⟨S128, .f32⟩
  | .hbm, ⟨83, _⟩ => ⟨S128, .f32⟩
  | .hbm, ⟨84, _⟩ => ⟨S128, .f32⟩
  | .hbm, ⟨85, _⟩ => ⟨S128, .f32⟩
  | .hbm, ⟨86, _⟩ => ⟨S_, .f32⟩
  | .hbm, ⟨87, _⟩ => ⟨S128, .f32⟩
  | .hbm, ⟨88, _⟩ => ⟨S128, .f32⟩
  | .hbm, ⟨89, _⟩ => ⟨S_, .f32⟩
  | .hbm, ⟨90, _⟩ => ⟨S128, .f32⟩
  | .hbm, ⟨91, _⟩ => ⟨S128, .f32⟩
  | .hbm, ⟨92, _⟩ => ⟨S128, .f32⟩
  | .hbm, ⟨93, _⟩ => ⟨S128, .f32⟩
  | .hbm, ⟨94, _⟩ => ⟨S1x128, .f32⟩
  | .hbm, ⟨95, _⟩ => ⟨S128, .f32⟩
  | .hbm, ⟨96, _⟩ => ⟨S128, .f32⟩
  | .hbm, ⟨97, _⟩ => ⟨S1x128, .f32⟩
  | .hbm, ⟨98, _⟩ => ⟨S32x56x56x128, .f32⟩
  | .hbm, ⟨99, _⟩ => ⟨S2x128, .f32⟩
  | .hbm, ⟨100, _⟩ => ⟨S1x128, .f32⟩
  | .hbm, ⟨101, _⟩ => ⟨S128, .f32⟩
  | .hbm, ⟨102, _⟩ => ⟨S1x128, .f32⟩
  | .hbm, ⟨103, _⟩ => ⟨S128, .f32⟩
  | .hbm, ⟨104, _⟩ => ⟨S_, .f32⟩
  | .hbm, ⟨105, _⟩ => ⟨S128, .f32⟩
  | .hbm, ⟨106, _⟩ => ⟨S128, .f32⟩
  | .hbm, ⟨107, _⟩ => ⟨S_, .f32⟩
  | .hbm, ⟨108, _⟩ => ⟨S128, .f32⟩
  | .hbm, ⟨109, _⟩ => ⟨S128, .f32⟩
  | .hbm, ⟨110, _⟩ => ⟨S128, .f32⟩
  | .hbm, ⟨111, _⟩ => ⟨S128, .f32⟩
  | .hbm, ⟨112, _⟩ => ⟨S_, .f32⟩
  | .hbm, ⟨113, _⟩ => ⟨S128, .f32⟩
  | .hbm, ⟨114, _⟩ => ⟨S128, .f32⟩
  | .hbm, ⟨115, _⟩ => ⟨S_, .f32⟩
  | .hbm, ⟨116, _⟩ => ⟨S128, .f32⟩
  | .hbm, ⟨117, _⟩ => ⟨S128, .f32⟩
  | .hbm, ⟨118, _⟩ => ⟨S128, .f32⟩
  | .hbm, ⟨119, _⟩ => ⟨S128, .f32⟩
  | .hbm, ⟨120, _⟩ => ⟨S1x128, .f32⟩
  | .hbm, ⟨121, _⟩ => ⟨S128, .f32⟩
  | .hbm, ⟨122, _⟩ => ⟨S128, .f32⟩
  | .hbm, ⟨123, _⟩ => ⟨S1x128, .f32⟩
  | .hbm, ⟨124, _⟩ => ⟨S32x56x56x128, .f32⟩
  | .hbm, ⟨125, _⟩ => ⟨S32x128x56x56, .f32⟩
  | .local _ .vmem, ⟨0, _⟩ => ⟨S1x58x58x128, .bf16⟩
  | .local _ .vmem, ⟨1, _⟩ => ⟨S1x58x58x128, .bf16⟩
  | .local _ .vmem, ⟨2, _⟩ => ⟨S1152x128, .bf16⟩
  | .local _ .vmem, ⟨3, _⟩ => ⟨S128x128, .bf16⟩
  | .local _ .vmem, ⟨4, _⟩ => ⟨S1x56x56x128, .f32⟩
  | .local _ .vmem, ⟨5, _⟩ => ⟨S1x56x56x128, .f32⟩
  | .local _ .vmem, ⟨6, _⟩ => ⟨S1x56x56x128, .f32⟩
  | .local _ .vmem, ⟨7, _⟩ => ⟨S1x56x56x128, .f32⟩
  | .local _ .vmem, ⟨8, _⟩ => ⟨S4x128, .f32⟩
  | .local _ .vmem, ⟨9, _⟩ => ⟨S1x56x56x128, .f32⟩
  | .local _ .vmem, ⟨10, _⟩ => ⟨S1x56x56x128, .f32⟩
  | .local _ .vmem, ⟨11, _⟩ => ⟨S1x128, .f32⟩
  | .local _ .vmem, ⟨12, _⟩ => ⟨S1x128, .f32⟩
  | .local _ .vmem, ⟨13, _⟩ => ⟨S1152x128, .bf16⟩
  | .local _ .vmem, ⟨14, _⟩ => ⟨S1x56x56x128, .f32⟩
  | .local _ .vmem, ⟨15, _⟩ => ⟨S1x56x56x128, .f32⟩
  | .local _ .vmem, ⟨16, _⟩ => ⟨S2x128, .f32⟩
  | .local _ .vmem, ⟨17, _⟩ => ⟨S58x58x128, .bf16⟩
  | .local _ .vmem, ⟨18, _⟩ => ⟨S1x56x56x128, .f32⟩
  | .local _ .vmem, ⟨19, _⟩ => ⟨S1x56x56x128, .f32⟩
  | .local _ .vmem, ⟨20, _⟩ => ⟨S1x56x56x128, .f32⟩
  | .local _ .vmem, ⟨21, _⟩ => ⟨S1x56x56x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S1x128, .f32⟩
  | .local _ .vmem, ⟨26, _⟩ => ⟨S1x56x56x128, .f32⟩
  | .local _ .vmem, ⟨27, _⟩ => ⟨S1x56x56x128, .f32⟩
  | _, _ => ⟨S32x64x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_call1_v0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_c_1 : Ref sig .tc := ⟨.hbm, 20, rfl⟩
abbrev main_call2_v0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_c_2 : Ref sig .tc := ⟨.hbm, 25, rfl⟩
abbrev main_call3_v0 : Ref sig .tc := ⟨.hbm, 26, rfl⟩
abbrev main_v9 : Ref sig .tc := ⟨.hbm, 27, rfl⟩
abbrev main_v10 : Ref sig .tc := ⟨.hbm, 28, rfl⟩
abbrev main_c_3 : Ref sig .tc := ⟨.hbm, 29, rfl⟩
abbrev main_call4_v0 : Ref sig .tc := ⟨.hbm, 30, rfl⟩
abbrev main_v11 : Ref sig .tc := ⟨.hbm, 31, rfl⟩
abbrev main_c_4 : Ref sig .tc := ⟨.hbm, 32, rfl⟩
abbrev main_call5_v0 : Ref sig .tc := ⟨.hbm, 33, rfl⟩
abbrev main_v12 : Ref sig .tc := ⟨.hbm, 34, rfl⟩
abbrev main_c_5 : Ref sig .tc := ⟨.hbm, 35, rfl⟩
abbrev main_call6_v0 : Ref sig .tc := ⟨.hbm, 36, rfl⟩
abbrev main_v13 : Ref sig .tc := ⟨.hbm, 37, rfl⟩
abbrev main_c_6 : Ref sig .tc := ⟨.hbm, 38, rfl⟩
abbrev main_call7_v0 : Ref sig .tc := ⟨.hbm, 39, rfl⟩
abbrev main_v14 : Ref sig .tc := ⟨.hbm, 40, rfl⟩
abbrev main_c_7 : Ref sig .tc := ⟨.hbm, 41, rfl⟩
abbrev main_call8_v0 : Ref sig .tc := ⟨.hbm, 42, rfl⟩
abbrev main_v15 : Ref sig .tc := ⟨.hbm, 43, rfl⟩
abbrev main_c_8 : Ref sig .tc := ⟨.hbm, 44, rfl⟩
abbrev main_call9_v0 : Ref sig .tc := ⟨.hbm, 45, rfl⟩
abbrev main_v16 : Ref sig .tc := ⟨.hbm, 46, rfl⟩
abbrev main_v17_0 : Ref sig .tc := ⟨.hbm, 47, rfl⟩
abbrev main_v17_1 : Ref sig .tc := ⟨.hbm, 48, rfl⟩
abbrev main_v17_2 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_cst : Ref sig .tc := ⟨.hbm, 54, rfl⟩
abbrev main_v22 : Ref sig .tc := ⟨.hbm, 55, rfl⟩
abbrev main_v23 : Ref sig .tc := ⟨.hbm, 56, rfl⟩
abbrev main_cst_9 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_cst_10 : Ref sig .tc := ⟨.hbm, 62, rfl⟩
abbrev main_v28 : Ref sig .tc := ⟨.hbm, 63, rfl⟩
abbrev main_v29 : Ref sig .tc := ⟨.hbm, 64, rfl⟩
abbrev main_cst_11 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_cst_12 : Ref sig .tc := ⟨.hbm, 78, rfl⟩
abbrev main_v42 : Ref sig .tc := ⟨.hbm, 79, rfl⟩
abbrev main_v43 : Ref sig .tc := ⟨.hbm, 80, rfl⟩
abbrev main_cst_13 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_cst_14 : Ref sig .tc := ⟨.hbm, 86, rfl⟩
abbrev main_v48 : Ref sig .tc := ⟨.hbm, 87, rfl⟩
abbrev main_v49 : Ref sig .tc := ⟨.hbm, 88, rfl⟩
abbrev main_cst_15 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58_0 : Ref sig .tc := ⟨.hbm, 98, rfl⟩
abbrev main_v58_1 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_cst_16 : Ref sig .tc := ⟨.hbm, 104, rfl⟩
abbrev main_v63 : Ref sig .tc := ⟨.hbm, 105, rfl⟩
abbrev main_v64 : Ref sig .tc := ⟨.hbm, 106, rfl⟩
abbrev main_cst_17 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_cst_18 : Ref sig .tc := ⟨.hbm, 112, rfl⟩
abbrev main_v69 : Ref sig .tc := ⟨.hbm, 113, rfl⟩
abbrev main_v70 : Ref sig .tc := ⟨.hbm, 114, rfl⟩
abbrev main_cst_19 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_scratch0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg6_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem4_1 : DmaSem sig := 15
abbrev cc1_sem5_0 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem6_1 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x58x58x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1152x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x56x56x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x56x56x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![32], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x56x56x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1152x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1x56x56x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S2x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev grid2 : Pipeline.Grid := ⟨1, ![32], ![false]⟩

def cc2_transform_0 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_1 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage2_0 : Fin 2 → Memref sig .tc .vmem S1x56x56x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x56x56x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S1x56x56x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  transposes_S32x64x56x56_S32x56x56x64_0_2_3_1 : S32x64x56x56.Transposes [0, 2, 3, 1] S32x56x56x64
  pads_S32x56x56x64_S32x58x58x128_000_110_110_0640 : S32x56x56x64.Pads (![0, 1, 1, 0] : Fin 4 → Nat) ![0, 1, 1, 64] ![0, 0, 0, 0] S32x58x58x128
  h_S_ : 0 < S_.numel
  bitsLt_bf16_f32 : FTy.bits .bf16 < FTy.bits .f32
  pads_S3x3x64x128_S3x3x128x128_000_000_0640_000 : S3x3x64x128.Pads (![0, 0, 0, 0] : Fin 4 → Nat) ![0, 0, 64, 0] ![0, 0, 0, 0] S3x3x128x128
  shapeCasts_S3x3x128x128_S1152x128 : S3x3x128x128.ShapeCasts S1152x128
  pads_S3x3x128x128_S3x3x128x128_000_000_000_000 : S3x3x128x128.Pads (![0, 0, 0, 0] : Fin 4 → Nat) ![0, 0, 0, 0] ![0, 0, 0, 0] S3x3x128x128
  pads_S64x128_S128x128_0640_000 : S64x128.Pads (![0, 0] : Fin 2 → Nat) ![64, 0] ![0, 0] S128x128
  pads_S128_S128_000 : S128.Pads (![0] : Fin 1 → Nat) ![0] ![0] S128
  inb_S4x128_S4x128_0_0 : ∀ a, (![0, 0] : Fin 2 → Nat) a + S4x128.size a ≤ S4x128.size a
  h_S4x128 : 0 < S4x128.numel
  inb_S1x58x58x128_S1x58x58x128_0_0_0_0 : ∀ a, (![0, 0, 0, 0] : Fin 4 → Nat) a + S1x58x58x128.size a ≤ S1x58x58x128.size a
  h_S1x58x58x128 : 0 < S1x58x58x128.numel
  shapeCasts_S1x58x58x128_S1x58x58x128 : S1x58x58x128.ShapeCasts S1x58x58x128
  shapeCasts_S1x58x58x128_S58x58x128 : S1x58x58x128.ShapeCasts S58x58x128
  slices_S58x58x128_o0_0_0_S56x56x128 : S58x58x128.Slices ![0, 0, 0] S56x56x128
  shapeCasts_S56x56x128_S3136x128 : S56x56x128.ShapeCasts S3136x128
  inb_S1152x128_S128x128_0_0 : ∀ a, (![0, 0] : Fin 2 → Nat) a + S128x128.size a ≤ S1152x128.size a
  h_S128x128 : 0 < S128x128.numel
  shapeCasts_S128x128_S128x128 : S128x128.ShapeCasts S128x128
  slices_S58x58x128_o0_1_0_S56x56x128 : S58x58x128.Slices ![0, 1, 0] S56x56x128
  inb_S1152x128_S128x128_128_0 : ∀ a, (![128, 0] : Fin 2 → Nat) a + S128x128.size a ≤ S1152x128.size a
  slices_S58x58x128_o0_2_0_S56x56x128 : S58x58x128.Slices ![0, 2, 0] S56x56x128
  inb_S1152x128_S128x128_256_0 : ∀ a, (![256, 0] : Fin 2 → Nat) a + S128x128.size a ≤ S1152x128.size a
  slices_S58x58x128_o1_0_0_S56x56x128 : S58x58x128.Slices ![1, 0, 0] S56x56x128
  inb_S1152x128_S128x128_384_0 : ∀ a, (![384, 0] : Fin 2 → Nat) a + S128x128.size a ≤ S1152x128.size a
  slices_S58x58x128_o1_1_0_S56x56x128 : S58x58x128.Slices ![1, 1, 0] S56x56x128
  inb_S1152x128_S128x128_512_0 : ∀ a, (![512, 0] : Fin 2 → Nat) a + S128x128.size a ≤ S1152x128.size a
  slices_S58x58x128_o1_2_0_S56x56x128 : S58x58x128.Slices ![1, 2, 0] S56x56x128
  inb_S1152x128_S128x128_640_0 : ∀ a, (![640, 0] : Fin 2 → Nat) a + S128x128.size a ≤ S1152x128.size a
  slices_S58x58x128_o2_0_0_S56x56x128 : S58x58x128.Slices ![2, 0, 0] S56x56x128
  inb_S1152x128_S128x128_768_0 : ∀ a, (![768, 0] : Fin 2 → Nat) a + S128x128.size a ≤ S1152x128.size a
  slices_S58x58x128_o2_1_0_S56x56x128 : S58x58x128.Slices ![2, 1, 0] S56x56x128
  inb_S1152x128_S128x128_896_0 : ∀ a, (![896, 0] : Fin 2 → Nat) a + S128x128.size a ≤ S1152x128.size a
  slices_S58x58x128_o2_2_0_S56x56x128 : S58x58x128.Slices ![2, 2, 0] S56x56x128
  inb_S1152x128_S128x128_1024_0 : ∀ a, (![1024, 0] : Fin 2 → Nat) a + S128x128.size a ≤ S1152x128.size a
  inb_S128x128_S128x128_0_0 : ∀ a, (![0, 0] : Fin 2 → Nat) a + S128x128.size a ≤ S128x128.size a
  shapeCasts_S3136x128_S1x56x56x128 : S3136x128.ShapeCasts S1x56x56x128
  inb_S1x56x56x128_S1x56x56x128_0_0_0_0 : ∀ a, (![0, 0, 0, 0] : Fin 4 → Nat) a + S1x56x56x128.size a ≤ S1x56x56x128.size a
  h_S1x56x56x128 : 0 < S1x56x56x128.numel
  shapeCasts_S4x128_S4x128 : S4x128.ShapeCasts S4x128
  reduces_S3136x128_S128 : S3136x128.Reduces [0] S128
  shapeCasts_S128_S1x128 : S128.ShapeCasts S1x128
  concatenates_S1x128_S1x128_S1x128_S1x128_S4x128_d0 : Shape.Concatenates [S1x128, S1x128, S1x128, S1x128] S4x128 0
  slices_S4x128_S1x128_0_0 : S4x128.Slices ![0, 0] S1x128
  shapeCasts_S1x128_S128 : S1x128.ShapeCasts S128
  slices_S4x128_S1x128_1_0 : S4x128.Slices ![1, 0] S1x128
  bcast_S_S128 : S_.BroadcastsInDim S128 (![] : Fin 0 → Fin S128.rank)
  slices_S4x128_S1x128_2_0 : S4x128.Slices ![2, 0] S1x128
  slices_S4x128_S1x128_3_0 : S4x128.Slices ![3, 0] S1x128
  inb_S58x58x128_S58x58x128_0_0_0 : ∀ a, (![0, 0, 0] : Fin 3 → Nat) a + S58x58x128.size a ≤ S58x58x128.size a
  h_S58x58x128 : 0 < S58x58x128.numel
  shapeCasts_S58x58x128_S58x58x128 : S58x58x128.ShapeCasts S58x58x128
  packedbf16_S58x58x128_S58x58x128_0_0_0 : (Rect.unit (s := S58x58x128) ![0, 0, 0] S58x58x128.size inb_S58x58x128_S58x58x128_0_0_0).PackedRows (EltTy.packing .bf16)
  inb_S2x128_S2x128_0_0 : ∀ a, (![0, 0] : Fin 2 → Nat) a + S2x128.size a ≤ S2x128.size a
  h_S2x128 : 0 < S2x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S1x128_S1x1x1x128 : S1x128.ShapeCasts S1x1x1x128
  shapeCasts_S1x56x56x128_S1x56x56x128 : S1x56x56x128.ShapeCasts S1x56x56x128
  broadcasts_S1x1x1x128_S1x56x56x128 : S1x1x1x128.Broadcasts S1x56x56x128
  shapeCasts_S1x56x56x128_S56x56x128 : S1x56x56x128.ShapeCasts S56x56x128
  inb_S58x58x128_S56x56x128_1_1_0 : ∀ a, (![1, 1, 0] : Fin 3 → Nat) a + S56x56x128.size a ≤ S58x58x128.size a
  h_S56x56x128 : 0 < S56x56x128.numel
  shapeCasts_S56x56x128_S56x56x128 : S56x56x128.ShapeCasts S56x56x128
  inb_S58x58x128_S56x58x128_1_0_0 : ∀ a, (![1, 0, 0] : Fin 3 → Nat) a + S56x58x128.size a ≤ S58x58x128.size a
  h_S56x58x128 : 0 < S56x58x128.numel
  slices_S56x58x128_S56x56x128_0_1_0 : S56x58x128.Slices ![0, 1, 0] S56x56x128
  packedbf16_S58x58x128_S56x58x128_1_0_0 : (Rect.unit (s := S58x58x128) ![1, 0, 0] S56x58x128.size inb_S58x58x128_S56x58x128_1_0_0).PackedRows (EltTy.packing .bf16)
  shapeCasts_S2x128_S2x128 : S2x128.ShapeCasts S2x128
  concatenates_S1x128_S1x128_S2x128_d0 : Shape.Concatenates [S1x128, S1x128] S2x128 0
  slices_S2x128_S1x128_0_0 : S2x128.Slices ![0, 0] S1x128
  slices_S2x128_S1x128_1_0 : S2x128.Slices ![1, 0] S1x128
  transposes_S32x56x56x128_S32x128x56x56_0_3_1_2 : S32x56x56x128.Transposes [0, 3, 1, 2] S32x128x56x56
  dot_S3136x128_S128x128_S3136x128_1_0_0_1_n_n_wf : DotDims.WF S3136x128 S128x128 S3136x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x58x58x128.size a ≤ S32x58x58x128.size a
  hwx0_0 : ∀ i : grid0.Coords, EltTy.bits .bf16 = 32 ∨ (Rect.block (s := S32x58x58x128) S1x58x58x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1152x128.size a ≤ S1152x128.size a
  hwx0_1 : ∀ i : grid0.Coords, EltTy.bits .bf16 = 32 ∨ (Rect.block (s := S1152x128) S1152x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x56x56x128.size a ≤ S32x56x56x128.size a
  hwx0_3 : ∀ i : grid0.Coords, EltTy.bits .f32 = 32 ∨ (Rect.block (s := S32x56x56x128) S1x56x56x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x56x56x128.size a ≤ S32x56x56x128.size a
  hwx0_4 : ∀ i : grid0.Coords, EltTy.bits .f32 = 32 ∨ (Rect.block (s := S32x56x56x128) S1x56x56x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x128.size a ≤ S4x128.size a
  hwx0_5 : ∀ i : grid0.Coords, EltTy.bits .f32 = 32 ∨ (Rect.block (s := S4x128) S4x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x56x56x128.size a ≤ S32x56x56x128.size a
  hwx1_0 : ∀ i : grid1.Coords, EltTy.bits .f32 = 32 ∨ (Rect.block (s := S32x56x56x128) S1x56x56x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1152x128.size a ≤ S1152x128.size a
  hwx1_3 : ∀ i : grid1.Coords, EltTy.bits .bf16 = 32 ∨ (Rect.block (s := S1152x128) S1152x128.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x56x56x128.size a ≤ S32x56x56x128.size a
  hwx1_4 : ∀ i : grid1.Coords, EltTy.bits .f32 = 32 ∨ (Rect.block (s := S32x56x56x128) S1x56x56x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S2x128.size a ≤ S2x128.size a
  hwx1_5 : ∀ i : grid1.Coords, EltTy.bits .f32 = 32 ∨ (Rect.block (s := S2x128) S2x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x56x56x128.size a ≤ S32x56x56x128.size a
  hwx2_0 : ∀ i : grid2.Coords, EltTy.bits .f32 = 32 ∨ (Rect.block (s := S32x56x56x128) S1x56x56x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x56x56x128.size a ≤ S32x56x56x128.size a
  hwx2_1 : ∀ i : grid2.Coords, EltTy.bits .f32 = 32 ∨ (Rect.block (s := S32x56x56x128) S1x56x56x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S1x56x56x128.size a ≤ S32x56x56x128.size a
  hwx2_6 : ∀ i : grid2.Coords, EltTy.bits .f32 = 32 ∨ (Rect.block (s := S32x56x56x128) S1x56x56x128.size (cc2_transform_6 i) (hinb2_6 i)).WholeWords (EltTy.packing .f32)

variable [Facts₀]

def dot_S3136x128_S128x128_S3136x128_1_0_0_1_n_n : DotDims S3136x128 S128x128 S3136x128 where
  lhsContracting := [1]
  rhsContracting := [0]
  lhsNonContracting := [0]
  rhsNonContracting := [1]
  lhsBatch := []
  rhsBatch := []
  wf := dot_S3136x128_S128x128_S3136x128_1_0_0_1_n_n_wf

abbrev win0_0 : Pipeline.Window sig grid0 :=
  Pipeline.Window.ofSpec (Memref.whole main_v2) S1x58x58x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1152x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17_0) S1x56x56x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v17_1) S1x56x56x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v17_2) S4x128.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v17_0) S1x56x56x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v37) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1152x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v58_0) S1x56x56x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v58_1) S2x128.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v58_0) S1x56x56x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17_1) S1x56x56x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v75) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v78) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v54) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v57) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v79) S1x56x56x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== Proof.KPass1Body.lean ====
import proofs.«120137_g2000002162550304_pallasbulk_397_2_alg».proof.Proof.Gen.Kernel.Launch
import proofs.«120137_g2000002162550304_pallasbulk_397_2_alg».proof.Proof.Gen.Kernel.Skeleton
import proofs.«120137_g2000002162550304_pallasbulk_397_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

/-! # The first pass on one image

At grid point `t` the body reads the padded image, the nine 64-row slabs of conv1's weights and the shortcut's
weights, and stores two blocks: the image's conv1 output (nine shifted taps, each times its slab, added up) and a block
of eight rows whose first four are the column sums of conv1, of its square, of the shortcut and of its square, the rest
zero. This module states both blocks as functions of the three input blocks and proves the body does that. -/

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the pass finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 holds its block at every point, whether the point fetched it or the block stayed from before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 holds its block at every point, whether the point fetched it or the block stayed from before. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 holds its block at every point, whether the point fetched it or the block stayed from before. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: the image and the shortcut's weights whole, conv1's weights one 64-row slab per tap -/
abbrev r0_x : Rect S1x58x58x64 := Rect.unit (s := S1x58x58x64) ![0, 0, 0, 0] S1x58x58x64.size inb_S1x58x58x64_S1x58x58x64_0_0_0_0
abbrev r0_w0 : Rect S576x128 := Rect.unit (s := S576x128) ![0, 0] S64x128.size inb_S576x128_S64x128_0_0
abbrev r0_w1 : Rect S576x128 := Rect.unit (s := S576x128) ![64, 0] S64x128.size inb_S576x128_S64x128_64_0
abbrev r0_w2 : Rect S576x128 := Rect.unit (s := S576x128) ![128, 0] S64x128.size inb_S576x128_S64x128_128_0
abbrev r0_w3 : Rect S576x128 := Rect.unit (s := S576x128) ![192, 0] S64x128.size inb_S576x128_S64x128_192_0
abbrev r0_w4 : Rect S576x128 := Rect.unit (s := S576x128) ![256, 0] S64x128.size inb_S576x128_S64x128_256_0
abbrev r0_w5 : Rect S576x128 := Rect.unit (s := S576x128) ![320, 0] S64x128.size inb_S576x128_S64x128_320_0
abbrev r0_w6 : Rect S576x128 := Rect.unit (s := S576x128) ![384, 0] S64x128.size inb_S576x128_S64x128_384_0
abbrev r0_w7 : Rect S576x128 := Rect.unit (s := S576x128) ![448, 0] S64x128.size inb_S576x128_S64x128_448_0
abbrev r0_w8 : Rect S576x128 := Rect.unit (s := S576x128) ![512, 0] S64x128.size inb_S576x128_S64x128_512_0
abbrev r0_s : Rect S64x128 := Rect.unit (s := S64x128) ![0, 0] S64x128.size inb_S64x128_S64x128_0_0
abbrev r0_3 : Rect S1x56x56x128 := Rect.unit (s := S1x56x56x128) ![0, 0, 0, 0] S1x56x56x128.size inb_S1x56x56x128_S1x56x56x128_0_0_0_0
abbrev r0_4 : Rect S1x8x128 := Rect.unit (s := S1x8x128) ![0, 0, 0] S1x8x128.size inb_S1x8x128_S1x8x128_0_0_0

/-- The conv1 block after the body: its one store over the input blocks. -/
def out0_3 (x0 : Vec F S1x58x58x64 .bf16) (x1 : Vec F S576x128 .bf16) : Vec F S1x56x56x128 .bf16 :=
  View.canon [⟨r0_3, k0_pay8 (k0_pay2 (View.ld x0 r0_x)) (k0_pay4 (View.ld x0 r0_x) (View.ld x1 r0_w0) (View.ld x1 r0_w1) (View.ld x1 r0_w2) (View.ld x1 r0_w3) (View.ld x1 r0_w4)) (k0_pay5 (View.ld x0 r0_x))
    (View.ld x1 r0_w5) (View.ld x1 r0_w6) (View.ld x1 r0_w7) (View.ld x1 r0_w8)⟩]

/-- The moments block after the body: its one store over the input blocks. -/
def out0_4 (x0 : Vec F S1x58x58x64 .bf16) (x1 : Vec F S576x128 .bf16) (x2 : Vec F S64x128 .bf16) : Vec F S1x8x128 .f32 :=
  View.canon [⟨r0_4, k0_pay1
    (k0_pay9 (k0_pay2 (View.ld x0 r0_x)) (k0_pay4 (View.ld x0 r0_x) (View.ld x1 r0_w0) (View.ld x1 r0_w1) (View.ld x1 r0_w2) (View.ld x1 r0_w3) (View.ld x1 r0_w4)) (k0_pay5 (View.ld x0 r0_x))
      (View.ld x1 r0_w5) (View.ld x1 r0_w6) (View.ld x1 r0_w7) (View.ld x1 r0_w8))
    (k0_pay10 (k0_pay2 (View.ld x0 r0_x)) (k0_pay4 (View.ld x0 r0_x) (View.ld x1 r0_w0) (View.ld x1 r0_w1) (View.ld x1 r0_w2) (View.ld x1 r0_w3) (View.ld x1 r0_w4)) (k0_pay5 (View.ld x0 r0_x))
      (View.ld x1 r0_w5) (View.ld x1 r0_w6) (View.ld x1 r0_w7) (View.ld x1 r0_w8))
    (k0_pay11 (k0_pay3 (View.ld x0 r0_x)) (View.ld x2 r0_s)) (k0_pay12 (k0_pay3 (View.ld x0 r0_x)) (View.ld x2 r0_s)) (Scalar.ofBits .f32 0x00000000#32)⟩]

/-- Each store takes its whole block. -/
theorem cover0_3 (p0 : Vec F S1x56x56x128 .bf16) (y : S1x56x56x128.Idx) :
    ∃ pc ∈ ([⟨r0_3, p0⟩] : List (View.Piece (Elt F) S1x56x56x128 .bf16)), y ∈ pc.1.set :=
  View.cover_of_tiled [⟨r0_3, p0⟩] S1x56x56x128.size (by rfl) y
theorem cover0_4 (p0 : Vec F S1x8x128 .f32) (y : S1x8x128.Idx) :
    ∃ pc ∈ ([⟨r0_4, p0⟩] : List (View.Piece (Elt F) S1x8x128 .f32)), y ∈ pc.1.set :=
  View.cover_of_tiled [⟨r0_4, p0⟩] S1x8x128.size (by rfl) y

set_option maxHeartbeats 4000000 in
/-- The body on whole staging buffers: the inputs stay as they were, the outputs end at `out0_3` and `out0_4` of the inputs. -/
theorem sound_kernel0 (c : Dev nD) (E : Set ℕ) (i : grid0.Coords)
    (arg1 : Memref sig .tc .vmem S1x58x58x64 .bf16) (harg1 : arg1.IsWhole) (arg2 : Memref sig .tc .vmem S576x128 .bf16) (harg2 : arg2.IsWhole)
    (arg3 : Memref sig .tc .vmem S64x128 .bf16) (harg3 : arg3.IsWhole) (arg4 : Memref sig .tc .vmem S1x56x56x128 .bf16) (harg4 : arg4.IsWhole)
    (arg5 : Memref sig .tc .vmem S1x8x128 .f32) (harg5 : arg5.IsWhole)
    (x0 : Vec F S1x58x58x64 .bf16) (x1 : Vec F S576x128 .bf16) (x2 : Vec F S64x128 .bf16) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1) ∗ owns (c : Thread nD τ) arg5 fullShare (out0_4 x0 x1 x2)) -∗ K ⟨⟩))
      ⊢ wp frame (wpE (defs₀ (F := F)) Variants.none c none) E (cc0__pass1_kernel i arg1 harg1 arg2 harg2 arg3 harg3 arg4 harg4 arg5 harg5) K := by
  simp only [cc0__pass1_kernel_eq_skeleton]; unfold cc0__pass1_kernel_skel
  simp only [k0_part1_eq_skeleton, k0_part2_eq_skeleton]
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

end Cert.Kernel.Run

end
-- ==== Proof.KPass1Data.lean ====
import proofs.«120137_g2000002162550304_pallasbulk_397_2_alg».proof.Proof.KPass1Body

set_option maxRecDepth 16384

noncomputable section

/-! # The first pass at every grid point: what each window's buffer holds before and after the body -/

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The pass's proof data on core `c`: the arrays as the pass finds them; after the body at point `t` each input's
    buffer at its block and each output's at its function of the input blocks; nothing kept between points beyond the
    untouched scoped buffers and the generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
    | ⟨4, _⟩ => out0_4 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the body's triple applies; the rest passes through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Run

end
-- ==== Proof.LibStoreReadBack.lean ====
import Idealize.ShloMosaic.Lib.Writes
import Idealize.ShloMosaic.PureOps.ShapeOps

/-!
# Reading a buffer back after stores, by coordinates

A buffer is written by a list of unmasked stores through unit-stride boxes (the last store first) and then read.

* A plain store of `w` through the box at offsets `off` with sizes `size`: an element whose coordinates are
  `off + x` reads `w x` (`read_store_in`); an element with one coordinate outside the box reads what the earlier
  stores left (`read_store_out`).
* A store of rows that are part of their machine words first loads the words' box, replaces inside the loaded block
  the window of `upd`'s shape at the offsets `start`, and stores the block. Read back, this is the plain store of
  `upd` through the narrower box at `off + start`: an element at `off + start + x'` reads `upd x'`
  (`read_blend_in`), an element with one coordinate outside that narrower box reads what the earlier stores left,
  whether or not it lies in the words' box (`read_blend_out`).

So after such stores the contents are found by asking, box by box from the last store back, whether the element's
coordinates lie in the box: no knowledge of what the buffer held before is needed where the boxes cover the buffer.
-/

noncomputable section

namespace Idealize.ShloMosaic.View

variable {sig : RefSig} {κ : Kind} {sp : Space} {s : Shape} {e : EltTy} {Val : EltTy → Type}
variable (v : View sig κ sp s e) (f : v.ty.Contents Val)

/-- An element at `off + x` of the box reads the last store's payload at `x`. -/
theorem read_store_in (off size : Fin s.rank → Nat) (inb : ∀ a, off a + size a ≤ s.size a)
    (w : (Rect.unit off size inb).shape.Idx → Val e) (L : List (Piece Val s e)) (y : s.Idx)
    (x : (Rect.unit off size inb).shape.Idx) (hy : ∀ a, (y a).val = off a + (x a).val) :
    v.read Val (v.writes Val f (⟨Rect.unit off size inb, w⟩ :: L)) y = w x := by
  have e : y = (Rect.unit off size inb).emb x := funext fun a => Fin.ext (by
    rw [hy a, Rect.emb_apply, Rect.off_unit, Rect.stride_unit, Nat.one_mul])
  rw [e]; exact read_writes_cons_emb v f _ w L x

/-- An element with a coordinate outside the last store's box reads what the earlier stores left. -/
theorem read_store_out (off size : Fin s.rank → Nat) (inb : ∀ a, off a + size a ≤ s.size a)
    (w : (Rect.unit off size inb).shape.Idx → Val e) (L : List (Piece Val s e)) (y : s.Idx)
    (hy : ∃ a, (y a).val < off a ∨ off a + size a ≤ (y a).val) :
    v.read Val (v.writes Val f (⟨Rect.unit off size inb, w⟩ :: L)) y = v.read Val (v.writes Val f L) y := by
  have hn : y ∉ (Rect.unit off size inb).set := fun hm => by
    obtain ⟨a, ha⟩ := hy
    have := (Rect.mem_set_unit.mp hm) a
    omega
  rw [writes_cons]
  exact read_slice_write_of_not_mem _ _ _ _ (by rw [Rect.map_emb_univ]; exact hn)

variable {u : Shape}

/-- After a store of rows that are part of their words, an element of the stored window reads the stored value. -/
theorem read_blend_in (off size : Fin s.rank → Nat) (inb : ∀ a, off a + size a ≤ s.size a)
    (upd : u.Idx → Val e) (start : Fin s.rank → Nat) (h : (Rect.unit off size inb).shape.Slices start u)
    (L : List (Piece Val s e)) (y : s.Idx) (x' : u.Idx)
    (hy : ∀ a : Fin s.rank, (y a).val = off a + start a + (x' (a.cast h.1.symm)).val) :
    v.read Val (v.writes Val f (⟨Rect.unit off size inb,
      updateSlice (v.readAt Val (Rect.unit off size inb).toLoadRect (v.writes Val f L)) upd start h⟩ :: L)) y = upd x' := by
  have hx (a : Fin s.rank) : start a + (x' (a.cast h.1.symm)).val < size a := by
    have h1 := h.2 a
    have h2 := (x' (a.cast h.1.symm)).isLt
    show start a + (x' (a.cast h.1.symm)).val < (Rect.unit off size inb).shape.size a
    omega
  rw [read_store_in v f off size inb _ L y (fun a => ⟨start a + (x' (a.cast h.1.symm)).val, hx a⟩)
    (fun a => by rw [hy a]; simp only [Nat.add_assoc])]
  unfold updateSlice
  rw [dif_pos (fun a => ⟨Nat.le_add_right _ _, Nat.add_lt_add_left (x' (a.cast h.1.symm)).isLt _⟩)]
  congr 1
  funext b
  apply Fin.ext
  simp only [Nat.add_sub_cancel_left]
  rfl

/-- After a store of rows that are part of their words, an element outside the stored window reads what the earlier
    stores left, whether or not the words' box holds it. -/
theorem read_blend_out (off size : Fin s.rank → Nat) (inb : ∀ a, off a + size a ≤ s.size a)
    (upd : u.Idx → Val e) (start : Fin s.rank → Nat) (h : (Rect.unit off size inb).shape.Slices start u)
    (L : List (Piece Val s e)) (y : s.Idx)
    (hy : ∃ a : Fin s.rank, (y a).val < off a + start a ∨ off a + start a + u.size (a.cast h.1.symm) ≤ (y a).val) :
    v.read Val (v.writes Val f (⟨Rect.unit off size inb,
      updateSlice (v.readAt Val (Rect.unit off size inb).toLoadRect (v.writes Val f L)) upd start h⟩ :: L)) y
      = v.read Val (v.writes Val f L) y := by
  by_cases hm : y ∈ (Rect.unit off size inb).set
  · obtain ⟨x, rfl⟩ := (Rect.unit off size inb).exists_idx_of_mem hm
    rw [show (Rect.unit off size inb).idx x = (Rect.unit off size inb).emb x from rfl, read_writes_cons_emb]
    unfold updateSlice
    rw [dif_neg]
    · rfl
    · intro hall
      obtain ⟨a, ha⟩ := hy
      have := hall a
      have e : ((Rect.unit off size inb).idx x a).val = off a + 1 * (x a).val := rfl
      rw [e] at ha
      omega
  · exact read_store_out v f off size inb _ L y (by
      by_contra hc
      exact hm (Rect.mem_set_unit.mpr fun a => by
        have := not_exists.mp hc a
        omega))

end Idealize.ShloMosaic.View

end
-- ==== Proof.KPass2Scratch.lean ====
import proofs.«120137_g2000002162550304_pallasbulk_397_2_alg».proof.Proof.Gen.Kernel.Skeleton
import proofs.«120137_g2000002162550304_pallasbulk_397_2_alg».proof.Proof.LibStoreReadBack
import Idealize.ShloMosaic.Lib.Pipeline.FrameBody
import Idealize.ShloMosaic.Lib.ValueIdx

set_option maxRecDepth 16384

noncomputable section

/-! # The second pass's padded scratch image

Before its nine taps the body rebuilds a 58 × 58 image in a scratch buffer: a row of zeros on top and at the bottom, a
column of zeros on the left and on the right, and in the middle the 56 × 56 block `a` (the normalised, clamped conv1
output). The two columns and the middle are stored as rows that are part of their machine words, so each of those
stores first loads a wider box and puts it back with the stored window replaced. Whatever the scratch held before,
it ends holding `padded a`: every element lies in the window of one of the five stores, and is read from the last
store whose window holds it. -/

namespace Cert.Kernel.Run

open Cert.Kernel Cert.Kernel.Gen
open Idealize.ShloMosaic Idealize.ShloMosaic.ValueIdx

variable {F : FTy → Type} [FloatOps F]
variable {sig' : RefSig} {κ : Kind} {sp : Space} (v : View sig' κ sp S58x58x128 .bf16) (f : v.ty.Contents (Elt F))

/-- The store of the top row, -/
def pcTop : View.Piece (Elt F) S58x58x128 .bf16 := ⟨Rect.unit (s := S58x58x128) ![0, 0, 0] S1x58x128.size inb_S58x58x128_S1x58x128_0_0_0, k1_pay1⟩
/-- of the bottom row, -/
def pcBot : View.Piece (Elt F) S58x58x128 .bf16 := ⟨Rect.unit (s := S58x58x128) ![57, 0, 0] S1x58x128.size inb_S58x58x128_S1x58x128_57_0_0, k1_pay2⟩
/-- The stores of the top and bottom rows (the bottom one last). -/
def padW2 : List (View.Piece (Elt F) S58x58x128 .bf16) := [pcBot, pcTop]
/-- then the left column, through the box of columns 0 and 1, -/
def pcLeft : View.Piece (Elt F) S58x58x128 .bf16 :=
  ⟨Rect.unit (s := S58x58x128) ![0, 0, 0] S58x2x128.size inb_S58x58x128_S58x2x128_0_0_0, updateSlice (v.readAt (Elt F) (Rect.unit (s := S58x58x128) ![0, 0, 0] S58x2x128.size inb_S58x58x128_S58x2x128_0_0_0).toLoadRect (v.writes (Elt F) f padW2)) k1_pay3 ![0, 0, 0] slices_S58x2x128_S58x1x128_0_0_0⟩
def padW3 : List (View.Piece (Elt F) S58x58x128 .bf16) := pcLeft v f :: padW2
/-- the right column, through the box of columns 56 and 57, -/
def pcRight : View.Piece (Elt F) S58x58x128 .bf16 :=
  ⟨Rect.unit (s := S58x58x128) ![0, 56, 0] S58x2x128.size inb_S58x58x128_S58x2x128_0_56_0, updateSlice (v.readAt (Elt F) (Rect.unit (s := S58x58x128) ![0, 56, 0] S58x2x128.size inb_S58x58x128_S58x2x128_0_56_0).toLoadRect (v.writes (Elt F) f (padW3 v f))) k1_pay4 ![0, 1, 0] slices_S58x2x128_S58x1x128_0_1_0⟩
def padW4 : List (View.Piece (Elt F) S58x58x128 .bf16) := pcRight v f :: padW3 v f
/-- and the middle, through the box of rows 1 to 56 at all columns. -/
def pcMid (a : Vec F S56x56x128 .bf16) : View.Piece (Elt F) S58x58x128 .bf16 :=
  ⟨Rect.unit (s := S58x58x128) ![1, 0, 0] S56x58x128.size inb_S58x58x128_S56x58x128_1_0_0, updateSlice (v.readAt (Elt F) (Rect.unit (s := S58x58x128) ![1, 0, 0] S56x58x128.size inb_S58x58x128_S56x58x128_1_0_0).toLoadRect (v.writes (Elt F) f (padW4 v f))) a ![0, 1, 0] slices_S56x58x128_S56x56x128_0_1_0⟩
def padW5 (a : Vec F S56x56x128 .bf16) : List (View.Piece (Elt F) S58x58x128 .bf16) := pcMid v f a :: padW4 v f

/-- The padded image: `a` in the middle, around it what the four border stores put down. -/
def padded (a : Vec F S56x56x128 .bf16) : Vec F S58x58x128 .bf16 := fun y =>
  if h : 1 ≤ (y 0).val ∧ (y 0).val ≤ 56 ∧ 1 ≤ (y 1).val ∧ (y 1).val ≤ 56 then
    a (ix3 (n0 := 56) (n1 := 56) (n2 := 128) ⟨(y 0).val - 1, by omega⟩ ⟨(y 1).val - 1, by omega⟩ (y 2))
  else if (y 1).val = 57 then k1_pay4 (F := F) (ix3 (n0 := 58) (n1 := 1) (n2 := 128) (y 0) 0 (y 2))
  else if (y 1).val = 0 then k1_pay3 (F := F) (ix3 (n0 := 58) (n1 := 1) (n2 := 128) (y 0) 0 (y 2))
  else if (y 0).val = 57 then k1_pay2 (F := F) (ix3 (n0 := 1) (n1 := 58) (n2 := 128) 0 (y 1) (y 2))
  else k1_pay1 (F := F) (ix3 (n0 := 1) (n1 := 58) (n2 := 128) 0 (y 1) (y 2))

/-- After the five stores the scratch reads the padded image at every element, whatever it held before. -/
theorem read_padW5 (a : Vec F S56x56x128 .bf16) (y : S58x58x128.Idx) :
    v.read (Elt F) (v.writes (Elt F) f (padW5 v f a)) y = padded a y := by
  have h0 : (y 0).val < 58 := (y 0).isLt
  have h1 : (y 1).val < 58 := (y 1).isLt
  unfold padded
  by_cases hin : 1 ≤ (y 0).val ∧ (y 0).val ≤ 56 ∧ 1 ≤ (y 1).val ∧ (y 1).val ≤ 56
  · rw [dif_pos hin]
    exact View.read_blend_in v f ![1, 0, 0] S56x58x128.size inb_S58x58x128_S56x58x128_1_0_0 a ![0, 1, 0] slices_S56x58x128_S56x56x128_0_1_0 (padW4 v f) y
      (ix3 (n0 := 56) (n1 := 56) (n2 := 128) ⟨(y 0).val - 1, by omega⟩ ⟨(y 1).val - 1, by omega⟩ (y 2))
      (fun a => match a with
        | ⟨0, _⟩ => by show (y 0).val = 1 + 0 + ((y 0).val - 1); omega
        | ⟨1, _⟩ => by show (y 1).val = 0 + 1 + ((y 1).val - 1); omega
        | ⟨2, _⟩ => by show (y 2).val = 0 + 0 + (y 2).val; omega)
  · rw [dif_neg hin]
    -- an element off the middle window is left by the middle store as the four border stores left it
    have e5 : v.read (Elt F) (v.writes (Elt F) f (padW5 v f a)) y = v.read (Elt F) (v.writes (Elt F) f (padW4 v f)) y :=
      View.read_blend_out v f ![1, 0, 0] S56x58x128.size inb_S58x58x128_S56x58x128_1_0_0 a ![0, 1, 0] slices_S56x58x128_S56x56x128_0_1_0 (padW4 v f) y (by
        rcases (by omega : (y 0).val = 0 ∨ (y 0).val = 57 ∨ (y 1).val = 0 ∨ (y 1).val = 57) with h | h | h | h
        · exact ⟨0, Or.inl (by show (y 0).val < 1 + 0; omega)⟩
        · exact ⟨0, Or.inr (by show 1 + 0 + 56 ≤ (y 0).val; omega)⟩
        · exact ⟨1, Or.inl (by show (y 1).val < 0 + 1; omega)⟩
        · exact ⟨1, Or.inr (by show 0 + 1 + 56 ≤ (y 1).val; omega)⟩)
    rw [e5]
    by_cases h57 : (y 1).val = 57
    · -- the right column: the last border store
      rw [if_pos h57]
      exact View.read_blend_in v f ![0, 56, 0] S58x2x128.size inb_S58x58x128_S58x2x128_0_56_0 k1_pay4 ![0, 1, 0] slices_S58x2x128_S58x1x128_0_1_0 (padW3 v f) y
        (ix3 (n0 := 58) (n1 := 1) (n2 := 128) (y 0) 0 (y 2))
        (fun a => match a with
          | ⟨0, _⟩ => by show (y 0).val = 0 + 0 + (y 0).val; omega
          | ⟨1, _⟩ => by show (y 1).val = 56 + 1 + 0; omega
          | ⟨2, _⟩ => by show (y 2).val = 0 + 0 + (y 2).val; omega)
    · rw [if_neg h57]
      -- off the right column, the right column's store leaves the element as the stores before it did
      have e4 : v.read (Elt F) (v.writes (Elt F) f (padW4 v f)) y = v.read (Elt F) (v.writes (Elt F) f (padW3 v f)) y :=
        View.read_blend_out v f ![0, 56, 0] S58x2x128.size inb_S58x58x128_S58x2x128_0_56_0 k1_pay4 ![0, 1, 0] slices_S58x2x128_S58x1x128_0_1_0 (padW3 v f) y ⟨1, Or.inl (by show (y 1).val < 56 + 1; omega)⟩
      rw [e4]
      by_cases hc0 : (y 1).val = 0
      · -- the left column
        rw [if_pos hc0]
        exact View.read_blend_in v f ![0, 0, 0] S58x2x128.size inb_S58x58x128_S58x2x128_0_0_0 k1_pay3 ![0, 0, 0] slices_S58x2x128_S58x1x128_0_0_0 padW2 y
          (ix3 (n0 := 58) (n1 := 1) (n2 := 128) (y 0) 0 (y 2))
          (fun a => match a with
            | ⟨0, _⟩ => by show (y 0).val = 0 + 0 + (y 0).val; omega
            | ⟨1, _⟩ => by show (y 1).val = 0 + 0 + 0; omega
            | ⟨2, _⟩ => by show (y 2).val = 0 + 0 + (y 2).val; omega)
      · rw [if_neg hc0]
        -- off both columns: the top or the bottom row, as the two row stores left it
        have e3 : v.read (Elt F) (v.writes (Elt F) f (padW3 v f)) y = v.read (Elt F) (v.writes (Elt F) f padW2) y :=
          View.read_blend_out v f ![0, 0, 0] S58x2x128.size inb_S58x58x128_S58x2x128_0_0_0 k1_pay3 ![0, 0, 0] slices_S58x2x128_S58x1x128_0_0_0 padW2 y ⟨1, Or.inr (by show 0 + 0 + 1 ≤ (y 1).val; omega)⟩
        rw [e3]
        by_cases hr : (y 0).val = 57
        · rw [if_pos hr]
          exact View.read_store_in v f ![57, 0, 0] S1x58x128.size inb_S58x58x128_S1x58x128_57_0_0 k1_pay2 [pcTop] y
            (ix3 (n0 := 1) (n1 := 58) (n2 := 128) 0 (y 1) (y 2))
            (fun a => match a with
              | ⟨0, _⟩ => by show (y 0).val = 57 + 0; omega
              | ⟨1, _⟩ => by show (y 1).val = 0 + (y 1).val; omega
              | ⟨2, _⟩ => by show (y 2).val = 0 + (y 2).val; omega)
        · rw [if_neg hr]
          have e2 : v.read (Elt F) (v.writes (Elt F) f padW2) y = v.read (Elt F) (v.writes (Elt F) f [pcTop]) y :=
            View.read_store_out v f ![57, 0, 0] S1x58x128.size inb_S58x58x128_S1x58x128_57_0_0 k1_pay2 [pcTop] y
              ⟨0, Or.inl (by show (y 0).val < 57; omega)⟩
          rw [e2]
          exact View.read_store_in v f ![0, 0, 0] S1x58x128.size inb_S58x58x128_S1x58x128_0_0_0 k1_pay1 [] y
            (ix3 (n0 := 1) (n1 := 58) (n2 := 128) 0 (y 1) (y 2))
            (fun a => match a with
              | ⟨0, _⟩ => by show (y 0).val = 0 + 0; omega
              | ⟨1, _⟩ => by show (y 1).val = 0 + (y 1).val; omega
              | ⟨2, _⟩ => by show (y 2).val = 0 + (y 2).val; omega)

/-- Every element lies in the box of one of the five stores: rows 1 to 56 in the middle store's, the other two in a row store's. -/
theorem cover_padW5 (a : Vec F S56x56x128 .bf16) (y : S58x58x128.Idx) : ∃ p ∈ padW5 v f a, y ∈ p.1.set := by
  have h0 : (y 0).val < 58 := (y 0).isLt
  have h1 : (y 1).val < 58 := (y 1).isLt
  have h2 : (y 2).val < 128 := (y 2).isLt
  by_cases hm : 1 ≤ (y 0).val ∧ (y 0).val ≤ 56
  · refine ⟨pcMid v f a, List.mem_cons_self, ?_⟩
    show y ∈ (Rect.unit (s := S58x58x128) ![1, 0, 0] S56x58x128.size inb_S58x58x128_S56x58x128_1_0_0).set
    exact Rect.mem_set_unit.mpr fun a => match a with
      | ⟨0, _⟩ => ⟨by show 1 ≤ (y 0).val; omega, by show (y 0).val < 1 + 56; omega⟩
      | ⟨1, _⟩ => ⟨by show 0 ≤ (y 1).val; omega, by show (y 1).val < 0 + 58; omega⟩
      | ⟨2, _⟩ => ⟨by show 0 ≤ (y 2).val; omega, by show (y 2).val < 0 + 128; omega⟩
  · by_cases hb : (y 0).val = 57
    · refine ⟨pcBot, List.mem_cons_of_mem _ (List.mem_cons_of_mem _ (List.mem_cons_of_mem _ List.mem_cons_self)), ?_⟩
      show y ∈ (Rect.unit (s := S58x58x128) ![57, 0, 0] S1x58x128.size inb_S58x58x128_S1x58x128_57_0_0).set
      exact Rect.mem_set_unit.mpr fun a => match a with
        | ⟨0, _⟩ => ⟨by show 57 ≤ (y 0).val; omega, by show (y 0).val < 57 + 1; omega⟩
        | ⟨1, _⟩ => ⟨by show 0 ≤ (y 1).val; omega, by show (y 1).val < 0 + 58; omega⟩
        | ⟨2, _⟩ => ⟨by show 0 ≤ (y 2).val; omega, by show (y 2).val < 0 + 128; omega⟩
    · refine ⟨pcTop, List.mem_cons_of_mem _ (List.mem_cons_of_mem _ (List.mem_cons_of_mem _ (List.mem_cons_of_mem _ List.mem_cons_self))), ?_⟩
      show y ∈ (Rect.unit (s := S58x58x128) ![0, 0, 0] S1x58x128.size inb_S58x58x128_S1x58x128_0_0_0).set
      exact Rect.mem_set_unit.mpr fun a => match a with
        | ⟨0, _⟩ => ⟨by show 0 ≤ (y 0).val; omega, by show (y 0).val < 0 + 1; omega⟩
        | ⟨1, _⟩ => ⟨by show 0 ≤ (y 1).val; omega, by show (y 1).val < 0 + 58; omega⟩
        | ⟨2, _⟩ => ⟨by show 0 ≤ (y 2).val; omega, by show (y 2).val < 0 + 128; omega⟩

/-- So a load of the whole scratch after the five stores reads the padded image. -/
theorem readCov_padW5 (a : Vec F S56x56x128 .bf16) :
    v.readCov (padW5 v f a) (Rect.unit (s := S58x58x128) ![0, 0, 0] S58x58x128.size inb_S58x58x128_S58x58x128_0_0_0).toLoadRect = padded a := by
  rw [View.readCov_eq_canon']
  funext j
  rw [← View.read_writes_apply_eq_canon v f _ _ (cover_padW5 v f a _), read_padW5]
  exact congrArg (padded a) (funext fun b => Fin.ext (match b with
    | ⟨0, _⟩ => by show 0 + 1 * (j 0).val = (j 0).val; omega
    | ⟨1, _⟩ => by show 0 + 1 * (j 1).val = (j 1).val; omega
    | ⟨2, _⟩ => by show 0 + 1 * (j 2).val = (j 2).val; omega))

end Cert.Kernel.Run

end
-- ==== Proof.KPass2Body.lean ====
import proofs.«120137_g2000002162550304_pallasbulk_397_2_alg».proof.Proof.Gen.Kernel.Launch
import proofs.«120137_g2000002162550304_pallasbulk_397_2_alg».proof.Proof.Gen.Kernel.Skeleton
import proofs.«120137_g2000002162550304_pallasbulk_397_2_alg».proof.Proof.Gen.Kernel.Points
import proofs.«120137_g2000002162550304_pallasbulk_397_2_alg».proof.Proof.KPass2Scratch
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

/-! # The second pass on one image

At grid point `t` the body reads the image's conv1 output, the two BN1 coefficient rows and the nine 128-row slabs of
conv2's weights. It rebuilds the padded image in its scratch (zero border, clamped normalised conv1 output inside), takes
the nine shifted taps of it, and stores two blocks: the image's conv2 output and eight rows of moments (column sums of
conv2 and of its square, then zeros). The scratch is rewritten whole at every point, so nothing is kept between points:
this module states both blocks as functions of the four input blocks and proves the body does that from ANY scratch. -/

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the pass finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 holds its block at every point, whether the point fetched it or the block stayed from before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 holds its block at every point, whether the point fetched it or the block stayed from before. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 holds its block at every point, whether the point fetched it or the block stayed from before. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3 holds its block at every point, whether the point fetched it or the block stayed from before. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses to its windows: the image and the coefficient rows whole, conv2's weights one 128-row slab per tap -/
abbrev r1_y : Rect S1x56x56x128 := Rect.unit (s := S1x56x56x128) ![0, 0, 0, 0] S1x56x56x128.size inb_S1x56x56x128_S1x56x56x128_0_0_0_0
abbrev r1_c : Rect S1x128 := Rect.unit (s := S1x128) ![0, 0] S1x128.size inb_S1x128_S1x128_0_0
abbrev r1_w0 : Rect S1152x128 := Rect.unit (s := S1152x128) ![0, 0] S128x128.size inb_S1152x128_S128x128_0_0
abbrev r1_w1 : Rect S1152x128 := Rect.unit (s := S1152x128) ![128, 0] S128x128.size inb_S1152x128_S128x128_128_0
abbrev r1_w2 : Rect S1152x128 := Rect.unit (s := S1152x128) ![256, 0] S128x128.size inb_S1152x128_S128x128_256_0
abbrev r1_w3 : Rect S1152x128 := Rect.unit (s := S1152x128) ![384, 0] S128x128.size inb_S1152x128_S128x128_384_0
abbrev r1_w4 : Rect S1152x128 := Rect.unit (s := S1152x128) ![512, 0] S128x128.size inb_S1152x128_S128x128_512_0
abbrev r1_w5 : Rect S1152x128 := Rect.unit (s := S1152x128) ![640, 0] S128x128.size inb_S1152x128_S128x128_640_0
abbrev r1_w6 : Rect S1152x128 := Rect.unit (s := S1152x128) ![768, 0] S128x128.size inb_S1152x128_S128x128_768_0
abbrev r1_w7 : Rect S1152x128 := Rect.unit (s := S1152x128) ![896, 0] S128x128.size inb_S1152x128_S128x128_896_0
abbrev r1_w8 : Rect S1152x128 := Rect.unit (s := S1152x128) ![1024, 0] S128x128.size inb_S1152x128_S128x128_1024_0
abbrev r1_5 : Rect S1x8x128 := Rect.unit (s := S1x8x128) ![0, 0, 0] S1x8x128.size inb_S1x8x128_S1x8x128_0_0_0

/-- The 56 × 56 block the body puts in the middle of the padded image: conv1's output times s1 plus b1, clamped at zero. -/
def act1 (x0 : Vec F S1x56x56x128 .bf16) (x1 x2 : Vec F S1x128 .f32) : Vec F S56x56x128 .bf16 :=
  k1_pay7 (k1_pay5 (View.ld x0 r1_y) (View.ld x1 r1_c) (View.ld x2 r1_c)) k1_pay6

/-- The sum of the first five taps and the sixth tap, over the padded image. -/
def taps1a (x0 : Vec F S1x56x56x128 .bf16) (x1 x2 : Vec F S1x128 .f32) (x3 : Vec F S1152x128 .bf16) : FVec F S3136x128 .f32 :=
  k1_pay8 (padded (act1 x0 x1 x2)) (View.ld x3 r1_w0) (View.ld x3 r1_w1) (View.ld x3 r1_w2) (View.ld x3 r1_w3)
def taps1b (x0 : Vec F S1x56x56x128 .bf16) (x1 x2 : Vec F S1x128 .f32) (x3 : Vec F S1152x128 .bf16) : FVec F S3136x128 .f32 :=
  k1_pay9 (padded (act1 x0 x1 x2)) (View.ld x3 r1_w4)

/-- The conv2 block after the body: its one store over the input blocks. -/
def out1_4 (x0 : Vec F S1x56x56x128 .bf16) (x1 x2 : Vec F S1x128 .f32) (x3 : Vec F S1152x128 .bf16) : Vec F S1x56x56x128 .bf16 :=
  View.canon [⟨r1_y, k1_pay11 (padded (act1 x0 x1 x2)) (taps1a x0 x1 x2 x3) (taps1b x0 x1 x2 x3)
    (View.ld x3 r1_w5) (View.ld x3 r1_w6) (View.ld x3 r1_w7) (View.ld x3 r1_w8)⟩]

/-- The moments block after the body: its one store over the input blocks. -/
def out1_5 (x0 : Vec F S1x56x56x128 .bf16) (x1 x2 : Vec F S1x128 .f32) (x3 : Vec F S1152x128 .bf16) : Vec F S1x8x128 .f32 :=
  View.canon [⟨r1_5, k1_pay12 (padded (act1 x0 x1 x2)) (taps1a x0 x1 x2 x3) (taps1b x0 x1 x2 x3)
    (View.ld x3 r1_w5) (View.ld x3 r1_w6) (View.ld x3 r1_w7) (View.ld x3 r1_w8)⟩]

/-- Each store takes its whole block. -/
theorem cover1_4 (p0 : Vec F S1x56x56x128 .bf16) (y : S1x56x56x128.Idx) :
    ∃ pc ∈ ([⟨r1_y, p0⟩] : List (View.Piece (Elt F) S1x56x56x128 .bf16)), y ∈ pc.1.set :=
  View.cover_of_tiled [⟨r1_y, p0⟩] S1x56x56x128.size (by rfl) y
theorem cover1_5 (p0 : Vec F S1x8x128 .f32) (y : S1x8x128.Idx) :
    ∃ pc ∈ ([⟨r1_5, p0⟩] : List (View.Piece (Elt F) S1x8x128 .f32)), y ∈ pc.1.set :=
  View.cover_of_tiled [⟨r1_5, p0⟩] S1x8x128.size (by rfl) y

set_option maxHeartbeats 8000000 in
/-- The body on whole staging buffers and a whole scratch at any contents: the inputs stay as they were, the outputs end at
    `out1_4` and `out1_5` of the inputs, the scratch at some contents. -/
theorem sound_kernel1 (c : Dev nD) (E : Set ℕ) (i : grid1.Coords)
    (arg1 : Memref sig .tc .vmem S1x56x56x128 .bf16) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1152x128 .bf16) (harg4 : arg4.IsWhole)
    (arg5 : Memref sig .tc .vmem S1x56x56x128 .bf16) (harg5 : arg5.IsWhole) (arg6 : Memref sig .tc .vmem S1x8x128 .f32) (harg6 : arg6.IsWhole)
    (arg7 : Memref sig .tc .vmem S58x58x128 .bf16) (harg7 : arg7.IsWhole)
    (x0 : Vec F S1x56x56x128 .bf16) (x1 x2 : Vec F S1x128 .f32) (x3 : Vec F S1152x128 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (out1_4 x0 x1 x2 x3) ∗ owns (c : Thread nD τ) arg6 fullShare (out1_5 x0 x1 x2 x3)
            ∗ (∃ d, owns (c : Thread nD τ) arg7 fullShare d)) -∗ K ⟨⟩))
      ⊢ wp frame (wpE (defs₀ (F := F)) Variants.none c none) E (cc1__pass2_kernel i arg1 harg1 arg2 harg2 arg3 harg3 arg4 harg4 arg5 harg5 arg6 harg6 arg7 harg7) K := by
  simp only [cc1__pass2_kernel_eq_skeleton]; unfold cc1__pass2_kernel_skel
  simp only [k1_part1_eq_skeleton, k1_part2_eq_skeleton, k1_part3_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  -- the scratch's whole-buffer load is the padded image, whatever the scratch held
  have hpad := readCov_padW5 arg7.view f6 (act1 (arg1.view.read (Elt F) f0) (arg2.view.read (Elt F) f1) (arg3.view.read (Elt F) f2))
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (cover1_4 _)]
    sl_unfold_run_names
    unfold out1_4 taps1a taps1b
    rw [← hpad]
    rfl
  isplitl [H5]
  · iexists _; isplitr
    swap; · iexact H5
    ipureintro
    rw [View.read_writes_eq_canon _ _ _ (cover1_5 _)]
    sl_unfold_run_names
    unfold out1_5 taps1a taps1b
    rw [← hpad]
    rfl
  iexists _; iexists _; isplitr
  swap; · iexact H6
  ipureintro; rfl

end Cert.Kernel.Run

end
-- ==== Proof.KPass2Data.lean ====
import proofs.«120137_g2000002162550304_pallasbulk_397_2_alg».proof.Proof.KPass2Body

set_option maxRecDepth 16384

noncomputable section

/-! # The second pass at every grid point: what each window's buffer holds before and after the body -/

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The pass's proof data on core `c`: the arrays as the pass finds them; after the body at point `t` each input's
    buffer at its block and each output's at its function of the input blocks; nothing kept between points beyond the
    untouched scoped buffers and the generator register; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
    | ⟨5, _⟩ => out1_5 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]
theorem after1_5 (c : Dev nD) (t : Fin cfg1.N) : (dat1 V c).after 5 t = out1_5 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The class invariant of this pass with the scratch named: the other scoped buffers at some contents each, the scratch
    owned whole at some contents, the generator register at some state. -/
theorem PhiA1_eq (c : Dev nD) :
    (Pipeline.ΦA spec1 c : sProp 𝕄)
      = iprop(((∃ f : Buf (Elt F) ((c : Thread nD τ).loc cc0_stg0_0), ((c : Thread nD τ).loc cc0_stg0_0) ↦{fullShare} f)
        ∗ (∃ f : Buf (Elt F) ((c : Thread nD τ).loc cc0_stg0_1), ((c : Thread nD τ).loc cc0_stg0_1) ↦{fullShare} f)
        ∗ (∃ f : Buf (Elt F) ((c : Thread nD τ).loc cc0_stg1_0), ((c : Thread nD τ).loc cc0_stg1_0) ↦{fullShare} f)
        ∗ (∃ f : Buf (Elt F) ((c : Thread nD τ).loc cc0_stg2_0), ((c : Thread nD τ).loc cc0_stg2_0) ↦{fullShare} f)
        ∗ (∃ f : Buf (Elt F) ((c : Thread nD τ).loc cc0_stg3_0), ((c : Thread nD τ).loc cc0_stg3_0) ↦{fullShare} f)
        ∗ (∃ f : Buf (Elt F) ((c : Thread nD τ).loc cc0_stg3_1), ((c : Thread nD τ).loc cc0_stg3_1) ↦{fullShare} f)
        ∗ (∃ f : Buf (Elt F) ((c : Thread nD τ).loc cc0_stg4_0), ((c : Thread nD τ).loc cc0_stg4_0) ↦{fullShare} f)
        ∗ (∃ f : Buf (Elt F) ((c : Thread nD τ).loc cc0_stg4_1), ((c : Thread nD τ).loc cc0_stg4_1) ↦{fullShare} f)
        ∗ (∃ d, owns (c : Thread nD τ) (Memref.whole cc1_scratch0) fullShare d)
        ∗ (∃ f : Buf (Elt F) ((c : Thread nD τ).loc cc2_stg0_0), ((c : Thread nD τ).loc cc2_stg0_0) ↦{fullShare} f)
        ∗ (∃ f : Buf (Elt F) ((c : Thread nD τ).loc cc2_stg0_1), ((c : Thread nD τ).loc cc2_stg0_1) ↦{fullShare} f)
        ∗ (∃ f : Buf (Elt F) ((c : Thread nD τ).loc cc2_stg1_0), ((c : Thread nD τ).loc cc2_stg1_0) ↦{fullShare} f)
        ∗ (∃ f : Buf (Elt F) ((c : Thread nD τ).loc cc2_stg1_1), ((c : Thread nD τ).loc cc2_stg1_1) ↦{fullShare} f)
        ∗ (∃ f : Buf (Elt F) ((c : Thread nD τ).loc cc2_stg2_0), ((c : Thread nD τ).loc cc2_stg2_0) ↦{fullShare} f)
        ∗ (∃ f : Buf (Elt F) ((c : Thread nD τ).loc cc2_stg3_0), ((c : Thread nD τ).loc cc2_stg3_0) ↦{fullShare} f)
        ∗ (∃ f : Buf (Elt F) ((c : Thread nD τ).loc cc2_stg4_0), ((c : Thread nD τ).loc cc2_stg4_0) ↦{fullShare} f)
        ∗ (∃ f : Buf (Elt F) ((c : Thread nD τ).loc cc2_stg5_0), ((c : Thread nD τ).loc cc2_stg5_0) ↦{fullShare} f)
        ∗ (∃ f : Buf (Elt F) ((c : Thread nD τ).loc cc2_stg6_0), ((c : Thread nD τ).loc cc2_stg6_0) ↦{fullShare} f)
        ∗ (∃ f : Buf (Elt F) ((c : Thread nD τ).loc cc2_stg7_0), ((c : Thread nD τ).loc cc2_stg7_0) ↦{fullShare} f)
        ∗ (∃ f : Buf (Elt F) ((c : Thread nD τ).loc cc2_stg7_1), ((c : Thread nD τ).loc cc2_stg7_1) ↦{fullShare} f))
        ∗ (∃ r, prngReg c r)) := by
  unfold Pipeline.ΦA; rw [scopedRest1_eq]; simp only [owns_whole]

/-- The body at any point: the inputs' buffers hold their blocks and the invariant lends the scratch at whatever it holds,
    so the body's triple applies; the scratch goes back at whatever it now holds, the rest passes through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = Pipeline.ΦA spec1 c from rfl, show (dat1 V c).Φ t.castSucc = Pipeline.ΦA spec1 c from rfl,
    show (dat1 V c).owesAt () t.succ = (dat1 V c).owesAt () t.castSucc from rfl,
    after1_0, after1_1, after1_2, after1_3, after1_4, after1_5, PhiA1_eq]
  iintro ⟨⟨⟨R0, R1, R2, R3, R4, R5, R6, R7, HS, Rrest⟩, Hg⟩, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [HS]; · iexact HS
  iintro ⟨H0, H1, H2, H3, H4, H5, HS⟩
  isplitl [R0 R1 R2 R3 R4 R5 R6 R7 HS Rrest Hg]
  · isplitl [R0 R1 R2 R3 R4 R5 R6 R7 HS Rrest]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [HS]; · iexact HS
      iexact Rrest
    iexact Hg
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Run

end
-- ==== Proof.KPass3Body.lean ====
import proofs.«120137_g2000002162550304_pallasbulk_397_2_alg».proof.Proof.Gen.Kernel.Launch
import proofs.«120137_g2000002162550304_pallasbulk_397_2_alg».proof.Proof.Gen.Kernel.Skeleton
import proofs.«120137_g2000002162550304_pallasbulk_397_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

/-! # The third pass on one image

At grid point `t` the body reads the image's conv2 output, the padded input image, the shortcut's weights and four
coefficient rows, and stores ONE block: relu of (conv2 output · s2 + b2) + (centre tap · ws · ss + bs), transposed.
This module states what the output block holds after the body as a function of the seven input blocks, and proves the
body does that. -/

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the pass finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 holds its block at every point, whether the point fetched it or the block stayed from before. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 holds its block at every point, whether the point fetched it or the block stayed from before. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2 holds its block at every point, whether the point fetched it or the block stayed from before. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3 holds its block at every point, whether the point fetched it or the block stayed from before. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4 holds its block at every point, whether the point fetched it or the block stayed from before. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5 holds its block at every point, whether the point fetched it or the block stayed from before. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6 holds its block at every point, whether the point fetched it or the block stayed from before. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the one store take the whole staging buffer -/
abbrev r2_0 : Rect S1x56x56x128 := Rect.unit (s := S1x56x56x128) ![0, 0, 0, 0] S1x56x56x128.size inb_S1x56x56x128_S1x56x56x128_0_0_0_0
abbrev r2_1 : Rect S1x58x58x64 := Rect.unit (s := S1x58x58x64) ![0, 0, 0, 0] S1x58x58x64.size inb_S1x58x58x64_S1x58x58x64_0_0_0_0
abbrev r2_2 : Rect S64x128 := Rect.unit (s := S64x128) ![0, 0] S64x128.size inb_S64x128_S64x128_0_0
abbrev r2_3 : Rect S1x128 := Rect.unit (s := S1x128) ![0, 0] S1x128.size inb_S1x128_S1x128_0_0
abbrev r2_4 : Rect S1x128 := Rect.unit (s := S1x128) ![0, 0] S1x128.size inb_S1x128_S1x128_0_0
abbrev r2_5 : Rect S1x128 := Rect.unit (s := S1x128) ![0, 0] S1x128.size inb_S1x128_S1x128_0_0
abbrev r2_6 : Rect S1x128 := Rect.unit (s := S1x128) ![0, 0] S1x128.size inb_S1x128_S1x128_0_0
abbrev r2_7 : Rect S1x128x3136 := Rect.unit (s := S1x128x3136) ![0, 0, 0] S1x128x3136.size inb_S1x128x3136_S1x128x3136_0_0_0

/-- The output block after the body: its one store over the input blocks. -/
def out2_7 (x0 : Vec F S1x56x56x128 .bf16) (x1 : Vec F S1x58x58x64 .bf16) (x2 : Vec F S64x128 .bf16) (x3 x4 x5 x6 : Vec F S1x128 .f32) : Vec F S1x128x3136 .f32 :=
  View.canon [⟨r2_7, k2_pay1 (View.ld x1 r2_1) (View.ld x2 r2_2) (View.ld x0 r2_0) (View.ld x3 r2_3) (View.ld x4 r2_4) (View.ld x5 r2_5) (View.ld x6 r2_6)⟩]

/-- The store takes the whole block. -/
theorem cover2_7 (p0 : Vec F S1x128x3136 .f32) (y : S1x128x3136.Idx) :
    ∃ pc ∈ ([⟨r2_7, p0⟩] : List (View.Piece (Elt F) S1x128x3136 .f32)), y ∈ pc.1.set :=
  View.cover_of_tiled [⟨r2_7, p0⟩] S1x128x3136.size (by rfl) y

set_option maxHeartbeats 4000000 in
/-- The body on whole staging buffers: the inputs stay as they were, the output ends at `out2_7` of the inputs. -/
theorem sound_kernel2 (c : Dev nD) (E : Set ℕ) (i : grid2.Coords)
    (arg1 : Memref sig .tc .vmem S1x56x56x128 .bf16) (harg1 : arg1.IsWhole) (arg2 : Memref sig .tc .vmem S1x58x58x64 .bf16) (harg2 : arg2.IsWhole)
    (arg3 : Memref sig .tc .vmem S64x128 .bf16) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128x3136 .f32) (harg8 : arg8.IsWhole)
    (x0 : Vec F S1x56x56x128 .bf16) (x1 : Vec F S1x58x58x64 .bf16) (x2 : Vec F S64x128 .bf16) (x3 x4 x5 x6 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out2_7 x0 x1 x2 x3 x4 x5 x6)) -∗ K ⟨⟩))
      ⊢ wp frame (wpE (defs₀ (F := F)) Variants.none c none) E (cc2__pass3_kernel i arg1 harg1 arg2 harg2 arg3 harg3 arg4 harg4 arg5 harg5 arg6 harg6 arg7 harg7 arg8 harg8) K := by
  simp only [cc2__pass3_kernel_eq_skeleton]; unfold cc2__pass3_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2_7 _)

end Cert.Kernel.Run

end
-- ==== Proof.KPass3Data.lean ====
import proofs.«120137_g2000002162550304_pallasbulk_397_2_alg».proof.Proof.KPass3Body

set_option maxRecDepth 16384

noncomputable section

/-! # The third pass at every grid point: what each window's buffer holds before and after the body -/

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The pass's proof data on core `c`: the arrays as the pass finds them; after the body at point `t` each input's
    buffer at its block and each output's at its function of the input blocks; nothing kept between points beyond the
    untouched scoped buffers and the generator register; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) (iblk2 V c 6 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the inputs' buffers hold their blocks, so the body's triple applies; the rest passes through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Run

end
-- ==== Proof.KRun.lean ====
import proofs.«120137_g2000002162550304_pallasbulk_397_2_alg».proof.Proof.KPass1Data
import proofs.«120137_g2000002162550304_pallasbulk_397_2_alg».proof.Proof.KPass2Data
import proofs.«120137_g2000002162550304_pallasbulk_397_2_alg».proof.Proof.KPass3Data
import proofs.«120137_g2000002162550304_pallasbulk_397_2_alg».proof.Proof.Gen.Kernel.Regions

set_option maxRecDepth 16384

noncomputable section

/-! # The whole run

The program is nine segments: three stretches of host operations (the transpose, the padding, the casts and reshapes of
the weights), the first pass, the host's BN1 and shortcut coefficients from the per-image moments, the second pass, the
host's BN2 coefficients, the third pass, and the final reshape. This module names what every unscoped buffer holds at each
boundary, as a fold from the launch memory, and proves that every weakly fair execution terminates, faults nowhere and
ends with every unscoped buffer at the last boundary's contents; the arguments come through unchanged because no host
operation writes one and no pass has one as a window's array. -/

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch, -/
abbrev W0 : Dev nD → Valuation τ sig (Elt F) := fun c b => (s₀ m ρ).mem ((c : Dev nD), b)
/-- after the transpose, -/
abbrev W1 : Dev nD → Valuation τ sig (Elt F) := fun c => StableHlo.after hostOps0 (W0 m ρ c)
/-- after the padding, -/
abbrev W2 : Dev nD → Valuation τ sig (Elt F) := fun c => StableHlo.after hostOps0_1 (W1 m ρ c)
/-- after the casts and the weights' reshapes: what the first pass finds. -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b

/-- At pass 1's exit: its windows' arrays at what the write-backs leave, every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- After the host's BN1 and shortcut coefficients: what the second pass finds. -/
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b

/-- At pass 2's exit: its windows' arrays at what the write-backs leave, every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-- After the host's BN2 coefficients: what the third pass finds. -/
abbrev W7 : Dev nD → Valuation τ sig (Elt F) := fun c => StableHlo.after hostOps2 (W6 m ρ c)
abbrev V7 : (c : Dev nD) → (b : Ref sig .tc) → Buf (Elt F) ((c : Thread nD τ).loc b) := fun c b => W7 m ρ c b

/-- At pass 3's exit: its windows' arrays at what the write-backs leave, every other buffer as entered. -/
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
abbrev V8 : (c : Dev nD) → (b : Ref sig .tc) → Buf (Elt F) ((c : Thread nD τ).loc b) := fun c b => W8 m ρ c b
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)

/-- After the final reshape: what the program ends with. -/
abbrev W9 : Dev nD → Valuation τ sig (Elt F) := fun c => StableHlo.after hostOps3 (W8 m ρ c)

/-! ## The arguments end as launched -/

theorem W9_main_arg0 (c : Dev nD) : W9 m ρ c (Proc.devRef .tc main_arg0) = m ((c : Thread nD τ).loc main_arg0) :=
  calc W9 m ρ c (Proc.devRef .tc main_arg0)
    _ = W8 m ρ c (Proc.devRef .tc main_arg0) := StableHlo.after_of_writes_sub hostOps3 _ hostOps3_writes (by decide)
    _ = W7 m ρ c (Proc.devRef .tc main_arg0) := W8_of_ne m ρ c main_arg0 (by decide)
    _ = W6 m ρ c (Proc.devRef .tc main_arg0) := StableHlo.after_of_writes_sub hostOps2 _ hostOps2_writes (by decide)
    _ = W5 m ρ c (Proc.devRef .tc main_arg0) := W6_of_ne m ρ c main_arg0 (by decide)
    _ = W4 m ρ c (Proc.devRef .tc main_arg0) := StableHlo.after_of_writes_sub hostOps1 _ hostOps1_writes (by decide)
    _ = W3 m ρ c (Proc.devRef .tc main_arg0) := W4_of_ne m ρ c main_arg0 (by decide)
    _ = W2 m ρ c (Proc.devRef .tc main_arg0) := StableHlo.after_of_writes_sub hostOps0_2 _ hostOps0_2_writes (by decide)
    _ = W1 m ρ c (Proc.devRef .tc main_arg0) := StableHlo.after_of_writes_sub hostOps0_1 _ hostOps0_1_writes (by decide)
    _ = W0 m ρ c (Proc.devRef .tc main_arg0) := StableHlo.after_of_writes_sub hostOps0 _ hostOps0_writes (by decide)
    _ = m ((c : Thread nD τ).loc main_arg0) := rfl

theorem W9_main_arg1 (c : Dev nD) : W9 m ρ c (Proc.devRef .tc main_arg1) = m ((c : Thread nD τ).loc main_arg1) :=
  calc W9 m ρ c (Proc.devRef .tc main_arg1)
    _ = W8 m ρ c (Proc.devRef .tc main_arg1) := StableHlo.after_of_writes_sub hostOps3 _ hostOps3_writes (by decide)
    _ = W7 m ρ c (Proc.devRef .tc main_arg1) := W8_of_ne m ρ c main_arg1 (by decide)
    _ = W6 m ρ c (Proc.devRef .tc main_arg1) := StableHlo.after_of_writes_sub hostOps2 _ hostOps2_writes (by decide)
    _ = W5 m ρ c (Proc.devRef .tc main_arg1) := W6_of_ne m ρ c main_arg1 (by decide)
    _ = W4 m ρ c (Proc.devRef .tc main_arg1) := StableHlo.after_of_writes_sub hostOps1 _ hostOps1_writes (by decide)
    _ = W3 m ρ c (Proc.devRef .tc main_arg1) := W4_of_ne m ρ c main_arg1 (by decide)
    _ = W2 m ρ c (Proc.devRef .tc main_arg1) := StableHlo.after_of_writes_sub hostOps0_2 _ hostOps0_2_writes (by decide)
    _ = W1 m ρ c (Proc.devRef .tc main_arg1) := StableHlo.after_of_writes_sub hostOps0_1 _ hostOps0_1_writes (by decide)
    _ = W0 m ρ c (Proc.devRef .tc main_arg1) := StableHlo.after_of_writes_sub hostOps0 _ hostOps0_writes (by decide)
    _ = m ((c : Thread nD τ).loc main_arg1) := rfl

theorem W9_main_arg2 (c : Dev nD) : W9 m ρ c (Proc.devRef .tc main_arg2) = m ((c : Thread nD τ).loc main_arg2) :=
  calc W9 m ρ c (Proc.devRef .tc main_arg2)
    _ = W8 m ρ c (Proc.devRef .tc main_arg2) := StableHlo.after_of_writes_sub hostOps3 _ hostOps3_writes (by decide)
    _ = W7 m ρ c (Proc.devRef .tc main_arg2) := W8_of_ne m ρ c main_arg2 (by decide)
    _ = W6 m ρ c (Proc.devRef .tc main_arg2) := StableHlo.after_of_writes_sub hostOps2 _ hostOps2_writes (by decide)
    _ = W5 m ρ c (Proc.devRef .tc main_arg2) := W6_of_ne m ρ c main_arg2 (by decide)
    _ = W4 m ρ c (Proc.devRef .tc main_arg2) := StableHlo.after_of_writes_sub hostOps1 _ hostOps1_writes (by decide)
    _ = W3 m ρ c (Proc.devRef .tc main_arg2) := W4_of_ne m ρ c main_arg2 (by decide)
    _ = W2 m ρ c (Proc.devRef .tc main_arg2) := StableHlo.after_of_writes_sub hostOps0_2 _ hostOps0_2_writes (by decide)
    _ = W1 m ρ c (Proc.devRef .tc main_arg2) := StableHlo.after_of_writes_sub hostOps0_1 _ hostOps0_1_writes (by decide)
    _ = W0 m ρ c (Proc.devRef .tc main_arg2) := StableHlo.after_of_writes_sub hostOps0 _ hostOps0_writes (by decide)
    _ = m ((c : Thread nD τ).loc main_arg2) := rfl

theorem W9_main_arg3 (c : Dev nD) : W9 m ρ c (Proc.devRef .tc main_arg3) = m ((c : Thread nD τ).loc main_arg3) :=
  calc W9 m ρ c (Proc.devRef .tc main_arg3)
    _ = W8 m ρ c (Proc.devRef .tc main_arg3) := StableHlo.after_of_writes_sub hostOps3 _ hostOps3_writes (by decide)
    _ = W7 m ρ c (Proc.devRef .tc main_arg3) := W8_of_ne m ρ c main_arg3 (by decide)
    _ = W6 m ρ c (Proc.devRef .tc main_arg3) := StableHlo.after_of_writes_sub hostOps2 _ hostOps2_writes (by decide)
    _ = W5 m ρ c (Proc.devRef .tc main_arg3) := W6_of_ne m ρ c main_arg3 (by decide)
    _ = W4 m ρ c (Proc.devRef .tc main_arg3) := StableHlo.after_of_writes_sub hostOps1 _ hostOps1_writes (by decide)
    _ = W3 m ρ c (Proc.devRef .tc main_arg3) := W4_of_ne m ρ c main_arg3 (by decide)
    _ = W2 m ρ c (Proc.devRef .tc main_arg3) := StableHlo.after_of_writes_sub hostOps0_2 _ hostOps0_2_writes (by decide)
    _ = W1 m ρ c (Proc.devRef .tc main_arg3) := StableHlo.after_of_writes_sub hostOps0_1 _ hostOps0_1_writes (by decide)
    _ = W0 m ρ c (Proc.devRef .tc main_arg3) := StableHlo.after_of_writes_sub hostOps0 _ hostOps0_writes (by decide)
    _ = m ((c : Thread nD τ).loc main_arg3) := rfl

theorem W9_main_arg4 (c : Dev nD) : W9 m ρ c (Proc.devRef .tc main_arg4) = m ((c : Thread nD τ).loc main_arg4) :=
  calc W9 m ρ c (Proc.devRef .tc main_arg4)
    _ = W8 m ρ c (Proc.devRef .tc main_arg4) := StableHlo.after_of_writes_sub hostOps3 _ hostOps3_writes (by decide)
    _ = W7 m ρ c (Proc.devRef .tc main_arg4) := W8_of_ne m ρ c main_arg4 (by decide)
    _ = W6 m ρ c (Proc.devRef .tc main_arg4) := StableHlo.after_of_writes_sub hostOps2 _ hostOps2_writes (by decide)
    _ = W5 m ρ c (Proc.devRef .tc main_arg4) := W6_of_ne m ρ c main_arg4 (by decide)
    _ = W4 m ρ c (Proc.devRef .tc main_arg4) := StableHlo.after_of_writes_sub hostOps1 _ hostOps1_writes (by decide)
    _ = W3 m ρ c (Proc.devRef .tc main_arg4) := W4_of_ne m ρ c main_arg4 (by decide)
    _ = W2 m ρ c (Proc.devRef .tc main_arg4) := StableHlo.after_of_writes_sub hostOps0_2 _ hostOps0_2_writes (by decide)
    _ = W1 m ρ c (Proc.devRef .tc main_arg4) := StableHlo.after_of_writes_sub hostOps0_1 _ hostOps0_1_writes (by decide)
    _ = W0 m ρ c (Proc.devRef .tc main_arg4) := StableHlo.after_of_writes_sub hostOps0 _ hostOps0_writes (by decide)
    _ = m ((c : Thread nD τ).loc main_arg4) := rfl

theorem W9_main_arg5 (c : Dev nD) : W9 m ρ c (Proc.devRef .tc main_arg5) = m ((c : Thread nD τ).loc main_arg5) :=
  calc W9 m ρ c (Proc.devRef .tc main_arg5)
    _ = W8 m ρ c (Proc.devRef .tc main_arg5) := StableHlo.after_of_writes_sub hostOps3 _ hostOps3_writes (by decide)
    _ = W7 m ρ c (Proc.devRef .tc main_arg5) := W8_of_ne m ρ c main_arg5 (by decide)
    _ = W6 m ρ c (Proc.devRef .tc main_arg5) := StableHlo.after_of_writes_sub hostOps2 _ hostOps2_writes (by decide)
    _ = W5 m ρ c (Proc.devRef .tc main_arg5) := W6_of_ne m ρ c main_arg5 (by decide)
    _ = W4 m ρ c (Proc.devRef .tc main_arg5) := StableHlo.after_of_writes_sub hostOps1 _ hostOps1_writes (by decide)
    _ = W3 m ρ c (Proc.devRef .tc main_arg5) := W4_of_ne m ρ c main_arg5 (by decide)
    _ = W2 m ρ c (Proc.devRef .tc main_arg5) := StableHlo.after_of_writes_sub hostOps0_2 _ hostOps0_2_writes (by decide)
    _ = W1 m ρ c (Proc.devRef .tc main_arg5) := StableHlo.after_of_writes_sub hostOps0_1 _ hostOps0_1_writes (by decide)
    _ = W0 m ρ c (Proc.devRef .tc main_arg5) := StableHlo.after_of_writes_sub hostOps0 _ hostOps0_writes (by decide)
    _ = m ((c : Thread nD τ).loc main_arg5) := rfl

theorem W9_main_arg6 (c : Dev nD) : W9 m ρ c (Proc.devRef .tc main_arg6) = m ((c : Thread nD τ).loc main_arg6) :=
  calc W9 m ρ c (Proc.devRef .tc main_arg6)
    _ = W8 m ρ c (Proc.devRef .tc main_arg6) := StableHlo.after_of_writes_sub hostOps3 _ hostOps3_writes (by decide)
    _ = W7 m ρ c (Proc.devRef .tc main_arg6) := W8_of_ne m ρ c main_arg6 (by decide)
    _ = W6 m ρ c (Proc.devRef .tc main_arg6) := StableHlo.after_of_writes_sub hostOps2 _ hostOps2_writes (by decide)
    _ = W5 m ρ c (Proc.devRef .tc main_arg6) := W6_of_ne m ρ c main_arg6 (by decide)
    _ = W4 m ρ c (Proc.devRef .tc main_arg6) := StableHlo.after_of_writes_sub hostOps1 _ hostOps1_writes (by decide)
    _ = W3 m ρ c (Proc.devRef .tc main_arg6) := W4_of_ne m ρ c main_arg6 (by decide)
    _ = W2 m ρ c (Proc.devRef .tc main_arg6) := StableHlo.after_of_writes_sub hostOps0_2 _ hostOps0_2_writes (by decide)
    _ = W1 m ρ c (Proc.devRef .tc main_arg6) := StableHlo.after_of_writes_sub hostOps0_1 _ hostOps0_1_writes (by decide)
    _ = W0 m ρ c (Proc.devRef .tc main_arg6) := StableHlo.after_of_writes_sub hostOps0 _ hostOps0_writes (by decide)
    _ = m ((c : Thread nD τ).loc main_arg6) := rfl

theorem W9_main_arg7 (c : Dev nD) : W9 m ρ c (Proc.devRef .tc main_arg7) = m ((c : Thread nD τ).loc main_arg7) :=
  calc W9 m ρ c (Proc.devRef .tc main_arg7)
    _ = W8 m ρ c (Proc.devRef .tc main_arg7) := StableHlo.after_of_writes_sub hostOps3 _ hostOps3_writes (by decide)
    _ = W7 m ρ c (Proc.devRef .tc main_arg7) := W8_of_ne m ρ c main_arg7 (by decide)
    _ = W6 m ρ c (Proc.devRef .tc main_arg7) := StableHlo.after_of_writes_sub hostOps2 _ hostOps2_writes (by decide)
    _ = W5 m ρ c (Proc.devRef .tc main_arg7) := W6_of_ne m ρ c main_arg7 (by decide)
    _ = W4 m ρ c (Proc.devRef .tc main_arg7) := StableHlo.after_of_writes_sub hostOps1 _ hostOps1_writes (by decide)
    _ = W3 m ρ c (Proc.devRef .tc main_arg7) := W4_of_ne m ρ c main_arg7 (by decide)
    _ = W2 m ρ c (Proc.devRef .tc main_arg7) := StableHlo.after_of_writes_sub hostOps0_2 _ hostOps0_2_writes (by decide)
    _ = W1 m ρ c (Proc.devRef .tc main_arg7) := StableHlo.after_of_writes_sub hostOps0_1 _ hostOps0_1_writes (by decide)
    _ = W0 m ρ c (Proc.devRef .tc main_arg7) := StableHlo.after_of_writes_sub hostOps0 _ hostOps0_writes (by decide)
    _ = m ((c : Thread nD τ).loc main_arg7) := rfl

theorem W9_main_arg8 (c : Dev nD) : W9 m ρ c (Proc.devRef .tc main_arg8) = m ((c : Thread nD τ).loc main_arg8) :=
  calc W9 m ρ c (Proc.devRef .tc main_arg8)
    _ = W8 m ρ c (Proc.devRef .tc main_arg8) := StableHlo.after_of_writes_sub hostOps3 _ hostOps3_writes (by decide)
    _ = W7 m ρ c (Proc.devRef .tc main_arg8) := W8_of_ne m ρ c main_arg8 (by decide)
    _ = W6 m ρ c (Proc.devRef .tc main_arg8) := StableHlo.after_of_writes_sub hostOps2 _ hostOps2_writes (by decide)
    _ = W5 m ρ c (Proc.devRef .tc main_arg8) := W6_of_ne m ρ c main_arg8 (by decide)
    _ = W4 m ρ c (Proc.devRef .tc main_arg8) := StableHlo.after_of_writes_sub hostOps1 _ hostOps1_writes (by decide)
    _ = W3 m ρ c (Proc.devRef .tc main_arg8) := W4_of_ne m ρ c main_arg8 (by decide)
    _ = W2 m ρ c (Proc.devRef .tc main_arg8) := StableHlo.after_of_writes_sub hostOps0_2 _ hostOps0_2_writes (by decide)
    _ = W1 m ρ c (Proc.devRef .tc main_arg8) := StableHlo.after_of_writes_sub hostOps0_1 _ hostOps0_1_writes (by decide)
    _ = W0 m ρ c (Proc.devRef .tc main_arg8) := StableHlo.after_of_writes_sub hostOps0 _ hostOps0_writes (by decide)
    _ = m ((c : Thread nD τ).loc main_arg8) := rfl

theorem W9_main_arg9 (c : Dev nD) : W9 m ρ c (Proc.devRef .tc main_arg9) = m ((c : Thread nD τ).loc main_arg9) :=
  calc W9 m ρ c (Proc.devRef .tc main_arg9)
    _ = W8 m ρ c (Proc.devRef .tc main_arg9) := StableHlo.after_of_writes_sub hostOps3 _ hostOps3_writes (by decide)
    _ = W7 m ρ c (Proc.devRef .tc main_arg9) := W8_of_ne m ρ c main_arg9 (by decide)
    _ = W6 m ρ c (Proc.devRef .tc main_arg9) := StableHlo.after_of_writes_sub hostOps2 _ hostOps2_writes (by decide)
    _ = W5 m ρ c (Proc.devRef .tc main_arg9) := W6_of_ne m ρ c main_arg9 (by decide)
    _ = W4 m ρ c (Proc.devRef .tc main_arg9) := StableHlo.after_of_writes_sub hostOps1 _ hostOps1_writes (by decide)
    _ = W3 m ρ c (Proc.devRef .tc main_arg9) := W4_of_ne m ρ c main_arg9 (by decide)
    _ = W2 m ρ c (Proc.devRef .tc main_arg9) := StableHlo.after_of_writes_sub hostOps0_2 _ hostOps0_2_writes (by decide)
    _ = W1 m ρ c (Proc.devRef .tc main_arg9) := StableHlo.after_of_writes_sub hostOps0_1 _ hostOps0_1_writes (by decide)
    _ = W0 m ρ c (Proc.devRef .tc main_arg9) := StableHlo.after_of_writes_sub hostOps0 _ hostOps0_writes (by decide)
    _ = m ((c : Thread nD τ).loc main_arg9) := rfl

/-! ## The proof data family and what rides beside the buffers -/

abbrev adm : (p : Fin 3) → (pcfgs (F := F) p).Adm := fun p => (cfgs p).toPCfg_adm
/-- Every pass's proof data, each at what the pass finds. -/
def pdats : (p : Fin 3) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V7 m ρ) c
abbrev 𝒱₀ : Variants := Variants.none
abbrev L : GSem nD τ sig → Finset Unit := fun _ => ∅
abbrev lv : GSem nD τ sig → Unit → ℕ := fun _ _ => 0
/-- Beside the buffers through every segment: the core's generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W9 m ρ c) ∗ ∃ r, prngReg c r)

/-! ## The passes as segments -/

set_option backward.isDefEq.respectTransparency.types false in
/-- Pass 1 as a segment: entered from every unscoped buffer at `W3`, left at `W4`. Its windows' arrays are split
    out of the unscoped buffers and put back at what the write-backs leave; the generator register goes into the pass's
    invariant and comes back; nothing is owed; the pass has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pass 2 as a segment: entered from every unscoped buffer at `W5`, left at `W6`. Its windows' arrays are split
    out of the unscoped buffers and put back at what the write-backs leave; the generator register goes into the pass's
    invariant and comes back; nothing is owed; the pass has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pass 3 as a segment: entered from every unscoped buffer at `W7`, left at `W8`. Its windows' arrays are split
    out of the unscoped buffers and put back at what the write-backs leave; the generator register goes into the pass's
    invariant and comes back; nothing is owed; the pass has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ),
    .host (hseg hostOps3 hostOps3_sub hostOps3_fresh (W8 m ρ)) ]

theorem main_run (c : Dev nD) : main (F := F) c = Pipeline.Seg.run (segs m ρ) := (main_chain c).trans (by chain_rfl)

set_option backward.isDefEq.respectTransparency.types false in
/-- Every weakly fair execution from memory `m` with zero counters terminates, nothing faulting, and every final state has
    every unscoped buffer of every core at the last boundary's contents `W9`. -/
theorem run_named : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl,
      fun c => by
        show (iprop(StableHlo.held (c : Thread nD τ) (Pipeline.ucRefs τ sig) (W9 m ρ c) ∗ R c) : sProp 𝕄) ⊢ _
        iintro ⟨Hh, Hp, Ho⟩
        isplitl [Hh Hp]
        · isplitl [Hh]; · iexact Hh
          iexact Hp
        iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_arg0 (by decide))).trans (W9_main_arg0 m ρ c),
    (h c _ (mem_uc main_arg1 (by decide))).trans (W9_main_arg1 m ρ c),
    (h c _ (mem_uc main_arg2 (by decide))).trans (W9_main_arg2 m ρ c),
    (h c _ (mem_uc main_arg3 (by decide))).trans (W9_main_arg3 m ρ c),
    (h c _ (mem_uc main_arg4 (by decide))).trans (W9_main_arg4 m ρ c),
    (h c _ (mem_uc main_arg5 (by decide))).trans (W9_main_arg5 m ρ c),
    (h c _ (mem_uc main_arg6 (by decide))).trans (W9_main_arg6 m ρ c),
    (h c _ (mem_uc main_arg7 (by decide))).trans (W9_main_arg7 m ρ c),
    (h c _ (mem_uc main_arg8 (by decide))).trans (W9_main_arg8 m ρ c),
    (h c _ (mem_uc main_arg9 (by decide))).trans (W9_main_arg9 m ρ c)⟩) (run_named m ρ)

end Cert.Kernel.Run

end
-- ==== Proof.KIPass1Body.lean ====
import proofs.«120137_g2000002162550304_pallasbulk_397_2_alg».proof.Proof.Gen.KernelIdeal.Launch
import proofs.«120137_g2000002162550304_pallasbulk_397_2_alg».proof.Proof.Gen.KernelIdeal.Skeleton
import proofs.«120137_g2000002162550304_pallasbulk_397_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

/-! # The first pass on one image

At grid point `t` the body reads the padded image, the nine 64-row slabs of conv1's weights and the shortcut's
weights, and stores two blocks: the image's conv1 output (nine shifted taps, each times its slab, added up) and a block
of eight rows whose first four are the column sums of conv1, of its square, of the shortcut and of its square, the rest
zero. This module states both blocks as functions of the three input blocks and proves the body does that. -/

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the pass finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 holds its block at every point, whether the point fetched it or the block stayed from before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 holds its block at every point, whether the point fetched it or the block stayed from before. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 holds its block at every point, whether the point fetched it or the block stayed from before. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: the image and the shortcut's weights whole, conv1's weights one 64-row slab per tap -/
abbrev r0_x : Rect S1x58x58x64 := Rect.unit (s := S1x58x58x64) ![0, 0, 0, 0] S1x58x58x64.size inb_S1x58x58x64_S1x58x58x64_0_0_0_0
abbrev r0_w0 : Rect S576x128 := Rect.unit (s := S576x128) ![0, 0] S64x128.size inb_S576x128_S64x128_0_0
abbrev r0_w1 : Rect S576x128 := Rect.unit (s := S576x128) ![64, 0] S64x128.size inb_S576x128_S64x128_64_0
abbrev r0_w2 : Rect S576x128 := Rect.unit (s := S576x128) ![128, 0] S64x128.size inb_S576x128_S64x128_128_0
abbrev r0_w3 : Rect S576x128 := Rect.unit (s := S576x128) ![192, 0] S64x128.size inb_S576x128_S64x128_192_0
abbrev r0_w4 : Rect S576x128 := Rect.unit (s := S576x128) ![256, 0] S64x128.size inb_S576x128_S64x128_256_0
abbrev r0_w5 : Rect S576x128 := Rect.unit (s := S576x128) ![320, 0] S64x128.size inb_S576x128_S64x128_320_0
abbrev r0_w6 : Rect S576x128 := Rect.unit (s := S576x128) ![384, 0] S64x128.size inb_S576x128_S64x128_384_0
abbrev r0_w7 : Rect S576x128 := Rect.unit (s := S576x128) ![448, 0] S64x128.size inb_S576x128_S64x128_448_0
abbrev r0_w8 : Rect S576x128 := Rect.unit (s := S576x128) ![512, 0] S64x128.size inb_S576x128_S64x128_512_0
abbrev r0_s : Rect S64x128 := Rect.unit (s := S64x128) ![0, 0] S64x128.size inb_S64x128_S64x128_0_0
abbrev r0_3 : Rect S1x56x56x128 := Rect.unit (s := S1x56x56x128) ![0, 0, 0, 0] S1x56x56x128.size inb_S1x56x56x128_S1x56x56x128_0_0_0_0
abbrev r0_4 : Rect S1x8x128 := Rect.unit (s := S1x8x128) ![0, 0, 0] S1x8x128.size inb_S1x8x128_S1x8x128_0_0_0

/-- The conv1 block after the body: its one store over the input blocks. -/
def out0_3 (x0 : Vec F S1x58x58x64 .bf16) (x1 : Vec F S576x128 .bf16) : Vec F S1x56x56x128 .bf16 :=
  View.canon [⟨r0_3, k0_pay8 (k0_pay2 (View.ld x0 r0_x)) (k0_pay4 (View.ld x0 r0_x) (View.ld x1 r0_w0) (View.ld x1 r0_w1) (View.ld x1 r0_w2) (View.ld x1 r0_w3) (View.ld x1 r0_w4)) (k0_pay5 (View.ld x0 r0_x))
    (View.ld x1 r0_w5) (View.ld x1 r0_w6) (View.ld x1 r0_w7) (View.ld x1 r0_w8)⟩]

/-- The moments block after the body: its one store over the input blocks. -/
def out0_4 (x0 : Vec F S1x58x58x64 .bf16) (x1 : Vec F S576x128 .bf16) (x2 : Vec F S64x128 .bf16) : Vec F S1x8x128 .f32 :=
  View.canon [⟨r0_4, k0_pay1
    (k0_pay9 (k0_pay2 (View.ld x0 r0_x)) (k0_pay4 (View.ld x0 r0_x) (View.ld x1 r0_w0) (View.ld x1 r0_w1) (View.ld x1 r0_w2) (View.ld x1 r0_w3) (View.ld x1 r0_w4)) (k0_pay5 (View.ld x0 r0_x))
      (View.ld x1 r0_w5) (View.ld x1 r0_w6) (View.ld x1 r0_w7) (View.ld x1 r0_w8))
    (k0_pay10 (k0_pay2 (View.ld x0 r0_x)) (k0_pay4 (View.ld x0 r0_x) (View.ld x1 r0_w0) (View.ld x1 r0_w1) (View.ld x1 r0_w2) (View.ld x1 r0_w3) (View.ld x1 r0_w4)) (k0_pay5 (View.ld x0 r0_x))
      (View.ld x1 r0_w5) (View.ld x1 r0_w6) (View.ld x1 r0_w7) (View.ld x1 r0_w8))
    (k0_pay11 (k0_pay3 (View.ld x0 r0_x)) (View.ld x2 r0_s)) (k0_pay12 (k0_pay3 (View.ld x0 r0_x)) (View.ld x2 r0_s)) (Scalar.ofBits .f32 0x00000000#32)⟩]

/-- Each store takes its whole block. -/
theorem cover0_3 (p0 : Vec F S1x56x56x128 .bf16) (y : S1x56x56x128.Idx) :
    ∃ pc ∈ ([⟨r0_3, p0⟩] : List (View.Piece (Elt F) S1x56x56x128 .bf16)), y ∈ pc.1.set :=
  View.cover_of_tiled [⟨r0_3, p0⟩] S1x56x56x128.size (by rfl) y
theorem cover0_4 (p0 : Vec F S1x8x128 .f32) (y : S1x8x128.Idx) :
    ∃ pc ∈ ([⟨r0_4, p0⟩] : List (View.Piece (Elt F) S1x8x128 .f32)), y ∈ pc.1.set :=
  View.cover_of_tiled [⟨r0_4, p0⟩] S1x8x128.size (by rfl) y

set_option maxHeartbeats 4000000 in
/-- The body on whole staging buffers: the inputs stay as they were, the outputs end at `out0_3` and `out0_4` of the inputs. -/
theorem sound_kernel0 (c : Dev nD) (E : Set ℕ) (i : grid0.Coords)
    (arg1 : Memref sig .tc .vmem S1x58x58x64 .bf16) (harg1 : arg1.IsWhole) (arg2 : Memref sig .tc .vmem S576x128 .bf16) (harg2 : arg2.IsWhole)
    (arg3 : Memref sig .tc .vmem S64x128 .bf16) (harg3 : arg3.IsWhole) (arg4 : Memref sig .tc .vmem S1x56x56x128 .bf16) (harg4 : arg4.IsWhole)
    (arg5 : Memref sig .tc .vmem S1x8x128 .f32) (harg5 : arg5.IsWhole)
    (x0 : Vec F S1x58x58x64 .bf16) (x1 : Vec F S576x128 .bf16) (x2 : Vec F S64x128 .bf16) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1) ∗ owns (c : Thread nD τ) arg5 fullShare (out0_4 x0 x1 x2)) -∗ K ⟨⟩))
      ⊢ wp frame (wpE (defs₀ (F := F)) Variants.none c none) E (cc0__pass1_kernel i arg1 harg1 arg2 harg2 arg3 harg3 arg4 harg4 arg5 harg5) K := by
  simp only [cc0__pass1_kernel_eq_skeleton]; unfold cc0__pass1_kernel_skel
  simp only [k0_part1_eq_skeleton, k0_part2_eq_skeleton]
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_3 _)
  iexists _; isplitr
  swap; · iexact H4
  ipureintro
  exact View.read_writes_eq_canon _ _ _ (cover0_4 _)

end Cert.KernelIdeal.Run

end
-- ==== Proof.KIPass1Data.lean ====
import proofs.«120137_g2000002162550304_pallasbulk_397_2_alg».proof.Proof.KIPass1Body

set_option maxRecDepth 16384

noncomputable section

/-! # The first pass at every grid point: what each window's buffer holds before and after the body -/

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The pass's proof data on core `c`: the arrays as the pass finds them; after the body at point `t` each input's
    buffer at its block and each output's at its function of the input blocks; nothing kept between points beyond the
    untouched scoped buffers and the generator register; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
    | ⟨4, _⟩ => out0_4 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the body's triple applies; the rest passes through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Run

end
-- ==== Proof.KIPass2Scratch.lean ====
import proofs.«120137_g2000002162550304_pallasbulk_397_2_alg».proof.Proof.Gen.KernelIdeal.Skeleton
import proofs.«120137_g2000002162550304_pallasbulk_397_2_alg».proof.Proof.LibStoreReadBack
import Idealize.ShloMosaic.Lib.Pipeline.FrameBody
import Idealize.ShloMosaic.Lib.ValueIdx

set_option maxRecDepth 16384

noncomputable section

/-! # The second pass's padded scratch image

Before its nine taps the body rebuilds a 58 × 58 image in a scratch buffer: a row of zeros on top and at the bottom, a
column of zeros on the left and on the right, and in the middle the 56 × 56 block `a` (the normalised, clamped conv1
output). The two columns and the middle are stored as rows that are part of their machine words, so each of those
stores first loads a wider box and puts it back with the stored window replaced. Whatever the scratch held before,
it ends holding `padded a`: every element lies in the window of one of the five stores, and is read from the last
store whose window holds it. -/

namespace Cert.KernelIdeal.Run

open Cert.KernelIdeal Cert.KernelIdeal.Gen
open Idealize.ShloMosaic Idealize.ShloMosaic.ValueIdx

variable {F : FTy → Type} [FloatOps F]
variable {sig' : RefSig} {κ : Kind} {sp : Space} (v : View sig' κ sp S58x58x128 .bf16) (f : v.ty.Contents (Elt F))

/-- The store of the top row, -/
def pcTop : View.Piece (Elt F) S58x58x128 .bf16 := ⟨Rect.unit (s := S58x58x128) ![0, 0, 0] S1x58x128.size inb_S58x58x128_S1x58x128_0_0_0, k1_pay1⟩
/-- of the bottom row, -/
def pcBot : View.Piece (Elt F) S58x58x128 .bf16 := ⟨Rect.unit (s := S58x58x128) ![57, 0, 0] S1x58x128.size inb_S58x58x128_S1x58x128_57_0_0, k1_pay2⟩
/-- The stores of the top and bottom rows (the bottom one last). -/
def padW2 : List (View.Piece (Elt F) S58x58x128 .bf16) := [pcBot, pcTop]
/-- then the left column, through the box of columns 0 and 1, -/
def pcLeft : View.Piece (Elt F) S58x58x128 .bf16 :=
  ⟨Rect.unit (s := S58x58x128) ![0, 0, 0] S58x2x128.size inb_S58x58x128_S58x2x128_0_0_0, updateSlice (v.readAt (Elt F) (Rect.unit (s := S58x58x128) ![0, 0, 0] S58x2x128.size inb_S58x58x128_S58x2x128_0_0_0).toLoadRect (v.writes (Elt F) f padW2)) k1_pay3 ![0, 0, 0] slices_S58x2x128_S58x1x128_0_0_0⟩
def padW3 : List (View.Piece (Elt F) S58x58x128 .bf16) := pcLeft v f :: padW2
/-- the right column, through the box of columns 56 and 57, -/
def pcRight : View.Piece (Elt F) S58x58x128 .bf16 :=
  ⟨Rect.unit (s := S58x58x128) ![0, 56, 0] S58x2x128.size inb_S58x58x128_S58x2x128_0_56_0, updateSlice (v.readAt (Elt F) (Rect.unit (s := S58x58x128) ![0, 56, 0] S58x2x128.size inb_S58x58x128_S58x2x128_0_56_0).toLoadRect (v.writes (Elt F) f (padW3 v f))) k1_pay4 ![0, 1, 0] slices_S58x2x128_S58x1x128_0_1_0⟩
def padW4 : List (View.Piece (Elt F) S58x58x128 .bf16) := pcRight v f :: padW3 v f
/-- and the middle, through the box of rows 1 to 56 at all columns. -/
def pcMid (a : Vec F S56x56x128 .bf16) : View.Piece (Elt F) S58x58x128 .bf16 :=
  ⟨Rect.unit (s := S58x58x128) ![1, 0, 0] S56x58x128.size inb_S58x58x128_S56x58x128_1_0_0, updateSlice (v.readAt (Elt F) (Rect.unit (s := S58x58x128) ![1, 0, 0] S56x58x128.size inb_S58x58x128_S56x58x128_1_0_0).toLoadRect (v.writes (Elt F) f (padW4 v f))) a ![0, 1, 0] slices_S56x58x128_S56x56x128_0_1_0⟩
def padW5 (a : Vec F S56x56x128 .bf16) : List (View.Piece (Elt F) S58x58x128 .bf16) := pcMid v f a :: padW4 v f

/-- The padded image: `a` in the middle, around it what the four border stores put down. -/
def padded (a : Vec F S56x56x128 .bf16) : Vec F S58x58x128 .bf16 := fun y =>
  if h : 1 ≤ (y 0).val ∧ (y 0).val ≤ 56 ∧ 1 ≤ (y 1).val ∧ (y 1).val ≤ 56 then
    a (ix3 (n0 := 56) (n1 := 56) (n2 := 128) ⟨(y 0).val - 1, by omega⟩ ⟨(y 1).val - 1, by omega⟩ (y 2))
  else if (y 1).val = 57 then k1_pay4 (F := F) (ix3 (n0 := 58) (n1 := 1) (n2 := 128) (y 0) 0 (y 2))
  else if (y 1).val = 0 then k1_pay3 (F := F) (ix3 (n0 := 58) (n1 := 1) (n2 := 128) (y 0) 0 (y 2))
  else if (y 0).val = 57 then k1_pay2 (F := F) (ix3 (n0 := 1) (n1 := 58) (n2 := 128) 0 (y 1) (y 2))
  else k1_pay1 (F := F) (ix3 (n0 := 1) (n1 := 58) (n2 := 128) 0 (y 1) (y 2))

/-- After the five stores the scratch reads the padded image at every element, whatever it held before. -/
theorem read_padW5 (a : Vec F S56x56x128 .bf16) (y : S58x58x128.Idx) :
    v.read (Elt F) (v.writes (Elt F) f (padW5 v f a)) y = padded a y := by
  have h0 : (y 0).val < 58 := (y 0).isLt
  have h1 : (y 1).val < 58 := (y 1).isLt
  unfold padded
  by_cases hin : 1 ≤ (y 0).val ∧ (y 0).val ≤ 56 ∧ 1 ≤ (y 1).val ∧ (y 1).val ≤ 56
  · rw [dif_pos hin]
    exact View.read_blend_in v f ![1, 0, 0] S56x58x128.size inb_S58x58x128_S56x58x128_1_0_0 a ![0, 1, 0] slices_S56x58x128_S56x56x128_0_1_0 (padW4 v f) y
      (ix3 (n0 := 56) (n1 := 56) (n2 := 128) ⟨(y 0).val - 1, by omega⟩ ⟨(y 1).val - 1, by omega⟩ (y 2))
      (fun a => match a with
        | ⟨0, _⟩ => by show (y 0).val = 1 + 0 + ((y 0).val - 1); omega
        | ⟨1, _⟩ => by show (y 1).val = 0 + 1 + ((y 1).val - 1); omega
        | ⟨2, _⟩ => by show (y 2).val = 0 + 0 + (y 2).val; omega)
  · rw [dif_neg hin]
    -- an element off the middle window is left by the middle store as the four border stores left it
    have e5 : v.read (Elt F) (v.writes (Elt F) f (padW5 v f a)) y = v.read (Elt F) (v.writes (Elt F) f (padW4 v f)) y :=
      View.read_blend_out v f ![1, 0, 0] S56x58x128.size inb_S58x58x128_S56x58x128_1_0_0 a ![0, 1, 0] slices_S56x58x128_S56x56x128_0_1_0 (padW4 v f) y (by
        rcases (by omega : (y 0).val = 0 ∨ (y 0).val = 57 ∨ (y 1).val = 0 ∨ (y 1).val = 57) with h | h | h | h
        · exact ⟨0, Or.inl (by show (y 0).val < 1 + 0; omega)⟩
        · exact ⟨0, Or.inr (by show 1 + 0 + 56 ≤ (y 0).val; omega)⟩
        · exact ⟨1, Or.inl (by show (y 1).val < 0 + 1; omega)⟩
        · exact ⟨1, Or.inr (by show 0 + 1 + 56 ≤ (y 1).val; omega)⟩)
    rw [e5]
    by_cases h57 : (y 1).val = 57
    · -- the right column: the last border store
      rw [if_pos h57]
      exact View.read_blend_in v f ![0, 56, 0] S58x2x128.size inb_S58x58x128_S58x2x128_0_56_0 k1_pay4 ![0, 1, 0] slices_S58x2x128_S58x1x128_0_1_0 (padW3 v f) y
        (ix3 (n0 := 58) (n1 := 1) (n2 := 128) (y 0) 0 (y 2))
        (fun a => match a with
          | ⟨0, _⟩ => by show (y 0).val = 0 + 0 + (y 0).val; omega
          | ⟨1, _⟩ => by show (y 1).val = 56 + 1 + 0; omega
          | ⟨2, _⟩ => by show (y 2).val = 0 + 0 + (y 2).val; omega)
    · rw [if_neg h57]
      -- off the right column, the right column's store leaves the element as the stores before it did
      have e4 : v.read (Elt F) (v.writes (Elt F) f (padW4 v f)) y = v.read (Elt F) (v.writes (Elt F) f (padW3 v f)) y :=
        View.read_blend_out v f ![0, 56, 0] S58x2x128.size inb_S58x58x128_S58x2x128_0_56_0 k1_pay4 ![0, 1, 0] slices_S58x2x128_S58x1x128_0_1_0 (padW3 v f) y ⟨1, Or.inl (by show (y 1).val < 56 + 1; omega)⟩
      rw [e4]
      by_cases hc0 : (y 1).val = 0
      · -- the left column
        rw [if_pos hc0]
        exact View.read_blend_in v f ![0, 0, 0] S58x2x128.size inb_S58x58x128_S58x2x128_0_0_0 k1_pay3 ![0, 0, 0] slices_S58x2x128_S58x1x128_0_0_0 padW2 y
          (ix3 (n0 := 58) (n1 := 1) (n2 := 128) (y 0) 0 (y 2))
          (fun a => match a with
            | ⟨0, _⟩ => by show (y 0).val = 0 + 0 + (y 0).val; omega
            | ⟨1, _⟩ => by show (y 1).val = 0 + 0 + 0; omega
            | ⟨2, _⟩ => by show (y 2).val = 0 + 0 + (y 2).val; omega)
      · rw [if_neg hc0]
        -- off both columns: the top or the bottom row, as the two row stores left it
        have e3 : v.read (Elt F) (v.writes (Elt F) f (padW3 v f)) y = v.read (Elt F) (v.writes (Elt F) f padW2) y :=
          View.read_blend_out v f ![0, 0, 0] S58x2x128.size inb_S58x58x128_S58x2x128_0_0_0 k1_pay3 ![0, 0, 0] slices_S58x2x128_S58x1x128_0_0_0 padW2 y ⟨1, Or.inr (by show 0 + 0 + 1 ≤ (y 1).val; omega)⟩
        rw [e3]
        by_cases hr : (y 0).val = 57
        · rw [if_pos hr]
          exact View.read_store_in v f ![57, 0, 0] S1x58x128.size inb_S58x58x128_S1x58x128_57_0_0 k1_pay2 [pcTop] y
            (ix3 (n0 := 1) (n1 := 58) (n2 := 128) 0 (y 1) (y 2))
            (fun a => match a with
              | ⟨0, _⟩ => by show (y 0).val = 57 + 0; omega
              | ⟨1, _⟩ => by show (y 1).val = 0 + (y 1).val; omega
              | ⟨2, _⟩ => by show (y 2).val = 0 + (y 2).val; omega)
        · rw [if_neg hr]
          have e2 : v.read (Elt F) (v.writes (Elt F) f padW2) y = v.read (Elt F) (v.writes (Elt F) f [pcTop]) y :=
            View.read_store_out v f ![57, 0, 0] S1x58x128.size inb_S58x58x128_S1x58x128_57_0_0 k1_pay2 [pcTop] y
              ⟨0, Or.inl (by show (y 0).val < 57; omega)⟩
          rw [e2]
          exact View.read_store_in v f ![0, 0, 0] S1x58x128.size inb_S58x58x128_S1x58x128_0_0_0 k1_pay1 [] y
            (ix3 (n0 := 1) (n1 := 58) (n2 := 128) 0 (y 1) (y 2))
            (fun a => match a with
              | ⟨0, _⟩ => by show (y 0).val = 0 + 0; omega
              | ⟨1, _⟩ => by show (y 1).val = 0 + (y 1).val; omega
              | ⟨2, _⟩ => by show (y 2).val = 0 + (y 2).val; omega)

/-- Every element lies in the box of one of the five stores: rows 1 to 56 in the middle store's, the other two in a row store's. -/
theorem cover_padW5 (a : Vec F S56x56x128 .bf16) (y : S58x58x128.Idx) : ∃ p ∈ padW5 v f a, y ∈ p.1.set := by
  have h0 : (y 0).val < 58 := (y 0).isLt
  have h1 : (y 1).val < 58 := (y 1).isLt
  have h2 : (y 2).val < 128 := (y 2).isLt
  by_cases hm : 1 ≤ (y 0).val ∧ (y 0).val ≤ 56
  · refine ⟨pcMid v f a, List.mem_cons_self, ?_⟩
    show y ∈ (Rect.unit (s := S58x58x128) ![1, 0, 0] S56x58x128.size inb_S58x58x128_S56x58x128_1_0_0).set
    exact Rect.mem_set_unit.mpr fun a => match a with
      | ⟨0, _⟩ => ⟨by show 1 ≤ (y 0).val; omega, by show (y 0).val < 1 + 56; omega⟩
      | ⟨1, _⟩ => ⟨by show 0 ≤ (y 1).val; omega, by show (y 1).val < 0 + 58; omega⟩
      | ⟨2, _⟩ => ⟨by show 0 ≤ (y 2).val; omega, by show (y 2).val < 0 + 128; omega⟩
  · by_cases hb : (y 0).val = 57
    · refine ⟨pcBot, List.mem_cons_of_mem _ (List.mem_cons_of_mem _ (List.mem_cons_of_mem _ List.mem_cons_self)), ?_⟩
      show y ∈ (Rect.unit (s := S58x58x128) ![57, 0, 0] S1x58x128.size inb_S58x58x128_S1x58x128_57_0_0).set
      exact Rect.mem_set_unit.mpr fun a => match a with
        | ⟨0, _⟩ => ⟨by show 57 ≤ (y 0).val; omega, by show (y 0).val < 57 + 1; omega⟩
        | ⟨1, _⟩ => ⟨by show 0 ≤ (y 1).val; omega, by show (y 1).val < 0 + 58; omega⟩
        | ⟨2, _⟩ => ⟨by show 0 ≤ (y 2).val; omega, by show (y 2).val < 0 + 128; omega⟩
    · refine ⟨pcTop, List.mem_cons_of_mem _ (List.mem_cons_of_mem _ (List.mem_cons_of_mem _ (List.mem_cons_of_mem _ List.mem_cons_self))), ?_⟩
      show y ∈ (Rect.unit (s := S58x58x128) ![0, 0, 0] S1x58x128.size inb_S58x58x128_S1x58x128_0_0_0).set
      exact Rect.mem_set_unit.mpr fun a => match a with
        | ⟨0, _⟩ => ⟨by show 0 ≤ (y 0).val; omega, by show (y 0).val < 0 + 1; omega⟩
        | ⟨1, _⟩ => ⟨by show 0 ≤ (y 1).val; omega, by show (y 1).val < 0 + 58; omega⟩
        | ⟨2, _⟩ => ⟨by show 0 ≤ (y 2).val; omega, by show (y 2).val < 0 + 128; omega⟩

/-- So a load of the whole scratch after the five stores reads the padded image. -/
theorem readCov_padW5 (a : Vec F S56x56x128 .bf16) :
    v.readCov (padW5 v f a) (Rect.unit (s := S58x58x128) ![0, 0, 0] S58x58x128.size inb_S58x58x128_S58x58x128_0_0_0).toLoadRect = padded a := by
  rw [View.readCov_eq_canon']
  funext j
  rw [← View.read_writes_apply_eq_canon v f _ _ (cover_padW5 v f a _), read_padW5]
  exact congrArg (padded a) (funext fun b => Fin.ext (match b with
    | ⟨0, _⟩ => by show 0 + 1 * (j 0).val = (j 0).val; omega
    | ⟨1, _⟩ => by show 0 + 1 * (j 1).val = (j 1).val; omega
    | ⟨2, _⟩ => by show 0 + 1 * (j 2).val = (j 2).val; omega))

end Cert.KernelIdeal.Run

end
-- ==== Proof.KIPass2Body.lean ====
import proofs.«120137_g2000002162550304_pallasbulk_397_2_alg».proof.Proof.Gen.KernelIdeal.Launch
import proofs.«120137_g2000002162550304_pallasbulk_397_2_alg».proof.Proof.Gen.KernelIdeal.Skeleton
import proofs.«120137_g2000002162550304_pallasbulk_397_2_alg».proof.Proof.Gen.KernelIdeal.Points
import proofs.«120137_g2000002162550304_pallasbulk_397_2_alg».proof.Proof.KIPass2Scratch
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

/-! # The second pass on one image

At grid point `t` the body reads the image's conv1 output, the two BN1 coefficient rows and the nine 128-row slabs of
conv2's weights. It rebuilds the padded image in its scratch (zero border, clamped normalised conv1 output inside), takes
the nine shifted taps of it, and stores two blocks: the image's conv2 output and eight rows of moments (column sums of
conv2 and of its square, then zeros). The scratch is rewritten whole at every point, so nothing is kept between points:
this module states both blocks as functions of the four input blocks and proves the body does that from ANY scratch. -/

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the pass finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 holds its block at every point, whether the point fetched it or the block stayed from before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 holds its block at every point, whether the point fetched it or the block stayed from before. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 holds its block at every point, whether the point fetched it or the block stayed from before. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3 holds its block at every point, whether the point fetched it or the block stayed from before. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses to its windows: the image and the coefficient rows whole, conv2's weights one 128-row slab per tap -/
abbrev r1_y : Rect S1x56x56x128 := Rect.unit (s := S1x56x56x128) ![0, 0, 0, 0] S1x56x56x128.size inb_S1x56x56x128_S1x56x56x128_0_0_0_0
abbrev r1_c : Rect S1x128 := Rect.unit (s := S1x128) ![0, 0] S1x128.size inb_S1x128_S1x128_0_0
abbrev r1_w0 : Rect S1152x128 := Rect.unit (s := S1152x128) ![0, 0] S128x128.size inb_S1152x128_S128x128_0_0
abbrev r1_w1 : Rect S1152x128 := Rect.unit (s := S1152x128) ![128, 0] S128x128.size inb_S1152x128_S128x128_128_0
abbrev r1_w2 : Rect S1152x128 := Rect.unit (s := S1152x128) ![256, 0] S128x128.size inb_S1152x128_S128x128_256_0
abbrev r1_w3 : Rect S1152x128 := Rect.unit (s := S1152x128) ![384, 0] S128x128.size inb_S1152x128_S128x128_384_0
abbrev r1_w4 : Rect S1152x128 := Rect.unit (s := S1152x128) ![512, 0] S128x128.size inb_S1152x128_S128x128_512_0
abbrev r1_w5 : Rect S1152x128 := Rect.unit (s := S1152x128) ![640, 0] S128x128.size inb_S1152x128_S128x128_640_0
abbrev r1_w6 : Rect S1152x128 := Rect.unit (s := S1152x128) ![768, 0] S128x128.size inb_S1152x128_S128x128_768_0
abbrev r1_w7 : Rect S1152x128 := Rect.unit (s := S1152x128) ![896, 0] S128x128.size inb_S1152x128_S128x128_896_0
abbrev r1_w8 : Rect S1152x128 := Rect.unit (s := S1152x128) ![1024, 0] S128x128.size inb_S1152x128_S128x128_1024_0
abbrev r1_5 : Rect S1x8x128 := Rect.unit (s := S1x8x128) ![0, 0, 0] S1x8x128.size inb_S1x8x128_S1x8x128_0_0_0

/-- The 56 × 56 block the body puts in the middle of the padded image: conv1's output times s1 plus b1, clamped at zero. -/
def act1 (x0 : Vec F S1x56x56x128 .bf16) (x1 x2 : Vec F S1x128 .f32) : Vec F S56x56x128 .bf16 :=
  k1_pay7 (k1_pay5 (View.ld x0 r1_y) (View.ld x1 r1_c) (View.ld x2 r1_c)) k1_pay6

/-- The sum of the first five taps and the sixth tap, over the padded image. -/
def taps1a (x0 : Vec F S1x56x56x128 .bf16) (x1 x2 : Vec F S1x128 .f32) (x3 : Vec F S1152x128 .bf16) : FVec F S3136x128 .f32 :=
  k1_pay8 (padded (act1 x0 x1 x2)) (View.ld x3 r1_w0) (View.ld x3 r1_w1) (View.ld x3 r1_w2) (View.ld x3 r1_w3)
def taps1b (x0 : Vec F S1x56x56x128 .bf16) (x1 x2 : Vec F S1x128 .f32) (x3 : Vec F S1152x128 .bf16) : FVec F S3136x128 .f32 :=
  k1_pay9 (padded (act1 x0 x1 x2)) (View.ld x3 r1_w4)

/-- The conv2 block after the body: its one store over the input blocks. -/
def out1_4 (x0 : Vec F S1x56x56x128 .bf16) (x1 x2 : Vec F S1x128 .f32) (x3 : Vec F S1152x128 .bf16) : Vec F S1x56x56x128 .bf16 :=
  View.canon [⟨r1_y, k1_pay11 (padded (act1 x0 x1 x2)) (taps1a x0 x1 x2 x3) (taps1b x0 x1 x2 x3)
    (View.ld x3 r1_w5) (View.ld x3 r1_w6) (View.ld x3 r1_w7) (View.ld x3 r1_w8)⟩]

/-- The moments block after the body: its one store over the input blocks. -/
def out1_5 (x0 : Vec F S1x56x56x128 .bf16) (x1 x2 : Vec F S1x128 .f32) (x3 : Vec F S1152x128 .bf16) : Vec F S1x8x128 .f32 :=
  View.canon [⟨r1_5, k1_pay12 (padded (act1 x0 x1 x2)) (taps1a x0 x1 x2 x3) (taps1b x0 x1 x2 x3)
    (View.ld x3 r1_w5) (View.ld x3 r1_w6) (View.ld x3 r1_w7) (View.ld x3 r1_w8)⟩]

/-- Each store takes its whole block. -/
theorem cover1_4 (p0 : Vec F S1x56x56x128 .bf16) (y : S1x56x56x128.Idx) :
    ∃ pc ∈ ([⟨r1_y, p0⟩] : List (View.Piece (Elt F) S1x56x56x128 .bf16)), y ∈ pc.1.set :=
  View.cover_of_tiled [⟨r1_y, p0⟩] S1x56x56x128.size (by rfl) y
theorem cover1_5 (p0 : Vec F S1x8x128 .f32) (y : S1x8x128.Idx) :
    ∃ pc ∈ ([⟨r1_5, p0⟩] : List (View.Piece (Elt F) S1x8x128 .f32)), y ∈ pc.1.set :=
  View.cover_of_tiled [⟨r1_5, p0⟩] S1x8x128.size (by rfl) y

set_option maxHeartbeats 8000000 in
/-- The body on whole staging buffers and a whole scratch at any contents: the inputs stay as they were, the outputs end at
    `out1_4` and `out1_5` of the inputs, the scratch at some contents. -/
theorem sound_kernel1 (c : Dev nD) (E : Set ℕ) (i : grid1.Coords)
    (arg1 : Memref sig .tc .vmem S1x56x56x128 .bf16) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1152x128 .bf16) (harg4 : arg4.IsWhole)
    (arg5 : Memref sig .tc .vmem S1x56x56x128 .bf16) (harg5 : arg5.IsWhole) (arg6 : Memref sig .tc .vmem S1x8x128 .f32) (harg6 : arg6.IsWhole)
    (arg7 : Memref sig .tc .vmem S58x58x128 .bf16) (harg7 : arg7.IsWhole)
    (x0 : Vec F S1x56x56x128 .bf16) (x1 x2 : Vec F S1x128 .f32) (x3 : Vec F S1152x128 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (out1_4 x0 x1 x2 x3) ∗ owns (c : Thread nD τ) arg6 fullShare (out1_5 x0 x1 x2 x3)
            ∗ (∃ d, owns (c : Thread nD τ) arg7 fullShare d)) -∗ K ⟨⟩))
      ⊢ wp frame (wpE (defs₀ (F := F)) Variants.none c none) E (cc1__pass2_kernel i arg1 harg1 arg2 harg2 arg3 harg3 arg4 harg4 arg5 harg5 arg6 harg6 arg7 harg7) K := by
  simp only [cc1__pass2_kernel_eq_skeleton]; unfold cc1__pass2_kernel_skel
  simp only [k1_part1_eq_skeleton, k1_part2_eq_skeleton, k1_part3_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec
  sl_step
  -- the scratch's whole-buffer load is the padded image, whatever the scratch held
  have hpad := readCov_padW5 arg7.view f6 (act1 (arg1.view.read (Elt F) f0) (arg2.view.read (Elt F) f1) (arg3.view.read (Elt F) f2))
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [View.read_writes_eq_canon _ _ _ (cover1_4 _)]
    sl_unfold_run_names
    unfold out1_4 taps1a taps1b
    rw [← hpad]
    rfl
  isplitl [H5]
  · iexists _; isplitr
    swap; · iexact H5
    ipureintro
    rw [View.read_writes_eq_canon _ _ _ (cover1_5 _)]
    sl_unfold_run_names
    unfold out1_5 taps1a taps1b
    rw [← hpad]
    rfl
  iexists _; iexists _; isplitr
  swap; · iexact H6
  ipureintro; rfl

end Cert.KernelIdeal.Run

end
-- ==== Proof.KIPass2Data.lean ====
import proofs.«120137_g2000002162550304_pallasbulk_397_2_alg».proof.Proof.KIPass2Body

set_option maxRecDepth 16384

noncomputable section

/-! # The second pass at every grid point: what each window's buffer holds before and after the body -/

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The pass's proof data on core `c`: the arrays as the pass finds them; after the body at point `t` each input's
    buffer at its block and each output's at its function of the input blocks; nothing kept between points beyond the
    untouched scoped buffers and the generator register; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
    | ⟨5, _⟩ => out1_5 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]
theorem after1_5 (c : Dev nD) (t : Fin cfg1.N) : (dat1 V c).after 5 t = out1_5 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The class invariant of this pass with the scratch named: the other scoped buffers at some contents each, the scratch
    owned whole at some contents, the generator register at some state. -/
theorem PhiA1_eq (c : Dev nD) :
    (Pipeline.ΦA spec1 c : sProp 𝕄)
      = iprop(((∃ f : Buf (Elt F) ((c : Thread nD τ).loc cc0_stg0_0), ((c : Thread nD τ).loc cc0_stg0_0) ↦{fullShare} f)
        ∗ (∃ f : Buf (Elt F) ((c : Thread nD τ).loc cc0_stg0_1), ((c : Thread nD τ).loc cc0_stg0_1) ↦{fullShare} f)
        ∗ (∃ f : Buf (Elt F) ((c : Thread nD τ).loc cc0_stg1_0), ((c : Thread nD τ).loc cc0_stg1_0) ↦{fullShare} f)
        ∗ (∃ f : Buf (Elt F) ((c : Thread nD τ).loc cc0_stg2_0), ((c : Thread nD τ).loc cc0_stg2_0) ↦{fullShare} f)
        ∗ (∃ f : Buf (Elt F) ((c : Thread nD τ).loc cc0_stg3_0), ((c : Thread nD τ).loc cc0_stg3_0) ↦{fullShare} f)
        ∗ (∃ f : Buf (Elt F) ((c : Thread nD τ).loc cc0_stg3_1), ((c : Thread nD τ).loc cc0_stg3_1) ↦{fullShare} f)
        ∗ (∃ f : Buf (Elt F) ((c : Thread nD τ).loc cc0_stg4_0), ((c : Thread nD τ).loc cc0_stg4_0) ↦{fullShare} f)
        ∗ (∃ f : Buf (Elt F) ((c : Thread nD τ).loc cc0_stg4_1), ((c : Thread nD τ).loc cc0_stg4_1) ↦{fullShare} f)
        ∗ (∃ d, owns (c : Thread nD τ) (Memref.whole cc1_scratch0) fullShare d)
        ∗ (∃ f : Buf (Elt F) ((c : Thread nD τ).loc cc2_stg0_0), ((c : Thread nD τ).loc cc2_stg0_0) ↦{fullShare} f)
        ∗ (∃ f : Buf (Elt F) ((c : Thread nD τ).loc cc2_stg0_1), ((c : Thread nD τ).loc cc2_stg0_1) ↦{fullShare} f)
        ∗ (∃ f : Buf (Elt F) ((c : Thread nD τ).loc cc2_stg1_0), ((c : Thread nD τ).loc cc2_stg1_0) ↦{fullShare} f)
        ∗ (∃ f : Buf (Elt F) ((c : Thread nD τ).loc cc2_stg1_1), ((c : Thread nD τ).loc cc2_stg1_1) ↦{fullShare} f)
        ∗ (∃ f : Buf (Elt F) ((c : Thread nD τ).loc cc2_stg2_0), ((c : Thread nD τ).loc cc2_stg2_0) ↦{fullShare} f)
        ∗ (∃ f : Buf (Elt F) ((c : Thread nD τ).loc cc2_stg3_0), ((c : Thread nD τ).loc cc2_stg3_0) ↦{fullShare} f)
        ∗ (∃ f : Buf (Elt F) ((c : Thread nD τ).loc cc2_stg4_0), ((c : Thread nD τ).loc cc2_stg4_0) ↦{fullShare} f)
        ∗ (∃ f : Buf (Elt F) ((c : Thread nD τ).loc cc2_stg5_0), ((c : Thread nD τ).loc cc2_stg5_0) ↦{fullShare} f)
        ∗ (∃ f : Buf (Elt F) ((c : Thread nD τ).loc cc2_stg6_0), ((c : Thread nD τ).loc cc2_stg6_0) ↦{fullShare} f)
        ∗ (∃ f : Buf (Elt F) ((c : Thread nD τ).loc cc2_stg7_0), ((c : Thread nD τ).loc cc2_stg7_0) ↦{fullShare} f)
        ∗ (∃ f : Buf (Elt F) ((c : Thread nD τ).loc cc2_stg7_1), ((c : Thread nD τ).loc cc2_stg7_1) ↦{fullShare} f))
        ∗ (∃ r, prngReg c r)) := by
  unfold Pipeline.ΦA; rw [scopedRest1_eq]; simp only [owns_whole]

/-- The body at any point: the inputs' buffers hold their blocks and the invariant lends the scratch at whatever it holds,
    so the body's triple applies; the scratch goes back at whatever it now holds, the rest passes through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = Pipeline.ΦA spec1 c from rfl, show (dat1 V c).Φ t.castSucc = Pipeline.ΦA spec1 c from rfl,
    show (dat1 V c).owesAt () t.succ = (dat1 V c).owesAt () t.castSucc from rfl,
    after1_0, after1_1, after1_2, after1_3, after1_4, after1_5, PhiA1_eq]
  iintro ⟨⟨⟨R0, R1, R2, R3, R4, R5, R6, R7, HS, Rrest⟩, Hg⟩, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [HS]; · iexact HS
  iintro ⟨H0, H1, H2, H3, H4, H5, HS⟩
  isplitl [R0 R1 R2 R3 R4 R5 R6 R7 HS Rrest Hg]
  · isplitl [R0 R1 R2 R3 R4 R5 R6 R7 HS Rrest]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [HS]; · iexact HS
      iexact Rrest
    iexact Hg
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Run

end
-- ==== Proof.KIPass3Body.lean ====
import proofs.«120137_g2000002162550304_pallasbulk_397_2_alg».proof.Proof.Gen.KernelIdeal.Launch
import proofs.«120137_g2000002162550304_pallasbulk_397_2_alg».proof.Proof.Gen.KernelIdeal.Skeleton
import proofs.«120137_g2000002162550304_pallasbulk_397_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

/-! # The third pass on one image

At grid point `t` the body reads the image's conv2 output, the padded input image, the shortcut's weights and four
coefficient rows, and stores ONE block: relu of (conv2 output · s2 + b2) + (centre tap · ws · ss + bs), transposed.
This module states what the output block holds after the body as a function of the seven input blocks, and proves the
body does that. -/

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the pass finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 holds its block at every point, whether the point fetched it or the block stayed from before. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 holds its block at every point, whether the point fetched it or the block stayed from before. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2 holds its block at every point, whether the point fetched it or the block stayed from before. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3 holds its block at every point, whether the point fetched it or the block stayed from before. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4 holds its block at every point, whether the point fetched it or the block stayed from before. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5 holds its block at every point, whether the point fetched it or the block stayed from before. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6 holds its block at every point, whether the point fetched it or the block stayed from before. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the one store take the whole staging buffer -/
abbrev r2_0 : Rect S1x56x56x128 := Rect.unit (s := S1x56x56x128) ![0, 0, 0, 0] S1x56x56x128.size inb_S1x56x56x128_S1x56x56x128_0_0_0_0
abbrev r2_1 : Rect S1x58x58x64 := Rect.unit (s := S1x58x58x64) ![0, 0, 0, 0] S1x58x58x64.size inb_S1x58x58x64_S1x58x58x64_0_0_0_0
abbrev r2_2 : Rect S64x128 := Rect.unit (s := S64x128) ![0, 0] S64x128.size inb_S64x128_S64x128_0_0
abbrev r2_3 : Rect S1x128 := Rect.unit (s := S1x128) ![0, 0] S1x128.size inb_S1x128_S1x128_0_0
abbrev r2_4 : Rect S1x128 := Rect.unit (s := S1x128) ![0, 0] S1x128.size inb_S1x128_S1x128_0_0
abbrev r2_5 : Rect S1x128 := Rect.unit (s := S1x128) ![0, 0] S1x128.size inb_S1x128_S1x128_0_0
abbrev r2_6 : Rect S1x128 := Rect.unit (s := S1x128) ![0, 0] S1x128.size inb_S1x128_S1x128_0_0
abbrev r2_7 : Rect S1x128x3136 := Rect.unit (s := S1x128x3136) ![0, 0, 0] S1x128x3136.size inb_S1x128x3136_S1x128x3136_0_0_0

/-- The output block after the body: its one store over the input blocks. -/
def out2_7 (x0 : Vec F S1x56x56x128 .bf16) (x1 : Vec F S1x58x58x64 .bf16) (x2 : Vec F S64x128 .bf16) (x3 x4 x5 x6 : Vec F S1x128 .f32) : Vec F S1x128x3136 .f32 :=
  View.canon [⟨r2_7, k2_pay1 (View.ld x1 r2_1) (View.ld x2 r2_2) (View.ld x0 r2_0) (View.ld x3 r2_3) (View.ld x4 r2_4) (View.ld x5 r2_5) (View.ld x6 r2_6)⟩]

/-- The store takes the whole block. -/
theorem cover2_7 (p0 : Vec F S1x128x3136 .f32) (y : S1x128x3136.Idx) :
    ∃ pc ∈ ([⟨r2_7, p0⟩] : List (View.Piece (Elt F) S1x128x3136 .f32)), y ∈ pc.1.set :=
  View.cover_of_tiled [⟨r2_7, p0⟩] S1x128x3136.size (by rfl) y

set_option maxHeartbeats 4000000 in
/-- The body on whole staging buffers: the inputs stay as they were, the output ends at `out2_7` of the inputs. -/
theorem sound_kernel2 (c : Dev nD) (E : Set ℕ) (i : grid2.Coords)
    (arg1 : Memref sig .tc .vmem S1x56x56x128 .bf16) (harg1 : arg1.IsWhole) (arg2 : Memref sig .tc .vmem S1x58x58x64 .bf16) (harg2 : arg2.IsWhole)
    (arg3 : Memref sig .tc .vmem S64x128 .bf16) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x128 .f32) (harg7 : arg7.IsWhole) (arg8 : Memref sig .tc .vmem S1x128x3136 .f32) (harg8 : arg8.IsWhole)
    (x0 : Vec F S1x56x56x128 .bf16) (x1 : Vec F S1x58x58x64 .bf16) (x2 : Vec F S64x128 .bf16) (x3 x4 x5 x6 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out2_7 x0 x1 x2 x3 x4 x5 x6)) -∗ K ⟨⟩))
      ⊢ wp frame (wpE (defs₀ (F := F)) Variants.none c none) E (cc2__pass3_kernel i arg1 harg1 arg2 harg2 arg3 harg3 arg4 harg4 arg5 harg5 arg6 harg6 arg7 harg7 arg8 harg8) K := by
  simp only [cc2__pass3_kernel_eq_skeleton]; unfold cc2__pass3_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2_7 _)

end Cert.KernelIdeal.Run

end
-- ==== Proof.KIPass3Data.lean ====
import proofs.«120137_g2000002162550304_pallasbulk_397_2_alg».proof.Proof.KIPass3Body

set_option maxRecDepth 16384

noncomputable section

/-! # The third pass at every grid point: what each window's buffer holds before and after the body -/

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The pass's proof data on core `c`: the arrays as the pass finds them; after the body at point `t` each input's
    buffer at its block and each output's at its function of the input blocks; nothing kept between points beyond the
    untouched scoped buffers and the generator register; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = out2_7 (iblk2 V c 0 t) (iblk2 V c 1 t) (iblk2 V c 2 t) (iblk2 V c 3 t) (iblk2 V c 4 t) (iblk2 V c 5 t) (iblk2 V c 6 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d))
    ∗ (∃ d, owns (c : Thread nD τ) (st2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t)
    ∗ owns (c : Thread nD τ) (st2_7 t) fullShare ((dat2 V c).after 7 t))

/-- The body at any point: the inputs' buffers hold their blocks, so the body's triple applies; the rest passes through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Run

end
-- ==== Proof.KIRun.lean ====
import proofs.«120137_g2000002162550304_pallasbulk_397_2_alg».proof.Proof.KIPass1Data
import proofs.«120137_g2000002162550304_pallasbulk_397_2_alg».proof.Proof.KIPass2Data
import proofs.«120137_g2000002162550304_pallasbulk_397_2_alg».proof.Proof.KIPass3Data
import proofs.«120137_g2000002162550304_pallasbulk_397_2_alg».proof.Proof.Gen.KernelIdeal.Regions

set_option maxRecDepth 16384

noncomputable section

/-! # The whole run

The program is nine segments: three stretches of host operations (the transpose, the padding, the casts and reshapes of
the weights), the first pass, the host's BN1 and shortcut coefficients from the per-image moments, the second pass, the
host's BN2 coefficients, the third pass, and the final reshape. This module names what every unscoped buffer holds at each
boundary, as a fold from the launch memory, and proves that every weakly fair execution terminates, faults nowhere and
ends with every unscoped buffer at the last boundary's contents; the arguments come through unchanged because no host
operation writes one and no pass has one as a window's array. -/

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch, -/
abbrev W0 : Dev nD → Valuation τ sig (Elt F) := fun c b => (s₀ m ρ).mem ((c : Dev nD), b)
/-- after the transpose, -/
abbrev W1 : Dev nD → Valuation τ sig (Elt F) := fun c => StableHlo.after hostOps0 (W0 m ρ c)
/-- after the padding, -/
abbrev W2 : Dev nD → Valuation τ sig (Elt F) := fun c => StableHlo.after hostOps0_1 (W1 m ρ c)
/-- after the casts and the weights' reshapes: what the first pass finds. -/
abbrev W3 : Dev nD → Valuation τ sig (Elt F) := fun c => StableHlo.after hostOps0_2 (W2 m ρ c)
abbrev V3 : (c : Dev nD) → (b : Ref sig .tc) → Buf (Elt F) ((c : Thread nD τ).loc b) := fun c b => W3 m ρ c b

/-- At pass 1's exit: its windows' arrays at what the write-backs leave, every other buffer as entered. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
abbrev V4 : (c : Dev nD) → (b : Ref sig .tc) → Buf (Elt F) ((c : Thread nD τ).loc b) := fun c b => W4 m ρ c b
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- After the host's BN1 and shortcut coefficients: what the second pass finds. -/
abbrev W5 : Dev nD → Valuation τ sig (Elt F) := fun c => StableHlo.after hostOps1 (W4 m ρ c)
abbrev V5 : (c : Dev nD) → (b : Ref sig .tc) → Buf (Elt F) ((c : Thread nD τ).loc b) := fun c b => W5 m ρ c b

/-- At pass 2's exit: its windows' arrays at what the write-backs leave, every other buffer as entered. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)

/-- After the host's BN2 coefficients: what the third pass finds. -/
abbrev W7 : Dev nD → Valuation τ sig (Elt F) := fun c => StableHlo.after hostOps2 (W6 m ρ c)
abbrev V7 : (c : Dev nD) → (b : Ref sig .tc) → Buf (Elt F) ((c : Thread nD τ).loc b) := fun c b => W7 m ρ c b

/-- At pass 3's exit: its windows' arrays at what the write-backs leave, every other buffer as entered. -/
def W8 (c : Dev nD) : Valuation τ sig (Elt F) :=
  Pipeline.withArrays spec2 c (W7 m ρ c) fun w => (dat2 (V7 m ρ) c).arrAt w cfg2.N
theorem W8_arr (c : Dev nD) (w : Fin cfg2.W) :
    W8 m ρ c (Proc.devRef .tc (Pipeline.arrRef spec2 w)) = (dat2 (V7 m ρ) c).arrAt w cfg2.N := by
  unfold W8; exact Pipeline.withArrays_arr spec2 launch2.win.arr_inj c _ _ w
theorem W8_of_ne (c : Dev nD) (b : Ref sig .tc) (hb : ∀ w, Pipeline.arrRef spec2 w ≠ b) :
    W8 m ρ c (Proc.devRef .tc b) = W7 m ρ c (Proc.devRef .tc b) := by
  unfold W8; exact Pipeline.withArrays_of_ne spec2 c _ _ b hb
abbrev V8 : (c : Dev nD) → (b : Ref sig .tc) → Buf (Elt F) ((c : Thread nD τ).loc b) := fun c b => W8 m ρ c b
theorem hF2 (c : Dev nD) (w : Fin cfg2.W) : (dat2 (V7 m ρ) c).arrAt w cfg2.N = V8 m ρ c (Pipeline.arrRef spec2 w) :=
  (W8_arr m ρ c w).symm
theorem hrest2 (c : Dev nD) : ∀ b, b ∉ Finset.univ.image (Pipeline.arrRef spec2) → V8 m ρ c b = V7 m ρ c b :=
  fun b hb => W8_of_ne m ρ c b fun w e => hb (Finset.mem_image.mpr ⟨w, Finset.mem_univ _, e⟩)

/-- After the final reshape: what the program ends with. -/
abbrev W9 : Dev nD → Valuation τ sig (Elt F) := fun c => StableHlo.after hostOps3 (W8 m ρ c)

/-! ## The arguments end as launched -/

theorem W9_main_arg0 (c : Dev nD) : W9 m ρ c (Proc.devRef .tc main_arg0) = m ((c : Thread nD τ).loc main_arg0) :=
  calc W9 m ρ c (Proc.devRef .tc main_arg0)
    _ = W8 m ρ c (Proc.devRef .tc main_arg0) := StableHlo.after_of_writes_sub hostOps3 _ hostOps3_writes (by decide)
    _ = W7 m ρ c (Proc.devRef .tc main_arg0) := W8_of_ne m ρ c main_arg0 (by decide)
    _ = W6 m ρ c (Proc.devRef .tc main_arg0) := StableHlo.after_of_writes_sub hostOps2 _ hostOps2_writes (by decide)
    _ = W5 m ρ c (Proc.devRef .tc main_arg0) := W6_of_ne m ρ c main_arg0 (by decide)
    _ = W4 m ρ c (Proc.devRef .tc main_arg0) := StableHlo.after_of_writes_sub hostOps1 _ hostOps1_writes (by decide)
    _ = W3 m ρ c (Proc.devRef .tc main_arg0) := W4_of_ne m ρ c main_arg0 (by decide)
    _ = W2 m ρ c (Proc.devRef .tc main_arg0) := StableHlo.after_of_writes_sub hostOps0_2 _ hostOps0_2_writes (by decide)
    _ = W1 m ρ c (Proc.devRef .tc main_arg0) := StableHlo.after_of_writes_sub hostOps0_1 _ hostOps0_1_writes (by decide)
    _ = W0 m ρ c (Proc.devRef .tc main_arg0) := StableHlo.after_of_writes_sub hostOps0 _ hostOps0_writes (by decide)
    _ = m ((c : Thread nD τ).loc main_arg0) := rfl

theorem W9_main_arg1 (c : Dev nD) : W9 m ρ c (Proc.devRef .tc main_arg1) = m ((c : Thread nD τ).loc main_arg1) :=
  calc W9 m ρ c (Proc.devRef .tc main_arg1)
    _ = W8 m ρ c (Proc.devRef .tc main_arg1) := StableHlo.after_of_writes_sub hostOps3 _ hostOps3_writes (by decide)
    _ = W7 m ρ c (Proc.devRef .tc main_arg1) := W8_of_ne m ρ c main_arg1 (by decide)
    _ = W6 m ρ c (Proc.devRef .tc main_arg1) := StableHlo.after_of_writes_sub hostOps2 _ hostOps2_writes (by decide)
    _ = W5 m ρ c (Proc.devRef .tc main_arg1) := W6_of_ne m ρ c main_arg1 (by decide)
    _ = W4 m ρ c (Proc.devRef .tc main_arg1) := StableHlo.after_of_writes_sub hostOps1 _ hostOps1_writes (by decide)
    _ = W3 m ρ c (Proc.devRef .tc main_arg1) := W4_of_ne m ρ c main_arg1 (by decide)
    _ = W2 m ρ c (Proc.devRef .tc main_arg1) := StableHlo.after_of_writes_sub hostOps0_2 _ hostOps0_2_writes (by decide)
    _ = W1 m ρ c (Proc.devRef .tc main_arg1) := StableHlo.after_of_writes_sub hostOps0_1 _ hostOps0_1_writes (by decide)
    _ = W0 m ρ c (Proc.devRef .tc main_arg1) := StableHlo.after_of_writes_sub hostOps0 _ hostOps0_writes (by decide)
    _ = m ((c : Thread nD τ).loc main_arg1) := rfl

theorem W9_main_arg2 (c : Dev nD) : W9 m ρ c (Proc.devRef .tc main_arg2) = m ((c : Thread nD τ).loc main_arg2) :=
  calc W9 m ρ c (Proc.devRef .tc main_arg2)
    _ = W8 m ρ c (Proc.devRef .tc main_arg2) := StableHlo.after_of_writes_sub hostOps3 _ hostOps3_writes (by decide)
    _ = W7 m ρ c (Proc.devRef .tc main_arg2) := W8_of_ne m ρ c main_arg2 (by decide)
    _ = W6 m ρ c (Proc.devRef .tc main_arg2) := StableHlo.after_of_writes_sub hostOps2 _ hostOps2_writes (by decide)
    _ = W5 m ρ c (Proc.devRef .tc main_arg2) := W6_of_ne m ρ c main_arg2 (by decide)
    _ = W4 m ρ c (Proc.devRef .tc main_arg2) := StableHlo.after_of_writes_sub hostOps1 _ hostOps1_writes (by decide)
    _ = W3 m ρ c (Proc.devRef .tc main_arg2) := W4_of_ne m ρ c main_arg2 (by decide)
    _ = W2 m ρ c (Proc.devRef .tc main_arg2) := StableHlo.after_of_writes_sub hostOps0_2 _ hostOps0_2_writes (by decide)
    _ = W1 m ρ c (Proc.devRef .tc main_arg2) := StableHlo.after_of_writes_sub hostOps0_1 _ hostOps0_1_writes (by decide)
    _ = W0 m ρ c (Proc.devRef .tc main_arg2) := StableHlo.after_of_writes_sub hostOps0 _ hostOps0_writes (by decide)
    _ = m ((c : Thread nD τ).loc main_arg2) := rfl

theorem W9_main_arg3 (c : Dev nD) : W9 m ρ c (Proc.devRef .tc main_arg3) = m ((c : Thread nD τ).loc main_arg3) :=
  calc W9 m ρ c (Proc.devRef .tc main_arg3)
    _ = W8 m ρ c (Proc.devRef .tc main_arg3) := StableHlo.after_of_writes_sub hostOps3 _ hostOps3_writes (by decide)
    _ = W7 m ρ c (Proc.devRef .tc main_arg3) := W8_of_ne m ρ c main_arg3 (by decide)
    _ = W6 m ρ c (Proc.devRef .tc main_arg3) := StableHlo.after_of_writes_sub hostOps2 _ hostOps2_writes (by decide)
    _ = W5 m ρ c (Proc.devRef .tc main_arg3) := W6_of_ne m ρ c main_arg3 (by decide)
    _ = W4 m ρ c (Proc.devRef .tc main_arg3) := StableHlo.after_of_writes_sub hostOps1 _ hostOps1_writes (by decide)
    _ = W3 m ρ c (Proc.devRef .tc main_arg3) := W4_of_ne m ρ c main_arg3 (by decide)
    _ = W2 m ρ c (Proc.devRef .tc main_arg3) := StableHlo.after_of_writes_sub hostOps0_2 _ hostOps0_2_writes (by decide)
    _ = W1 m ρ c (Proc.devRef .tc main_arg3) := StableHlo.after_of_writes_sub hostOps0_1 _ hostOps0_1_writes (by decide)
    _ = W0 m ρ c (Proc.devRef .tc main_arg3) := StableHlo.after_of_writes_sub hostOps0 _ hostOps0_writes (by decide)
    _ = m ((c : Thread nD τ).loc main_arg3) := rfl

theorem W9_main_arg4 (c : Dev nD) : W9 m ρ c (Proc.devRef .tc main_arg4) = m ((c : Thread nD τ).loc main_arg4) :=
  calc W9 m ρ c (Proc.devRef .tc main_arg4)
    _ = W8 m ρ c (Proc.devRef .tc main_arg4) := StableHlo.after_of_writes_sub hostOps3 _ hostOps3_writes (by decide)
    _ = W7 m ρ c (Proc.devRef .tc main_arg4) := W8_of_ne m ρ c main_arg4 (by decide)
    _ = W6 m ρ c (Proc.devRef .tc main_arg4) := StableHlo.after_of_writes_sub hostOps2 _ hostOps2_writes (by decide)
    _ = W5 m ρ c (Proc.devRef .tc main_arg4) := W6_of_ne m ρ c main_arg4 (by decide)
    _ = W4 m ρ c (Proc.devRef .tc main_arg4) := StableHlo.after_of_writes_sub hostOps1 _ hostOps1_writes (by decide)
    _ = W3 m ρ c (Proc.devRef .tc main_arg4) := W4_of_ne m ρ c main_arg4 (by decide)
    _ = W2 m ρ c (Proc.devRef .tc main_arg4) := StableHlo.after_of_writes_sub hostOps0_2 _ hostOps0_2_writes (by decide)
    _ = W1 m ρ c (Proc.devRef .tc main_arg4) := StableHlo.after_of_writes_sub hostOps0_1 _ hostOps0_1_writes (by decide)
    _ = W0 m ρ c (Proc.devRef .tc main_arg4) := StableHlo.after_of_writes_sub hostOps0 _ hostOps0_writes (by decide)
    _ = m ((c : Thread nD τ).loc main_arg4) := rfl

theorem W9_main_arg5 (c : Dev nD) : W9 m ρ c (Proc.devRef .tc main_arg5) = m ((c : Thread nD τ).loc main_arg5) :=
  calc W9 m ρ c (Proc.devRef .tc main_arg5)
    _ = W8 m ρ c (Proc.devRef .tc main_arg5) := StableHlo.after_of_writes_sub hostOps3 _ hostOps3_writes (by decide)
    _ = W7 m ρ c (Proc.devRef .tc main_arg5) := W8_of_ne m ρ c main_arg5 (by decide)
    _ = W6 m ρ c (Proc.devRef .tc main_arg5) := StableHlo.after_of_writes_sub hostOps2 _ hostOps2_writes (by decide)
    _ = W5 m ρ c (Proc.devRef .tc main_arg5) := W6_of_ne m ρ c main_arg5 (by decide)
    _ = W4 m ρ c (Proc.devRef .tc main_arg5) := StableHlo.after_of_writes_sub hostOps1 _ hostOps1_writes (by decide)
    _ = W3 m ρ c (Proc.devRef .tc main_arg5) := W4_of_ne m ρ c main_arg5 (by decide)
    _ = W2 m ρ c (Proc.devRef .tc main_arg5) := StableHlo.after_of_writes_sub hostOps0_2 _ hostOps0_2_writes (by decide)
    _ = W1 m ρ c (Proc.devRef .tc main_arg5) := StableHlo.after_of_writes_sub hostOps0_1 _ hostOps0_1_writes (by decide)
    _ = W0 m ρ c (Proc.devRef .tc main_arg5) := StableHlo.after_of_writes_sub hostOps0 _ hostOps0_writes (by decide)
    _ = m ((c : Thread nD τ).loc main_arg5) := rfl

theorem W9_main_arg6 (c : Dev nD) : W9 m ρ c (Proc.devRef .tc main_arg6) = m ((c : Thread nD τ).loc main_arg6) :=
  calc W9 m ρ c (Proc.devRef .tc main_arg6)
    _ = W8 m ρ c (Proc.devRef .tc main_arg6) := StableHlo.after_of_writes_sub hostOps3 _ hostOps3_writes (by decide)
    _ = W7 m ρ c (Proc.devRef .tc main_arg6) := W8_of_ne m ρ c main_arg6 (by decide)
    _ = W6 m ρ c (Proc.devRef .tc main_arg6) := StableHlo.after_of_writes_sub hostOps2 _ hostOps2_writes (by decide)
    _ = W5 m ρ c (Proc.devRef .tc main_arg6) := W6_of_ne m ρ c main_arg6 (by decide)
    _ = W4 m ρ c (Proc.devRef .tc main_arg6) := StableHlo.after_of_writes_sub hostOps1 _ hostOps1_writes (by decide)
    _ = W3 m ρ c (Proc.devRef .tc main_arg6) := W4_of_ne m ρ c main_arg6 (by decide)
    _ = W2 m ρ c (Proc.devRef .tc main_arg6) := StableHlo.after_of_writes_sub hostOps0_2 _ hostOps0_2_writes (by decide)
    _ = W1 m ρ c (Proc.devRef .tc main_arg6) := StableHlo.after_of_writes_sub hostOps0_1 _ hostOps0_1_writes (by decide)
    _ = W0 m ρ c (Proc.devRef .tc main_arg6) := StableHlo.after_of_writes_sub hostOps0 _ hostOps0_writes (by decide)
    _ = m ((c : Thread nD τ).loc main_arg6) := rfl

theorem W9_main_arg7 (c : Dev nD) : W9 m ρ c (Proc.devRef .tc main_arg7) = m ((c : Thread nD τ).loc main_arg7) :=
  calc W9 m ρ c (Proc.devRef .tc main_arg7)
    _ = W8 m ρ c (Proc.devRef .tc main_arg7) := StableHlo.after_of_writes_sub hostOps3 _ hostOps3_writes (by decide)
    _ = W7 m ρ c (Proc.devRef .tc main_arg7) := W8_of_ne m ρ c main_arg7 (by decide)
    _ = W6 m ρ c (Proc.devRef .tc main_arg7) := StableHlo.after_of_writes_sub hostOps2 _ hostOps2_writes (by decide)
    _ = W5 m ρ c (Proc.devRef .tc main_arg7) := W6_of_ne m ρ c main_arg7 (by decide)
    _ = W4 m ρ c (Proc.devRef .tc main_arg7) := StableHlo.after_of_writes_sub hostOps1 _ hostOps1_writes (by decide)
    _ = W3 m ρ c (Proc.devRef .tc main_arg7) := W4_of_ne m ρ c main_arg7 (by decide)
    _ = W2 m ρ c (Proc.devRef .tc main_arg7) := StableHlo.after_of_writes_sub hostOps0_2 _ hostOps0_2_writes (by decide)
    _ = W1 m ρ c (Proc.devRef .tc main_arg7) := StableHlo.after_of_writes_sub hostOps0_1 _ hostOps0_1_writes (by decide)
    _ = W0 m ρ c (Proc.devRef .tc main_arg7) := StableHlo.after_of_writes_sub hostOps0 _ hostOps0_writes (by decide)
    _ = m ((c : Thread nD τ).loc main_arg7) := rfl

theorem W9_main_arg8 (c : Dev nD) : W9 m ρ c (Proc.devRef .tc main_arg8) = m ((c : Thread nD τ).loc main_arg8) :=
  calc W9 m ρ c (Proc.devRef .tc main_arg8)
    _ = W8 m ρ c (Proc.devRef .tc main_arg8) := StableHlo.after_of_writes_sub hostOps3 _ hostOps3_writes (by decide)
    _ = W7 m ρ c (Proc.devRef .tc main_arg8) := W8_of_ne m ρ c main_arg8 (by decide)
    _ = W6 m ρ c (Proc.devRef .tc main_arg8) := StableHlo.after_of_writes_sub hostOps2 _ hostOps2_writes (by decide)
    _ = W5 m ρ c (Proc.devRef .tc main_arg8) := W6_of_ne m ρ c main_arg8 (by decide)
    _ = W4 m ρ c (Proc.devRef .tc main_arg8) := StableHlo.after_of_writes_sub hostOps1 _ hostOps1_writes (by decide)
    _ = W3 m ρ c (Proc.devRef .tc main_arg8) := W4_of_ne m ρ c main_arg8 (by decide)
    _ = W2 m ρ c (Proc.devRef .tc main_arg8) := StableHlo.after_of_writes_sub hostOps0_2 _ hostOps0_2_writes (by decide)
    _ = W1 m ρ c (Proc.devRef .tc main_arg8) := StableHlo.after_of_writes_sub hostOps0_1 _ hostOps0_1_writes (by decide)
    _ = W0 m ρ c (Proc.devRef .tc main_arg8) := StableHlo.after_of_writes_sub hostOps0 _ hostOps0_writes (by decide)
    _ = m ((c : Thread nD τ).loc main_arg8) := rfl

theorem W9_main_arg9 (c : Dev nD) : W9 m ρ c (Proc.devRef .tc main_arg9) = m ((c : Thread nD τ).loc main_arg9) :=
  calc W9 m ρ c (Proc.devRef .tc main_arg9)
    _ = W8 m ρ c (Proc.devRef .tc main_arg9) := StableHlo.after_of_writes_sub hostOps3 _ hostOps3_writes (by decide)
    _ = W7 m ρ c (Proc.devRef .tc main_arg9) := W8_of_ne m ρ c main_arg9 (by decide)
    _ = W6 m ρ c (Proc.devRef .tc main_arg9) := StableHlo.after_of_writes_sub hostOps2 _ hostOps2_writes (by decide)
    _ = W5 m ρ c (Proc.devRef .tc main_arg9) := W6_of_ne m ρ c main_arg9 (by decide)
    _ = W4 m ρ c (Proc.devRef .tc main_arg9) := StableHlo.after_of_writes_sub hostOps1 _ hostOps1_writes (by decide)
    _ = W3 m ρ c (Proc.devRef .tc main_arg9) := W4_of_ne m ρ c main_arg9 (by decide)
    _ = W2 m ρ c (Proc.devRef .tc main_arg9) := StableHlo.after_of_writes_sub hostOps0_2 _ hostOps0_2_writes (by decide)
    _ = W1 m ρ c (Proc.devRef .tc main_arg9) := StableHlo.after_of_writes_sub hostOps0_1 _ hostOps0_1_writes (by decide)
    _ = W0 m ρ c (Proc.devRef .tc main_arg9) := StableHlo.after_of_writes_sub hostOps0 _ hostOps0_writes (by decide)
    _ = m ((c : Thread nD τ).loc main_arg9) := rfl

/-! ## The proof data family and what rides beside the buffers -/

abbrev adm : (p : Fin 3) → (pcfgs (F := F) p).Adm := fun p => (cfgs p).toPCfg_adm
/-- Every pass's proof data, each at what the pass finds. -/
def pdats : (p : Fin 3) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V5 m ρ) c
  | ⟨2, _⟩ => fun c => dat2 (V7 m ρ) c
abbrev 𝒱₀ : Variants := Variants.none
abbrev L : GSem nD τ sig → Finset Unit := fun _ => ∅
abbrev lv : GSem nD τ sig → Unit → ℕ := fun _ _ => 0
/-- Beside the buffers through every segment: the core's generator register at some state, and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W9 m ρ c) ∗ ∃ r, prngReg c r)

/-! ## The passes as segments -/

set_option backward.isDefEq.respectTransparency.types false in
/-- Pass 1 as a segment: entered from every unscoped buffer at `W3`, left at `W4`. Its windows' arrays are split
    out of the unscoped buffers and put back at what the write-backs leave; the generator register goes into the pass's
    invariant and comes back; nothing is owed; the pass has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pass 2 as a segment: entered from every unscoped buffer at `W5`, left at `W6`. Its windows' arrays are split
    out of the unscoped buffers and put back at what the write-backs leave; the generator register goes into the pass's
    invariant and comes back; nothing is owed; the pass has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L lv 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pass 3 as a segment: entered from every unscoped buffer at `W7`, left at `W8`. Its windows' arrays are split
    out of the unscoped buffers and put back at what the write-backs leave; the generator register goes into the pass's
    invariant and comes back; nothing is owed; the pass has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V7 m ρ) c).loose
  hwaits := Pipeline.hwaits_of_owed_zero _ _ _ _ L lv 2 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec2 c (V7 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V7 m ρ c) (V8 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as its segments, and the launch -/

abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .host (hseg hostOps1 hostOps1_sub hostOps1_fresh (W4 m ρ)),
    .region (reg1 m ρ),
    .host (hseg hostOps2 hostOps2_sub hostOps2_fresh (W6 m ρ)),
    .region (reg2 m ρ),
    .host (hseg hostOps3 hostOps3_sub hostOps3_fresh (W8 m ρ)) ]

theorem main_run (c : Dev nD) : main (F := F) c = Pipeline.Seg.run (segs m ρ) := (main_chain c).trans (by chain_rfl)

set_option backward.isDefEq.respectTransparency.types false in
/-- Every weakly fair execution from memory `m` with zero counters terminates, nothing faulting, and every final state has
    every unscoped buffer of every core at the last boundary's contents `W9`. -/
theorem run_named : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl,
      fun c => by
        show (iprop(StableHlo.held (c : Thread nD τ) (Pipeline.ucRefs τ sig) (W9 m ρ c) ∗ R c) : sProp 𝕄) ⊢ _
        iintro ⟨Hh, Hp, Ho⟩
        isplitl [Hh Hp]
        · isplitl [Hh]; · iexact Hh
          iexact Hp
        iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c _ (mem_uc main_arg0 (by decide))).trans (W9_main_arg0 m ρ c),
    (h c _ (mem_uc main_arg1 (by decide))).trans (W9_main_arg1 m ρ c),
    (h c _ (mem_uc main_arg2 (by decide))).trans (W9_main_arg2 m ρ c),
    (h c _ (mem_uc main_arg3 (by decide))).trans (W9_main_arg3 m ρ c),
    (h c _ (mem_uc main_arg4 (by decide))).trans (W9_main_arg4 m ρ c),
    (h c _ (mem_uc main_arg5 (by decide))).trans (W9_main_arg5 m ρ c),
    (h c _ (mem_uc main_arg6 (by decide))).trans (W9_main_arg6 m ρ c),
    (h c _ (mem_uc main_arg7 (by decide))).trans (W9_main_arg7 m ρ c),
    (h c _ (mem_uc main_arg8 (by decide))).trans (W9_main_arg8 m ρ c),
    (h c _ (mem_uc main_arg9 (by decide))).trans (W9_main_arg9 m ρ c)⟩) (run_named m ρ)

end Cert.KernelIdeal.Run

end
-- ==== Proof.KIPost.lean ====
import proofs.«120137_g2000002162550304_pallasbulk_397_2_alg».proof.Proof.KIRun

set_option maxRecDepth 16384

noncomputable section

/-! # The idealized kernel's run with its result named -/

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-- Every execution ends with the result at the last boundary's contents and the arguments as launched. -/
theorem run_post : θ_run defs (onTc (τ := τ) (main (F := F))) ⟨m, fun _ => 0, ρ⟩ (fun r => ∀ c : Dev nD,
      r.2.mem ((c.tc : Thread nD τ).loc main_v73) = W9 m ρ c (Proc.devRef .tc main_v73)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨h c _ (mem_uc main_v73 (by decide)),
    (h c _ (mem_uc main_arg0 (by decide))).trans (W9_main_arg0 m ρ c),
    (h c _ (mem_uc main_arg1 (by decide))).trans (W9_main_arg1 m ρ c),
    (h c _ (mem_uc main_arg2 (by decide))).trans (W9_main_arg2 m ρ c),
    (h c _ (mem_uc main_arg3 (by decide))).trans (W9_main_arg3 m ρ c),
    (h c _ (mem_uc main_arg4 (by decide))).trans (W9_main_arg4 m ρ c),
    (h c _ (mem_uc main_arg5 (by decide))).trans (W9_main_arg5 m ρ c),
    (h c _ (mem_uc main_arg6 (by decide))).trans (W9_main_arg6 m ρ c),
    (h c _ (mem_uc main_arg7 (by decide))).trans (W9_main_arg7 m ρ c),
    (h c _ (mem_uc main_arg8 (by decide))).trans (W9_main_arg8 m ρ c),
    (h c _ (mem_uc main_arg9 (by decide))).trans (W9_main_arg9 m ρ c)⟩) (run_named m ρ)

end Cert.KernelIdeal.Run

end
-- ==== Proof.RIPass1Body.lean ====
import proofs.«120137_g2000002162550304_pallasbulk_397_2_alg».proof.Proof.Gen.ReferenceIdeal.Launch
import proofs.«120137_g2000002162550304_pallasbulk_397_2_alg».proof.Proof.Gen.ReferenceIdeal.Skeleton
import proofs.«120137_g2000002162550304_pallasbulk_397_2_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

/-! # The reference's first pass on one image

At grid point `t` the body reads the padded image, the first convolution's weights and the shortcut's weights, and
stores the image's first-convolution block and shortcut block; a third output block, resident over the whole grid,
accumulates four moment rows (sum and sum of squares of each): it is zeroed at the first point and added to at every
point. This module states what the three output blocks hold after the body as functions of the input blocks and of
what the moments block held, and proves the body does that, at the first point and at a later point. -/

namespace Cert.ReferenceIdeal.Run

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the pass finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 holds its block at every point, whether the point fetched it or the block stayed from before. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 holds its block at every point, whether the point fetched it or the block stayed from before. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 holds its block at every point, whether the point fetched it or the block stayed from before. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: the image, the shortcut's weights and every output block whole; conv1's weights one 128-row slab per tap -/
abbrev r0_x : Rect S1x58x58x128 := Rect.unit (s := S1x58x58x128) ![0, 0, 0, 0] S1x58x58x128.size inb_S1x58x58x128_S1x58x58x128_0_0_0_0
abbrev r0_w0 : Rect S1152x128 := Rect.unit (s := S1152x128) ![0, 0] S128x128.size inb_S1152x128_S128x128_0_0
abbrev r0_w1 : Rect S1152x128 := Rect.unit (s := S1152x128) ![128, 0] S128x128.size inb_S1152x128_S128x128_128_0
abbrev r0_w2 : Rect S1152x128 := Rect.unit (s := S1152x128) ![256, 0] S128x128.size inb_S1152x128_S128x128_256_0
abbrev r0_w3 : Rect S1152x128 := Rect.unit (s := S1152x128) ![384, 0] S128x128.size inb_S1152x128_S128x128_384_0
abbrev r0_w4 : Rect S1152x128 := Rect.unit (s := S1152x128) ![512, 0] S128x128.size inb_S1152x128_S128x128_512_0
abbrev r0_w5 : Rect S1152x128 := Rect.unit (s := S1152x128) ![640, 0] S128x128.size inb_S1152x128_S128x128_640_0
abbrev r0_w6 : Rect S1152x128 := Rect.unit (s := S1152x128) ![768, 0] S128x128.size inb_S1152x128_S128x128_768_0
abbrev r0_w7 : Rect S1152x128 := Rect.unit (s := S1152x128) ![896, 0] S128x128.size inb_S1152x128_S128x128_896_0
abbrev r0_w8 : Rect S1152x128 := Rect.unit (s := S1152x128) ![1024, 0] S128x128.size inb_S1152x128_S128x128_1024_0
abbrev r0_s : Rect S128x128 := Rect.unit (s := S128x128) ![0, 0] S128x128.size inb_S128x128_S128x128_0_0
abbrev r0_a : Rect S1x56x56x128 := Rect.unit (s := S1x56x56x128) ![0, 0, 0, 0] S1x56x56x128.size inb_S1x56x56x128_S1x56x56x128_0_0_0_0
abbrev r0_t : Rect S4x128 := Rect.unit (s := S4x128) ![0, 0] S4x128.size inb_S4x128_S4x128_0_0

/-- The first convolution's accumulator over the nine taps, from the image block and the weights block. -/
def acc0_1 (x0 : Vec F S1x58x58x128 .bf16) (x1 : Vec F S1152x128 .bf16) : FVec F S3136x128 .f32 :=
  k0_pay7 (k0_pay3 (View.ld x0 r0_x)) (k0_pay4 (View.ld x0 r0_x) (View.ld x1 r0_w0) (View.ld x1 r0_w1) (View.ld x1 r0_w2) (View.ld x1 r0_w3)) (k0_pay6 (View.ld x0 r0_x) (View.ld x1 r0_w4))
    (View.ld x1 r0_w5) (View.ld x1 r0_w6) (View.ld x1 r0_w7) (View.ld x1 r0_w8)

/-- The shortcut's accumulator, from the image block's centre tap and the shortcut's weights. -/
def acc0_s (x0 : Vec F S1x58x58x128 .bf16) (x2 : Vec F S128x128 .bf16) : FVec F S3136x128 .f32 :=
  k0_pay8 (k0_pay5 (View.ld x0 r0_x)) (View.ld x2 r0_s)

/-- The first convolution's block after the body: its one store over the input blocks. -/
def out0_3 (x0 : Vec F S1x58x58x128 .bf16) (x1 : Vec F S1152x128 .bf16) : Vec F S1x56x56x128 .f32 :=
  View.canon [⟨r0_a, k0_pay9 (k0_pay3 (View.ld x0 r0_x)) (k0_pay4 (View.ld x0 r0_x) (View.ld x1 r0_w0) (View.ld x1 r0_w1) (View.ld x1 r0_w2) (View.ld x1 r0_w3)) (k0_pay6 (View.ld x0 r0_x) (View.ld x1 r0_w4))
    (View.ld x1 r0_w5) (View.ld x1 r0_w6) (View.ld x1 r0_w7) (View.ld x1 r0_w8)⟩]

/-- The shortcut's block after the body: its one store over the input blocks. -/
def out0_4 (x0 : Vec F S1x58x58x128 .bf16) (x2 : Vec F S128x128 .bf16) : Vec F S1x56x56x128 .f32 :=
  View.canon [⟨r0_a, k0_pay10 (k0_pay5 (View.ld x0 r0_x)) (View.ld x2 r0_s)⟩]

/-- The moments block after the body at a point that finds it at `s`: the four moment rows of this image added to `s`. -/
def out0_5 (x0 : Vec F S1x58x58x128 .bf16) (x1 : Vec F S1152x128 .bf16) (x2 : Vec F S128x128 .bf16) (s : Vec F S4x128 .f32) : Vec F S4x128 .f32 :=
  View.canon [⟨r0_t, k0_pay1 (acc0_1 x0 x1) (acc0_s x0 x2) (View.ld s r0_t)⟩]

/-- The moments block as the first point's reset leaves it: zeros. -/
def zero0_5 : Vec F S4x128 .f32 := View.canon [⟨r0_t, k0_pay2 (F := F)⟩]

/-- Each store takes its whole block. -/
theorem cover0_a (p0 : Vec F S1x56x56x128 .f32) (y : S1x56x56x128.Idx) :
    ∃ pc ∈ ([⟨r0_a, p0⟩] : List (View.Piece (Elt F) S1x56x56x128 .f32)), y ∈ pc.1.set :=
  View.cover_of_tiled [⟨r0_a, p0⟩] S1x56x56x128.size (by rfl) y
theorem cover0_t (p0 : Vec F S4x128 .f32) (y : S4x128.Idx) :
    ∃ pc ∈ ([⟨r0_t, p0⟩] : List (View.Piece (Elt F) S4x128 .f32)), y ∈ pc.1.set :=
  View.cover_of_tiled [⟨r0_t, p0⟩] S4x128.size (by rfl) y

/-- The body's branch condition, from the grid coordinate: the point is the first. -/
abbrev cond0 (i : grid0.Coords) : Prop := (Scalar.cmpi .ne (Scalar.extui (Scalar.cmpi .eq (BitVec.ofNat 32 (i 0).val) 0#32)) 0#32) = 1#1
/-- It holds at the first point only. -/
theorem hcond0 : ∀ t : Fin cfg0.N, cond0 (grid0.coords t) ↔ t.val % 32 = 0 :=
  (by decide +kernel : ∀ t : Fin grid0.N, cond0 (grid0.coords t) ↔ t.val % 32 = 0)

/-- Under a last write that takes the whole buffer the earlier writes do not show. -/
theorem canon_cons_whole {s : Shape} {e : EltTy} (r : Rect s) (w : r.shape.Idx → Elt F e) (L L' : List (View.Piece (Elt F) s e))
    (h : ∀ y, y ∈ r.set) : View.canon (⟨r, w⟩ :: L) = View.canon (⟨r, w⟩ :: L') := by
  funext y
  obtain ⟨x, rfl⟩ : ∃ x, r.emb x = y := r.exists_idx_of_mem (h y)
  rw [View.canon_cons_emb, View.canon_cons_emb]

theorem whole0_t (y : S4x128.Idx) : y ∈ (r0_t).set := by
  have h0 : (y 0).val < 4 := (y 0).isLt
  have h1 : (y 1).val < 128 := (y 1).isLt
  exact Rect.mem_set_unit.mpr fun a => match a with
    | ⟨0, _⟩ => ⟨by show 0 ≤ (y 0).val; omega, by show (y 0).val < 0 + 4; omega⟩
    | ⟨1, _⟩ => ⟨by show 0 ≤ (y 1).val; omega, by show (y 1).val < 0 + 128; omega⟩

set_option maxHeartbeats 4000000 in
/-- The body at the FIRST point, on whole staging buffers: the inputs stay as they were, the two image outputs end at
    `out0_3` and `out0_4` of the inputs, the moments block — whatever it held — at this image's moments added to zeros. -/
theorem sound_kernel0_A (c : Dev nD) (E : Set ℕ) (i : grid0.Coords) (hc : cond0 i)
    (arg1 : Memref sig .tc .vmem S1x58x58x128 .bf16) (harg1 : arg1.IsWhole) (arg2 : Memref sig .tc .vmem S1152x128 .bf16) (harg2 : arg2.IsWhole)
    (arg3 : Memref sig .tc .vmem S128x128 .bf16) (harg3 : arg3.IsWhole) (arg4 : Memref sig .tc .vmem S1x56x56x128 .f32) (harg4 : arg4.IsWhole)
    (arg5 : Memref sig .tc .vmem S1x56x56x128 .f32) (harg5 : arg5.IsWhole) (arg6 : Memref sig .tc .vmem S4x128 .f32) (harg6 : arg6.IsWhole)
    (x0 : Vec F S1x58x58x128 .bf16) (x1 : Vec F S1152x128 .bf16) (x2 : Vec F S128x128 .bf16) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1) ∗ owns (c : Thread nD τ) arg5 fullShare (out0_4 x0 x2)
            ∗ owns (c : Thread nD τ) arg6 fullShare (out0_5 x0 x1 x2 zero0_5)) -∗ K ⟨⟩))
      ⊢ wp frame (wpE (defs₀ (F := F)) Variants.none c none) E (cc0_pass1_kernel i arg1 harg1 arg2 harg2 arg3 harg3 arg4 harg4 arg5 harg5 arg6 harg6) K := by
  simp only [cc0_pass1_kernel_eq_skeleton]; unfold cc0_pass1_kernel_skel
  simp only [k0_part1_eq_skeleton, k0_part2_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_a _)
  isplitl [H4]
  · iexists _; isplitr
    swap; · iexact H4
    ipureintro
    exact View.read_writes_eq_canon _ _ _ (cover0_a _)
  iexists _; isplitr
  swap; · iexact H5
  ipureintro
  refine (View.read_writes_eq_canon _ _ _ (fun y => ⟨_, List.mem_cons_self, whole0_t y⟩)).trans ?_
  refine (canon_cons_whole _ _ _ [] whole0_t).trans ?_
  have hv : arg6.view.readCov [⟨r0_t, k0_pay2 (F := F)⟩] r0_t.toLoadRect = View.ld (zero0_5 (F := F)) r0_t :=
    View.readCov_eq_canon_ld _ _ _ (cover0_t _)
  exact congrArg (fun v => View.canon [(⟨r0_t, k0_pay1 (acc0_1 (arg1.view.read (Elt F) f0) (arg2.view.read (Elt F) f1)) (acc0_s (arg1.view.read (Elt F) f0) (arg3.view.read (Elt F) f2)) v⟩ : View.Piece (Elt F) S4x128 .f32)]) hv

set_option maxHeartbeats 4000000 in
/-- The body at a LATER point, on whole staging buffers, the moments block at `s`: the inputs stay as they were, the two
    image outputs end at `out0_3` and `out0_4` of the inputs, the moments block at this image's moments added to `s`. -/
theorem sound_kernel0_B (c : Dev nD) (E : Set ℕ) (i : grid0.Coords) (hc : ¬cond0 i)
    (arg1 : Memref sig .tc .vmem S1x58x58x128 .bf16) (harg1 : arg1.IsWhole) (arg2 : Memref sig .tc .vmem S1152x128 .bf16) (harg2 : arg2.IsWhole)
    (arg3 : Memref sig .tc .vmem S128x128 .bf16) (harg3 : arg3.IsWhole) (arg4 : Memref sig .tc .vmem S1x56x56x128 .f32) (harg4 : arg4.IsWhole)
    (arg5 : Memref sig .tc .vmem S1x56x56x128 .f32) (harg5 : arg5.IsWhole) (arg6 : Memref sig .tc .vmem S4x128 .f32) (harg6 : arg6.IsWhole)
    (x0 : Vec F S1x58x58x128 .bf16) (x1 : Vec F S1152x128 .bf16) (x2 : Vec F S128x128 .bf16) (s : Vec F S4x128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ owns (c : Thread nD τ) arg6 fullShare s
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1) ∗ owns (c : Thread nD τ) arg5 fullShare (out0_4 x0 x2)
            ∗ owns (c : Thread nD τ) arg6 fullShare (out0_5 x0 x1 x2 s)) -∗ K ⟨⟩))
      ⊢ wp frame (wpE (defs₀ (F := F)) Variants.none c none) E (cc0_pass1_kernel i arg1 harg1 arg2 harg2 arg3 harg3 arg4 harg4 arg5 harg5 arg6 harg6) K := by
  simp only [cc0_pass1_kernel_eq_skeleton]; unfold cc0_pass1_kernel_skel
  simp only [k0_part1_eq_skeleton, k0_part2_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%f5, %hf5, H5⟩, Hk⟩
  subst hf0 hf1 hf2 hf5
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_a _)
  isplitl [H4]
  · iexists _; isplitr
    swap; · iexact H4
    ipureintro
    exact View.read_writes_eq_canon _ _ _ (cover0_a _)
  iexists _; isplitr
  swap; · iexact H5
  ipureintro
  exact View.read_writes_eq_canon _ _ _ (cover0_t _)

end Cert.ReferenceIdeal.Run

end
-- ==== Proof.RIPass1Data.lean ====
import proofs.«120137_g2000002162550304_pallasbulk_397_2_alg».proof.Proof.RIPass1Body

set_option maxRecDepth 16384

noncomputable section

/-! # The reference's first pass at every grid point: what each window's buffer holds before and after the body

The moments block is resident: it is written back only after the last point, so at every later point the body finds in it
what the point before left. Its contents after point `n` are therefore a recursion on `n`. -/

namespace Cert.ReferenceIdeal.Run

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- THE ACCUMULATION. What the moments block holds after the body at point `n`: the first point's moments added to
    zeros; a later point's added to what the point before left. -/
def stats0 (c : Dev nD) : (n : ℕ) → n < cfg0.N → Vec F S4x128 .f32
  | 0, hn => out0_5 (iblk0 V c 0 ⟨0, hn⟩) (iblk0 V c 1 ⟨0, hn⟩) (iblk0 V c 2 ⟨0, hn⟩) zero0_5
  | n + 1, hn => out0_5 (iblk0 V c 0 ⟨n + 1, hn⟩) (iblk0 V c 1 ⟨n + 1, hn⟩) (iblk0 V c 2 ⟨n + 1, hn⟩) (stats0 c n (Nat.lt_of_succ_lt hn))

/-- At the first point: this image's moments over zeros. -/
theorem stats0_A (c : Dev nD) (t : Fin cfg0.N) (h0 : t.val = 0) :
    stats0 V c t.val t.isLt = out0_5 (iblk0 V c 0 t) (iblk0 V c 1 t) (iblk0 V c 2 t) zero0_5 := by
  obtain ⟨n, hn⟩ := t
  cases n with
  | zero => rfl
  | succ n => exact absurd h0 (Nat.succ_ne_zero n)

/-- At a later point: this image's moments over what the point before left. -/
theorem stats0_B (c : Dev nD) (t : Fin cfg0.N) (h0 : t.val ≠ 0) :
    stats0 V c t.val t.isLt = out0_5 (iblk0 V c 0 t) (iblk0 V c 1 t) (iblk0 V c 2 t)
      (stats0 V c (t.val - 1) (Nat.lt_of_le_of_lt (Nat.sub_le _ _) t.isLt)) := by
  obtain ⟨n, hn⟩ := t
  cases n with
  | zero => exact absurd rfl h0
  | succ n => rfl

/-- The pass's proof data on core `c`: the arrays as the pass finds them; after the body at point `t` each input's
    buffer at its block, the two image outputs at their functions of the input blocks, the moments block at the
    accumulation; nothing kept between points beyond the untouched scoped buffers and the generator register; nothing
    owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
    | ⟨4, _⟩ => out0_4 (iblk0 V c 0 t) (iblk0 V c 2 t)
    | ⟨5, _⟩ => stats0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 2 t) := by dsimp only [dat0]
theorem after0_5 (c : Dev nD) (t : Fin cfg0.N) : (dat0 V c).after 5 t = stats0 V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- At a later point the moments block holds what the body left at the point before: the block is written back only
    after the last point, and the window is live and whole at every point. -/
theorem before0_5_B (c : Dev nD) (t : Fin cfg0.N) (h0 : t.val ≠ 0) (d) :
    (dat0 V c).before 5 t d = stats0 V c (t.val - 1) (Nat.lt_of_le_of_lt (Nat.sub_le _ _) t.isLt) := by
  have hN : t.val < 32 := lt_of_lt_of_eq t.isLt (show cfg0.N = 32 from N_0)
  rw [Dat.before_out_kept _ 5 rfl t h0 (Bool.eq_false_iff.mpr fun h => by have := (flush0_5 _).mp h; dsimp only at this; omega)
    (fun _ => rfl) (fun _ _ => rfl)]
  dsimp only [dat0]

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

set_option maxHeartbeats 800000 in
/-- The body at any point: the inputs' buffers hold their blocks; at the first point the moments block holds anything and
    the body resets it, at a later point it holds what the point before left; the rest passes through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5]
  have hN : t.val < 32 := lt_of_lt_of_eq t.isLt (show cfg0.N = 32 from N_0)
  by_cases h0 : t.val = 0
  · rw [stats0_A V c t h0]
    iintro ⟨HΦ, Ho, ⟨%d0, H0⟩, ⟨%d1, H1⟩, ⟨%d2, H2⟩, ⟨%d3, H3⟩, ⟨%d4, H4⟩, ⟨%d5, H5⟩⟩
    iapply (sound_kernel0_A c Set.univ (grid0.coords t) ((hcond0 t).mpr (by omega)) _ _ _ _ _ _ _ _ _ _ _ _ (iblk0 V c 0 t) (iblk0 V c 1 t) (iblk0 V c 2 t) _)
    isplitl [H0]; · iexact H0
    isplitl [H1]; · iexact H1
    isplitl [H2]; · iexact H2
    isplitl [H3]; · iexists _; iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · rw [stats0_B V c t h0]
    simp only [before0_5_B V c t h0]
    iintro ⟨HΦ, Ho, ⟨%d0, H0⟩, ⟨%d1, H1⟩, ⟨%d2, H2⟩, ⟨%d3, H3⟩, ⟨%d4, H4⟩, ⟨%d5, H5⟩⟩
    iapply (sound_kernel0_B c Set.univ (grid0.coords t) (fun h => h0 (by have := (hcond0 t).mp h; omega)) _ _ _ _ _ _ _ _ _ _ _ _ (iblk0 V c 0 t) (iblk0 V c 1 t) (iblk0 V c 2 t) _ _)
    isplitl [H0]; · iexact H0
    isplitl [H1]; · iexact H1
    isplitl [H2]; · iexact H2
    isplitl [H3]; · iexists _; iexact H3
    isplitl [H4]; · iexists _; iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.ReferenceIdeal.Run

end
-- ==== Proof.RIPass2Scratch.lean ====
import proofs.«120137_g2000002162550304_pallasbulk_397_2_alg».proof.Proof.Gen.ReferenceIdeal.Skeleton
import proofs.«120137_g2000002162550304_pallasbulk_397_2_alg».proof.Proof.LibStoreReadBack
import Idealize.ShloMosaic.Lib.Pipeline.FrameBody
import Idealize.ShloMosaic.Lib.ValueIdx

set_option maxRecDepth 16384

noncomputable section

/-! # The reference's second pass: its padded scratch image

The body keeps a 58 × 58 image in a scratch buffer. At the first point it stores zeros over all of it; at every point it
then stores the 56 × 56 block `a` (the normalised, clamped first-convolution output) into rows 1 to 56 at columns 1 to
56, as rows that are part of their machine words: the store loads the box of rows 1 to 56 at all columns and puts it back
with the window replaced. So after the store the scratch holds `a` in the middle and, around it, what it held before the
store: the border is never rewritten. -/

namespace Cert.ReferenceIdeal.Run

open Cert.ReferenceIdeal Cert.ReferenceIdeal.Gen
open Idealize.ShloMosaic Idealize.ShloMosaic.ValueIdx

variable {F : FTy → Type} [FloatOps F]
variable {sig' : RefSig} {κ : Kind} {sp : Space} (v : View sig' κ sp S58x58x128 .bf16) (f : v.ty.Contents (Elt F))

/-- The whole scratch, -/
abbrev r1_p : Rect S58x58x128 := Rect.unit (s := S58x58x128) ![0, 0, 0] S58x58x128.size inb_S58x58x128_S58x58x128_0_0_0
/-- and the box of rows 1 to 56 at all columns, through which the middle is stored. -/
abbrev r1_box : Rect S58x58x128 := Rect.unit (s := S58x58x128) ![1, 0, 0] S56x58x128.size inb_S58x58x128_S56x58x128_1_0_0

/-- The image `P` with its middle replaced by `a`. -/
def padIn (P : Vec F S58x58x128 .bf16) (a : Vec F S56x56x128 .bf16) : Vec F S58x58x128 .bf16 := fun y =>
  if h : 1 ≤ (y 0).val ∧ (y 0).val ≤ 56 ∧ 1 ≤ (y 1).val ∧ (y 1).val ≤ 56 then
    a (ix3 (n0 := 56) (n1 := 56) (n2 := 128) ⟨(y 0).val - 1, by omega⟩ ⟨(y 1).val - 1, by omega⟩ (y 2))
  else P y

/-- The store of the middle after the stores `L`. -/
def pcMid (L : List (View.Piece (Elt F) S58x58x128 .bf16)) (a : Vec F S56x56x128 .bf16) : View.Piece (Elt F) S58x58x128 .bf16 :=
  ⟨r1_box, updateSlice (v.readAt (Elt F) r1_box.toLoadRect (v.writes (Elt F) f L)) a ![0, 1, 0] slices_S56x58x128_S56x56x128_0_1_0⟩

/-- After the store of the middle the scratch reads `a` in the middle and elsewhere what the earlier stores left. -/
theorem read_mid (L : List (View.Piece (Elt F) S58x58x128 .bf16)) (a : Vec F S56x56x128 .bf16) (y : S58x58x128.Idx) :
    v.read (Elt F) (v.writes (Elt F) f (pcMid v f L a :: L)) y = padIn (v.read (Elt F) (v.writes (Elt F) f L)) a y := by
  have h0 : (y 0).val < 58 := (y 0).isLt
  have h1 : (y 1).val < 58 := (y 1).isLt
  unfold padIn pcMid
  by_cases hin : 1 ≤ (y 0).val ∧ (y 0).val ≤ 56 ∧ 1 ≤ (y 1).val ∧ (y 1).val ≤ 56
  · rw [dif_pos hin]
    exact View.read_blend_in v f ![1, 0, 0] S56x58x128.size inb_S58x58x128_S56x58x128_1_0_0 a ![0, 1, 0] slices_S56x58x128_S56x56x128_0_1_0 L y
      (ix3 (n0 := 56) (n1 := 56) (n2 := 128) ⟨(y 0).val - 1, by omega⟩ ⟨(y 1).val - 1, by omega⟩ (y 2))
      (fun a => match a with
        | ⟨0, _⟩ => by show (y 0).val = 1 + 0 + ((y 0).val - 1); omega
        | ⟨1, _⟩ => by show (y 1).val = 0 + 1 + ((y 1).val - 1); omega
        | ⟨2, _⟩ => by show (y 2).val = 0 + 0 + (y 2).val; omega)
  · rw [dif_neg hin]
    exact View.read_blend_out v f ![1, 0, 0] S56x58x128.size inb_S58x58x128_S56x58x128_1_0_0 a ![0, 1, 0] slices_S56x58x128_S56x56x128_0_1_0 L y (by
      rcases (by omega : (y 0).val = 0 ∨ (y 0).val = 57 ∨ (y 1).val = 0 ∨ (y 1).val = 57) with h | h | h | h
      · exact ⟨0, Or.inl (by show (y 0).val < 1 + 0; omega)⟩
      · exact ⟨0, Or.inr (by show 1 + 0 + 56 ≤ (y 0).val; omega)⟩
      · exact ⟨1, Or.inl (by show (y 1).val < 0 + 1; omega)⟩
      · exact ⟨1, Or.inr (by show 0 + 1 + 56 ≤ (y 1).val; omega)⟩)

/-- Every element lies in the whole scratch. -/
theorem whole1_p (y : S58x58x128.Idx) : y ∈ (r1_p).set := by
  have h0 : (y 0).val < 58 := (y 0).isLt
  have h1 : (y 1).val < 58 := (y 1).isLt
  have h2 : (y 2).val < 128 := (y 2).isLt
  exact Rect.mem_set_unit.mpr fun a => match a with
    | ⟨0, _⟩ => ⟨by show 0 ≤ (y 0).val; omega, by show (y 0).val < 0 + 58; omega⟩
    | ⟨1, _⟩ => ⟨by show 0 ≤ (y 1).val; omega, by show (y 1).val < 0 + 58; omega⟩
    | ⟨2, _⟩ => ⟨by show 0 ≤ (y 2).val; omega, by show (y 2).val < 0 + 128; omega⟩

/-- Reading through the whole scratch's box is reading. -/
theorem ld_whole1_p (X : Vec F S58x58x128 .bf16) : View.ld X r1_p = X := by
  funext j
  exact congrArg X (funext fun b => Fin.ext (match b with
    | ⟨0, _⟩ => by show 0 + 1 * (j 0).val = (j 0).val; omega
    | ⟨1, _⟩ => by show 0 + 1 * (j 1).val = (j 1).val; omega
    | ⟨2, _⟩ => by show 0 + 1 * (j 2).val = (j 2).val; omega))

/-! ## A later point: the scratch holds `P`, the middle is stored over it -/

/-- The one store of a later point. -/
def padWB (a : Vec F S56x56x128 .bf16) : List (View.Piece (Elt F) S58x58x128 .bf16) := [pcMid v f [] a]

theorem read_padWB (a : Vec F S56x56x128 .bf16) :
    v.read (Elt F) (v.writes (Elt F) f (padWB v f a)) = padIn (v.read (Elt F) f) a :=
  funext fun y => read_mid v f [] a y

/-! ## The first point: zeros stored over everything, then the middle -/

/-- The first point's store of `z` over the whole scratch. -/
def padWZ (z : Vec F S58x58x128 .bf16) : List (View.Piece (Elt F) S58x58x128 .bf16) := [⟨r1_p, z⟩]

/-- A load after the store over everything reads what was stored, whatever the scratch held. -/
theorem readCov_padWZ (z : Vec F S58x58x128 .bf16) (B : LoadRect S58x58x128) :
    v.readCov (padWZ z) B = v.readAt (Elt F) B (v.writes (Elt F) f (padWZ z)) := by
  funext j
  have hc : ∃ p ∈ padWZ z, B.idx j ∈ p.1.set := ⟨⟨r1_p, z⟩, List.mem_singleton.mpr rfl, whole1_p _⟩
  exact (congrFun (View.readCov_eq_canon' v (padWZ z) B) j).trans
    (View.read_writes_apply_eq_canon v f (B.idx j) (padWZ z) hc).symm

/-- The first point's two stores. -/
def padWA (z : Vec F S58x58x128 .bf16) (a : Vec F S56x56x128 .bf16) : List (View.Piece (Elt F) S58x58x128 .bf16) :=
  ⟨r1_box, updateSlice (v.readCov (padWZ z) r1_box.toLoadRect) a ![0, 1, 0] slices_S56x58x128_S56x56x128_0_1_0⟩ :: padWZ z

theorem padWA_eq (z : Vec F S58x58x128 .bf16) (a : Vec F S56x56x128 .bf16) : padWA v z a = pcMid v f (padWZ z) a :: padWZ z := by
  unfold padWA pcMid; rw [readCov_padWZ v f]

/-- After the first point's stores the scratch reads `a` in the middle and the stored `z` around it. -/
theorem read_padWA (z : Vec F S58x58x128 .bf16) (a : Vec F S56x56x128 .bf16) :
    v.read (Elt F) (v.writes (Elt F) f (padWA v z a)) = padIn (View.canon (padWZ z)) a := by
  rw [padWA_eq v f]
  funext y
  rw [read_mid, View.read_writes_eq_canon v f (padWZ z) fun y => ⟨_, List.mem_cons_self, whole1_p y⟩]

/-- They cover the scratch. -/
theorem cover_padWA (z : Vec F S58x58x128 .bf16) (a : Vec F S56x56x128 .bf16) (y : S58x58x128.Idx) : ∃ p ∈ padWA v z a, y ∈ p.1.set :=
  ⟨_, List.mem_cons_of_mem _ List.mem_cons_self, whole1_p y⟩

/-- So a load of the whole scratch after them reads that image. -/
theorem readCov_padWA (z : Vec F S58x58x128 .bf16) (a : Vec F S56x56x128 .bf16) :
    v.readCov (padWA v z a) r1_p.toLoadRect = padIn (View.canon (padWZ z)) a := by
  rw [View.readCov_eq_canon_ld v _ r1_p (cover_padWA v z a), ← View.read_writes_eq_canon v v.junk _ (cover_padWA v z a), read_padWA v v.junk, ld_whole1_p]

/-- And a load of the whole scratch after a later point's store reads its image. -/
theorem readAt_padWB (a : Vec F S56x56x128 .bf16) :
    v.readAt (Elt F) r1_p.toLoadRect (v.writes (Elt F) f (padWB v f a)) = padIn (v.read (Elt F) f) a := by
  rw [View.readAt_eq_ld, read_padWB, ld_whole1_p]

end Cert.ReferenceIdeal.Run

end
-- ==== Proof.RIPass2Body.lean ====
import proofs.«120137_g2000002162550304_pallasbulk_397_2_alg».proof.Proof.Gen.ReferenceIdeal.Launch
import proofs.«120137_g2000002162550304_pallasbulk_397_2_alg».proof.Proof.Gen.ReferenceIdeal.Skeleton
import proofs.«120137_g2000002162550304_pallasbulk_397_2_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«120137_g2000002162550304_pallasbulk_397_2_alg».proof.Proof.RIPass1Body
import proofs.«120137_g2000002162550304_pallasbulk_397_2_alg».proof.Proof.RIPass2Scratch

set_option maxRecDepth 16384

noncomputable section

/-! # The reference's second pass on one image

At grid point `t` the body reads the image's first-convolution block, two coefficient rows and the second convolution's
weights; it normalises and clamps the block, stores it into the middle of a padded scratch image, reads the scratch back
whole, and stores the image's second-convolution block; a resident moments block is zeroed at the first point and added to
at every point, and the scratch too is zeroed at the first point only, so its border of zeros is carried from point to
point. This module states what the two output blocks and the scratch hold after the body, and proves the body does that,
at the first point and at a later point. -/

namespace Cert.ReferenceIdeal.Run

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the pass finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 holds its block at every point, whether the point fetched it or the block stayed from before. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 holds its block at every point, whether the point fetched it or the block stayed from before. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 holds its block at every point, whether the point fetched it or the block stayed from before. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3 holds its block at every point, whether the point fetched it or the block stayed from before. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each staged block whole, the second convolution's weights one 128-row slab per tap -/
abbrev r1_a : Rect S1x56x56x128 := Rect.unit (s := S1x56x56x128) ![0, 0, 0, 0] S1x56x56x128.size inb_S1x56x56x128_S1x56x56x128_0_0_0_0
abbrev r1_v : Rect S1x128 := Rect.unit (s := S1x128) ![0, 0] S1x128.size inb_S1x128_S1x128_0_0
abbrev r1_w0 : Rect S1152x128 := Rect.unit (s := S1152x128) ![0, 0] S128x128.size inb_S1152x128_S128x128_0_0
abbrev r1_w1 : Rect S1152x128 := Rect.unit (s := S1152x128) ![128, 0] S128x128.size inb_S1152x128_S128x128_128_0
abbrev r1_w2 : Rect S1152x128 := Rect.unit (s := S1152x128) ![256, 0] S128x128.size inb_S1152x128_S128x128_256_0
abbrev r1_w3 : Rect S1152x128 := Rect.unit (s := S1152x128) ![384, 0] S128x128.size inb_S1152x128_S128x128_384_0
abbrev r1_w4 : Rect S1152x128 := Rect.unit (s := S1152x128) ![512, 0] S128x128.size inb_S1152x128_S128x128_512_0
abbrev r1_w5 : Rect S1152x128 := Rect.unit (s := S1152x128) ![640, 0] S128x128.size inb_S1152x128_S128x128_640_0
abbrev r1_w6 : Rect S1152x128 := Rect.unit (s := S1152x128) ![768, 0] S128x128.size inb_S1152x128_S128x128_768_0
abbrev r1_w7 : Rect S1152x128 := Rect.unit (s := S1152x128) ![896, 0] S128x128.size inb_S1152x128_S128x128_896_0
abbrev r1_w8 : Rect S1152x128 := Rect.unit (s := S1152x128) ![1024, 0] S128x128.size inb_S1152x128_S128x128_1024_0
abbrev r1_t : Rect S2x128 := Rect.unit (s := S2x128) ![0, 0] S2x128.size inb_S2x128_S2x128_0_0

/-- The normalised, clamped first-convolution block, narrowed: what the body stores into the middle of the scratch. -/
def act1 (x0 : Vec F S1x56x56x128 .f32) (x1 x2 : Vec F S1x128 .f32) : Vec F S56x56x128 .bf16 :=
  k1_pay6 (View.ld x1 r1_v) (View.ld x2 r1_v) (View.ld x0 r1_a)

/-- The second convolution's accumulator over the nine taps of the scratch image `S`, less the last tap's product. -/
def acc1 (S : Vec F S58x58x128 .bf16) (x3 : Vec F S1152x128 .bf16) : FVec F S3136x128 .f32 :=
  k1_pay10 S (k1_pay7 S (View.ld x3 r1_w0)) (k1_pay8 S) (k1_pay9 (View.ld x3 r1_w1))
    (View.ld x3 r1_w2) (View.ld x3 r1_w3) (View.ld x3 r1_w4) (View.ld x3 r1_w5) (View.ld x3 r1_w6) (View.ld x3 r1_w7)

/-- The second convolution's block after the body, from the scratch image the taps read: its one store. -/
def out1_4 (S : Vec F S58x58x128 .bf16) (x3 : Vec F S1152x128 .bf16) : Vec F S1x56x56x128 .f32 :=
  View.canon [⟨r1_a, k1_pay2 (acc1 S x3) (k1_pay11 S) (View.ld x3 r1_w8)⟩]

/-- The moments block after the body at a point that finds it at `s`: this image's two moment rows added to `s`. -/
def out1_5 (S : Vec F S58x58x128 .bf16) (x3 : Vec F S1152x128 .bf16) (s : Vec F S2x128 .f32) : Vec F S2x128 .f32 :=
  View.canon [⟨r1_t, k1_pay3 (acc1 S x3) (k1_pay11 S) (View.ld x3 r1_w8) (View.ld s r1_t)⟩]

/-- The moments block as the first point's reset leaves it: zeros. -/
def zero1_5 : Vec F S2x128 .f32 := View.canon [⟨r1_t, k1_pay5 (F := F)⟩]

/-- The scratch as the first point's reset leaves it: zeros everywhere. -/
def zeroPad : Vec F S58x58x128 .bf16 := View.canon (padWZ (k1_pay4 (F := F)))

theorem cover1_a (p0 : Vec F S1x56x56x128 .f32) (y : S1x56x56x128.Idx) :
    ∃ pc ∈ ([⟨r1_a, p0⟩] : List (View.Piece (Elt F) S1x56x56x128 .f32)), y ∈ pc.1.set :=
  View.cover_of_tiled [⟨r1_a, p0⟩] S1x56x56x128.size (by rfl) y
theorem cover1_t (p0 : Vec F S2x128 .f32) (y : S2x128.Idx) :
    ∃ pc ∈ ([⟨r1_t, p0⟩] : List (View.Piece (Elt F) S2x128 .f32)), y ∈ pc.1.set :=
  View.cover_of_tiled [⟨r1_t, p0⟩] S2x128.size (by rfl) y
theorem whole1_t (y : S2x128.Idx) : y ∈ (r1_t).set := by
  have h0 : (y 0).val < 2 := (y 0).isLt
  have h1 : (y 1).val < 128 := (y 1).isLt
  exact Rect.mem_set_unit.mpr fun a => match a with
    | ⟨0, _⟩ => ⟨by show 0 ≤ (y 0).val; omega, by show (y 0).val < 0 + 2; omega⟩
    | ⟨1, _⟩ => ⟨by show 0 ≤ (y 1).val; omega, by show (y 1).val < 0 + 128; omega⟩

/-- The body's branch condition, from the grid coordinate: the point is the first. -/
abbrev cond1 (i : grid1.Coords) : Prop := (Scalar.cmpi .ne (Scalar.extui (Scalar.cmpi .eq (BitVec.ofNat 32 (i 0).val) 0#32)) 0#32) = 1#1
/-- It holds at the first point only. -/
theorem hcond1 : ∀ t : Fin cfg1.N, cond1 (grid1.coords t) ↔ t.val % 32 = 0 :=
  (by decide +kernel : ∀ t : Fin grid1.N, cond1 (grid1.coords t) ↔ t.val % 32 = 0)

set_option maxHeartbeats 8000000 in
/-- The body at the FIRST point, on whole staging buffers: the inputs stay as they were; the scratch ends at
    zeros with its middle replaced by this image's activation; the second convolution's block and the moments block end at their
    functions of that scratch image (the moments added to zeros). -/
theorem sound_kernel1_A (c : Dev nD) (E : Set ℕ) (i : grid1.Coords) (hc : cond1 i)
    (arg1 : Memref sig .tc .vmem S1x56x56x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1152x128 .bf16) (harg4 : arg4.IsWhole)
    (arg5 : Memref sig .tc .vmem S1x56x56x128 .f32) (harg5 : arg5.IsWhole) (arg6 : Memref sig .tc .vmem S2x128 .f32) (harg6 : arg6.IsWhole)
    (arg7 : Memref sig .tc .vmem S58x58x128 .bf16) (harg7 : arg7.IsWhole)
    (x0 : Vec F S1x56x56x128 .f32) (x1 x2 : Vec F S1x128 .f32) (x3 : Vec F S1152x128 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out1_4 (padIn zeroPad (act1 x0 x1 x2)) x3) ∗ owns (c : Thread nD τ) arg6 fullShare (out1_5 (padIn zeroPad (act1 x0 x1 x2)) x3 zero1_5)
            ∗ owns (c : Thread nD τ) arg7 fullShare (padIn zeroPad (act1 x0 x1 x2))) -∗ K ⟨⟩))
      ⊢ wp frame (wpE (defs₀ (F := F)) Variants.none c none) E (cc1_pass2_kernel i arg1 harg1 arg2 harg2 arg3 harg3 arg4 harg4 arg5 harg5 arg6 harg6 arg7 harg7) K := by
  simp only [cc1_pass2_kernel_eq_skeleton]; unfold cc1_pass2_kernel_skel
  simp only [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0 hf1 hf2 hf3
  sl_exec (disch := first | exact hc)
  sl_step
  have hv : arg7.view.readCov (padWA arg7.view (k1_pay4 (F := F)) (act1 (arg1.view.read (Elt F) f0) (arg2.view.read (Elt F) f1) (arg3.view.read (Elt F) f2))) r1_p.toLoadRect = padIn zeroPad (act1 (arg1.view.read (Elt F) f0) (arg2.view.read (Elt F) f1) (arg3.view.read (Elt F) f2)) :=
    readCov_padWA arg7.view _ _
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (cover1_a _)).trans ?_
    exact congrArg (fun v => View.canon [(⟨r1_a, k1_pay2 (acc1 v (arg4.view.read (Elt F) f3)) (k1_pay11 v) (View.ld (arg4.view.read (Elt F) f3) r1_w8)⟩ : View.Piece (Elt F) S1x56x56x128 .f32)]) hv
  isplitl [H5]
  · iexists _; isplitr
    swap; · iexact H5
    ipureintro
    refine (View.read_writes_eq_canon _ _ _ (fun y => ⟨_, List.mem_cons_self, whole1_t y⟩)).trans ?_
    refine (canon_cons_whole _ _ _ [] whole1_t).trans ?_
    have hz : arg6.view.readCov [⟨r1_t, k1_pay5 (F := F)⟩] r1_t.toLoadRect = View.ld (zero1_5 (F := F)) r1_t :=
      View.readCov_eq_canon_ld _ _ _ (cover1_t _)
    exact congrArg₂ (fun v w => View.canon [(⟨r1_t, k1_pay3 (acc1 v (arg4.view.read (Elt F) f3)) (k1_pay11 v) (View.ld (arg4.view.read (Elt F) f3) r1_w8) w⟩ : View.Piece (Elt F) S2x128 .f32)]) hv hz
  iexists _; isplitr
  swap; · iexact H6
  ipureintro
  exact read_padWA arg7.view f6 _ _

set_option maxHeartbeats 8000000 in
/-- The body at a LATER point, on whole staging buffers, the moments block at `s` and the scratch at `p`: the inputs stay as they were; the scratch ends at
    `p` with its middle replaced by this image's activation; the second convolution's block and the moments block end at their
    functions of that scratch image (the moments added to `s`). -/
theorem sound_kernel1_B (c : Dev nD) (E : Set ℕ) (i : grid1.Coords) (hc : ¬cond1 i)
    (arg1 : Memref sig .tc .vmem S1x56x56x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1152x128 .bf16) (harg4 : arg4.IsWhole)
    (arg5 : Memref sig .tc .vmem S1x56x56x128 .f32) (harg5 : arg5.IsWhole) (arg6 : Memref sig .tc .vmem S2x128 .f32) (harg6 : arg6.IsWhole)
    (arg7 : Memref sig .tc .vmem S58x58x128 .bf16) (harg7 : arg7.IsWhole)
    (x0 : Vec F S1x56x56x128 .f32) (x1 x2 : Vec F S1x128 .f32) (x3 : Vec F S1152x128 .bf16) (s : Vec F S2x128 .f32) (p : Vec F S58x58x128 .bf16) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ owns (c : Thread nD τ) arg6 fullShare s ∗ owns (c : Thread nD τ) arg7 fullShare p
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (out1_4 (padIn p (act1 x0 x1 x2)) x3) ∗ owns (c : Thread nD τ) arg6 fullShare (out1_5 (padIn p (act1 x0 x1 x2)) x3 s)
            ∗ owns (c : Thread nD τ) arg7 fullShare (padIn p (act1 x0 x1 x2))) -∗ K ⟨⟩))
      ⊢ wp frame (wpE (defs₀ (F := F)) Variants.none c none) E (cc1_pass2_kernel i arg1 harg1 arg2 harg2 arg3 harg3 arg4 harg4 arg5 harg5 arg6 harg6 arg7 harg7) K := by
  simp only [cc1_pass2_kernel_eq_skeleton]; unfold cc1_pass2_kernel_skel
  simp only [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
  subst hf0 hf1 hf2 hf3 hf5 hf6
  sl_exec (disch := first | exact hc)
  sl_step
  have hv : arg7.view.readAt (Elt F) r1_p.toLoadRect (arg7.view.writes (Elt F) f6 (padWB arg7.view f6 (act1 (arg1.view.read (Elt F) f0) (arg2.view.read (Elt F) f1) (arg3.view.read (Elt F) f2)))) = padIn (arg7.view.read (Elt F) f6) (act1 (arg1.view.read (Elt F) f0) (arg2.view.read (Elt F) f1) (arg3.view.read (Elt F) f2)) :=
    readAt_padWB arg7.view f6 _
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    refine (View.read_writes_eq_canon _ _ _ (cover1_a _)).trans ?_
    exact congrArg (fun v => View.canon [(⟨r1_a, k1_pay2 (acc1 v (arg4.view.read (Elt F) f3)) (k1_pay11 v) (View.ld (arg4.view.read (Elt F) f3) r1_w8)⟩ : View.Piece (Elt F) S1x56x56x128 .f32)]) hv
  isplitl [H5]
  · iexists _; isplitr
    swap; · iexact H5
    ipureintro
    refine (View.read_writes_eq_canon _ _ _ (cover1_t _)).trans ?_
    exact congrArg (fun v => View.canon [(⟨r1_t, k1_pay3 (acc1 v (arg4.view.read (Elt F) f3)) (k1_pay11 v) (View.ld (arg4.view.read (Elt F) f3) r1_w8) (View.ld (arg6.view.read (Elt F) f5) r1_t)⟩ : View.Piece (Elt F) S2x128 .f32)]) hv
  iexists _; isplitr
  swap; · iexact H6
  ipureintro
  exact read_padWB arg7.view f6 _

end Cert.ReferenceIdeal.Run

end
-- ==== Proof.RIPass2Data.lean ====
import proofs.«120137_g2000002162550304_pallasbulk_397_2_alg».proof.Proof.RIPass2Body

set_option maxRecDepth 16384

noncomputable section

/-! # The reference's second pass at every grid point: what each window's buffer and the scratch hold before and after the body

Two things are carried from point to point: the resident moments block, written back only after the last point, and the
padded scratch image, whose border of zeros is stored at the first point only. Both are recursions on the point. The
invariant between points names the scratch's contents: before the first point the scratch holds anything, after point
`n` it holds the scratch image of point `n`. -/

namespace Cert.ReferenceIdeal.Run

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The scratch operand: a whole scoped buffer of the body's own, passed beside the windows. -/
abbrev scM1 : Memref sig .tc .vmem S58x58x128 .bf16 := Memref.whole cc1_scratch0
/-- The core's other scoped buffers that are no staging buffer of this pass, each at some contents. -/
abbrev Rest1 (c : Dev nD) : sProp 𝕄 :=
  Pipeline.scopedRestBut (Ix := Unit) (Name := ℕ) (U := UR sig nD τ) (Lvl := ℕ) (Val := Elt F) spec1 c [cc1_scratch0]

/-- The scoped buffers that are no staging buffer of this pass: the scratch at some contents, and the others. -/
theorem scopedRest1_split (c : Dev nD) :
    (Pipeline.scopedRest (Ix := Unit) (Name := ℕ) (U := UR sig nD τ) (Lvl := ℕ) (Val := Elt F) spec1 c : sProp 𝕄)
      = iprop((∃ d, owns (c : Thread nD τ) scM1 fullShare d) ∗ Rest1 (F := F) c) := by
  rw [Pipeline.scopedRest_split_of_list (Ix := Unit) (Name := ℕ) (U := UR sig nD τ) (Lvl := ℕ) (Val := Elt F) spec1 c [cc1_scratch0] (by decide) (by decide)]
  simp only [scM1, owns_whole]
  rfl

theorem PhiA1_eq (c : Dev nD) :
    (Pipeline.ΦA spec1 c : sProp 𝕄) = iprop(((∃ d, owns (c : Thread nD τ) scM1 fullShare d) ∗ Rest1 (F := F) c) ∗ (∃ r, prngReg c r)) := by
  unfold Pipeline.ΦA; rw [scopedRest1_split]

/-- THE CARRIED SCRATCH. What the scratch holds after the body at point `n`: this image's activation in the middle;
    around it zeros at the first point, and at a later point what the point before left — zeros again, by induction. -/
def pad1 (c : Dev nD) : (n : ℕ) → n < cfg1.N → Vec F S58x58x128 .bf16
  | 0, hn => padIn zeroPad (act1 (iblk1 V c 0 ⟨0, hn⟩) (iblk1 V c 1 ⟨0, hn⟩) (iblk1 V c 2 ⟨0, hn⟩))
  | n + 1, hn => padIn (pad1 c n (Nat.lt_of_succ_lt hn)) (act1 (iblk1 V c 0 ⟨n + 1, hn⟩) (iblk1 V c 1 ⟨n + 1, hn⟩) (iblk1 V c 2 ⟨n + 1, hn⟩))

theorem pad1_A (c : Dev nD) (t : Fin cfg1.N) (h0 : t.val = 0) :
    pad1 V c t.val t.isLt = padIn zeroPad (act1 (iblk1 V c 0 t) (iblk1 V c 1 t) (iblk1 V c 2 t)) := by
  obtain ⟨n, hn⟩ := t
  cases n with
  | zero => rfl
  | succ n => exact absurd h0 (Nat.succ_ne_zero n)

theorem pad1_B (c : Dev nD) (t : Fin cfg1.N) (h0 : t.val ≠ 0) :
    pad1 V c t.val t.isLt = padIn (pad1 V c (t.val - 1) (Nat.lt_of_le_of_lt (Nat.sub_le _ _) t.isLt)) (act1 (iblk1 V c 0 t) (iblk1 V c 1 t) (iblk1 V c 2 t)) := by
  obtain ⟨n, hn⟩ := t
  cases n with
  | zero => exact absurd rfl h0
  | succ n => rfl

/-- THE ACCUMULATION. What the moments block holds after the body at point `n`: this image's moments (over its scratch
    image) added to zeros at the first point, to what the point before left at a later one. -/
def stats1 (c : Dev nD) : (n : ℕ) → n < cfg1.N → Vec F S2x128 .f32
  | 0, hn => out1_5 (pad1 V c 0 hn) (iblk1 V c 3 ⟨0, hn⟩) zero1_5
  | n + 1, hn => out1_5 (pad1 V c (n + 1) hn) (iblk1 V c 3 ⟨n + 1, hn⟩) (stats1 c n (Nat.lt_of_succ_lt hn))

theorem stats1_A (c : Dev nD) (t : Fin cfg1.N) (h0 : t.val = 0) :
    stats1 V c t.val t.isLt = out1_5 (pad1 V c t.val t.isLt) (iblk1 V c 3 t) zero1_5 := by
  obtain ⟨n, hn⟩ := t
  cases n with
  | zero => rfl
  | succ n => exact absurd h0 (Nat.succ_ne_zero n)

theorem stats1_B (c : Dev nD) (t : Fin cfg1.N) (h0 : t.val ≠ 0) :
    stats1 V c t.val t.isLt = out1_5 (pad1 V c t.val t.isLt) (iblk1 V c 3 t)
      (stats1 V c (t.val - 1) (Nat.lt_of_le_of_lt (Nat.sub_le _ _) t.isLt)) := by
  obtain ⟨n, hn⟩ := t
  cases n with
  | zero => exact absurd rfl h0
  | succ n => rfl

/-- The invariant before position `n`: before the first point every scoped buffer that is no staging buffer at anything
    and the generator register at some state; afterwards the same with the scratch at what point `n - 1` left in it. -/
def PhiS1 (c : Dev nD) : (n : ℕ) → n ≤ cfg1.N → sProp 𝕄
  | 0, _ => Pipeline.ΦA spec1 c
  | n + 1, hn => iprop((owns (c : Thread nD τ) scM1 fullShare (pad1 V c n hn) ∗ Rest1 (F := F) c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop((owns (c : Thread nD τ) scM1 fullShare (pad1 V c n hn) ∗ Rest1 (F := F) c) ∗ (∃ r, prngReg c r)) := rfl
theorem PhiS1_pos (c : Dev nD) (n : ℕ) (h : n ≤ cfg1.N) (hz : n ≠ 0) :
    PhiS1 V c n h = iprop((owns (c : Thread nD τ) scM1 fullShare (pad1 V c (n - 1) (by omega)) ∗ Rest1 (F := F) c) ∗ (∃ r, prngReg c r)) := by
  cases n with
  | zero => exact absurd rfl hz
  | succ n => rfl

/-- The pass's proof data on core `c`: the arrays as the pass finds them; after the body at point `t` each input's
    buffer at its block, the second convolution's block at its function of the point's scratch image, the moments block at
    the accumulation; between points the invariant above; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (pad1 V c t.val t.isLt) (iblk1 V c 3 t)
    | ⟨5, _⟩ => stats1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; rfl

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (pad1 V c t.val t.isLt) (iblk1 V c 3 t) := by dsimp only [dat1]
theorem after1_5 (c : Dev nD) (t : Fin cfg1.N) : (dat1 V c).after 5 t = stats1 V c t.val t.isLt := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- At a later point the moments block holds what the body left at the point before: the block is written back only
    after the last point, and the window is live and whole at every point. -/
theorem before1_5_B (c : Dev nD) (t : Fin cfg1.N) (h0 : t.val ≠ 0) (d) :
    (dat1 V c).before 5 t d = stats1 V c (t.val - 1) (Nat.lt_of_le_of_lt (Nat.sub_le _ _) t.isLt) := by
  have hN : t.val < 32 := lt_of_lt_of_eq t.isLt (show cfg1.N = 32 from N_1)
  rw [Dat.before_out_kept _ 5 rfl t h0 (Bool.eq_false_iff.mpr fun h => by have := (flush1_5 _).mp h; dsimp only at this; omega)
    (fun _ => rfl) (fun _ _ => rfl)]
  dsimp only [dat1]

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 1600000 in
/-- The body at any point: the inputs' buffers hold their blocks; at the first point the moments block and the scratch hold
    anything and the body resets both, at a later point they hold what the point before left; the invariant takes the
    scratch back at this point's image. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl,
    show (dat1 V c).Φ t.succ = PhiS1 V c (t.val + 1) t.isLt from rfl, PhiS1_succ,
    after1_0, after1_1, after1_2, after1_3, after1_4, after1_5]
  have hN : t.val < 32 := lt_of_lt_of_eq t.isLt (show cfg1.N = 32 from N_1)
  by_cases h0 : t.val = 0
  · rw [stats1_A V c t h0, pad1_A V c t h0, PhiS1_castSucc V c t, PhiS1_zero V c _ _ h0, PhiA1_eq]
    iintro ⟨⟨⟨⟨%ds, HS⟩, HR⟩, Hg⟩, Ho, ⟨%d0, H0⟩, ⟨%d1, H1⟩, ⟨%d2, H2⟩, ⟨%d3, H3⟩, ⟨%d4, H4⟩, ⟨%d5, H5⟩⟩
    iapply (sound_kernel1_A c Set.univ (grid1.coords t) ((hcond1 t).mpr (by omega)) _ _ _ _ _ _ _ _ _ _ _ _ _ _ (iblk1 V c 0 t) (iblk1 V c 1 t) (iblk1 V c 2 t) (iblk1 V c 3 t) _)
    isplitl [H0]; · iexact H0
    isplitl [H1]; · iexact H1
    isplitl [H2]; · iexact H2
    isplitl [H3]; · iexact H3
    isplitl [H4]; · iexists _; iexact H4
    isplitl [H5]; · iexists _; iexact H5
    isplitl [HS]; · iexists _; iexact HS
    iintro ⟨H0, H1, H2, H3, H4, H5, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    iexact H5
  · rw [stats1_B V c t h0, pad1_B V c t h0, PhiS1_castSucc V c t, PhiS1_pos V c _ _ h0]
    simp only [before1_5_B V c t h0]
    iintro ⟨⟨⟨HS, HR⟩, Hg⟩, Ho, ⟨%d0, H0⟩, ⟨%d1, H1⟩, ⟨%d2, H2⟩, ⟨%d3, H3⟩, ⟨%d4, H4⟩, ⟨%d5, H5⟩⟩
    iapply (sound_kernel1_B c Set.univ (grid1.coords t) (fun h => h0 (by have := (hcond1 t).mp h; omega)) _ _ _ _ _ _ _ _ _ _ _ _ _ _ (iblk1 V c 0 t) (iblk1 V c 1 t) (iblk1 V c 2 t) (iblk1 V c 3 t) _ _ _)
    isplitl [H0]; · iexact H0
    isplitl [H1]; · iexact H1
    isplitl [H2]; · iexact H2
    isplitl [H3]; · iexact H3
    isplitl [H4]; · iexists _; iexact H4
    isplitl [H5]; · iexact H5
    isplitl [HS]; · iexact HS
    iintro ⟨H0, H1, H2, H3, H4, H5, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]

/-- After the last point the invariant gives the scoped buffers back, the scratch's contents forgotten. -/
theorem hout1 (c : Dev nD) : (dat1 V c).Φ (Fin.last cfg1.N) ⊢ Pipeline.ΦA spec1 c := by
  have hN : cfg1.N = 32 := N_1
  rw [show (dat1 V c).Φ (Fin.last cfg1.N) = PhiS1 V c (Fin.last cfg1.N).val (Nat.le_of_lt_succ (Fin.last cfg1.N).isLt) from rfl,
    PhiS1_pos V c _ _ (by rw [Fin.val_last]; omega), PhiA1_eq]
  iintro ⟨⟨HS, HR⟩, Hg⟩
  isplitl [HS HR]
  · isplitl [HS]; · iexists _; iexact HS
    iexact HR
  iexact Hg

end Cert.ReferenceIdeal.Run

end
-- ==== Proof.RIPass3Body.lean ====
import proofs.«120137_g2000002162550304_pallasbulk_397_2_alg».proof.Proof.Gen.ReferenceIdeal.Launch
import proofs.«120137_g2000002162550304_pallasbulk_397_2_alg».proof.Proof.Gen.ReferenceIdeal.Skeleton
import proofs.«120137_g2000002162550304_pallasbulk_397_2_alg».proof.Proof.Gen.ReferenceIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

/-! # The reference's third pass on one image

At grid point `t` the body reads the image's second-convolution output, the image's shortcut output and four
coefficient rows, and stores ONE block: relu of (conv2 output · s2 + b2) + (shortcut · ss + bs). This module states
what the output block holds after the body as a function of the six input blocks, and proves the body does that. -/

namespace Cert.ReferenceIdeal.Run

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the pass finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 holds its block at every point, whether the point fetched it or the block stayed from before. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 holds its block at every point, whether the point fetched it or the block stayed from before. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2 holds its block at every point, whether the point fetched it or the block stayed from before. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3 holds its block at every point, whether the point fetched it or the block stayed from before. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4 holds its block at every point, whether the point fetched it or the block stayed from before. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5 holds its block at every point, whether the point fetched it or the block stayed from before. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: every load and the one store take the whole staging buffer -/
abbrev r2_a : Rect S1x56x56x128 := Rect.unit (s := S1x56x56x128) ![0, 0, 0, 0] S1x56x56x128.size inb_S1x56x56x128_S1x56x56x128_0_0_0_0
abbrev r2_v : Rect S1x128 := Rect.unit (s := S1x128) ![0, 0] S1x128.size inb_S1x128_S1x128_0_0

/-- The output block after the body: its one store over the input blocks. -/
def out2_6 (x0 x1 : Vec F S1x56x56x128 .f32) (x2 x3 x4 x5 : Vec F S1x128 .f32) : Vec F S1x56x56x128 .f32 :=
  View.canon [⟨r2_a, k2_pay1 (View.ld x0 r2_a) (View.ld x2 r2_v) (View.ld x3 r2_v) (View.ld x1 r2_a) (View.ld x4 r2_v) (View.ld x5 r2_v)⟩]

/-- The store takes the whole block. -/
theorem cover2_6 (p0 : Vec F S1x56x56x128 .f32) (y : S1x56x56x128.Idx) :
    ∃ pc ∈ ([⟨r2_a, p0⟩] : List (View.Piece (Elt F) S1x56x56x128 .f32)), y ∈ pc.1.set :=
  View.cover_of_tiled [⟨r2_a, p0⟩] S1x56x56x128.size (by rfl) y

set_option maxHeartbeats 4000000 in
/-- The body on whole staging buffers: the inputs stay as they were, the output ends at `out2_6` of the inputs. -/
theorem sound_kernel2 (c : Dev nD) (E : Set ℕ) (i : grid2.Coords)
    (arg1 : Memref sig .tc .vmem S1x56x56x128 .f32) (harg1 : arg1.IsWhole) (arg2 : Memref sig .tc .vmem S1x56x56x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S1x128 .f32) (harg6 : arg6.IsWhole)
    (arg7 : Memref sig .tc .vmem S1x56x56x128 .f32) (harg7 : arg7.IsWhole)
    (x0 x1 : Vec F S1x56x56x128 .f32) (x2 x3 x4 x5 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (out2_6 x0 x1 x2 x3 x4 x5)) -∗ K ⟨⟩))
      ⊢ wp frame (wpE (defs₀ (F := F)) Variants.none c none) E (cc2_pass3_kernel i arg1 harg1 arg2 harg2 arg3 harg3 arg4 harg4 arg5 harg5 arg6 harg6 arg7 harg7) K := by
  simp only [cc2_pass3_kernel_eq_skeleton]; unfold cc2_pass3_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover2_6 _)

end Cert.ReferenceIdeal.Run

end
-- ==== Proof.RIPass3Data.lean ====
import proofs.«120137_g2000002162550304_pallasbulk_397_2_alg».proof.Proof.RIPass3Body

set_option maxRecDepth 16384

noncomputable section

/-! # The reference's third pass at every grid point: what each window's buffer holds before and after the body -/

namespace Cert.ReferenceIdeal.Run

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The pass's proof data on core `c`: the arrays as the pass finds them; after the body at point `t` each input's
    buffer at its block and the output's at its function of the input blocks; nothing kept between points beyond the
    untouched scoped buffers and the generator register; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => out2_6 (iblk2 V c 0 t) (iblk2 V c 1 t) (iblk2 V c 2 t) (iblk2 V c 3 t) (iblk2 V c 4 t) (iblk2 V c 5 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = out2_6 (iblk2 V c 0 t) (iblk2 V c 1 t) (iblk2 V c 2 t) (iblk2 V c 3 t) (iblk2 V c 4 t) (iblk2 V c 5 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ owns (c : Thread nD τ) (st2_6 t) fullShare ((dat2 V c).after 6 t))

/-- The body at any point: the inputs' buffers hold their blocks, so the body's triple applies; the rest passes through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel2 c Set.univ _ _ _ _ _ _ _ _ _ _ _ _ _ _ _ (iblk2 V c 0 t) (iblk2 V c 1 t) (iblk2 V c 2 t) (iblk2 V c 3 t) (iblk2 V c 4 t) (iblk2 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.ReferenceIdeal.Run

end
-- ==== Proof.RIRun.lean ====
import proofs.«120137_g2000002162550304_pallasbulk_397_2_alg».proof.Proof.RIPass1Data
import proofs.«120137_g2000002162550304_pallasbulk_397_2_alg».proof.Proof.RIPass2Data
import proofs.«120137_g2000002162550304_pallasbulk_397_2_alg».proof.Proof.RIPass3Data
import proofs.«120137_g2000002162550304_pallasbulk_397_2_alg».proof.Proof.Gen.ReferenceIdeal.Regions

set_option maxRecDepth 16384

noncomputable section

/-! # The reference program's run

@main is twenty stretches of host operations (the layout changes and casts of the arguments), the first pass, a stretch
(the first batch-normalisation coefficients from the first pass's moments), the second pass, a stretch (the second
coefficients), the third pass, and a last stretch (the slice and transpose of the result). The buffers' contents at each
boundary are a fold from the launch memory: a stretch's by the host operations' semantics, a pass's arrays at what its
write-backs leave. The run's theorem says every execution terminates with every unscoped buffer at the last fold. -/

namespace Cert.ReferenceIdeal.Run

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Before the first pass: the launch memory after the twenty first stretches. -/
abbrev W20 : Dev nD → Valuation τ sig (Elt F) := fun c => Gen.V20 m c
abbrev T20 : (c : Dev nD) → (b : Ref sig .tc) → Buf (Elt F) ((c : Thread nD τ).loc b) := fun c b => W20 m c b

/-- After pass 1: its arrays at what the pass leaves (the inputs as entered, each output's write-backs folded), every
    other buffer as entered. -/
def W21 (c : Dev nD) : Valuation τ sig (Elt F) :=
  Pipeline.withArrays spec0 c (W20 m c) fun w => (dat0 (T20 m) c).arrAt w cfg0.N
theorem W21_arr (c : Dev nD) (w : Fin cfg0.W) :
    W21 m c (Proc.devRef .tc (Pipeline.arrRef spec0 w)) = (dat0 (T20 m) c).arrAt w cfg0.N := by
  unfold W21; exact Pipeline.withArrays_arr spec0 launch0.win.arr_inj c _ _ w
theorem W21_of_ne (c : Dev nD) (b : Ref sig .tc) (hb : ∀ w, Pipeline.arrRef spec0 w ≠ b) :
    W21 m c (Proc.devRef .tc b) = W20 m c (Proc.devRef .tc b) := by
  unfold W21; exact Pipeline.withArrays_of_ne spec0 c _ _ b hb
/-- The same read at the TensorCore's references. -/
abbrev T21 : (c : Dev nD) → (b : Ref sig .tc) → Buf (Elt F) ((c : Thread nD τ).loc b) := fun c b => W21 m c b
theorem hF0 (c : Dev nD) (w : Fin cfg0.W) : (dat0 (T20 m) c).arrAt w cfg0.N = T21 m c (Pipeline.arrRef spec0 w) :=
  (W21_arr m c w).symm
theorem hrest0 (c : Dev nD) : ∀ b, b ∉ Finset.univ.image (Pipeline.arrRef spec0) → T21 m c b = T20 m c b :=
  fun b hb => W21_of_ne m c b fun w e => hb (Finset.mem_image.mpr ⟨w, Finset.mem_univ _, e⟩)

/-- After `hostOps1`. -/
abbrev W22 : Dev nD → Valuation τ sig (Elt F) := fun c => StableHlo.after hostOps1 (W21 m c)
abbrev T22 : (c : Dev nD) → (b : Ref sig .tc) → Buf (Elt F) ((c : Thread nD τ).loc b) := fun c b => W22 m c b

/-- After pass 2: its arrays at what the pass leaves (the inputs as entered, each output's write-backs folded), every
    other buffer as entered. -/
def W23 (c : Dev nD) : Valuation τ sig (Elt F) :=
  Pipeline.withArrays spec1 c (W22 m c) fun w => (dat1 (T22 m) c).arrAt w cfg1.N
theorem W23_arr (c : Dev nD) (w : Fin cfg1.W) :
    W23 m c (Proc.devRef .tc (Pipeline.arrRef spec1 w)) = (dat1 (T22 m) c).arrAt w cfg1.N := by
  unfold W23; exact Pipeline.withArrays_arr spec1 launch1.win.arr_inj c _ _ w
theorem W23_of_ne (c : Dev nD) (b : Ref sig .tc) (hb : ∀ w, Pipeline.arrRef spec1 w ≠ b) :
    W23 m c (Proc.devRef .tc b) = W22 m c (Proc.devRef .tc b) := by
  unfold W23; exact Pipeline.withArrays_of_ne spec1 c _ _ b hb
/-- The same read at the TensorCore's references. -/
abbrev T23 : (c : Dev nD) → (b : Ref sig .tc) → Buf (Elt F) ((c : Thread nD τ).loc b) := fun c b => W23 m c b
theorem hF1 (c : Dev nD) (w : Fin cfg1.W) : (dat1 (T22 m) c).arrAt w cfg1.N = T23 m c (Pipeline.arrRef spec1 w) :=
  (W23_arr m c w).symm
theorem hrest1 (c : Dev nD) : ∀ b, b ∉ Finset.univ.image (Pipeline.arrRef spec1) → T23 m c b = T22 m c b :=
  fun b hb => W23_of_ne m c b fun w e => hb (Finset.mem_image.mpr ⟨w, Finset.mem_univ _, e⟩)

/-- After `hostOps2`. -/
abbrev W24 : Dev nD → Valuation τ sig (Elt F) := fun c => StableHlo.after hostOps2 (W23 m c)
abbrev T24 : (c : Dev nD) → (b : Ref sig .tc) → Buf (Elt F) ((c : Thread nD τ).loc b) := fun c b => W24 m c b

/-- After pass 3: its arrays at what the pass leaves (the inputs as entered, each output's write-backs folded), every
    other buffer as entered. -/
def W25 (c : Dev nD) : Valuation τ sig (Elt F) :=
  Pipeline.withArrays spec2 c (W24 m c) fun w => (dat2 (T24 m) c).arrAt w cfg2.N
theorem W25_arr (c : Dev nD) (w : Fin cfg2.W) :
    W25 m c (Proc.devRef .tc (Pipeline.arrRef spec2 w)) = (dat2 (T24 m) c).arrAt w cfg2.N := by
  unfold W25; exact Pipeline.withArrays_arr spec2 launch2.win.arr_inj c _ _ w
theorem W25_of_ne (c : Dev nD) (b : Ref sig .tc) (hb : ∀ w, Pipeline.arrRef spec2 w ≠ b) :
    W25 m c (Proc.devRef .tc b) = W24 m c (Proc.devRef .tc b) := by
  unfold W25; exact Pipeline.withArrays_of_ne spec2 c _ _ b hb
/-- The same read at the TensorCore's references. -/
abbrev T25 : (c : Dev nD) → (b : Ref sig .tc) → Buf (Elt F) ((c : Thread nD τ).loc b) := fun c b => W25 m c b
theorem hF2 (c : Dev nD) (w : Fin cfg2.W) : (dat2 (T24 m) c).arrAt w cfg2.N = T25 m c (Pipeline.arrRef spec2 w) :=
  (W25_arr m c w).symm
theorem hrest2 (c : Dev nD) : ∀ b, b ∉ Finset.univ.image (Pipeline.arrRef spec2) → T25 m c b = T24 m c b :=
  fun b hb => W25_of_ne m c b fun w e => hb (Finset.mem_image.mpr ⟨w, Finset.mem_univ _, e⟩)

/-- At the return: after `hostOps3`. -/
abbrev W26 : Dev nD → Valuation τ sig (Elt F) := fun c => StableHlo.after hostOps3 (W25 m c)

/-! ## The proof data family and the thread state -/

/-- Every pass's proof data, each at its entry contents. -/
def pdats : (p : Fin 3) → (c : Dev nD) → Dat τ (Elt F) Unit ℕ (UR sig nD τ) ℕ (Pipeline.pin (pcfgs (F := F)) adm p) c
  | ⟨0, _⟩ => fun c => dat0 (T20 m) c
  | ⟨1, _⟩ => fun c => dat1 (T22 m) c
  | ⟨2, _⟩ => fun c => dat2 (T24 m) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state and the core's dues, none. -/
abbrev R (c : Dev nD) : sProp 𝕄 := iprop((∃ r, prngReg c r) ∗ ∃ W, owes (c : Thread nD τ) (0 : CellTallies nD τ sig Unit) W)
abbrev E : Fin 4 → Dev nD → sProp 𝕄 := fun _ => R
/-- A host stretch as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without the dues: every unscoped buffer at the last contents, the generator register at some state. -/
abbrev Tₙ (c : Dev nD) : sProp 𝕄 := iprop(StableHlo.held (c : Thread nD τ) (Pipeline.ucRefs τ sig) (W26 m c) ∗ ∃ r, prngReg c r)

/-! ## The passes as segments -/

set_option backward.isDefEq.respectTransparency.types false in
/-- PASS 1 over the thread state: entered from every unscoped buffer at `W20`, left at `W21`. Its arrays are split out
    of the unscoped buffers and put back at the contents the pass leaves; the generator register goes into the invariant and
    comes back; nothing is owed; the body has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (T20 m) c).loose
  hwaits := Pipeline.hwaits_of_owed_zero _ _ _ _ L lv 0 fun _ _ => rfl
  pre c := iprop(StableHlo.held (c : Thread nD τ) (Pipeline.ucRefs τ sig) (W20 m c) ∗ R c)
  post c := iprop(StableHlo.held (c : Thread nD τ) (Pipeline.ucRefs τ sig) (W21 m c) ∗ R c)
  X c := iprop(∃ r, prngReg c r)
  Y c := iprop(∃ r, prngReg c r)
  Z c := Pipeline.unscopedRest (Ix := Unit) (Name := ℕ) (U := UR sig nD τ) (Lvl := ℕ) spec0 c (T20 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (T20 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (T20 m c) (T21 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- PASS 2 over the thread state: entered from every unscoped buffer at `W22`, left at `W23`. Its arrays are split out
    of the unscoped buffers and put back at the contents the pass leaves; the generator register goes into the invariant and
    comes back; nothing is owed; the body has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (T22 m) c).loose
  hwaits := Pipeline.hwaits_of_owed_zero _ _ _ _ L lv 1 fun _ _ => rfl
  pre c := iprop(StableHlo.held (c : Thread nD τ) (Pipeline.ucRefs τ sig) (W22 m c) ∗ R c)
  post c := iprop(StableHlo.held (c : Thread nD τ) (Pipeline.ucRefs τ sig) (W23 m c) ∗ R c)
  X c := iprop(∃ r, prngReg c r)
  Y c := iprop(∃ r, prngReg c r)
  Z c := Pipeline.unscopedRest (Ix := Unit) (Name := ℕ) (U := UR sig nD τ) (Lvl := ℕ) spec1 c (T22 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (T22 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin1 (T22 m) c)
    unfold Pipeline.ΦA
    iintro ⟨Hp, -, Hr⟩
    isplitl [Hr]; · iexact Hr
    iexact Hp
  hout c := by
    rw [Pipeline.ownSems0_none]
    refine (hout1 (T22 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (T22 m c) (T23 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- PASS 3 over the thread state: entered from every unscoped buffer at `W24`, left at `W25`. Its arrays are split out
    of the unscoped buffers and put back at the contents the pass leaves; the generator register goes into the invariant and
    comes back; nothing is owed; the body has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (T24 m) c).loose
  hwaits := Pipeline.hwaits_of_owed_zero _ _ _ _ L lv 2 fun _ _ => rfl
  pre c := iprop(StableHlo.held (c : Thread nD τ) (Pipeline.ucRefs τ sig) (W24 m c) ∗ R c)
  post c := iprop(StableHlo.held (c : Thread nD τ) (Pipeline.ucRefs τ sig) (W25 m c) ∗ R c)
  X c := iprop(∃ r, prngReg c r)
  Y c := iprop(∃ r, prngReg c r)
  Z c := Pipeline.unscopedRest (Ix := Unit) (Name := ℕ) (U := UR sig nD τ) (Lvl := ℕ) spec2 c (T24 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (T24 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (T24 m c) (T25 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 26 segments in order. -/
abbrev segs : List (Pipeline.Seg (pcfgs (F := F)) adm (pdats m) () defs₀ 𝒱₀ L lv) :=
  [ .host (seg0 m 𝒱₀ L lv E), .host (seg1 m 𝒱₀ L lv E), .host (seg2 m 𝒱₀ L lv E), .host (seg3 m 𝒱₀ L lv E), .host (seg4 m 𝒱₀ L lv E), .host (seg5 m 𝒱₀ L lv E), .host (seg6 m 𝒱₀ L lv E), .host (seg7 m 𝒱₀ L lv E), .host (seg8 m 𝒱₀ L lv E), .host (seg9 m 𝒱₀ L lv E), .host (seg10 m 𝒱₀ L lv E), .host (seg11 m 𝒱₀ L lv E), .host (seg12 m 𝒱₀ L lv E), .host (seg13 m 𝒱₀ L lv E), .host (seg14 m 𝒱₀ L lv E), .host (seg15 m 𝒱₀ L lv E), .host (seg16 m 𝒱₀ L lv E), .host (seg17 m 𝒱₀ L lv E), .host (seg18 m 𝒱₀ L lv E), .host (seg19 m 𝒱₀ L lv E),
    .region (reg0 m),
    .host (hseg hostOps1 hostOps1_sub hostOps1_fresh (W21 m)),
    .region (reg1 m),
    .host (hseg hostOps2 hostOps2_sub hostOps2_fresh (W23 m)),
    .region (reg2 m),
    .host (hseg hostOps3 hostOps3_sub hostOps3_fresh (W25 m)) ]

/-- @main is the run of the segments. -/
theorem main_run (c : Dev nD) : main (F := F) c = Pipeline.Seg.run (segs m) := (main_chain c).trans (by chain_rfl)

set_option backward.isDefEq.respectTransparency.types false in
/-- THE RUN. From any memory with zero counters every weakly fair execution of @main on the TensorCores terminates, nothing
    faulting, and the final memory holds every unscoped buffer at the last fold `W26`: the arguments as launched and the
    result array at the last stretch's value of the third pass's output. -/
theorem run_named : θ_run defs (onTc (τ := τ) (main (F := F))) ⟨m, fun _ => 0, ρ⟩
    (fun r => ∀ c : Dev nD, ∀ b ∈ Pipeline.ucRefs τ sig, r.2.mem ((c : Thread nD τ).1, b) = W26 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W26 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W26 m c b)
    (hfin := fun c s' => by
      iintro ⟨⟨Hh, -⟩, HSI⟩
      unfold StableHlo.held
      imodintro
      iapply (pointsTo_read_all (Pipeline.ucRefs τ sig) (fun b => (((c : Thread nD τ)).1, b)) (W26 m c) s')
      isplitl [Hh] <;> iassumption)
    (hQ := fun s h c => h c)

end Cert.ReferenceIdeal.Run

end
-- ==== Proof.RIFrame.lean ====
import proofs.«120137_g2000002162550304_pallasbulk_397_2_alg».proof.Proof.RIRun

set_option maxRecDepth 16384

noncomputable section

/-! # The reference program's run, read at the arguments and the result

No stretch of host operations writes an argument array and no pass has one among its arrays, so the last fold at an
argument walks back to the launch memory. With the run's theorem this gives the reference's frame — every argument ends as
launched — beside the result array at the last fold. -/

namespace Cert.ReferenceIdeal.Run

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- `main_arg0` reaches the end as launched: no stretch writes it and it is no pass's array. -/
theorem W26_main_arg0 (c : Dev nD) : W26 m c main_arg0 = m ((c : Thread nD τ).loc main_arg0) :=
  (StableHlo.after_of_writes_sub hostOps3 _ hostOps3_writes (by decide : main_arg0 ∉ hostOps3_W)).trans <|
  (W25_of_ne m c main_arg0 (by decide)).trans <|
  (StableHlo.after_of_writes_sub hostOps2 _ hostOps2_writes (by decide : main_arg0 ∉ hostOps2_W)).trans <|
  (W23_of_ne m c main_arg0 (by decide)).trans <|
  (StableHlo.after_of_writes_sub hostOps1 _ hostOps1_writes (by decide : main_arg0 ∉ hostOps1_W)).trans <|
  (W21_of_ne m c main_arg0 (by decide)).trans <|
  (V20_of m c main_arg0 (by decide)).trans <| (V19_of m c main_arg0 (by decide)).trans <| (V18_of m c main_arg0 (by decide)).trans <| (V17_of m c main_arg0 (by decide)).trans <| (V16_of m c main_arg0 (by decide)).trans <| (V15_of m c main_arg0 (by decide)).trans <| (V14_of m c main_arg0 (by decide)).trans <| (V13_of m c main_arg0 (by decide)).trans <| (V12_of m c main_arg0 (by decide)).trans <| (V11_of m c main_arg0 (by decide)).trans <| (V10_of m c main_arg0 (by decide)).trans <| (V9_of m c main_arg0 (by decide)).trans <| (V8_of m c main_arg0 (by decide)).trans <| (V7_of m c main_arg0 (by decide)).trans <| (V6_of m c main_arg0 (by decide)).trans <| (V5_of m c main_arg0 (by decide)).trans <| (V4_of m c main_arg0 (by decide)).trans <| (V3_of m c main_arg0 (by decide)).trans <| (V2_of m c main_arg0 (by decide)).trans <| (V1_of m c main_arg0 (by decide)).trans <| rfl

/-- `main_arg1` reaches the end as launched: no stretch writes it and it is no pass's array. -/
theorem W26_main_arg1 (c : Dev nD) : W26 m c main_arg1 = m ((c : Thread nD τ).loc main_arg1) :=
  (StableHlo.after_of_writes_sub hostOps3 _ hostOps3_writes (by decide : main_arg1 ∉ hostOps3_W)).trans <|
  (W25_of_ne m c main_arg1 (by decide)).trans <|
  (StableHlo.after_of_writes_sub hostOps2 _ hostOps2_writes (by decide : main_arg1 ∉ hostOps2_W)).trans <|
  (W23_of_ne m c main_arg1 (by decide)).trans <|
  (StableHlo.after_of_writes_sub hostOps1 _ hostOps1_writes (by decide : main_arg1 ∉ hostOps1_W)).trans <|
  (W21_of_ne m c main_arg1 (by decide)).trans <|
  (V20_of m c main_arg1 (by decide)).trans <| (V19_of m c main_arg1 (by decide)).trans <| (V18_of m c main_arg1 (by decide)).trans <| (V17_of m c main_arg1 (by decide)).trans <| (V16_of m c main_arg1 (by decide)).trans <| (V15_of m c main_arg1 (by decide)).trans <| (V14_of m c main_arg1 (by decide)).trans <| (V13_of m c main_arg1 (by decide)).trans <| (V12_of m c main_arg1 (by decide)).trans <| (V11_of m c main_arg1 (by decide)).trans <| (V10_of m c main_arg1 (by decide)).trans <| (V9_of m c main_arg1 (by decide)).trans <| (V8_of m c main_arg1 (by decide)).trans <| (V7_of m c main_arg1 (by decide)).trans <| (V6_of m c main_arg1 (by decide)).trans <| (V5_of m c main_arg1 (by decide)).trans <| (V4_of m c main_arg1 (by decide)).trans <| (V3_of m c main_arg1 (by decide)).trans <| (V2_of m c main_arg1 (by decide)).trans <| (V1_of m c main_arg1 (by decide)).trans <| rfl

/-- `main_arg2` reaches the end as launched: no stretch writes it and it is no pass's array. -/
theorem W26_main_arg2 (c : Dev nD) : W26 m c main_arg2 = m ((c : Thread nD τ).loc main_arg2) :=
  (StableHlo.after_of_writes_sub hostOps3 _ hostOps3_writes (by decide : main_arg2 ∉ hostOps3_W)).trans <|
  (W25_of_ne m c main_arg2 (by decide)).trans <|
  (StableHlo.after_of_writes_sub hostOps2 _ hostOps2_writes (by decide : main_arg2 ∉ hostOps2_W)).trans <|
  (W23_of_ne m c main_arg2 (by decide)).trans <|
  (StableHlo.after_of_writes_sub hostOps1 _ hostOps1_writes (by decide : main_arg2 ∉ hostOps1_W)).trans <|
  (W21_of_ne m c main_arg2 (by decide)).trans <|
  (V20_of m c main_arg2 (by decide)).trans <| (V19_of m c main_arg2 (by decide)).trans <| (V18_of m c main_arg2 (by decide)).trans <| (V17_of m c main_arg2 (by decide)).trans <| (V16_of m c main_arg2 (by decide)).trans <| (V15_of m c main_arg2 (by decide)).trans <| (V14_of m c main_arg2 (by decide)).trans <| (V13_of m c main_arg2 (by decide)).trans <| (V12_of m c main_arg2 (by decide)).trans <| (V11_of m c main_arg2 (by decide)).trans <| (V10_of m c main_arg2 (by decide)).trans <| (V9_of m c main_arg2 (by decide)).trans <| (V8_of m c main_arg2 (by decide)).trans <| (V7_of m c main_arg2 (by decide)).trans <| (V6_of m c main_arg2 (by decide)).trans <| (V5_of m c main_arg2 (by decide)).trans <| (V4_of m c main_arg2 (by decide)).trans <| (V3_of m c main_arg2 (by decide)).trans <| (V2_of m c main_arg2 (by decide)).trans <| (V1_of m c main_arg2 (by decide)).trans <| rfl

/-- `main_arg3` reaches the end as launched: no stretch writes it and it is no pass's array. -/
theorem W26_main_arg3 (c : Dev nD) : W26 m c main_arg3 = m ((c : Thread nD τ).loc main_arg3) :=
  (StableHlo.after_of_writes_sub hostOps3 _ hostOps3_writes (by decide : main_arg3 ∉ hostOps3_W)).trans <|
  (W25_of_ne m c main_arg3 (by decide)).trans <|
  (StableHlo.after_of_writes_sub hostOps2 _ hostOps2_writes (by decide : main_arg3 ∉ hostOps2_W)).trans <|
  (W23_of_ne m c main_arg3 (by decide)).trans <|
  (StableHlo.after_of_writes_sub hostOps1 _ hostOps1_writes (by decide : main_arg3 ∉ hostOps1_W)).trans <|
  (W21_of_ne m c main_arg3 (by decide)).trans <|
  (V20_of m c main_arg3 (by decide)).trans <| (V19_of m c main_arg3 (by decide)).trans <| (V18_of m c main_arg3 (by decide)).trans <| (V17_of m c main_arg3 (by decide)).trans <| (V16_of m c main_arg3 (by decide)).trans <| (V15_of m c main_arg3 (by decide)).trans <| (V14_of m c main_arg3 (by decide)).trans <| (V13_of m c main_arg3 (by decide)).trans <| (V12_of m c main_arg3 (by decide)).trans <| (V11_of m c main_arg3 (by decide)).trans <| (V10_of m c main_arg3 (by decide)).trans <| (V9_of m c main_arg3 (by decide)).trans <| (V8_of m c main_arg3 (by decide)).trans <| (V7_of m c main_arg3 (by decide)).trans <| (V6_of m c main_arg3 (by decide)).trans <| (V5_of m c main_arg3 (by decide)).trans <| (V4_of m c main_arg3 (by decide)).trans <| (V3_of m c main_arg3 (by decide)).trans <| (V2_of m c main_arg3 (by decide)).trans <| (V1_of m c main_arg3 (by decide)).trans <| rfl

/-- `main_arg4` reaches the end as launched: no stretch writes it and it is no pass's array. -/
theorem W26_main_arg4 (c : Dev nD) : W26 m c main_arg4 = m ((c : Thread nD τ).loc main_arg4) :=
  (StableHlo.after_of_writes_sub hostOps3 _ hostOps3_writes (by decide : main_arg4 ∉ hostOps3_W)).trans <|
  (W25_of_ne m c main_arg4 (by decide)).trans <|
  (StableHlo.after_of_writes_sub hostOps2 _ hostOps2_writes (by decide : main_arg4 ∉ hostOps2_W)).trans <|
  (W23_of_ne m c main_arg4 (by decide)).trans <|
  (StableHlo.after_of_writes_sub hostOps1 _ hostOps1_writes (by decide : main_arg4 ∉ hostOps1_W)).trans <|
  (W21_of_ne m c main_arg4 (by decide)).trans <|
  (V20_of m c main_arg4 (by decide)).trans <| (V19_of m c main_arg4 (by decide)).trans <| (V18_of m c main_arg4 (by decide)).trans <| (V17_of m c main_arg4 (by decide)).trans <| (V16_of m c main_arg4 (by decide)).trans <| (V15_of m c main_arg4 (by decide)).trans <| (V14_of m c main_arg4 (by decide)).trans <| (V13_of m c main_arg4 (by decide)).trans <| (V12_of m c main_arg4 (by decide)).trans <| (V11_of m c main_arg4 (by decide)).trans <| (V10_of m c main_arg4 (by decide)).trans <| (V9_of m c main_arg4 (by decide)).trans <| (V8_of m c main_arg4 (by decide)).trans <| (V7_of m c main_arg4 (by decide)).trans <| (V6_of m c main_arg4 (by decide)).trans <| (V5_of m c main_arg4 (by decide)).trans <| (V4_of m c main_arg4 (by decide)).trans <| (V3_of m c main_arg4 (by decide)).trans <| (V2_of m c main_arg4 (by decide)).trans <| (V1_of m c main_arg4 (by decide)).trans <| rfl

/-- `main_arg5` reaches the end as launched: no stretch writes it and it is no pass's array. -/
theorem W26_main_arg5 (c : Dev nD) : W26 m c main_arg5 = m ((c : Thread nD τ).loc main_arg5) :=
  (StableHlo.after_of_writes_sub hostOps3 _ hostOps3_writes (by decide : main_arg5 ∉ hostOps3_W)).trans <|
  (W25_of_ne m c main_arg5 (by decide)).trans <|
  (StableHlo.after_of_writes_sub hostOps2 _ hostOps2_writes (by decide : main_arg5 ∉ hostOps2_W)).trans <|
  (W23_of_ne m c main_arg5 (by decide)).trans <|
  (StableHlo.after_of_writes_sub hostOps1 _ hostOps1_writes (by decide : main_arg5 ∉ hostOps1_W)).trans <|
  (W21_of_ne m c main_arg5 (by decide)).trans <|
  (V20_of m c main_arg5 (by decide)).trans <| (V19_of m c main_arg5 (by decide)).trans <| (V18_of m c main_arg5 (by decide)).trans <| (V17_of m c main_arg5 (by decide)).trans <| (V16_of m c main_arg5 (by decide)).trans <| (V15_of m c main_arg5 (by decide)).trans <| (V14_of m c main_arg5 (by decide)).trans <| (V13_of m c main_arg5 (by decide)).trans <| (V12_of m c main_arg5 (by decide)).trans <| (V11_of m c main_arg5 (by decide)).trans <| (V10_of m c main_arg5 (by decide)).trans <| (V9_of m c main_arg5 (by decide)).trans <| (V8_of m c main_arg5 (by decide)).trans <| (V7_of m c main_arg5 (by decide)).trans <| (V6_of m c main_arg5 (by decide)).trans <| (V5_of m c main_arg5 (by decide)).trans <| (V4_of m c main_arg5 (by decide)).trans <| (V3_of m c main_arg5 (by decide)).trans <| (V2_of m c main_arg5 (by decide)).trans <| (V1_of m c main_arg5 (by decide)).trans <| rfl

/-- `main_arg6` reaches the end as launched: no stretch writes it and it is no pass's array. -/
theorem W26_main_arg6 (c : Dev nD) : W26 m c main_arg6 = m ((c : Thread nD τ).loc main_arg6) :=
  (StableHlo.after_of_writes_sub hostOps3 _ hostOps3_writes (by decide : main_arg6 ∉ hostOps3_W)).trans <|
  (W25_of_ne m c main_arg6 (by decide)).trans <|
  (StableHlo.after_of_writes_sub hostOps2 _ hostOps2_writes (by decide : main_arg6 ∉ hostOps2_W)).trans <|
  (W23_of_ne m c main_arg6 (by decide)).trans <|
  (StableHlo.after_of_writes_sub hostOps1 _ hostOps1_writes (by decide : main_arg6 ∉ hostOps1_W)).trans <|
  (W21_of_ne m c main_arg6 (by decide)).trans <|
  (V20_of m c main_arg6 (by decide)).trans <| (V19_of m c main_arg6 (by decide)).trans <| (V18_of m c main_arg6 (by decide)).trans <| (V17_of m c main_arg6 (by decide)).trans <| (V16_of m c main_arg6 (by decide)).trans <| (V15_of m c main_arg6 (by decide)).trans <| (V14_of m c main_arg6 (by decide)).trans <| (V13_of m c main_arg6 (by decide)).trans <| (V12_of m c main_arg6 (by decide)).trans <| (V11_of m c main_arg6 (by decide)).trans <| (V10_of m c main_arg6 (by decide)).trans <| (V9_of m c main_arg6 (by decide)).trans <| (V8_of m c main_arg6 (by decide)).trans <| (V7_of m c main_arg6 (by decide)).trans <| (V6_of m c main_arg6 (by decide)).trans <| (V5_of m c main_arg6 (by decide)).trans <| (V4_of m c main_arg6 (by decide)).trans <| (V3_of m c main_arg6 (by decide)).trans <| (V2_of m c main_arg6 (by decide)).trans <| (V1_of m c main_arg6 (by decide)).trans <| rfl

/-- `main_arg7` reaches the end as launched: no stretch writes it and it is no pass's array. -/
theorem W26_main_arg7 (c : Dev nD) : W26 m c main_arg7 = m ((c : Thread nD τ).loc main_arg7) :=
  (StableHlo.after_of_writes_sub hostOps3 _ hostOps3_writes (by decide : main_arg7 ∉ hostOps3_W)).trans <|
  (W25_of_ne m c main_arg7 (by decide)).trans <|
  (StableHlo.after_of_writes_sub hostOps2 _ hostOps2_writes (by decide : main_arg7 ∉ hostOps2_W)).trans <|
  (W23_of_ne m c main_arg7 (by decide)).trans <|
  (StableHlo.after_of_writes_sub hostOps1 _ hostOps1_writes (by decide : main_arg7 ∉ hostOps1_W)).trans <|
  (W21_of_ne m c main_arg7 (by decide)).trans <|
  (V20_of m c main_arg7 (by decide)).trans <| (V19_of m c main_arg7 (by decide)).trans <| (V18_of m c main_arg7 (by decide)).trans <| (V17_of m c main_arg7 (by decide)).trans <| (V16_of m c main_arg7 (by decide)).trans <| (V15_of m c main_arg7 (by decide)).trans <| (V14_of m c main_arg7 (by decide)).trans <| (V13_of m c main_arg7 (by decide)).trans <| (V12_of m c main_arg7 (by decide)).trans <| (V11_of m c main_arg7 (by decide)).trans <| (V10_of m c main_arg7 (by decide)).trans <| (V9_of m c main_arg7 (by decide)).trans <| (V8_of m c main_arg7 (by decide)).trans <| (V7_of m c main_arg7 (by decide)).trans <| (V6_of m c main_arg7 (by decide)).trans <| (V5_of m c main_arg7 (by decide)).trans <| (V4_of m c main_arg7 (by decide)).trans <| (V3_of m c main_arg7 (by decide)).trans <| (V2_of m c main_arg7 (by decide)).trans <| (V1_of m c main_arg7 (by decide)).trans <| rfl

/-- `main_arg8` reaches the end as launched: no stretch writes it and it is no pass's array. -/
theorem W26_main_arg8 (c : Dev nD) : W26 m c main_arg8 = m ((c : Thread nD τ).loc main_arg8) :=
  (StableHlo.after_of_writes_sub hostOps3 _ hostOps3_writes (by decide : main_arg8 ∉ hostOps3_W)).trans <|
  (W25_of_ne m c main_arg8 (by decide)).trans <|
  (StableHlo.after_of_writes_sub hostOps2 _ hostOps2_writes (by decide : main_arg8 ∉ hostOps2_W)).trans <|
  (W23_of_ne m c main_arg8 (by decide)).trans <|
  (StableHlo.after_of_writes_sub hostOps1 _ hostOps1_writes (by decide : main_arg8 ∉ hostOps1_W)).trans <|
  (W21_of_ne m c main_arg8 (by decide)).trans <|
  (V20_of m c main_arg8 (by decide)).trans <| (V19_of m c main_arg8 (by decide)).trans <| (V18_of m c main_arg8 (by decide)).trans <| (V17_of m c main_arg8 (by decide)).trans <| (V16_of m c main_arg8 (by decide)).trans <| (V15_of m c main_arg8 (by decide)).trans <| (V14_of m c main_arg8 (by decide)).trans <| (V13_of m c main_arg8 (by decide)).trans <| (V12_of m c main_arg8 (by decide)).trans <| (V11_of m c main_arg8 (by decide)).trans <| (V10_of m c main_arg8 (by decide)).trans <| (V9_of m c main_arg8 (by decide)).trans <| (V8_of m c main_arg8 (by decide)).trans <| (V7_of m c main_arg8 (by decide)).trans <| (V6_of m c main_arg8 (by decide)).trans <| (V5_of m c main_arg8 (by decide)).trans <| (V4_of m c main_arg8 (by decide)).trans <| (V3_of m c main_arg8 (by decide)).trans <| (V2_of m c main_arg8 (by decide)).trans <| (V1_of m c main_arg8 (by decide)).trans <| rfl

/-- `main_arg9` reaches the end as launched: no stretch writes it and it is no pass's array. -/
theorem W26_main_arg9 (c : Dev nD) : W26 m c main_arg9 = m ((c : Thread nD τ).loc main_arg9) :=
  (StableHlo.after_of_writes_sub hostOps3 _ hostOps3_writes (by decide : main_arg9 ∉ hostOps3_W)).trans <|
  (W25_of_ne m c main_arg9 (by decide)).trans <|
  (StableHlo.after_of_writes_sub hostOps2 _ hostOps2_writes (by decide : main_arg9 ∉ hostOps2_W)).trans <|
  (W23_of_ne m c main_arg9 (by decide)).trans <|
  (StableHlo.after_of_writes_sub hostOps1 _ hostOps1_writes (by decide : main_arg9 ∉ hostOps1_W)).trans <|
  (W21_of_ne m c main_arg9 (by decide)).trans <|
  (V20_of m c main_arg9 (by decide)).trans <| (V19_of m c main_arg9 (by decide)).trans <| (V18_of m c main_arg9 (by decide)).trans <| (V17_of m c main_arg9 (by decide)).trans <| (V16_of m c main_arg9 (by decide)).trans <| (V15_of m c main_arg9 (by decide)).trans <| (V14_of m c main_arg9 (by decide)).trans <| (V13_of m c main_arg9 (by decide)).trans <| (V12_of m c main_arg9 (by decide)).trans <| (V11_of m c main_arg9 (by decide)).trans <| (V10_of m c main_arg9 (by decide)).trans <| (V9_of m c main_arg9 (by decide)).trans <| (V8_of m c main_arg9 (by decide)).trans <| (V7_of m c main_arg9 (by decide)).trans <| (V6_of m c main_arg9 (by decide)).trans <| (V5_of m c main_arg9 (by decide)).trans <| (V4_of m c main_arg9 (by decide)).trans <| (V3_of m c main_arg9 (by decide)).trans <| (V2_of m c main_arg9 (by decide)).trans <| (V1_of m c main_arg9 (by decide)).trans <| rfl

/-- An unscoped TensorCore reference is among those the run's post speaks of. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE RUN, read: every execution terminates, the result array ends at the last fold's value of it, every argument as
    launched. -/
theorem run_post : θ_run defs (onTc (τ := τ) (main (F := F))) ⟨m, fun _ => 0, ρ⟩ (fun r => ∀ c : Dev nD,
      r.2.mem ((c.tc : Thread nD τ).loc main_v80) = W26 m c main_v80
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
    ⟨h c _ (mem_uc main_v80 (by decide)),
     (h c _ (mem_uc main_arg0 (by decide))).trans (W26_main_arg0 m c),
     (h c _ (mem_uc main_arg1 (by decide))).trans (W26_main_arg1 m c),
     (h c _ (mem_uc main_arg2 (by decide))).trans (W26_main_arg2 m c),
     (h c _ (mem_uc main_arg3 (by decide))).trans (W26_main_arg3 m c),
     (h c _ (mem_uc main_arg4 (by decide))).trans (W26_main_arg4 m c),
     (h c _ (mem_uc main_arg5 (by decide))).trans (W26_main_arg5 m c),
     (h c _ (mem_uc main_arg6 (by decide))).trans (W26_main_arg6 m c),
     (h c _ (mem_uc main_arg7 (by decide))).trans (W26_main_arg7 m c),
     (h c _ (mem_uc main_arg8 (by decide))).trans (W26_main_arg8 m c),
     (h c _ (mem_uc main_arg9 (by decide))).trans (W26_main_arg9 m c)⟩) (run_named m ρ)

/-- THE FRAME: the reference program's frame claim at any `F` — every execution terminates and every argument array ends as
    launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => (h c).2) (run_post m ρ)

end Cert.ReferenceIdeal.Run

end
-- ==== Proof.KIArrays.lean ====
import proofs.«120137_g2000002162550304_pallasbulk_397_2_alg».proof.Proof.KIRun
import Idealize.ShloMosaic.Lib.Pipeline.Value
import Idealize.ShloMosaic.Lib.ValueIdx

set_option maxRecDepth 16384

noncomputable section

/-! # The passes' output arrays, whole

Every output window of every pass moves one block per image: point `n` writes back block `n`, which is the whole
extent of the other axes. So after a pass each of its output arrays holds, at an index `(n, …)`, what the body left in
the window's buffer at point `n`, read at `(0, …)`. -/

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The grid point of image `n`, in each pass. -/
def pt0 (n : Fin 32) : Fin cfg0.N := ⟨n.val, by rw [show cfg0.N = 32 from N_0]; exact n.isLt⟩
def pt1 (n : Fin 32) : Fin cfg1.N := ⟨n.val, by rw [show cfg1.N = 32 from N_1]; exact n.isLt⟩
def pt2 (n : Fin 32) : Fin cfg2.N := ⟨n.val, by rw [show cfg2.N = 32 from N_2]; exact n.isLt⟩

/-! ## conv1's output (pass 1, window 3) -/

/-- Point `t` moves block `(t, 0, …)`. -/
theorem idx0_3 : ∀ t : Fin cfg0.N, win0_3.index t (0 : Fin 4) = t.val ∧ win0_3.index t (1 : Fin 4) = 0 ∧ win0_3.index t (2 : Fin 4) = 0 ∧ win0_3.index t (3 : Fin 4) = 0 :=
  (by decide +kernel : ∀ t : Fin grid0.N, _)

/-- The array after the pass: at `(n, …)` what point `n`'s body left at `(0, …)`. -/
def G0_3 (c : Dev nD) : S32x56x56x128.Idx → Elt F (cfg0.win 3).elt := fun i =>
  (dat0 V c).after 3 (pt0 (i 0)) (ix4 (n0 := 1) 0 (i 1) (i 2) (i 3))

theorem flushed0_3_eq (c : Dev nD) (t : Fin cfg0.N) :
    (dat0 V c).flushed 3 t = ((cfg0.win 3).blk t).view.read (Elt F) (G0_3 V c) := by
  funext j
  show (dat0 V c).after 3 t j = G0_3 V c (((cfg0.win 3).blk t).view.emb j)
  obtain ⟨e0, e1, e2, e3⟩ := idx0_3 t
  have hj0 : (j 0).val < 1 := (j 0).isLt
  have ht : pt0 ((((cfg0.win 3).blk t).view.emb j) 0) = t := Fin.ext (by
    show win0_3.index t (0 : Fin 4) * 1 + 1 * (j 0).val = t.val; omega)
  have hj : ix4 (n0 := 1) 0 ((((cfg0.win 3).blk t).view.emb j) 1) ((((cfg0.win 3).blk t).view.emb j) 2) ((((cfg0.win 3).blk t).view.emb j) 3) = j := funext fun a => Fin.ext (match a with
    | ⟨0, _⟩ => by show (0 : ℕ) = (j 0).val; omega
    | ⟨1, _⟩ => by show win0_3.index t (1 : Fin 4) * 56 + 1 * (j 1).val = (j 1).val; omega
    | ⟨2, _⟩ => by show win0_3.index t (2 : Fin 4) * 56 + 1 * (j 2).val = (j 2).val; omega
    | ⟨3, _⟩ => by show win0_3.index t (3 : Fin 4) * 128 + 1 * (j 3).val = (j 3).val; omega)
  unfold G0_3
  rw [ht]
  exact (congrArg _ hj).symm

theorem mem_blk0_3 (t : Fin cfg0.N) (i : S32x56x56x128.Idx) :
    i ∈ ((cfg0.win 3).blk t).view.set ↔ ∀ a : Fin 4, win0_3.index t a * S1x56x56x128.size a ≤ (i a).val ∧ (i a).val < win0_3.index t a * S1x56x56x128.size a + S1x56x56x128.size a := by
  show i ∈ ((View.whole main_v8_0).slice (win0_3.rect t)).set ↔ _
  rw [View.set_slice_whole, Rect.mem_set_unit]
  exact Iff.rfl

/-- The array after the pass. -/
theorem final0_3 (c : Dev nD) : (dat0 V c).arrAt 3 cfg0.N = G0_3 V c :=
  (dat0 V c).arrAt_eq_of_cover 3 (G0_3 V c) (fun t _ => flushed0_3_eq V c t) (fun i => by
    refine ⟨pt0 (i 0), flush0_3 _, ?_⟩
    rw [mem_blk0_3]
    obtain ⟨e0, e1, e2, e3⟩ := idx0_3 (pt0 (i 0))
    intro a
    match a with
    | ⟨0, _⟩ => exact ⟨by show win0_3.index (pt0 (i 0)) (0 : Fin 4) * 1 ≤ (i 0).val; rw [e0]; show (i 0).val * 1 ≤ (i 0).val; omega,
        by show (i 0).val < win0_3.index (pt0 (i 0)) (0 : Fin 4) * 1 + 1; rw [e0]; show (i 0).val < (i 0).val * 1 + 1; omega⟩
    | ⟨1, _⟩ => exact ⟨by show win0_3.index (pt0 (i 0)) (1 : Fin 4) * 56 ≤ (i 1).val; rw [e1]; omega,
        by show (i 1).val < win0_3.index (pt0 (i 0)) (1 : Fin 4) * 56 + 56; rw [e1]; have hia : (i 1).val < 56 := (i 1).isLt; show (i 1).val < 0 * 56 + 56; omega⟩
    | ⟨2, _⟩ => exact ⟨by show win0_3.index (pt0 (i 0)) (2 : Fin 4) * 56 ≤ (i 2).val; rw [e2]; omega,
        by show (i 2).val < win0_3.index (pt0 (i 0)) (2 : Fin 4) * 56 + 56; rw [e2]; have hia : (i 2).val < 56 := (i 2).isLt; show (i 2).val < 0 * 56 + 56; omega⟩
    | ⟨3, _⟩ => exact ⟨by show win0_3.index (pt0 (i 0)) (3 : Fin 4) * 128 ≤ (i 3).val; rw [e3]; omega,
        by show (i 3).val < win0_3.index (pt0 (i 0)) (3 : Fin 4) * 128 + 128; rw [e3]; have hia : (i 3).val < 128 := (i 3).isLt; show (i 3).val < 0 * 128 + 128; omega⟩)

/-! ## the first pass's per-image moments (pass 1, window 4) -/

/-- Point `t` moves block `(t, 0, …)`. -/
theorem idx0_4 : ∀ t : Fin cfg0.N, win0_4.index t (0 : Fin 3) = t.val ∧ win0_4.index t (1 : Fin 3) = 0 ∧ win0_4.index t (2 : Fin 3) = 0 :=
  (by decide +kernel : ∀ t : Fin grid0.N, _)

/-- The array after the pass: at `(n, …)` what point `n`'s body left at `(0, …)`. -/
def G0_4 (c : Dev nD) : S32x8x128.Idx → Elt F (cfg0.win 4).elt := fun i =>
  (dat0 V c).after 4 (pt0 (i 0)) (ix3 (n0 := 1) 0 (i 1) (i 2))

theorem flushed0_4_eq (c : Dev nD) (t : Fin cfg0.N) :
    (dat0 V c).flushed 4 t = ((cfg0.win 4).blk t).view.read (Elt F) (G0_4 V c) := by
  funext j
  show (dat0 V c).after 4 t j = G0_4 V c (((cfg0.win 4).blk t).view.emb j)
  obtain ⟨e0, e1, e2⟩ := idx0_4 t
  have hj0 : (j 0).val < 1 := (j 0).isLt
  have ht : pt0 ((((cfg0.win 4).blk t).view.emb j) 0) = t := Fin.ext (by
    show win0_4.index t (0 : Fin 3) * 1 + 1 * (j 0).val = t.val; omega)
  have hj : ix3 (n0 := 1) 0 ((((cfg0.win 4).blk t).view.emb j) 1) ((((cfg0.win 4).blk t).view.emb j) 2) = j := funext fun a => Fin.ext (match a with
    | ⟨0, _⟩ => by show (0 : ℕ) = (j 0).val; omega
    | ⟨1, _⟩ => by show win0_4.index t (1 : Fin 3) * 8 + 1 * (j 1).val = (j 1).val; omega
    | ⟨2, _⟩ => by show win0_4.index t (2 : Fin 3) * 128 + 1 * (j 2).val = (j 2).val; omega)
  unfold G0_4
  rw [ht]
  exact (congrArg _ hj).symm

theorem mem_blk0_4 (t : Fin cfg0.N) (i : S32x8x128.Idx) :
    i ∈ ((cfg0.win 4).blk t).view.set ↔ ∀ a : Fin 3, win0_4.index t a * S1x8x128.size a ≤ (i a).val ∧ (i a).val < win0_4.index t a * S1x8x128.size a + S1x8x128.size a := by
  show i ∈ ((View.whole main_v8_1).slice (win0_4.rect t)).set ↔ _
  rw [View.set_slice_whole, Rect.mem_set_unit]
  exact Iff.rfl

/-- The array after the pass. -/
theorem final0_4 (c : Dev nD) : (dat0 V c).arrAt 4 cfg0.N = G0_4 V c :=
  (dat0 V c).arrAt_eq_of_cover 4 (G0_4 V c) (fun t _ => flushed0_4_eq V c t) (fun i => by
    refine ⟨pt0 (i 0), flush0_4 _, ?_⟩
    rw [mem_blk0_4]
    obtain ⟨e0, e1, e2⟩ := idx0_4 (pt0 (i 0))
    intro a
    match a with
    | ⟨0, _⟩ => exact ⟨by show win0_4.index (pt0 (i 0)) (0 : Fin 3) * 1 ≤ (i 0).val; rw [e0]; show (i 0).val * 1 ≤ (i 0).val; omega,
        by show (i 0).val < win0_4.index (pt0 (i 0)) (0 : Fin 3) * 1 + 1; rw [e0]; show (i 0).val < (i 0).val * 1 + 1; omega⟩
    | ⟨1, _⟩ => exact ⟨by show win0_4.index (pt0 (i 0)) (1 : Fin 3) * 8 ≤ (i 1).val; rw [e1]; omega,
        by show (i 1).val < win0_4.index (pt0 (i 0)) (1 : Fin 3) * 8 + 8; rw [e1]; have hia : (i 1).val < 8 := (i 1).isLt; show (i 1).val < 0 * 8 + 8; omega⟩
    | ⟨2, _⟩ => exact ⟨by show win0_4.index (pt0 (i 0)) (2 : Fin 3) * 128 ≤ (i 2).val; rw [e2]; omega,
        by show (i 2).val < win0_4.index (pt0 (i 0)) (2 : Fin 3) * 128 + 128; rw [e2]; have hia : (i 2).val < 128 := (i 2).isLt; show (i 2).val < 0 * 128 + 128; omega⟩)

/-! ## conv2's output (pass 2, window 4) -/

/-- Point `t` moves block `(t, 0, …)`. -/
theorem idx1_4 : ∀ t : Fin cfg1.N, win1_4.index t (0 : Fin 4) = t.val ∧ win1_4.index t (1 : Fin 4) = 0 ∧ win1_4.index t (2 : Fin 4) = 0 ∧ win1_4.index t (3 : Fin 4) = 0 :=
  (by decide +kernel : ∀ t : Fin grid1.N, _)

/-- The array after the pass: at `(n, …)` what point `n`'s body left at `(0, …)`. -/
def G1_4 (c : Dev nD) : S32x56x56x128.Idx → Elt F (cfg1.win 4).elt := fun i =>
  (dat1 V c).after 4 (pt1 (i 0)) (ix4 (n0 := 1) 0 (i 1) (i 2) (i 3))

theorem flushed1_4_eq (c : Dev nD) (t : Fin cfg1.N) :
    (dat1 V c).flushed 4 t = ((cfg1.win 4).blk t).view.read (Elt F) (G1_4 V c) := by
  funext j
  show (dat1 V c).after 4 t j = G1_4 V c (((cfg1.win 4).blk t).view.emb j)
  obtain ⟨e0, e1, e2, e3⟩ := idx1_4 t
  have hj0 : (j 0).val < 1 := (j 0).isLt
  have ht : pt1 ((((cfg1.win 4).blk t).view.emb j) 0) = t := Fin.ext (by
    show win1_4.index t (0 : Fin 4) * 1 + 1 * (j 0).val = t.val; omega)
  have hj : ix4 (n0 := 1) 0 ((((cfg1.win 4).blk t).view.emb j) 1) ((((cfg1.win 4).blk t).view.emb j) 2) ((((cfg1.win 4).blk t).view.emb j) 3) = j := funext fun a => Fin.ext (match a with
    | ⟨0, _⟩ => by show (0 : ℕ) = (j 0).val; omega
    | ⟨1, _⟩ => by show win1_4.index t (1 : Fin 4) * 56 + 1 * (j 1).val = (j 1).val; omega
    | ⟨2, _⟩ => by show win1_4.index t (2 : Fin 4) * 56 + 1 * (j 2).val = (j 2).val; omega
    | ⟨3, _⟩ => by show win1_4.index t (3 : Fin 4) * 128 + 1 * (j 3).val = (j 3).val; omega)
  unfold G1_4
  rw [ht]
  exact (congrArg _ hj).symm

theorem mem_blk1_4 (t : Fin cfg1.N) (i : S32x56x56x128.Idx) :
    i ∈ ((cfg1.win 4).blk t).view.set ↔ ∀ a : Fin 4, win1_4.index t a * S1x56x56x128.size a ≤ (i a).val ∧ (i a).val < win1_4.index t a * S1x56x56x128.size a + S1x56x56x128.size a := by
  show i ∈ ((View.whole main_v50_0).slice (win1_4.rect t)).set ↔ _
  rw [View.set_slice_whole, Rect.mem_set_unit]
  exact Iff.rfl

/-- The array after the pass. -/
theorem final1_4 (c : Dev nD) : (dat1 V c).arrAt 4 cfg1.N = G1_4 V c :=
  (dat1 V c).arrAt_eq_of_cover 4 (G1_4 V c) (fun t _ => flushed1_4_eq V c t) (fun i => by
    refine ⟨pt1 (i 0), flush1_4 _, ?_⟩
    rw [mem_blk1_4]
    obtain ⟨e0, e1, e2, e3⟩ := idx1_4 (pt1 (i 0))
    intro a
    match a with
    | ⟨0, _⟩ => exact ⟨by show win1_4.index (pt1 (i 0)) (0 : Fin 4) * 1 ≤ (i 0).val; rw [e0]; show (i 0).val * 1 ≤ (i 0).val; omega,
        by show (i 0).val < win1_4.index (pt1 (i 0)) (0 : Fin 4) * 1 + 1; rw [e0]; show (i 0).val < (i 0).val * 1 + 1; omega⟩
    | ⟨1, _⟩ => exact ⟨by show win1_4.index (pt1 (i 0)) (1 : Fin 4) * 56 ≤ (i 1).val; rw [e1]; omega,
        by show (i 1).val < win1_4.index (pt1 (i 0)) (1 : Fin 4) * 56 + 56; rw [e1]; have hia : (i 1).val < 56 := (i 1).isLt; show (i 1).val < 0 * 56 + 56; omega⟩
    | ⟨2, _⟩ => exact ⟨by show win1_4.index (pt1 (i 0)) (2 : Fin 4) * 56 ≤ (i 2).val; rw [e2]; omega,
        by show (i 2).val < win1_4.index (pt1 (i 0)) (2 : Fin 4) * 56 + 56; rw [e2]; have hia : (i 2).val < 56 := (i 2).isLt; show (i 2).val < 0 * 56 + 56; omega⟩
    | ⟨3, _⟩ => exact ⟨by show win1_4.index (pt1 (i 0)) (3 : Fin 4) * 128 ≤ (i 3).val; rw [e3]; omega,
        by show (i 3).val < win1_4.index (pt1 (i 0)) (3 : Fin 4) * 128 + 128; rw [e3]; have hia : (i 3).val < 128 := (i 3).isLt; show (i 3).val < 0 * 128 + 128; omega⟩)

/-! ## the second pass's per-image moments (pass 2, window 5) -/

/-- Point `t` moves block `(t, 0, …)`. -/
theorem idx1_5 : ∀ t : Fin cfg1.N, win1_5.index t (0 : Fin 3) = t.val ∧ win1_5.index t (1 : Fin 3) = 0 ∧ win1_5.index t (2 : Fin 3) = 0 :=
  (by decide +kernel : ∀ t : Fin grid1.N, _)

/-- The array after the pass: at `(n, …)` what point `n`'s body left at `(0, …)`. -/
def G1_5 (c : Dev nD) : S32x8x128.Idx → Elt F (cfg1.win 5).elt := fun i =>
  (dat1 V c).after 5 (pt1 (i 0)) (ix3 (n0 := 1) 0 (i 1) (i 2))

theorem flushed1_5_eq (c : Dev nD) (t : Fin cfg1.N) :
    (dat1 V c).flushed 5 t = ((cfg1.win 5).blk t).view.read (Elt F) (G1_5 V c) := by
  funext j
  show (dat1 V c).after 5 t j = G1_5 V c (((cfg1.win 5).blk t).view.emb j)
  obtain ⟨e0, e1, e2⟩ := idx1_5 t
  have hj0 : (j 0).val < 1 := (j 0).isLt
  have ht : pt1 ((((cfg1.win 5).blk t).view.emb j) 0) = t := Fin.ext (by
    show win1_5.index t (0 : Fin 3) * 1 + 1 * (j 0).val = t.val; omega)
  have hj : ix3 (n0 := 1) 0 ((((cfg1.win 5).blk t).view.emb j) 1) ((((cfg1.win 5).blk t).view.emb j) 2) = j := funext fun a => Fin.ext (match a with
    | ⟨0, _⟩ => by show (0 : ℕ) = (j 0).val; omega
    | ⟨1, _⟩ => by show win1_5.index t (1 : Fin 3) * 8 + 1 * (j 1).val = (j 1).val; omega
    | ⟨2, _⟩ => by show win1_5.index t (2 : Fin 3) * 128 + 1 * (j 2).val = (j 2).val; omega)
  unfold G1_5
  rw [ht]
  exact (congrArg _ hj).symm

theorem mem_blk1_5 (t : Fin cfg1.N) (i : S32x8x128.Idx) :
    i ∈ ((cfg1.win 5).blk t).view.set ↔ ∀ a : Fin 3, win1_5.index t a * S1x8x128.size a ≤ (i a).val ∧ (i a).val < win1_5.index t a * S1x8x128.size a + S1x8x128.size a := by
  show i ∈ ((View.whole main_v50_1).slice (win1_5.rect t)).set ↔ _
  rw [View.set_slice_whole, Rect.mem_set_unit]
  exact Iff.rfl

/-- The array after the pass. -/
theorem final1_5 (c : Dev nD) : (dat1 V c).arrAt 5 cfg1.N = G1_5 V c :=
  (dat1 V c).arrAt_eq_of_cover 5 (G1_5 V c) (fun t _ => flushed1_5_eq V c t) (fun i => by
    refine ⟨pt1 (i 0), flush1_5 _, ?_⟩
    rw [mem_blk1_5]
    obtain ⟨e0, e1, e2⟩ := idx1_5 (pt1 (i 0))
    intro a
    match a with
    | ⟨0, _⟩ => exact ⟨by show win1_5.index (pt1 (i 0)) (0 : Fin 3) * 1 ≤ (i 0).val; rw [e0]; show (i 0).val * 1 ≤ (i 0).val; omega,
        by show (i 0).val < win1_5.index (pt1 (i 0)) (0 : Fin 3) * 1 + 1; rw [e0]; show (i 0).val < (i 0).val * 1 + 1; omega⟩
    | ⟨1, _⟩ => exact ⟨by show win1_5.index (pt1 (i 0)) (1 : Fin 3) * 8 ≤ (i 1).val; rw [e1]; omega,
        by show (i 1).val < win1_5.index (pt1 (i 0)) (1 : Fin 3) * 8 + 8; rw [e1]; have hia : (i 1).val < 8 := (i 1).isLt; show (i 1).val < 0 * 8 + 8; omega⟩
    | ⟨2, _⟩ => exact ⟨by show win1_5.index (pt1 (i 0)) (2 : Fin 3) * 128 ≤ (i 2).val; rw [e2]; omega,
        by show (i 2).val < win1_5.index (pt1 (i 0)) (2 : Fin 3) * 128 + 128; rw [e2]; have hia : (i 2).val < 128 := (i 2).isLt; show (i 2).val < 0 * 128 + 128; omega⟩)

/-! ## the result (pass 3, window 7) -/

/-- Point `t` moves block `(t, 0, …)`. -/
theorem idx2_7 : ∀ t : Fin cfg2.N, win2_7.index t (0 : Fin 3) = t.val ∧ win2_7.index t (1 : Fin 3) = 0 ∧ win2_7.index t (2 : Fin 3) = 0 :=
  (by decide +kernel : ∀ t : Fin grid2.N, _)

/-- The array after the pass: at `(n, …)` what point `n`'s body left at `(0, …)`. -/
def G2_7 (c : Dev nD) : S32x128x3136.Idx → Elt F (cfg2.win 7).elt := fun i =>
  (dat2 V c).after 7 (pt2 (i 0)) (ix3 (n0 := 1) 0 (i 1) (i 2))

theorem flushed2_7_eq (c : Dev nD) (t : Fin cfg2.N) :
    (dat2 V c).flushed 7 t = ((cfg2.win 7).blk t).view.read (Elt F) (G2_7 V c) := by
  funext j
  show (dat2 V c).after 7 t j = G2_7 V c (((cfg2.win 7).blk t).view.emb j)
  obtain ⟨e0, e1, e2⟩ := idx2_7 t
  have hj0 : (j 0).val < 1 := (j 0).isLt
  have ht : pt2 ((((cfg2.win 7).blk t).view.emb j) 0) = t := Fin.ext (by
    show win2_7.index t (0 : Fin 3) * 1 + 1 * (j 0).val = t.val; omega)
  have hj : ix3 (n0 := 1) 0 ((((cfg2.win 7).blk t).view.emb j) 1) ((((cfg2.win 7).blk t).view.emb j) 2) = j := funext fun a => Fin.ext (match a with
    | ⟨0, _⟩ => by show (0 : ℕ) = (j 0).val; omega
    | ⟨1, _⟩ => by show win2_7.index t (1 : Fin 3) * 128 + 1 * (j 1).val = (j 1).val; omega
    | ⟨2, _⟩ => by show win2_7.index t (2 : Fin 3) * 3136 + 1 * (j 2).val = (j 2).val; omega)
  unfold G2_7
  rw [ht]
  exact (congrArg _ hj).symm

theorem mem_blk2_7 (t : Fin cfg2.N) (i : S32x128x3136.Idx) :
    i ∈ ((cfg2.win 7).blk t).view.set ↔ ∀ a : Fin 3, win2_7.index t a * S1x128x3136.size a ≤ (i a).val ∧ (i a).val < win2_7.index t a * S1x128x3136.size a + S1x128x3136.size a := by
  show i ∈ ((View.whole main_v72).slice (win2_7.rect t)).set ↔ _
  rw [View.set_slice_whole, Rect.mem_set_unit]
  exact Iff.rfl

/-- The array after the pass. -/
theorem final2_7 (c : Dev nD) : (dat2 V c).arrAt 7 cfg2.N = G2_7 V c :=
  (dat2 V c).arrAt_eq_of_cover 7 (G2_7 V c) (fun t _ => flushed2_7_eq V c t) (fun i => by
    refine ⟨pt2 (i 0), flush2_7 _, ?_⟩
    rw [mem_blk2_7]
    obtain ⟨e0, e1, e2⟩ := idx2_7 (pt2 (i 0))
    intro a
    match a with
    | ⟨0, _⟩ => exact ⟨by show win2_7.index (pt2 (i 0)) (0 : Fin 3) * 1 ≤ (i 0).val; rw [e0]; show (i 0).val * 1 ≤ (i 0).val; omega,
        by show (i 0).val < win2_7.index (pt2 (i 0)) (0 : Fin 3) * 1 + 1; rw [e0]; show (i 0).val < (i 0).val * 1 + 1; omega⟩
    | ⟨1, _⟩ => exact ⟨by show win2_7.index (pt2 (i 0)) (1 : Fin 3) * 128 ≤ (i 1).val; rw [e1]; omega,
        by show (i 1).val < win2_7.index (pt2 (i 0)) (1 : Fin 3) * 128 + 128; rw [e1]; have hia : (i 1).val < 128 := (i 1).isLt; show (i 1).val < 0 * 128 + 128; omega⟩
    | ⟨2, _⟩ => exact ⟨by show win2_7.index (pt2 (i 0)) (2 : Fin 3) * 3136 ≤ (i 2).val; rw [e2]; omega,
        by show (i 2).val < win2_7.index (pt2 (i 0)) (2 : Fin 3) * 3136 + 3136; rw [e2]; have hia : (i 2).val < 3136 := (i 2).isLt; show (i 2).val < 0 * 3136 + 3136; omega⟩)

end Cert.KernelIdeal.Run

end
-- ==== Proof.KIBlocks.lean ====
import proofs.«120137_g2000002162550304_pallasbulk_397_2_alg».proof.Proof.KIArrays

set_option maxRecDepth 16384

noncomputable section

/-! # The passes' input blocks

An operand that moves with the grid is read one image at a time: its block at point `n` is the array at `(n, …)`. An
operand that stays (weights, coefficient rows) is one block, the whole array, at every point. -/

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
variable {F : FTy → Type} [FloatOps F]

variable (V : (c : Dev nD) → (b : Ref sig .tc) → Buf (Elt F) ((c : Thread nD τ).loc b))

theorem idxIn0_0 : ∀ t : Fin cfg0.N, win0_0.index t (0 : Fin 4) = t.val ∧ win0_0.index t (1 : Fin 4) = 0 ∧ win0_0.index t (2 : Fin 4) = 0 ∧ win0_0.index t (3 : Fin 4) = 0 :=
  (by decide +kernel : ∀ t : Fin grid0.N, _)
/-- Window 0 of pass 1 at image `n`: the array at `(n, …)`. -/
theorem iblk0_0_eq (c : Dev nD) (n : Fin 32) :
    iblk0 V c 0 (pt0 n) = fun y => V c main_v2 (ix4 n (y 1) (y 2) (y 3)) := by
  funext y
  show V c main_v2 (((cfg0.win 0).blk (pt0 n)).view.emb y) = _
  obtain ⟨e0, e1, e2, e3⟩ := idxIn0_0 (pt0 n)
  have hy0 : (y 0).val < 1 := (y 0).isLt
  refine congrArg _ (funext fun a => Fin.ext (match a with
    | ⟨0, _⟩ => by show win0_0.index (pt0 n) (0 : Fin 4) * 1 + 1 * (y 0).val = n.val; rw [e0]; show n.val * 1 + 1 * (y 0).val = n.val; omega
    | ⟨1, _⟩ => by show win0_0.index (pt0 n) (1 : Fin 4) * 58 + 1 * (y 1).val = (y 1).val; rw [e1]; omega
    | ⟨2, _⟩ => by show win0_0.index (pt0 n) (2 : Fin 4) * 58 + 1 * (y 2).val = (y 2).val; rw [e2]; omega
    | ⟨3, _⟩ => by show win0_0.index (pt0 n) (3 : Fin 4) * 64 + 1 * (y 3).val = (y 3).val; rw [e3]; omega))

theorem idxIn0_1 : ∀ t : Fin cfg0.N, win0_1.index t (0 : Fin 2) = 0 ∧ win0_1.index t (1 : Fin 2) = 0 :=
  (by decide +kernel : ∀ t : Fin grid0.N, _)
/-- Window 1 of pass 1 stays: its block is the whole array at every point. -/
theorem iblk0_1_eq (c : Dev nD) (t : Fin cfg0.N) : iblk0 V c 1 t = V c main_v4 := by
  funext y
  show V c main_v4 (((cfg0.win 1).blk t).view.emb y) = V c main_v4 y
  obtain ⟨e0, e1⟩ := idxIn0_1 t
  refine congrArg _ (funext fun a => Fin.ext (match a with
    | ⟨0, _⟩ => by show win0_1.index t (0 : Fin 2) * 576 + 1 * (y 0).val = (y 0).val; rw [e0]; omega
    | ⟨1, _⟩ => by show win0_1.index t (1 : Fin 2) * 128 + 1 * (y 1).val = (y 1).val; rw [e1]; omega))

theorem idxIn0_2 : ∀ t : Fin cfg0.N, win0_2.index t (0 : Fin 2) = 0 ∧ win0_2.index t (1 : Fin 2) = 0 :=
  (by decide +kernel : ∀ t : Fin grid0.N, _)
/-- Window 2 of pass 1 stays: its block is the whole array at every point. -/
theorem iblk0_2_eq (c : Dev nD) (t : Fin cfg0.N) : iblk0 V c 2 t = V c main_v7 := by
  funext y
  show V c main_v7 (((cfg0.win 2).blk t).view.emb y) = V c main_v7 y
  obtain ⟨e0, e1⟩ := idxIn0_2 t
  refine congrArg _ (funext fun a => Fin.ext (match a with
    | ⟨0, _⟩ => by show win0_2.index t (0 : Fin 2) * 64 + 1 * (y 0).val = (y 0).val; rw [e0]; omega
    | ⟨1, _⟩ => by show win0_2.index t (1 : Fin 2) * 128 + 1 * (y 1).val = (y 1).val; rw [e1]; omega))

theorem idxIn1_0 : ∀ t : Fin cfg1.N, win1_0.index t (0 : Fin 4) = t.val ∧ win1_0.index t (1 : Fin 4) = 0 ∧ win1_0.index t (2 : Fin 4) = 0 ∧ win1_0.index t (3 : Fin 4) = 0 :=
  (by decide +kernel : ∀ t : Fin grid1.N, _)
/-- Window 0 of pass 2 at image `n`: the array at `(n, …)`. -/
theorem iblk1_0_eq (c : Dev nD) (n : Fin 32) :
    iblk1 V c 0 (pt1 n) = fun y => V c main_v8_0 (ix4 n (y 1) (y 2) (y 3)) := by
  funext y
  show V c main_v8_0 (((cfg1.win 0).blk (pt1 n)).view.emb y) = _
  obtain ⟨e0, e1, e2, e3⟩ := idxIn1_0 (pt1 n)
  have hy0 : (y 0).val < 1 := (y 0).isLt
  refine congrArg _ (funext fun a => Fin.ext (match a with
    | ⟨0, _⟩ => by show win1_0.index (pt1 n) (0 : Fin 4) * 1 + 1 * (y 0).val = n.val; rw [e0]; show n.val * 1 + 1 * (y 0).val = n.val; omega
    | ⟨1, _⟩ => by show win1_0.index (pt1 n) (1 : Fin 4) * 56 + 1 * (y 1).val = (y 1).val; rw [e1]; omega
    | ⟨2, _⟩ => by show win1_0.index (pt1 n) (2 : Fin 4) * 56 + 1 * (y 2).val = (y 2).val; rw [e2]; omega
    | ⟨3, _⟩ => by show win1_0.index (pt1 n) (3 : Fin 4) * 128 + 1 * (y 3).val = (y 3).val; rw [e3]; omega))

theorem idxIn1_1 : ∀ t : Fin cfg1.N, win1_1.index t (0 : Fin 2) = 0 ∧ win1_1.index t (1 : Fin 2) = 0 :=
  (by decide +kernel : ∀ t : Fin grid1.N, _)
/-- Window 1 of pass 2 stays: its block is the whole array at every point. -/
theorem iblk1_1_eq (c : Dev nD) (t : Fin cfg1.N) : iblk1 V c 1 t = V c main_v26 := by
  funext y
  show V c main_v26 (((cfg1.win 1).blk t).view.emb y) = V c main_v26 y
  obtain ⟨e0, e1⟩ := idxIn1_1 t
  refine congrArg _ (funext fun a => Fin.ext (match a with
    | ⟨0, _⟩ => by show win1_1.index t (0 : Fin 2) * 1 + 1 * (y 0).val = (y 0).val; rw [e0]; omega
    | ⟨1, _⟩ => by show win1_1.index t (1 : Fin 2) * 128 + 1 * (y 1).val = (y 1).val; rw [e1]; omega))

theorem idxIn1_2 : ∀ t : Fin cfg1.N, win1_2.index t (0 : Fin 2) = 0 ∧ win1_2.index t (1 : Fin 2) = 0 :=
  (by decide +kernel : ∀ t : Fin grid1.N, _)
/-- Window 2 of pass 2 stays: its block is the whole array at every point. -/
theorem iblk1_2_eq (c : Dev nD) (t : Fin cfg1.N) : iblk1 V c 2 t = V c main_v29 := by
  funext y
  show V c main_v29 (((cfg1.win 2).blk t).view.emb y) = V c main_v29 y
  obtain ⟨e0, e1⟩ := idxIn1_2 t
  refine congrArg _ (funext fun a => Fin.ext (match a with
    | ⟨0, _⟩ => by show win1_2.index t (0 : Fin 2) * 1 + 1 * (y 0).val = (y 0).val; rw [e0]; omega
    | ⟨1, _⟩ => by show win1_2.index t (1 : Fin 2) * 128 + 1 * (y 1).val = (y 1).val; rw [e1]; omega))

theorem idxIn1_3 : ∀ t : Fin cfg1.N, win1_3.index t (0 : Fin 2) = 0 ∧ win1_3.index t (1 : Fin 2) = 0 :=
  (by decide +kernel : ∀ t : Fin grid1.N, _)
/-- Window 3 of pass 2 stays: its block is the whole array at every point. -/
theorem iblk1_3_eq (c : Dev nD) (t : Fin cfg1.N) : iblk1 V c 3 t = V c main_v6 := by
  funext y
  show V c main_v6 (((cfg1.win 3).blk t).view.emb y) = V c main_v6 y
  obtain ⟨e0, e1⟩ := idxIn1_3 t
  refine congrArg _ (funext fun a => Fin.ext (match a with
    | ⟨0, _⟩ => by show win1_3.index t (0 : Fin 2) * 1152 + 1 * (y 0).val = (y 0).val; rw [e0]; omega
    | ⟨1, _⟩ => by show win1_3.index t (1 : Fin 2) * 128 + 1 * (y 1).val = (y 1).val; rw [e1]; omega))

theorem idxIn2_0 : ∀ t : Fin cfg2.N, win2_0.index t (0 : Fin 4) = t.val ∧ win2_0.index t (1 : Fin 4) = 0 ∧ win2_0.index t (2 : Fin 4) = 0 ∧ win2_0.index t (3 : Fin 4) = 0 :=
  (by decide +kernel : ∀ t : Fin grid2.N, _)
/-- Window 0 of pass 3 at image `n`: the array at `(n, …)`. -/
theorem iblk2_0_eq (c : Dev nD) (n : Fin 32) :
    iblk2 V c 0 (pt2 n) = fun y => V c main_v50_0 (ix4 n (y 1) (y 2) (y 3)) := by
  funext y
  show V c main_v50_0 (((cfg2.win 0).blk (pt2 n)).view.emb y) = _
  obtain ⟨e0, e1, e2, e3⟩ := idxIn2_0 (pt2 n)
  have hy0 : (y 0).val < 1 := (y 0).isLt
  refine congrArg _ (funext fun a => Fin.ext (match a with
    | ⟨0, _⟩ => by show win2_0.index (pt2 n) (0 : Fin 4) * 1 + 1 * (y 0).val = n.val; rw [e0]; show n.val * 1 + 1 * (y 0).val = n.val; omega
    | ⟨1, _⟩ => by show win2_0.index (pt2 n) (1 : Fin 4) * 56 + 1 * (y 1).val = (y 1).val; rw [e1]; omega
    | ⟨2, _⟩ => by show win2_0.index (pt2 n) (2 : Fin 4) * 56 + 1 * (y 2).val = (y 2).val; rw [e2]; omega
    | ⟨3, _⟩ => by show win2_0.index (pt2 n) (3 : Fin 4) * 128 + 1 * (y 3).val = (y 3).val; rw [e3]; omega))

theorem idxIn2_1 : ∀ t : Fin cfg2.N, win2_1.index t (0 : Fin 4) = t.val ∧ win2_1.index t (1 : Fin 4) = 0 ∧ win2_1.index t (2 : Fin 4) = 0 ∧ win2_1.index t (3 : Fin 4) = 0 :=
  (by decide +kernel : ∀ t : Fin grid2.N, _)
/-- Window 1 of pass 3 at image `n`: the array at `(n, …)`. -/
theorem iblk2_1_eq (c : Dev nD) (n : Fin 32) :
    iblk2 V c 1 (pt2 n) = fun y => V c main_v2 (ix4 n (y 1) (y 2) (y 3)) := by
  funext y
  show V c main_v2 (((cfg2.win 1).blk (pt2 n)).view.emb y) = _
  obtain ⟨e0, e1, e2, e3⟩ := idxIn2_1 (pt2 n)
  have hy0 : (y 0).val < 1 := (y 0).isLt
  refine congrArg _ (funext fun a => Fin.ext (match a with
    | ⟨0, _⟩ => by show win2_1.index (pt2 n) (0 : Fin 4) * 1 + 1 * (y 0).val = n.val; rw [e0]; show n.val * 1 + 1 * (y 0).val = n.val; omega
    | ⟨1, _⟩ => by show win2_1.index (pt2 n) (1 : Fin 4) * 58 + 1 * (y 1).val = (y 1).val; rw [e1]; omega
    | ⟨2, _⟩ => by show win2_1.index (pt2 n) (2 : Fin 4) * 58 + 1 * (y 2).val = (y 2).val; rw [e2]; omega
    | ⟨3, _⟩ => by show win2_1.index (pt2 n) (3 : Fin 4) * 64 + 1 * (y 3).val = (y 3).val; rw [e3]; omega))

theorem idxIn2_2 : ∀ t : Fin cfg2.N, win2_2.index t (0 : Fin 2) = 0 ∧ win2_2.index t (1 : Fin 2) = 0 :=
  (by decide +kernel : ∀ t : Fin grid2.N, _)
/-- Window 2 of pass 3 stays: its block is the whole array at every point. -/
theorem iblk2_2_eq (c : Dev nD) (t : Fin cfg2.N) : iblk2 V c 2 t = V c main_v7 := by
  funext y
  show V c main_v7 (((cfg2.win 2).blk t).view.emb y) = V c main_v7 y
  obtain ⟨e0, e1⟩ := idxIn2_2 t
  refine congrArg _ (funext fun a => Fin.ext (match a with
    | ⟨0, _⟩ => by show win2_2.index t (0 : Fin 2) * 64 + 1 * (y 0).val = (y 0).val; rw [e0]; omega
    | ⟨1, _⟩ => by show win2_2.index t (1 : Fin 2) * 128 + 1 * (y 1).val = (y 1).val; rw [e1]; omega))

theorem idxIn2_3 : ∀ t : Fin cfg2.N, win2_3.index t (0 : Fin 2) = 0 ∧ win2_3.index t (1 : Fin 2) = 0 :=
  (by decide +kernel : ∀ t : Fin grid2.N, _)
/-- Window 3 of pass 3 stays: its block is the whole array at every point. -/
theorem iblk2_3_eq (c : Dev nD) (t : Fin cfg2.N) : iblk2 V c 3 t = V c main_v68 := by
  funext y
  show V c main_v68 (((cfg2.win 3).blk t).view.emb y) = V c main_v68 y
  obtain ⟨e0, e1⟩ := idxIn2_3 t
  refine congrArg _ (funext fun a => Fin.ext (match a with
    | ⟨0, _⟩ => by show win2_3.index t (0 : Fin 2) * 1 + 1 * (y 0).val = (y 0).val; rw [e0]; omega
    | ⟨1, _⟩ => by show win2_3.index t (1 : Fin 2) * 128 + 1 * (y 1).val = (y 1).val; rw [e1]; omega))

theorem idxIn2_4 : ∀ t : Fin cfg2.N, win2_4.index t (0 : Fin 2) = 0 ∧ win2_4.index t (1 : Fin 2) = 0 :=
  (by decide +kernel : ∀ t : Fin grid2.N, _)
/-- Window 4 of pass 3 stays: its block is the whole array at every point. -/
theorem iblk2_4_eq (c : Dev nD) (t : Fin cfg2.N) : iblk2 V c 4 t = V c main_v71 := by
  funext y
  show V c main_v71 (((cfg2.win 4).blk t).view.emb y) = V c main_v71 y
  obtain ⟨e0, e1⟩ := idxIn2_4 t
  refine congrArg _ (funext fun a => Fin.ext (match a with
    | ⟨0, _⟩ => by show win2_4.index t (0 : Fin 2) * 1 + 1 * (y 0).val = (y 0).val; rw [e0]; omega
    | ⟨1, _⟩ => by show win2_4.index t (1 : Fin 2) * 128 + 1 * (y 1).val = (y 1).val; rw [e1]; omega))

theorem idxIn2_5 : ∀ t : Fin cfg2.N, win2_5.index t (0 : Fin 2) = 0 ∧ win2_5.index t (1 : Fin 2) = 0 :=
  (by decide +kernel : ∀ t : Fin grid2.N, _)
/-- Window 5 of pass 3 stays: its block is the whole array at every point. -/
theorem iblk2_5_eq (c : Dev nD) (t : Fin cfg2.N) : iblk2 V c 5 t = V c main_v46 := by
  funext y
  show V c main_v46 (((cfg2.win 5).blk t).view.emb y) = V c main_v46 y
  obtain ⟨e0, e1⟩ := idxIn2_5 t
  refine congrArg _ (funext fun a => Fin.ext (match a with
    | ⟨0, _⟩ => by show win2_5.index t (0 : Fin 2) * 1 + 1 * (y 0).val = (y 0).val; rw [e0]; omega
    | ⟨1, _⟩ => by show win2_5.index t (1 : Fin 2) * 128 + 1 * (y 1).val = (y 1).val; rw [e1]; omega))

theorem idxIn2_6 : ∀ t : Fin cfg2.N, win2_6.index t (0 : Fin 2) = 0 ∧ win2_6.index t (1 : Fin 2) = 0 :=
  (by decide +kernel : ∀ t : Fin grid2.N, _)
/-- Window 6 of pass 3 stays: its block is the whole array at every point. -/
theorem iblk2_6_eq (c : Dev nD) (t : Fin cfg2.N) : iblk2 V c 6 t = V c main_v49 := by
  funext y
  show V c main_v49 (((cfg2.win 6).blk t).view.emb y) = V c main_v49 y
  obtain ⟨e0, e1⟩ := idxIn2_6 t
  refine congrArg _ (funext fun a => Fin.ext (match a with
    | ⟨0, _⟩ => by show win2_6.index t (0 : Fin 2) * 1 + 1 * (y 0).val = (y 0).val; rw [e0]; omega
    | ⟨1, _⟩ => by show win2_6.index t (1 : Fin 2) * 128 + 1 * (y 1).val = (y 1).val; rw [e1]; omega))

end Cert.KernelIdeal.Run

end
-- ==== Proof.BridgeHost.lean ====
import proofs.«120137_g2000002162550304_pallasbulk_397_2_alg».proof.Proof.Gen.KernelIdeal
import Idealize.ShloMosaic.PureOps.Ideal
import Idealize.ShloMosaic.Lib.ValueIdx

set_option maxRecDepth 16384

noncomputable section

/-! # The batch-norm coefficients, as both programs' hosts compute them

From a channel's sum `S` and sum of squares `Q` over the 32 · 56 · 56 = 100352 positions: the mean `S / 100352`, the
variance `max (Q / 100352 - mean², 0)`, the scale `g · rsqrt (variance + ε)` and the bias `b - mean · scale`. Both
programs' hosts run exactly these operations on 128-vectors; they differ only in where `S` and `Q` come from. -/

namespace Cert.Bridge

open Idealize.ShloMosaic
open Cert.KernelIdeal Cert.KernelIdeal.Gen

variable {F : FTy → Type} [FloatOps F]

/-- The position count, zero and ε, broadcast over the channels. -/
def cCount : FVec F S128 .f32 := broadcastInDim S128 ![] bcast_S_S128 (constant S_ .f32 0x47C40000#32)
def cZero : FVec F S128 .f32 := broadcastInDim S128 ![] bcast_S_S128 (constant S_ .f32 0x00000000#32)
def cEps : FVec F S128 .f32 := broadcastInDim S128 ![] bcast_S_S128 (constant S_ .f32 0x3727C5AC#32)

/-- The scale `g · rsqrt (max (Q/N - (S/N)², 0) + ε)`. -/
def bnScale (S Q g : FVec F S128 .f32) : FVec F S128 .f32 :=
  mulf g (Host.rsqrt (addf (maximumf (subf (Host.divf Q cCount) (mulf (Host.divf S cCount) (Host.divf S cCount))) cZero) cEps))

/-- The bias `b - (S/N) · scale`. -/
def bnBias (S Q g b : FVec F S128 .f32) : FVec F S128 .f32 :=
  subf b (mulf (Host.divf S cCount) (bnScale S Q g))

/-- A 128-vector as a one-row matrix. -/
def asRow (v : FVec F S128 .f32) : FVec F S1x128 .f32 := shapeCast S1x128 v shapeCasts_S128_S1x128

/-- The kernel's per-image moment blocks added up over the 32 images. -/
def sumImgs (st : FVec F S32x8x128 .f32) : FVec F S8x128 .f32 :=
  Host.reduceAdd st (constant S_ .f32 0x00000000#32) reducesTo_S32x8x128_S8x128_d0 h_S_

/-- Row `r` of an eight-row block, as a 128-vector. -/
def row8_0 (x : FVec F S8x128 .f32) : FVec F S128 .f32 := shapeCast S128 (extractStridedSlice S1x128 ![0, 0] x slices_S8x128_S1x128_0_0) shapeCasts_S1x128_S128
def row8_1 (x : FVec F S8x128 .f32) : FVec F S128 .f32 := shapeCast S128 (extractStridedSlice S1x128 ![1, 0] x slices_S8x128_S1x128_1_0) shapeCasts_S1x128_S128
def row8_2 (x : FVec F S8x128 .f32) : FVec F S128 .f32 := shapeCast S128 (extractStridedSlice S1x128 ![2, 0] x slices_S8x128_S1x128_2_0) shapeCasts_S1x128_S128
def row8_3 (x : FVec F S8x128 .f32) : FVec F S128 .f32 := shapeCast S128 (extractStridedSlice S1x128 ![3, 0] x slices_S8x128_S1x128_3_0) shapeCasts_S1x128_S128

end Cert.Bridge

end
-- ==== Proof.KIHost_host1_s1.lean ====
import proofs.«120137_g2000002162550304_pallasbulk_397_2_alg».proof.Proof.Gen.KernelIdeal.Launch
import proofs.«120137_g2000002162550304_pallasbulk_397_2_alg».proof.Proof.BridgeHost
import Idealize.ShloMosaic.Lib.StableHlo.Run

set_option maxRecDepth 16384

noncomputable section

/-! # The host between the first two passes: BN1's scale row -/

namespace Cert.KernelIdeal.Run
open Cert.KernelIdeal Cert.KernelIdeal.Gen Cert.Bridge
open Idealize.ShloMosaic Idealize.ShloMosaic.TcCoe
variable {F : FTy → Type} [FloatOps F]

set_option maxHeartbeats 4000000 in
theorem host1_s1 (Vb : Valuation τ sig (Elt F)) :
    StableHlo.after (hostOps1 (F := F)) Vb (Proc.devRef .tc main_v26) = asRow (bnScale (row8_0 (sumImgs (Vb (Proc.devRef .tc main_v8_1)))) (row8_1 (sumImgs (Vb (Proc.devRef .tc main_v8_1)))) (Vb (Proc.devRef .tc main_arg4))) := by
  after_results
  rfl

end Cert.KernelIdeal.Run

end
-- ==== Proof.KIHost_host1_b1.lean ====
import proofs.«120137_g2000002162550304_pallasbulk_397_2_alg».proof.Proof.Gen.KernelIdeal.Launch
import proofs.«120137_g2000002162550304_pallasbulk_397_2_alg».proof.Proof.BridgeHost
import Idealize.ShloMosaic.Lib.StableHlo.Run

set_option maxRecDepth 16384

noncomputable section

/-! # The host between the first two passes: BN1's bias row -/

namespace Cert.KernelIdeal.Run
open Cert.KernelIdeal Cert.KernelIdeal.Gen Cert.Bridge
open Idealize.ShloMosaic Idealize.ShloMosaic.TcCoe
variable {F : FTy → Type} [FloatOps F]

set_option maxHeartbeats 4000000 in
theorem host1_b1 (Vb : Valuation τ sig (Elt F)) :
    StableHlo.after (hostOps1 (F := F)) Vb (Proc.devRef .tc main_v29) = asRow (bnBias (row8_0 (sumImgs (Vb (Proc.devRef .tc main_v8_1)))) (row8_1 (sumImgs (Vb (Proc.devRef .tc main_v8_1)))) (Vb (Proc.devRef .tc main_arg4)) (Vb (Proc.devRef .tc main_arg5))) := by
  after_results
  rfl

end Cert.KernelIdeal.Run

end
-- ==== Proof.KIHost_host1_ss.lean ====
import proofs.«120137_g2000002162550304_pallasbulk_397_2_alg».proof.Proof.Gen.KernelIdeal.Launch
import proofs.«120137_g2000002162550304_pallasbulk_397_2_alg».proof.Proof.BridgeHost
import Idealize.ShloMosaic.Lib.StableHlo.Run

set_option maxRecDepth 16384

noncomputable section

/-! # The host between the first two passes: the shortcut BN's scale row -/

namespace Cert.KernelIdeal.Run
open Cert.KernelIdeal Cert.KernelIdeal.Gen Cert.Bridge
open Idealize.ShloMosaic Idealize.ShloMosaic.TcCoe
variable {F : FTy → Type} [FloatOps F]

set_option maxHeartbeats 4000000 in
theorem host1_ss (Vb : Valuation τ sig (Elt F)) :
    StableHlo.after (hostOps1 (F := F)) Vb (Proc.devRef .tc main_v46) = asRow (bnScale (row8_2 (sumImgs (Vb (Proc.devRef .tc main_v8_1)))) (row8_3 (sumImgs (Vb (Proc.devRef .tc main_v8_1)))) (Vb (Proc.devRef .tc main_arg8))) := by
  after_results
  rfl

end Cert.KernelIdeal.Run

end
-- ==== Proof.KIHost_host1_bs.lean ====
import proofs.«120137_g2000002162550304_pallasbulk_397_2_alg».proof.Proof.Gen.KernelIdeal.Launch
import proofs.«120137_g2000002162550304_pallasbulk_397_2_alg».proof.Proof.BridgeHost
import Idealize.ShloMosaic.Lib.StableHlo.Run

set_option maxRecDepth 16384

noncomputable section

/-! # The host between the first two passes: the shortcut BN's bias row -/

namespace Cert.KernelIdeal.Run
open Cert.KernelIdeal Cert.KernelIdeal.Gen Cert.Bridge
open Idealize.ShloMosaic Idealize.ShloMosaic.TcCoe
variable {F : FTy → Type} [FloatOps F]

set_option maxHeartbeats 4000000 in
theorem host1_bs (Vb : Valuation τ sig (Elt F)) :
    StableHlo.after (hostOps1 (F := F)) Vb (Proc.devRef .tc main_v49) = asRow (bnBias (row8_2 (sumImgs (Vb (Proc.devRef .tc main_v8_1)))) (row8_3 (sumImgs (Vb (Proc.devRef .tc main_v8_1)))) (Vb (Proc.devRef .tc main_arg8)) (Vb (Proc.devRef .tc main_arg9))) := by
  after_results
  rfl

end Cert.KernelIdeal.Run

end
-- ==== Proof.KIHost_host2_s2.lean ====
import proofs.«120137_g2000002162550304_pallasbulk_397_2_alg».proof.Proof.Gen.KernelIdeal.Launch
import proofs.«120137_g2000002162550304_pallasbulk_397_2_alg».proof.Proof.BridgeHost
import Idealize.ShloMosaic.Lib.StableHlo.Run

set_option maxRecDepth 16384

noncomputable section

/-! # The host between the last two passes: BN2's scale row -/

namespace Cert.KernelIdeal.Run
open Cert.KernelIdeal Cert.KernelIdeal.Gen Cert.Bridge
open Idealize.ShloMosaic Idealize.ShloMosaic.TcCoe
variable {F : FTy → Type} [FloatOps F]

set_option maxHeartbeats 4000000 in
theorem host2_s2 (Vb : Valuation τ sig (Elt F)) :
    StableHlo.after (hostOps2 (F := F)) Vb (Proc.devRef .tc main_v68) = asRow (bnScale (row8_0 (sumImgs (Vb (Proc.devRef .tc main_v50_1)))) (row8_1 (sumImgs (Vb (Proc.devRef .tc main_v50_1)))) (Vb (Proc.devRef .tc main_arg6))) := by
  after_results
  rfl

end Cert.KernelIdeal.Run

end
-- ==== Proof.KIHost_host2_b2.lean ====
import proofs.«120137_g2000002162550304_pallasbulk_397_2_alg».proof.Proof.Gen.KernelIdeal.Launch
import proofs.«120137_g2000002162550304_pallasbulk_397_2_alg».proof.Proof.BridgeHost
import Idealize.ShloMosaic.Lib.StableHlo.Run

set_option maxRecDepth 16384

noncomputable section

/-! # The host between the last two passes: BN2's bias row -/

namespace Cert.KernelIdeal.Run
open Cert.KernelIdeal Cert.KernelIdeal.Gen Cert.Bridge
open Idealize.ShloMosaic Idealize.ShloMosaic.TcCoe
variable {F : FTy → Type} [FloatOps F]

set_option maxHeartbeats 4000000 in
theorem host2_b2 (Vb : Valuation τ sig (Elt F)) :
    StableHlo.after (hostOps2 (F := F)) Vb (Proc.devRef .tc main_v71) = asRow (bnBias (row8_0 (sumImgs (Vb (Proc.devRef .tc main_v50_1)))) (row8_1 (sumImgs (Vb (Proc.devRef .tc main_v50_1)))) (Vb (Proc.devRef .tc main_arg6)) (Vb (Proc.devRef .tc main_arg7))) := by
  after_results
  rfl

end Cert.KernelIdeal.Run

end
-- ==== Proof.KIChain.lean ====
import proofs.«120137_g2000002162550304_pallasbulk_397_2_alg».proof.Proof.KIBlocks
import proofs.«120137_g2000002162550304_pallasbulk_397_2_alg».proof.Proof.KIHost_host1_s1
import proofs.«120137_g2000002162550304_pallasbulk_397_2_alg».proof.Proof.KIHost_host1_b1
import proofs.«120137_g2000002162550304_pallasbulk_397_2_alg».proof.Proof.KIHost_host1_ss
import proofs.«120137_g2000002162550304_pallasbulk_397_2_alg».proof.Proof.KIHost_host1_bs
import proofs.«120137_g2000002162550304_pallasbulk_397_2_alg».proof.Proof.KIHost_host2_s2
import proofs.«120137_g2000002162550304_pallasbulk_397_2_alg».proof.Proof.KIHost_host2_b2
import Idealize.ShloMosaic.Lib.StableHlo.Run

set_option maxRecDepth 16384

noncomputable section

/-! # The kernel's run, boundary by boundary

What each pass reads, traced back: a pass's outputs are the whole-array functions of what it found; the host stretches
between passes write only the coefficient rows and their scratch values, so the images, the weights and the arguments
pass through them unchanged. -/

namespace Cert.KernelIdeal.Run

open Cert.KernelIdeal Cert.KernelIdeal.Gen Cert.Bridge
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

/-! ## After the first pass -/
theorem W4_y1 (c : Dev nD) : W4 m ρ c (Proc.devRef .tc main_v8_0) = G0_3 (V3 m ρ) c := (W4_arr m ρ c 3).trans (final0_3 (V3 m ρ) c)
theorem W4_st1 (c : Dev nD) : W4 m ρ c (Proc.devRef .tc main_v8_1) = G0_4 (V3 m ρ) c := (W4_arr m ρ c 4).trans (final0_4 (V3 m ρ) c)
/-- A buffer that is no output of the first pass is as the pass found it. -/
theorem W4_keep (c : Dev nD) (b : Ref sig .tc) (h : b ∉ ([main_v8_0, main_v8_1] : List (Ref sig .tc)) := by decide)
    (hin : ∀ w, Pipeline.arrRef spec0 w = b → w.val < 3 := by decide) : W4 m ρ c (Proc.devRef .tc b) = W3 m ρ c (Proc.devRef .tc b) := by
  by_cases hw : ∃ w, Pipeline.arrRef spec0 w = b
  · obtain ⟨w, rfl⟩ := hw
    have hlt := hin w rfl
    rw [W4_arr]
    match w, hlt with
    | ⟨0, _⟩, _ => exact ((dat0 (V3 m ρ) c).arrAt_in 0 rfl _).trans (A_eq0 (V3 m ρ) c 0)
    | ⟨1, _⟩, _ => exact ((dat0 (V3 m ρ) c).arrAt_in 1 rfl _).trans (A_eq0 (V3 m ρ) c 1)
    | ⟨2, _⟩, _ => exact ((dat0 (V3 m ρ) c).arrAt_in 2 rfl _).trans (A_eq0 (V3 m ρ) c 2)
  · exact W4_of_ne m ρ c b fun w e => hw ⟨w, e⟩

/-! ## The host's coefficients for the second and third passes -/
theorem W5_s1 (c : Dev nD) : W5 m ρ c (Proc.devRef .tc main_v26) = asRow (bnScale (row8_0 (sumImgs (W4 m ρ c (Proc.devRef .tc main_v8_1)))) (row8_1 (sumImgs (W4 m ρ c (Proc.devRef .tc main_v8_1)))) (W4 m ρ c (Proc.devRef .tc main_arg4))) := host1_s1 (W4 m ρ c)
theorem W5_b1 (c : Dev nD) : W5 m ρ c (Proc.devRef .tc main_v29) = asRow (bnBias (row8_0 (sumImgs (W4 m ρ c (Proc.devRef .tc main_v8_1)))) (row8_1 (sumImgs (W4 m ρ c (Proc.devRef .tc main_v8_1)))) (W4 m ρ c (Proc.devRef .tc main_arg4)) (W4 m ρ c (Proc.devRef .tc main_arg5))) := host1_b1 (W4 m ρ c)
theorem W5_ss (c : Dev nD) : W5 m ρ c (Proc.devRef .tc main_v46) = asRow (bnScale (row8_2 (sumImgs (W4 m ρ c (Proc.devRef .tc main_v8_1)))) (row8_3 (sumImgs (W4 m ρ c (Proc.devRef .tc main_v8_1)))) (W4 m ρ c (Proc.devRef .tc main_arg8))) := host1_ss (W4 m ρ c)
theorem W5_bs (c : Dev nD) : W5 m ρ c (Proc.devRef .tc main_v49) = asRow (bnBias (row8_2 (sumImgs (W4 m ρ c (Proc.devRef .tc main_v8_1)))) (row8_3 (sumImgs (W4 m ρ c (Proc.devRef .tc main_v8_1)))) (W4 m ρ c (Proc.devRef .tc main_arg8)) (W4 m ρ c (Proc.devRef .tc main_arg9))) := host1_bs (W4 m ρ c)
/-- The host stretch writes only its own values. -/
theorem W5_keep (c : Dev nD) (b : Ref sig .tc) (h : b ∉ hostOps1_W := by decide) : W5 m ρ c (Proc.devRef .tc b) = W4 m ρ c (Proc.devRef .tc b) :=
  StableHlo.after_of_writes_sub hostOps1 _ hostOps1_writes h

/-! ## After the second pass -/
theorem W6_y2 (c : Dev nD) : W6 m ρ c (Proc.devRef .tc main_v50_0) = G1_4 (V5 m ρ) c := (W6_arr m ρ c 4).trans (final1_4 (V5 m ρ) c)
theorem W6_st2 (c : Dev nD) : W6 m ρ c (Proc.devRef .tc main_v50_1) = G1_5 (V5 m ρ) c := (W6_arr m ρ c 5).trans (final1_5 (V5 m ρ) c)
theorem W6_keep (c : Dev nD) (b : Ref sig .tc) (hb : ∀ w, Pipeline.arrRef spec1 w ≠ b := by decide) : W6 m ρ c (Proc.devRef .tc b) = W5 m ρ c (Proc.devRef .tc b) :=
  W6_of_ne m ρ c b hb

theorem W7_s2 (c : Dev nD) : W7 m ρ c (Proc.devRef .tc main_v68) = asRow (bnScale (row8_0 (sumImgs (W6 m ρ c (Proc.devRef .tc main_v50_1)))) (row8_1 (sumImgs (W6 m ρ c (Proc.devRef .tc main_v50_1)))) (W6 m ρ c (Proc.devRef .tc main_arg6))) := host2_s2 (W6 m ρ c)
theorem W7_b2 (c : Dev nD) : W7 m ρ c (Proc.devRef .tc main_v71) = asRow (bnBias (row8_0 (sumImgs (W6 m ρ c (Proc.devRef .tc main_v50_1)))) (row8_1 (sumImgs (W6 m ρ c (Proc.devRef .tc main_v50_1)))) (W6 m ρ c (Proc.devRef .tc main_arg6)) (W6 m ρ c (Proc.devRef .tc main_arg7))) := host2_b2 (W6 m ρ c)
theorem W7_keep (c : Dev nD) (b : Ref sig .tc) (h : b ∉ hostOps2_W := by decide) : W7 m ρ c (Proc.devRef .tc b) = W6 m ρ c (Proc.devRef .tc b) :=
  StableHlo.after_of_writes_sub hostOps2 _ hostOps2_writes h

/-! ## After the third pass, and the final reshape -/
theorem W8_out (c : Dev nD) : W8 m ρ c (Proc.devRef .tc main_v72) = G2_7 (V7 m ρ) c := (W8_arr m ρ c 7).trans (final2_7 (V7 m ρ) c)

end Cert.KernelIdeal.Run

end
-- ==== Proof.KIArgs.lean ====
import proofs.«120137_g2000002162550304_pallasbulk_397_2_alg».proof.Proof.KIRun

set_option maxRecDepth 16384

noncomputable section

/-! # The parameters as the hosts between the passes read them: as launched -/

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

theorem W4_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_writes_sub hostOps0_2 _ hostOps0_2_writes (by decide)
    _ = W1 m ρ c (Proc.devRef .tc main_arg4) := StableHlo.after_of_writes_sub hostOps0_1 _ hostOps0_1_writes (by decide)
    _ = W0 m ρ c (Proc.devRef .tc main_arg4) := StableHlo.after_of_writes_sub hostOps0 _ hostOps0_writes (by decide)
    _ = m ((c : Thread nD τ).loc main_arg4) := rfl
theorem W6_arg4 (c : Dev nD) : W6 m ρ c (Proc.devRef .tc main_arg4) = m ((c : Thread nD τ).loc main_arg4) :=
  calc W6 m ρ c (Proc.devRef .tc main_arg4)
    _ = W5 m ρ c (Proc.devRef .tc main_arg4) := W6_of_ne m ρ c main_arg4 (by decide)
    _ = W4 m ρ c (Proc.devRef .tc main_arg4) := StableHlo.after_of_writes_sub hostOps1 _ hostOps1_writes (by decide)
    _ = m ((c : Thread nD τ).loc main_arg4) := W4_arg4 m ρ c

theorem W4_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := StableHlo.after_of_writes_sub hostOps0_2 _ hostOps0_2_writes (by decide)
    _ = W1 m ρ c (Proc.devRef .tc main_arg5) := StableHlo.after_of_writes_sub hostOps0_1 _ hostOps0_1_writes (by decide)
    _ = W0 m ρ c (Proc.devRef .tc main_arg5) := StableHlo.after_of_writes_sub hostOps0 _ hostOps0_writes (by decide)
    _ = m ((c : Thread nD τ).loc main_arg5) := rfl
theorem W6_arg5 (c : Dev nD) : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := StableHlo.after_of_writes_sub hostOps1 _ hostOps1_writes (by decide)
    _ = m ((c : Thread nD τ).loc main_arg5) := W4_arg5 m ρ c

theorem W4_arg6 (c : Dev nD) : W4 m ρ c (Proc.devRef .tc main_arg6) = m ((c : Thread nD τ).loc main_arg6) :=
  calc W4 m ρ c (Proc.devRef .tc main_arg6)
    _ = W3 m ρ c (Proc.devRef .tc main_arg6) := W4_of_ne m ρ c main_arg6 (by decide)
    _ = W2 m ρ c (Proc.devRef .tc main_arg6) := StableHlo.after_of_writes_sub hostOps0_2 _ hostOps0_2_writes (by decide)
    _ = W1 m ρ c (Proc.devRef .tc main_arg6) := StableHlo.after_of_writes_sub hostOps0_1 _ hostOps0_1_writes (by decide)
    _ = W0 m ρ c (Proc.devRef .tc main_arg6) := StableHlo.after_of_writes_sub hostOps0 _ hostOps0_writes (by decide)
    _ = m ((c : Thread nD τ).loc main_arg6) := rfl
theorem W6_arg6 (c : Dev nD) : W6 m ρ c (Proc.devRef .tc main_arg6) = m ((c : Thread nD τ).loc main_arg6) :=
  calc W6 m ρ c (Proc.devRef .tc main_arg6)
    _ = W5 m ρ c (Proc.devRef .tc main_arg6) := W6_of_ne m ρ c main_arg6 (by decide)
    _ = W4 m ρ c (Proc.devRef .tc main_arg6) := StableHlo.after_of_writes_sub hostOps1 _ hostOps1_writes (by decide)
    _ = m ((c : Thread nD τ).loc main_arg6) := W4_arg6 m ρ c

theorem W4_arg7 (c : Dev nD) : W4 m ρ c (Proc.devRef .tc main_arg7) = m ((c : Thread nD τ).loc main_arg7) :=
  calc W4 m ρ c (Proc.devRef .tc main_arg7)
    _ = W3 m ρ c (Proc.devRef .tc main_arg7) := W4_of_ne m ρ c main_arg7 (by decide)
    _ = W2 m ρ c (Proc.devRef .tc main_arg7) := StableHlo.after_of_writes_sub hostOps0_2 _ hostOps0_2_writes (by decide)
    _ = W1 m ρ c (Proc.devRef .tc main_arg7) := StableHlo.after_of_writes_sub hostOps0_1 _ hostOps0_1_writes (by decide)
    _ = W0 m ρ c (Proc.devRef .tc main_arg7) := StableHlo.after_of_writes_sub hostOps0 _ hostOps0_writes (by decide)
    _ = m ((c : Thread nD τ).loc main_arg7) := rfl
theorem W6_arg7 (c : Dev nD) : W6 m ρ c (Proc.devRef .tc main_arg7) = m ((c : Thread nD τ).loc main_arg7) :=
  calc W6 m ρ c (Proc.devRef .tc main_arg7)
    _ = W5 m ρ c (Proc.devRef .tc main_arg7) := W6_of_ne m ρ c main_arg7 (by decide)
    _ = W4 m ρ c (Proc.devRef .tc main_arg7) := StableHlo.after_of_writes_sub hostOps1 _ hostOps1_writes (by decide)
    _ = m ((c : Thread nD τ).loc main_arg7) := W4_arg7 m ρ c

theorem W4_arg8 (c : Dev nD) : W4 m ρ c (Proc.devRef .tc main_arg8) = m ((c : Thread nD τ).loc main_arg8) :=
  calc W4 m ρ c (Proc.devRef .tc main_arg8)
    _ = W3 m ρ c (Proc.devRef .tc main_arg8) := W4_of_ne m ρ c main_arg8 (by decide)
    _ = W2 m ρ c (Proc.devRef .tc main_arg8) := StableHlo.after_of_writes_sub hostOps0_2 _ hostOps0_2_writes (by decide)
    _ = W1 m ρ c (Proc.devRef .tc main_arg8) := StableHlo.after_of_writes_sub hostOps0_1 _ hostOps0_1_writes (by decide)
    _ = W0 m ρ c (Proc.devRef .tc main_arg8) := StableHlo.after_of_writes_sub hostOps0 _ hostOps0_writes (by decide)
    _ = m ((c : Thread nD τ).loc main_arg8) := rfl
theorem W6_arg8 (c : Dev nD) : W6 m ρ c (Proc.devRef .tc main_arg8) = m ((c : Thread nD τ).loc main_arg8) :=
  calc W6 m ρ c (Proc.devRef .tc main_arg8)
    _ = W5 m ρ c (Proc.devRef .tc main_arg8) := W6_of_ne m ρ c main_arg8 (by decide)
    _ = W4 m ρ c (Proc.devRef .tc main_arg8) := StableHlo.after_of_writes_sub hostOps1 _ hostOps1_writes (by decide)
    _ = m ((c : Thread nD τ).loc main_arg8) := W4_arg8 m ρ c

theorem W4_arg9 (c : Dev nD) : W4 m ρ c (Proc.devRef .tc main_arg9) = m ((c : Thread nD τ).loc main_arg9) :=
  calc W4 m ρ c (Proc.devRef .tc main_arg9)
    _ = W3 m ρ c (Proc.devRef .tc main_arg9) := W4_of_ne m ρ c main_arg9 (by decide)
    _ = W2 m ρ c (Proc.devRef .tc main_arg9) := StableHlo.after_of_writes_sub hostOps0_2 _ hostOps0_2_writes (by decide)
    _ = W1 m ρ c (Proc.devRef .tc main_arg9) := StableHlo.after_of_writes_sub hostOps0_1 _ hostOps0_1_writes (by decide)
    _ = W0 m ρ c (Proc.devRef .tc main_arg9) := StableHlo.after_of_writes_sub hostOps0 _ hostOps0_writes (by decide)
    _ = m ((c : Thread nD τ).loc main_arg9) := rfl
theorem W6_arg9 (c : Dev nD) : W6 m ρ c (Proc.devRef .tc main_arg9) = m ((c : Thread nD τ).loc main_arg9) :=
  calc W6 m ρ c (Proc.devRef .tc main_arg9)
    _ = W5 m ρ c (Proc.devRef .tc main_arg9) := W6_of_ne m ρ c main_arg9 (by decide)
    _ = W4 m ρ c (Proc.devRef .tc main_arg9) := StableHlo.after_of_writes_sub hostOps1 _ hostOps1_writes (by decide)
    _ = m ((c : Thread nD τ).loc main_arg9) := W4_arg9 m ρ c

end Cert.KernelIdeal.Run

end
-- ==== Proof.RIArrays.lean ====
import proofs.«120137_g2000002162550304_pallasbulk_397_2_alg».proof.Proof.RIPass1Data
import proofs.«120137_g2000002162550304_pallasbulk_397_2_alg».proof.Proof.RIPass2Data
import proofs.«120137_g2000002162550304_pallasbulk_397_2_alg».proof.Proof.RIPass3Data
import Idealize.ShloMosaic.Lib.Pipeline.Value
import Idealize.ShloMosaic.Lib.ValueIdx

set_option maxRecDepth 16384
set_option maxHeartbeats 2000000

noncomputable section

/-! # The reference's passes' output arrays, whole

The image outputs of every pass move one block per image: point `n` writes back block `n`, which is the whole extent of
the other axes. So after a pass each such array holds, at an index `(n, …)`, what the body left in the window's buffer at
point `n`, read at `(0, …)`. The two moments outputs are one block over the whole grid, written back once, after the last
point: the array holds what the last point's body left, the accumulation over all the images. -/

namespace Cert.ReferenceIdeal.Run

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The grid point of image `n`, in each pass, -/
def pt0 (n : Fin 32) : Fin cfg0.N := ⟨n.val, by rw [show cfg0.N = 32 from N_0]; exact n.isLt⟩
def pt1 (n : Fin 32) : Fin cfg1.N := ⟨n.val, by rw [show cfg1.N = 32 from N_1]; exact n.isLt⟩
def pt2 (n : Fin 32) : Fin cfg2.N := ⟨n.val, by rw [show cfg2.N = 32 from N_2]; exact n.isLt⟩
/-- and the last point of the two accumulating passes. -/
def last0 : Fin cfg0.N := ⟨31, by rw [show cfg0.N = 32 from N_0]; omega⟩
def last1 : Fin cfg1.N := ⟨31, by rw [show cfg1.N = 32 from N_1]; omega⟩

/-! ## the first convolution's output (pass 1, window 3) -/

/-- Point `t` moves block `(t, 0, …)`. -/
theorem idx0_3 : ∀ t : Fin cfg0.N, win0_3.index t (0 : Fin 4) = t.val ∧ win0_3.index t (1 : Fin 4) = 0 ∧ win0_3.index t (2 : Fin 4) = 0 ∧ win0_3.index t (3 : Fin 4) = 0 :=
  (by decide +kernel : ∀ t : Fin grid0.N, _)

/-- The array after the pass: at `(n, …)` what point `n`'s body left at `(0, …)`. -/
def G0_3 (c : Dev nD) : S32x56x56x128.Idx → Elt F (cfg0.win 3).elt := fun i =>
  (dat0 V c).after 3 (pt0 (i 0)) (ix4 (n0 := 1) 0 (i 1) (i 2) (i 3))

theorem flushed0_3_eq (c : Dev nD) (t : Fin cfg0.N) :
    (dat0 V c).flushed 3 t = ((cfg0.win 3).blk t).view.read (Elt F) (G0_3 V c) := by
  funext j
  show (dat0 V c).after 3 t j = G0_3 V c (((cfg0.win 3).blk t).view.emb j)
  obtain ⟨e0, e1, e2, e3⟩ := idx0_3 t
  have hj0 : (j 0).val < 1 := (j 0).isLt
  have ht : pt0 ((((cfg0.win 3).blk t).view.emb j) 0) = t := Fin.ext (by
    show win0_3.index t (0 : Fin 4) * 1 + 1 * (j 0).val = t.val; omega)
  have hj : ix4 (n0 := 1) 0 ((((cfg0.win 3).blk t).view.emb j) 1) ((((cfg0.win 3).blk t).view.emb j) 2) ((((cfg0.win 3).blk t).view.emb j) 3) = j := funext fun a => Fin.ext (match a with
    | ⟨0, _⟩ => by show (0 : ℕ) = (j 0).val; omega
    | ⟨1, _⟩ => by show win0_3.index t (1 : Fin 4) * 56 + 1 * (j 1).val = (j 1).val; omega
    | ⟨2, _⟩ => by show win0_3.index t (2 : Fin 4) * 56 + 1 * (j 2).val = (j 2).val; omega
    | ⟨3, _⟩ => by show win0_3.index t (3 : Fin 4) * 128 + 1 * (j 3).val = (j 3).val; omega)
  unfold G0_3
  rw [ht]
  exact (congrArg _ hj).symm

theorem mem_blk0_3 (t : Fin cfg0.N) (i : S32x56x56x128.Idx) :
    i ∈ ((cfg0.win 3).blk t).view.set ↔ ∀ a : Fin 4, win0_3.index t a * S1x56x56x128.size a ≤ (i a).val ∧ (i a).val < win0_3.index t a * S1x56x56x128.size a + S1x56x56x128.size a := by
  show i ∈ ((View.whole main_v17_0).slice (win0_3.rect t)).set ↔ _
  rw [View.set_slice_whole, Rect.mem_set_unit]
  exact Iff.rfl

/-- The array after the pass. -/
theorem final0_3 (c : Dev nD) : (dat0 V c).arrAt 3 cfg0.N = G0_3 V c :=
  (dat0 V c).arrAt_eq_of_cover 3 (G0_3 V c) (fun t _ => flushed0_3_eq V c t) (fun i => by
    refine ⟨pt0 (i 0), flush0_3 _, ?_⟩
    rw [mem_blk0_3]
    obtain ⟨e0, e1, e2, e3⟩ := idx0_3 (pt0 (i 0))
    intro a
    match a with
    | ⟨0, _⟩ => exact ⟨by show win0_3.index (pt0 (i 0)) (0 : Fin 4) * 1 ≤ (i 0).val; rw [e0]; show (i 0).val * 1 ≤ (i 0).val; omega,
        by show (i 0).val < win0_3.index (pt0 (i 0)) (0 : Fin 4) * 1 + 1; rw [e0]; show (i 0).val < (i 0).val * 1 + 1; omega⟩
    | ⟨1, _⟩ => exact ⟨by show win0_3.index (pt0 (i 0)) (1 : Fin 4) * 56 ≤ (i 1).val; rw [e1]; omega,
        by show (i 1).val < win0_3.index (pt0 (i 0)) (1 : Fin 4) * 56 + 56; rw [e1]; have hia : (i 1).val < 56 := (i 1).isLt; show (i 1).val < 0 * 56 + 56; omega⟩
    | ⟨2, _⟩ => exact ⟨by show win0_3.index (pt0 (i 0)) (2 : Fin 4) * 56 ≤ (i 2).val; rw [e2]; omega,
        by show (i 2).val < win0_3.index (pt0 (i 0)) (2 : Fin 4) * 56 + 56; rw [e2]; have hia : (i 2).val < 56 := (i 2).isLt; show (i 2).val < 0 * 56 + 56; omega⟩
    | ⟨3, _⟩ => exact ⟨by show win0_3.index (pt0 (i 0)) (3 : Fin 4) * 128 ≤ (i 3).val; rw [e3]; omega,
        by show (i 3).val < win0_3.index (pt0 (i 0)) (3 : Fin 4) * 128 + 128; rw [e3]; have hia : (i 3).val < 128 := (i 3).isLt; show (i 3).val < 0 * 128 + 128; omega⟩)

/-! ## the shortcut's output (pass 1, window 4) -/

/-- Point `t` moves block `(t, 0, …)`. -/
theorem idx0_4 : ∀ t : Fin cfg0.N, win0_4.index t (0 : Fin 4) = t.val ∧ win0_4.index t (1 : Fin 4) = 0 ∧ win0_4.index t (2 : Fin 4) = 0 ∧ win0_4.index t (3 : Fin 4) = 0 :=
  (by decide +kernel : ∀ t : Fin grid0.N, _)

/-- The array after the pass: at `(n, …)` what point `n`'s body left at `(0, …)`. -/
def G0_4 (c : Dev nD) : S32x56x56x128.Idx → Elt F (cfg0.win 4).elt := fun i =>
  (dat0 V c).after 4 (pt0 (i 0)) (ix4 (n0 := 1) 0 (i 1) (i 2) (i 3))

theorem flushed0_4_eq (c : Dev nD) (t : Fin cfg0.N) :
    (dat0 V c).flushed 4 t = ((cfg0.win 4).blk t).view.read (Elt F) (G0_4 V c) := by
  funext j
  show (dat0 V c).after 4 t j = G0_4 V c (((cfg0.win 4).blk t).view.emb j)
  obtain ⟨e0, e1, e2, e3⟩ := idx0_4 t
  have hj0 : (j 0).val < 1 := (j 0).isLt
  have ht : pt0 ((((cfg0.win 4).blk t).view.emb j) 0) = t := Fin.ext (by
    show win0_4.index t (0 : Fin 4) * 1 + 1 * (j 0).val = t.val; omega)
  have hj : ix4 (n0 := 1) 0 ((((cfg0.win 4).blk t).view.emb j) 1) ((((cfg0.win 4).blk t).view.emb j) 2) ((((cfg0.win 4).blk t).view.emb j) 3) = j := funext fun a => Fin.ext (match a with
    | ⟨0, _⟩ => by show (0 : ℕ) = (j 0).val; omega
    | ⟨1, _⟩ => by show win0_4.index t (1 : Fin 4) * 56 + 1 * (j 1).val = (j 1).val; omega
    | ⟨2, _⟩ => by show win0_4.index t (2 : Fin 4) * 56 + 1 * (j 2).val = (j 2).val; omega
    | ⟨3, _⟩ => by show win0_4.index t (3 : Fin 4) * 128 + 1 * (j 3).val = (j 3).val; omega)
  unfold G0_4
  rw [ht]
  exact (congrArg _ hj).symm

theorem mem_blk0_4 (t : Fin cfg0.N) (i : S32x56x56x128.Idx) :
    i ∈ ((cfg0.win 4).blk t).view.set ↔ ∀ a : Fin 4, win0_4.index t a * S1x56x56x128.size a ≤ (i a).val ∧ (i a).val < win0_4.index t a * S1x56x56x128.size a + S1x56x56x128.size a := by
  show i ∈ ((View.whole main_v17_1).slice (win0_4.rect t)).set ↔ _
  rw [View.set_slice_whole, Rect.mem_set_unit]
  exact Iff.rfl

/-- The array after the pass. -/
theorem final0_4 (c : Dev nD) : (dat0 V c).arrAt 4 cfg0.N = G0_4 V c :=
  (dat0 V c).arrAt_eq_of_cover 4 (G0_4 V c) (fun t _ => flushed0_4_eq V c t) (fun i => by
    refine ⟨pt0 (i 0), flush0_4 _, ?_⟩
    rw [mem_blk0_4]
    obtain ⟨e0, e1, e2, e3⟩ := idx0_4 (pt0 (i 0))
    intro a
    match a with
    | ⟨0, _⟩ => exact ⟨by show win0_4.index (pt0 (i 0)) (0 : Fin 4) * 1 ≤ (i 0).val; rw [e0]; show (i 0).val * 1 ≤ (i 0).val; omega,
        by show (i 0).val < win0_4.index (pt0 (i 0)) (0 : Fin 4) * 1 + 1; rw [e0]; show (i 0).val < (i 0).val * 1 + 1; omega⟩
    | ⟨1, _⟩ => exact ⟨by show win0_4.index (pt0 (i 0)) (1 : Fin 4) * 56 ≤ (i 1).val; rw [e1]; omega,
        by show (i 1).val < win0_4.index (pt0 (i 0)) (1 : Fin 4) * 56 + 56; rw [e1]; have hia : (i 1).val < 56 := (i 1).isLt; show (i 1).val < 0 * 56 + 56; omega⟩
    | ⟨2, _⟩ => exact ⟨by show win0_4.index (pt0 (i 0)) (2 : Fin 4) * 56 ≤ (i 2).val; rw [e2]; omega,
        by show (i 2).val < win0_4.index (pt0 (i 0)) (2 : Fin 4) * 56 + 56; rw [e2]; have hia : (i 2).val < 56 := (i 2).isLt; show (i 2).val < 0 * 56 + 56; omega⟩
    | ⟨3, _⟩ => exact ⟨by show win0_4.index (pt0 (i 0)) (3 : Fin 4) * 128 ≤ (i 3).val; rw [e3]; omega,
        by show (i 3).val < win0_4.index (pt0 (i 0)) (3 : Fin 4) * 128 + 128; rw [e3]; have hia : (i 3).val < 128 := (i 3).isLt; show (i 3).val < 0 * 128 + 128; omega⟩)

/-! ## the first pass's moments (pass 1, window 5): one block over the whole grid, written back after the last point -/

/-- Every point's block is the whole array. -/
theorem idx0_5 : ∀ t : Fin cfg0.N, win0_5.index t (0 : Fin 2) = 0 ∧ win0_5.index t (1 : Fin 2) = 0 :=
  (by decide +kernel : ∀ t : Fin grid0.N, _)

/-- The array after the pass: what the last point's body left in the block. -/
def G0_5 (c : Dev nD) : S4x128.Idx → Elt F (cfg0.win 5).elt := fun i =>
  (dat0 V c).after 5 last0 (ix2 (n0 := 4) (n1 := 128) (i 0) (i 1))

theorem flushed0_5_eq (c : Dev nD) (t : Fin cfg0.N) (hf : (cfg0.win 5).flush t = true) :
    (dat0 V c).flushed 5 t = ((cfg0.win 5).blk t).view.read (Elt F) (G0_5 V c) := by
  funext j
  show (dat0 V c).after 5 t j = G0_5 V c (((cfg0.win 5).blk t).view.emb j)
  obtain ⟨e0, e1⟩ := idx0_5 t
  have hN : t.val < 32 := lt_of_lt_of_eq t.isLt (show cfg0.N = 32 from N_0)
  have ht : last0 = t := Fin.ext (by have := (flush0_5 t).mp hf; show 31 = t.val; omega)
  have hj : ix2 (n0 := 4) (n1 := 128) ((((cfg0.win 5).blk t).view.emb j) 0) ((((cfg0.win 5).blk t).view.emb j) 1) = j := funext fun a => Fin.ext (match a with
    | ⟨0, _⟩ => by show win0_5.index t (0 : Fin 2) * 4 + 1 * (j 0).val = (j 0).val; omega
    | ⟨1, _⟩ => by show win0_5.index t (1 : Fin 2) * 128 + 1 * (j 1).val = (j 1).val; omega)
  unfold G0_5
  rw [ht]
  exact (congrArg _ hj).symm

theorem mem_blk0_5 (t : Fin cfg0.N) (i : S4x128.Idx) :
    i ∈ ((cfg0.win 5).blk t).view.set ↔ ∀ a : Fin 2, win0_5.index t a * S4x128.size a ≤ (i a).val ∧ (i a).val < win0_5.index t a * S4x128.size a + S4x128.size a := by
  show i ∈ ((View.whole main_v17_2).slice (win0_5.rect t)).set ↔ _
  rw [View.set_slice_whole, Rect.mem_set_unit]
  exact Iff.rfl

/-- The array after the pass. -/
theorem final0_5 (c : Dev nD) : (dat0 V c).arrAt 5 cfg0.N = G0_5 V c :=
  (dat0 V c).arrAt_eq_of_cover 5 (G0_5 V c) (fun t hf => flushed0_5_eq V c t hf) (fun i => by
    refine ⟨last0, (flush0_5 _).mpr (by show 31 % 32 = 31; rfl), ?_⟩
    rw [mem_blk0_5]
    obtain ⟨e0, e1⟩ := idx0_5 last0
    intro a
    match a with
    | ⟨0, _⟩ => exact ⟨by show win0_5.index last0 (0 : Fin 2) * 4 ≤ (i 0).val; rw [e0]; omega,
        by show (i 0).val < win0_5.index last0 (0 : Fin 2) * 4 + 4; rw [e0]; have hia : (i 0).val < 4 := (i 0).isLt; show (i 0).val < 0 * 4 + 4; omega⟩
    | ⟨1, _⟩ => exact ⟨by show win0_5.index last0 (1 : Fin 2) * 128 ≤ (i 1).val; rw [e1]; omega,
        by show (i 1).val < win0_5.index last0 (1 : Fin 2) * 128 + 128; rw [e1]; have hia : (i 1).val < 128 := (i 1).isLt; show (i 1).val < 0 * 128 + 128; omega⟩)

/-- It is the accumulation after the last point. -/
theorem G0_5_eq (c : Dev nD) : G0_5 V c = stats0 V c last0.val last0.isLt := by
  funext i
  unfold G0_5
  rw [after0_5]
  exact congrArg _ (eq_ix2 i).symm

/-! ## the second convolution's output (pass 2, window 4) -/

/-- Point `t` moves block `(t, 0, …)`. -/
theorem idx1_4 : ∀ t : Fin cfg1.N, win1_4.index t (0 : Fin 4) = t.val ∧ win1_4.index t (1 : Fin 4) = 0 ∧ win1_4.index t (2 : Fin 4) = 0 ∧ win1_4.index t (3 : Fin 4) = 0 :=
  (by decide +kernel : ∀ t : Fin grid1.N, _)

/-- The array after the pass: at `(n, …)` what point `n`'s body left at `(0, …)`. -/
def G1_4 (c : Dev nD) : S32x56x56x128.Idx → Elt F (cfg1.win 4).elt := fun i =>
  (dat1 V c).after 4 (pt1 (i 0)) (ix4 (n0 := 1) 0 (i 1) (i 2) (i 3))

theorem flushed1_4_eq (c : Dev nD) (t : Fin cfg1.N) :
    (dat1 V c).flushed 4 t = ((cfg1.win 4).blk t).view.read (Elt F) (G1_4 V c) := by
  funext j
  show (dat1 V c).after 4 t j = G1_4 V c (((cfg1.win 4).blk t).view.emb j)
  obtain ⟨e0, e1, e2, e3⟩ := idx1_4 t
  have hj0 : (j 0).val < 1 := (j 0).isLt
  have ht : pt1 ((((cfg1.win 4).blk t).view.emb j) 0) = t := Fin.ext (by
    show win1_4.index t (0 : Fin 4) * 1 + 1 * (j 0).val = t.val; omega)
  have hj : ix4 (n0 := 1) 0 ((((cfg1.win 4).blk t).view.emb j) 1) ((((cfg1.win 4).blk t).view.emb j) 2) ((((cfg1.win 4).blk t).view.emb j) 3) = j := funext fun a => Fin.ext (match a with
    | ⟨0, _⟩ => by show (0 : ℕ) = (j 0).val; omega
    | ⟨1, _⟩ => by show win1_4.index t (1 : Fin 4) * 56 + 1 * (j 1).val = (j 1).val; omega
    | ⟨2, _⟩ => by show win1_4.index t (2 : Fin 4) * 56 + 1 * (j 2).val = (j 2).val; omega
    | ⟨3, _⟩ => by show win1_4.index t (3 : Fin 4) * 128 + 1 * (j 3).val = (j 3).val; omega)
  unfold G1_4
  rw [ht]
  exact (congrArg _ hj).symm

theorem mem_blk1_4 (t : Fin cfg1.N) (i : S32x56x56x128.Idx) :
    i ∈ ((cfg1.win 4).blk t).view.set ↔ ∀ a : Fin 4, win1_4.index t a * S1x56x56x128.size a ≤ (i a).val ∧ (i a).val < win1_4.index t a * S1x56x56x128.size a + S1x56x56x128.size a := by
  show i ∈ ((View.whole main_v58_0).slice (win1_4.rect t)).set ↔ _
  rw [View.set_slice_whole, Rect.mem_set_unit]
  exact Iff.rfl

/-- The array after the pass. -/
theorem final1_4 (c : Dev nD) : (dat1 V c).arrAt 4 cfg1.N = G1_4 V c :=
  (dat1 V c).arrAt_eq_of_cover 4 (G1_4 V c) (fun t _ => flushed1_4_eq V c t) (fun i => by
    refine ⟨pt1 (i 0), flush1_4 _, ?_⟩
    rw [mem_blk1_4]
    obtain ⟨e0, e1, e2, e3⟩ := idx1_4 (pt1 (i 0))
    intro a
    match a with
    | ⟨0, _⟩ => exact ⟨by show win1_4.index (pt1 (i 0)) (0 : Fin 4) * 1 ≤ (i 0).val; rw [e0]; show (i 0).val * 1 ≤ (i 0).val; omega,
        by show (i 0).val < win1_4.index (pt1 (i 0)) (0 : Fin 4) * 1 + 1; rw [e0]; show (i 0).val < (i 0).val * 1 + 1; omega⟩
    | ⟨1, _⟩ => exact ⟨by show win1_4.index (pt1 (i 0)) (1 : Fin 4) * 56 ≤ (i 1).val; rw [e1]; omega,
        by show (i 1).val < win1_4.index (pt1 (i 0)) (1 : Fin 4) * 56 + 56; rw [e1]; have hia : (i 1).val < 56 := (i 1).isLt; show (i 1).val < 0 * 56 + 56; omega⟩
    | ⟨2, _⟩ => exact ⟨by show win1_4.index (pt1 (i 0)) (2 : Fin 4) * 56 ≤ (i 2).val; rw [e2]; omega,
        by show (i 2).val < win1_4.index (pt1 (i 0)) (2 : Fin 4) * 56 + 56; rw [e2]; have hia : (i 2).val < 56 := (i 2).isLt; show (i 2).val < 0 * 56 + 56; omega⟩
    | ⟨3, _⟩ => exact ⟨by show win1_4.index (pt1 (i 0)) (3 : Fin 4) * 128 ≤ (i 3).val; rw [e3]; omega,
        by show (i 3).val < win1_4.index (pt1 (i 0)) (3 : Fin 4) * 128 + 128; rw [e3]; have hia : (i 3).val < 128 := (i 3).isLt; show (i 3).val < 0 * 128 + 128; omega⟩)

/-! ## the second pass's moments (pass 2, window 5): one block over the whole grid, written back after the last point -/

/-- Every point's block is the whole array. -/
theorem idx1_5 : ∀ t : Fin cfg1.N, win1_5.index t (0 : Fin 2) = 0 ∧ win1_5.index t (1 : Fin 2) = 0 :=
  (by decide +kernel : ∀ t : Fin grid1.N, _)

/-- The array after the pass: what the last point's body left in the block. -/
def G1_5 (c : Dev nD) : S2x128.Idx → Elt F (cfg1.win 5).elt := fun i =>
  (dat1 V c).after 5 last1 (ix2 (n0 := 2) (n1 := 128) (i 0) (i 1))

theorem flushed1_5_eq (c : Dev nD) (t : Fin cfg1.N) (hf : (cfg1.win 5).flush t = true) :
    (dat1 V c).flushed 5 t = ((cfg1.win 5).blk t).view.read (Elt F) (G1_5 V c) := by
  funext j
  show (dat1 V c).after 5 t j = G1_5 V c (((cfg1.win 5).blk t).view.emb j)
  obtain ⟨e0, e1⟩ := idx1_5 t
  have hN : t.val < 32 := lt_of_lt_of_eq t.isLt (show cfg1.N = 32 from N_1)
  have ht : last1 = t := Fin.ext (by have := (flush1_5 t).mp hf; show 31 = t.val; omega)
  have hj : ix2 (n0 := 2) (n1 := 128) ((((cfg1.win 5).blk t).view.emb j) 0) ((((cfg1.win 5).blk t).view.emb j) 1) = j := funext fun a => Fin.ext (match a with
    | ⟨0, _⟩ => by show win1_5.index t (0 : Fin 2) * 2 + 1 * (j 0).val = (j 0).val; omega
    | ⟨1, _⟩ => by show win1_5.index t (1 : Fin 2) * 128 + 1 * (j 1).val = (j 1).val; omega)
  unfold G1_5
  rw [ht]
  exact (congrArg _ hj).symm

theorem mem_blk1_5 (t : Fin cfg1.N) (i : S2x128.Idx) :
    i ∈ ((cfg1.win 5).blk t).view.set ↔ ∀ a : Fin 2, win1_5.index t a * S2x128.size a ≤ (i a).val ∧ (i a).val < win1_5.index t a * S2x128.size a + S2x128.size a := by
  show i ∈ ((View.whole main_v58_1).slice (win1_5.rect t)).set ↔ _
  rw [View.set_slice_whole, Rect.mem_set_unit]
  exact Iff.rfl

/-- The array after the pass. -/
theorem final1_5 (c : Dev nD) : (dat1 V c).arrAt 5 cfg1.N = G1_5 V c :=
  (dat1 V c).arrAt_eq_of_cover 5 (G1_5 V c) (fun t hf => flushed1_5_eq V c t hf) (fun i => by
    refine ⟨last1, (flush1_5 _).mpr (by show 31 % 32 = 31; rfl), ?_⟩
    rw [mem_blk1_5]
    obtain ⟨e0, e1⟩ := idx1_5 last1
    intro a
    match a with
    | ⟨0, _⟩ => exact ⟨by show win1_5.index last1 (0 : Fin 2) * 2 ≤ (i 0).val; rw [e0]; omega,
        by show (i 0).val < win1_5.index last1 (0 : Fin 2) * 2 + 2; rw [e0]; have hia : (i 0).val < 2 := (i 0).isLt; show (i 0).val < 0 * 2 + 2; omega⟩
    | ⟨1, _⟩ => exact ⟨by show win1_5.index last1 (1 : Fin 2) * 128 ≤ (i 1).val; rw [e1]; omega,
        by show (i 1).val < win1_5.index last1 (1 : Fin 2) * 128 + 128; rw [e1]; have hia : (i 1).val < 128 := (i 1).isLt; show (i 1).val < 0 * 128 + 128; omega⟩)

/-- It is the accumulation after the last point. -/
theorem G1_5_eq (c : Dev nD) : G1_5 V c = stats1 V c last1.val last1.isLt := by
  funext i
  unfold G1_5
  rw [after1_5]
  exact congrArg _ (eq_ix2 i).symm

/-! ## the result (pass 3, window 6) -/

/-- Point `t` moves block `(t, 0, …)`. -/
theorem idx2_6 : ∀ t : Fin cfg2.N, win2_6.index t (0 : Fin 4) = t.val ∧ win2_6.index t (1 : Fin 4) = 0 ∧ win2_6.index t (2 : Fin 4) = 0 ∧ win2_6.index t (3 : Fin 4) = 0 :=
  (by decide +kernel : ∀ t : Fin grid2.N, _)

/-- The array after the pass: at `(n, …)` what point `n`'s body left at `(0, …)`. -/
def G2_6 (c : Dev nD) : S32x56x56x128.Idx → Elt F (cfg2.win 6).elt := fun i =>
  (dat2 V c).after 6 (pt2 (i 0)) (ix4 (n0 := 1) 0 (i 1) (i 2) (i 3))

theorem flushed2_6_eq (c : Dev nD) (t : Fin cfg2.N) :
    (dat2 V c).flushed 6 t = ((cfg2.win 6).blk t).view.read (Elt F) (G2_6 V c) := by
  funext j
  show (dat2 V c).after 6 t j = G2_6 V c (((cfg2.win 6).blk t).view.emb j)
  obtain ⟨e0, e1, e2, e3⟩ := idx2_6 t
  have hj0 : (j 0).val < 1 := (j 0).isLt
  have ht : pt2 ((((cfg2.win 6).blk t).view.emb j) 0) = t := Fin.ext (by
    show win2_6.index t (0 : Fin 4) * 1 + 1 * (j 0).val = t.val; omega)
  have hj : ix4 (n0 := 1) 0 ((((cfg2.win 6).blk t).view.emb j) 1) ((((cfg2.win 6).blk t).view.emb j) 2) ((((cfg2.win 6).blk t).view.emb j) 3) = j := funext fun a => Fin.ext (match a with
    | ⟨0, _⟩ => by show (0 : ℕ) = (j 0).val; omega
    | ⟨1, _⟩ => by show win2_6.index t (1 : Fin 4) * 56 + 1 * (j 1).val = (j 1).val; omega
    | ⟨2, _⟩ => by show win2_6.index t (2 : Fin 4) * 56 + 1 * (j 2).val = (j 2).val; omega
    | ⟨3, _⟩ => by show win2_6.index t (3 : Fin 4) * 128 + 1 * (j 3).val = (j 3).val; omega)
  unfold G2_6
  rw [ht]
  exact (congrArg _ hj).symm

theorem mem_blk2_6 (t : Fin cfg2.N) (i : S32x56x56x128.Idx) :
    i ∈ ((cfg2.win 6).blk t).view.set ↔ ∀ a : Fin 4, win2_6.index t a * S1x56x56x128.size a ≤ (i a).val ∧ (i a).val < win2_6.index t a * S1x56x56x128.size a + S1x56x56x128.size a := by
  show i ∈ ((View.whole main_v79).slice (win2_6.rect t)).set ↔ _
  rw [View.set_slice_whole, Rect.mem_set_unit]
  exact Iff.rfl

/-- The array after the pass. -/
theorem final2_6 (c : Dev nD) : (dat2 V c).arrAt 6 cfg2.N = G2_6 V c :=
  (dat2 V c).arrAt_eq_of_cover 6 (G2_6 V c) (fun t _ => flushed2_6_eq V c t) (fun i => by
    refine ⟨pt2 (i 0), flush2_6 _, ?_⟩
    rw [mem_blk2_6]
    obtain ⟨e0, e1, e2, e3⟩ := idx2_6 (pt2 (i 0))
    intro a
    match a with
    | ⟨0, _⟩ => exact ⟨by show win2_6.index (pt2 (i 0)) (0 : Fin 4) * 1 ≤ (i 0).val; rw [e0]; show (i 0).val * 1 ≤ (i 0).val; omega,
        by show (i 0).val < win2_6.index (pt2 (i 0)) (0 : Fin 4) * 1 + 1; rw [e0]; show (i 0).val < (i 0).val * 1 + 1; omega⟩
    | ⟨1, _⟩ => exact ⟨by show win2_6.index (pt2 (i 0)) (1 : Fin 4) * 56 ≤ (i 1).val; rw [e1]; omega,
        by show (i 1).val < win2_6.index (pt2 (i 0)) (1 : Fin 4) * 56 + 56; rw [e1]; have hia : (i 1).val < 56 := (i 1).isLt; show (i 1).val < 0 * 56 + 56; omega⟩
    | ⟨2, _⟩ => exact ⟨by show win2_6.index (pt2 (i 0)) (2 : Fin 4) * 56 ≤ (i 2).val; rw [e2]; omega,
        by show (i 2).val < win2_6.index (pt2 (i 0)) (2 : Fin 4) * 56 + 56; rw [e2]; have hia : (i 2).val < 56 := (i 2).isLt; show (i 2).val < 0 * 56 + 56; omega⟩
    | ⟨3, _⟩ => exact ⟨by show win2_6.index (pt2 (i 0)) (3 : Fin 4) * 128 ≤ (i 3).val; rw [e3]; omega,
        by show (i 3).val < win2_6.index (pt2 (i 0)) (3 : Fin 4) * 128 + 128; rw [e3]; have hia : (i 3).val < 128 := (i 3).isLt; show (i 3).val < 0 * 128 + 128; omega⟩)

end Cert.ReferenceIdeal.Run

end
-- ==== Proof.BridgeHostR.lean ====
import proofs.«120137_g2000002162550304_pallasbulk_397_2_alg».proof.Proof.Gen.ReferenceIdeal
import proofs.«120137_g2000002162550304_pallasbulk_397_2_alg».proof.Proof.BridgeHost

set_option maxRecDepth 16384

noncomputable section

/-! # Rows of the reference's resident moment blocks -/

namespace Cert.Bridge

open Idealize.ShloMosaic
open Cert.ReferenceIdeal Cert.ReferenceIdeal.Gen

variable {F : FTy → Type} [FloatOps F]

/-- Row `r` of the first pass's four-row block, as a 128-vector. -/
def row4_0 (x : FVec F S4x128 .f32) : FVec F S128 .f32 := shapeCast S128 (extractStridedSlice S1x128 ![0, 0] x slices_S4x128_S1x128_0_0) shapeCasts_S1x128_S128
def row4_1 (x : FVec F S4x128 .f32) : FVec F S128 .f32 := shapeCast S128 (extractStridedSlice S1x128 ![1, 0] x slices_S4x128_S1x128_1_0) shapeCasts_S1x128_S128
def row4_2 (x : FVec F S4x128 .f32) : FVec F S128 .f32 := shapeCast S128 (extractStridedSlice S1x128 ![2, 0] x slices_S4x128_S1x128_2_0) shapeCasts_S1x128_S128
def row4_3 (x : FVec F S4x128 .f32) : FVec F S128 .f32 := shapeCast S128 (extractStridedSlice S1x128 ![3, 0] x slices_S4x128_S1x128_3_0) shapeCasts_S1x128_S128
/-- Row `r` of the second pass's two-row block. -/
def row2_0 (x : FVec F S2x128 .f32) : FVec F S128 .f32 := shapeCast S128 (extractStridedSlice S1x128 ![0, 0] x slices_S2x128_S1x128_0_0) shapeCasts_S1x128_S128
def row2_1 (x : FVec F S2x128 .f32) : FVec F S128 .f32 := shapeCast S128 (extractStridedSlice S1x128 ![1, 0] x slices_S2x128_S1x128_1_0) shapeCasts_S1x128_S128

end Cert.Bridge

end
-- ==== Proof.BrHostR_host1_s1.lean ====
import proofs.«120137_g2000002162550304_pallasbulk_397_2_alg».proof.Proof.Gen.ReferenceIdeal.Launch
import proofs.«120137_g2000002162550304_pallasbulk_397_2_alg».proof.Proof.BridgeHostR
import Idealize.ShloMosaic.Lib.StableHlo.Run

set_option maxRecDepth 16384

noncomputable section

/-! # The host between the first two passes: BN1's scale row -/

namespace Cert.ReferenceIdeal.Run
open Cert.ReferenceIdeal Cert.ReferenceIdeal.Gen Cert.Bridge
open Idealize.ShloMosaic Idealize.ShloMosaic.TcCoe
variable {F : FTy → Type} [FloatOps F]

set_option maxHeartbeats 4000000 in
theorem host1_s1 (Vb : Valuation τ sig (Elt F)) :
    StableHlo.after (hostOps1 (F := F)) Vb (Proc.devRef .tc main_v34) = asRow (bnScale (row4_0 (Vb (Proc.devRef .tc main_v17_2))) (row4_1 (Vb (Proc.devRef .tc main_v17_2))) (Vb (Proc.devRef .tc main_v11))) := by
  after_results
  rfl

end Cert.ReferenceIdeal.Run

end
-- ==== Proof.BrHostR_host1_b1.lean ====
import proofs.«120137_g2000002162550304_pallasbulk_397_2_alg».proof.Proof.Gen.ReferenceIdeal.Launch
import proofs.«120137_g2000002162550304_pallasbulk_397_2_alg».proof.Proof.BridgeHostR
import Idealize.ShloMosaic.Lib.StableHlo.Run

set_option maxRecDepth 16384

noncomputable section

/-! # The host between the first two passes: BN1's bias row -/

namespace Cert.ReferenceIdeal.Run
open Cert.ReferenceIdeal Cert.ReferenceIdeal.Gen Cert.Bridge
open Idealize.ShloMosaic Idealize.ShloMosaic.TcCoe
variable {F : FTy → Type} [FloatOps F]

set_option maxHeartbeats 4000000 in
theorem host1_b1 (Vb : Valuation τ sig (Elt F)) :
    StableHlo.after (hostOps1 (F := F)) Vb (Proc.devRef .tc main_v37) = asRow (bnBias (row4_0 (Vb (Proc.devRef .tc main_v17_2))) (row4_1 (Vb (Proc.devRef .tc main_v17_2))) (Vb (Proc.devRef .tc main_v11)) (Vb (Proc.devRef .tc main_v12))) := by
  after_results
  rfl

end Cert.ReferenceIdeal.Run

end
-- ==== Proof.BrHostR_host1_ss.lean ====
import proofs.«120137_g2000002162550304_pallasbulk_397_2_alg».proof.Proof.Gen.ReferenceIdeal.Launch
import proofs.«120137_g2000002162550304_pallasbulk_397_2_alg».proof.Proof.BridgeHostR
import Idealize.ShloMosaic.Lib.StableHlo.Run

set_option maxRecDepth 16384

noncomputable section

/-! # The host between the first two passes: the shortcut BN's scale row -/

namespace Cert.ReferenceIdeal.Run
open Cert.ReferenceIdeal Cert.ReferenceIdeal.Gen Cert.Bridge
open Idealize.ShloMosaic Idealize.ShloMosaic.TcCoe
variable {F : FTy → Type} [FloatOps F]

set_option maxHeartbeats 4000000 in
theorem host1_ss (Vb : Valuation τ sig (Elt F)) :
    StableHlo.after (hostOps1 (F := F)) Vb (Proc.devRef .tc main_v54) = asRow (bnScale (row4_2 (Vb (Proc.devRef .tc main_v17_2))) (row4_3 (Vb (Proc.devRef .tc main_v17_2))) (Vb (Proc.devRef .tc main_v15))) := by
  after_results
  rfl

end Cert.ReferenceIdeal.Run

end
-- ==== Proof.BrHostR_host1_bs.lean ====
import proofs.«120137_g2000002162550304_pallasbulk_397_2_alg».proof.Proof.Gen.ReferenceIdeal.Launch
import proofs.«120137_g2000002162550304_pallasbulk_397_2_alg».proof.Proof.BridgeHostR
import Idealize.ShloMosaic.Lib.StableHlo.Run

set_option maxRecDepth 16384

noncomputable section

/-! # The host between the first two passes: the shortcut BN's bias row -/

namespace Cert.ReferenceIdeal.Run
open Cert.ReferenceIdeal Cert.ReferenceIdeal.Gen Cert.Bridge
open Idealize.ShloMosaic Idealize.ShloMosaic.TcCoe
variable {F : FTy → Type} [FloatOps F]

set_option maxHeartbeats 4000000 in
theorem host1_bs (Vb : Valuation τ sig (Elt F)) :
    StableHlo.after (hostOps1 (F := F)) Vb (Proc.devRef .tc main_v57) = asRow (bnBias (row4_2 (Vb (Proc.devRef .tc main_v17_2))) (row4_3 (Vb (Proc.devRef .tc main_v17_2))) (Vb (Proc.devRef .tc main_v15)) (Vb (Proc.devRef .tc main_v16))) := by
  after_results
  rfl

end Cert.ReferenceIdeal.Run

end
-- ==== Proof.BrHostR_host2_s2.lean ====
import proofs.«120137_g2000002162550304_pallasbulk_397_2_alg».proof.Proof.Gen.ReferenceIdeal.Launch
import proofs.«120137_g2000002162550304_pallasbulk_397_2_alg».proof.Proof.BridgeHostR
import Idealize.ShloMosaic.Lib.StableHlo.Run

set_option maxRecDepth 16384

noncomputable section

/-! # The host between the last two passes: BN2's scale row -/

namespace Cert.ReferenceIdeal.Run
open Cert.ReferenceIdeal Cert.ReferenceIdeal.Gen Cert.Bridge
open Idealize.ShloMosaic Idealize.ShloMosaic.TcCoe
variable {F : FTy → Type} [FloatOps F]

set_option maxHeartbeats 4000000 in
theorem host2_s2 (Vb : Valuation τ sig (Elt F)) :
    StableHlo.after (hostOps2 (F := F)) Vb (Proc.devRef .tc main_v75) = asRow (bnScale (row2_0 (Vb (Proc.devRef .tc main_v58_1))) (row2_1 (Vb (Proc.devRef .tc main_v58_1))) (Vb (Proc.devRef .tc main_v13))) := by
  after_results
  rfl

end Cert.ReferenceIdeal.Run

end
-- ==== Proof.BrHostR_host2_b2.lean ====
import proofs.«120137_g2000002162550304_pallasbulk_397_2_alg».proof.Proof.Gen.ReferenceIdeal.Launch
import proofs.«120137_g2000002162550304_pallasbulk_397_2_alg».proof.Proof.BridgeHostR
import Idealize.ShloMosaic.Lib.StableHlo.Run

set_option maxRecDepth 16384

noncomputable section

/-! # The host between the last two passes: BN2's bias row -/

namespace Cert.ReferenceIdeal.Run
open Cert.ReferenceIdeal Cert.ReferenceIdeal.Gen Cert.Bridge
open Idealize.ShloMosaic Idealize.ShloMosaic.TcCoe
variable {F : FTy → Type} [FloatOps F]

set_option maxHeartbeats 4000000 in
theorem host2_b2 (Vb : Valuation τ sig (Elt F)) :
    StableHlo.after (hostOps2 (F := F)) Vb (Proc.devRef .tc main_v78) = asRow (bnBias (row2_0 (Vb (Proc.devRef .tc main_v58_1))) (row2_1 (Vb (Proc.devRef .tc main_v58_1))) (Vb (Proc.devRef .tc main_v13)) (Vb (Proc.devRef .tc main_v14))) := by
  after_results
  rfl

end Cert.ReferenceIdeal.Run

end
-- ==== Proof.BrChainR.lean ====
import proofs.«120137_g2000002162550304_pallasbulk_397_2_alg».proof.Proof.RIRun
import proofs.«120137_g2000002162550304_pallasbulk_397_2_alg».proof.Proof.RIArrays
import proofs.«120137_g2000002162550304_pallasbulk_397_2_alg».proof.Proof.BrHostR_host1_s1
import proofs.«120137_g2000002162550304_pallasbulk_397_2_alg».proof.Proof.BrHostR_host1_b1
import proofs.«120137_g2000002162550304_pallasbulk_397_2_alg».proof.Proof.BrHostR_host1_ss
import proofs.«120137_g2000002162550304_pallasbulk_397_2_alg».proof.Proof.BrHostR_host1_bs
import proofs.«120137_g2000002162550304_pallasbulk_397_2_alg».proof.Proof.BrHostR_host2_s2
import proofs.«120137_g2000002162550304_pallasbulk_397_2_alg».proof.Proof.BrHostR_host2_b2
import proofs.«120137_g2000002162550304_pallasbulk_397_2_alg».proof.Proof.Gen.ReferenceIdeal.Regions
import Idealize.ShloMosaic.Lib.StableHlo.Run

set_option maxRecDepth 16384

noncomputable section

/-! # The reference's run, boundary by boundary

What each pass reads, traced back: a pass's outputs are the whole-array functions of what it found (the resident moment
blocks: the running block after the last image); the host stretches between passes write only the coefficient rows and
their scratch values. -/

namespace Cert.ReferenceIdeal.Run

open Cert.ReferenceIdeal Cert.ReferenceIdeal.Gen Cert.Bridge
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ)

theorem W21_y1 (c : Dev nD) : W21 m c (Proc.devRef .tc main_v17_0) = G0_3 (T20 m) c := (W21_arr m c 3).trans (final0_3 (T20 m) c)
theorem W21_ys (c : Dev nD) : W21 m c (Proc.devRef .tc main_v17_1) = G0_4 (T20 m) c := (W21_arr m c 4).trans (final0_4 (T20 m) c)
theorem W21_st1 (c : Dev nD) : W21 m c (Proc.devRef .tc main_v17_2) = G0_5 (T20 m) c := (W21_arr m c 5).trans (final0_5 (T20 m) c)
theorem W21_keep (c : Dev nD) (b : Ref sig .tc) (hb : ∀ w, Pipeline.arrRef spec0 w ≠ b := by decide) : W21 m c (Proc.devRef .tc b) = W20 m c (Proc.devRef .tc b) :=
  W21_of_ne m c b hb

theorem W22_s1 (c : Dev nD) : W22 m c (Proc.devRef .tc main_v34) = asRow (bnScale (row4_0 (W21 m c (Proc.devRef .tc main_v17_2))) (row4_1 (W21 m c (Proc.devRef .tc main_v17_2))) (W21 m c (Proc.devRef .tc main_v11))) := host1_s1 (W21 m c)
theorem W22_b1 (c : Dev nD) : W22 m c (Proc.devRef .tc main_v37) = asRow (bnBias (row4_0 (W21 m c (Proc.devRef .tc main_v17_2))) (row4_1 (W21 m c (Proc.devRef .tc main_v17_2))) (W21 m c (Proc.devRef .tc main_v11)) (W21 m c (Proc.devRef .tc main_v12))) := host1_b1 (W21 m c)
theorem W22_ss (c : Dev nD) : W22 m c (Proc.devRef .tc main_v54) = asRow (bnScale (row4_2 (W21 m c (Proc.devRef .tc main_v17_2))) (row4_3 (W21 m c (Proc.devRef .tc main_v17_2))) (W21 m c (Proc.devRef .tc main_v15))) := host1_ss (W21 m c)
theorem W22_bs (c : Dev nD) : W22 m c (Proc.devRef .tc main_v57) = asRow (bnBias (row4_2 (W21 m c (Proc.devRef .tc main_v17_2))) (row4_3 (W21 m c (Proc.devRef .tc main_v17_2))) (W21 m c (Proc.devRef .tc main_v15)) (W21 m c (Proc.devRef .tc main_v16))) := host1_bs (W21 m c)
theorem W22_keep (c : Dev nD) (b : Ref sig .tc) (h : b ∉ hostOps1_W := by decide) : W22 m c (Proc.devRef .tc b) = W21 m c (Proc.devRef .tc b) :=
  StableHlo.after_of_writes_sub hostOps1 _ hostOps1_writes h

theorem W23_y2 (c : Dev nD) : W23 m c (Proc.devRef .tc main_v58_0) = G1_4 (T22 m) c := (W23_arr m c 4).trans (final1_4 (T22 m) c)
theorem W23_st2 (c : Dev nD) : W23 m c (Proc.devRef .tc main_v58_1) = G1_5 (T22 m) c := (W23_arr m c 5).trans (final1_5 (T22 m) c)
theorem W23_keep (c : Dev nD) (b : Ref sig .tc) (hb : ∀ w, Pipeline.arrRef spec1 w ≠ b := by decide) : W23 m c (Proc.devRef .tc b) = W22 m c (Proc.devRef .tc b) :=
  W23_of_ne m c b hb

theorem W24_s2 (c : Dev nD) : W24 m c (Proc.devRef .tc main_v75) = asRow (bnScale (row2_0 (W23 m c (Proc.devRef .tc main_v58_1))) (row2_1 (W23 m c (Proc.devRef .tc main_v58_1))) (W23 m c (Proc.devRef .tc main_v13))) := host2_s2 (W23 m c)
theorem W24_b2 (c : Dev nD) : W24 m c (Proc.devRef .tc main_v78) = asRow (bnBias (row2_0 (W23 m c (Proc.devRef .tc main_v58_1))) (row2_1 (W23 m c (Proc.devRef .tc main_v58_1))) (W23 m c (Proc.devRef .tc main_v13)) (W23 m c (Proc.devRef .tc main_v14))) := host2_b2 (W23 m c)
theorem W24_keep (c : Dev nD) (b : Ref sig .tc) (h : b ∉ hostOps2_W := by decide) : W24 m c (Proc.devRef .tc b) = W23 m c (Proc.devRef .tc b) :=
  StableHlo.after_of_writes_sub hostOps2 _ hostOps2_writes h

theorem W25_out (c : Dev nD) : W25 m c (Proc.devRef .tc main_v79) = G2_6 (T24 m) c := (W25_arr m c 6).trans (final2_6 (T24 m) c)

end Cert.ReferenceIdeal.Run

end
-- ==== Proof.BridgeSums.lean ====
import proofs.«120137_g2000002162550304_pallasbulk_397_2_alg».proof.Proof.BridgeHostR
import Idealize.ShloMosaic.Lib.IdealHost
import Idealize.ShloMosaic.PureOps.Ideal.Laws
import Idealize.ShloMosaic.Lib.ValueIdx
import Idealize.ShloMosaic.Lib.ValueLayout

set_option maxRecDepth 16384

noncomputable section

/-! # The moment sums, read entry by entry

The kernel's host adds its 32 per-image blocks starting from zero; the reference keeps one running block that starts at
zero and has each image's sums added to it in turn. Entry by entry both are the sum over the 32 images. -/

namespace Cert.Bridge

open Idealize.ShloMosaic Idealize.ShloMosaic.ValueIdx

/-- The kernel's host sum at an entry: zero plus the 32 per-image entries. -/
theorem sumImgs_apply (st : FVec Ideal Cert.KernelIdeal.S32x8x128 .f32) (row : Fin 8) (co : Fin 128) :
    sumImgs (F := Ideal) st (ix2 row co) = 0 + ∑ n : Fin 32, st (ix3 n row co) := by
  unfold sumImgs
  rw [hostReduceAdd_apply, Ideal.hostReduceAdd_single _ (by decide : Shape.Reduces Cert.KernelIdeal.S32x8x128 [0] Cert.KernelIdeal.S8x128)]
  congr 1
  · show Ideal.ofBits .f32 0x00000000#32 = 0
    exact Ideal.ofBits_zero_f32
  · refine Finset.sum_congr rfl fun n _ => congrArg st (funext fun a => Fin.ext ?_)
    match a with
    | ⟨0, _⟩ => rfl
    | ⟨1, _⟩ => rfl
    | ⟨2, _⟩ => rfl

/-- Rows of an eight-row block as vectors. -/
theorem row8_0_apply {F : FTy → Type} [FloatOps F] (x : FVec F Cert.KernelIdeal.S8x128 .f32) (co : Fin 128) : row8_0 x (ix1 co) = x (ix2 (0 : Fin 8) co) := by
  unfold row8_0; rw [shapeCast_1a_a_apply]; exact slice2_axis0_apply 0 x _ 0 co 0 rfl
theorem row8_1_apply {F : FTy → Type} [FloatOps F] (x : FVec F Cert.KernelIdeal.S8x128 .f32) (co : Fin 128) : row8_1 x (ix1 co) = x (ix2 (1 : Fin 8) co) := by
  unfold row8_1; rw [shapeCast_1a_a_apply]; exact slice2_axis0_apply 1 x _ 0 co 1 rfl
theorem row8_2_apply {F : FTy → Type} [FloatOps F] (x : FVec F Cert.KernelIdeal.S8x128 .f32) (co : Fin 128) : row8_2 x (ix1 co) = x (ix2 (2 : Fin 8) co) := by
  unfold row8_2; rw [shapeCast_1a_a_apply]; exact slice2_axis0_apply 2 x _ 0 co 2 rfl
theorem row8_3_apply {F : FTy → Type} [FloatOps F] (x : FVec F Cert.KernelIdeal.S8x128 .f32) (co : Fin 128) : row8_3 x (ix1 co) = x (ix2 (3 : Fin 8) co) := by
  unfold row8_3; rw [shapeCast_1a_a_apply]; exact slice2_axis0_apply 3 x _ 0 co 3 rfl
/-- Rows of the reference's four-row and two-row blocks as vectors. -/
theorem row4_0_apply {F : FTy → Type} [FloatOps F] (x : FVec F Cert.ReferenceIdeal.S4x128 .f32) (co : Fin 128) : row4_0 x (ix1 co) = x (ix2 (0 : Fin 4) co) := by
  unfold row4_0; rw [shapeCast_1a_a_apply]; exact slice2_axis0_apply 0 x _ 0 co 0 rfl
theorem row4_1_apply {F : FTy → Type} [FloatOps F] (x : FVec F Cert.ReferenceIdeal.S4x128 .f32) (co : Fin 128) : row4_1 x (ix1 co) = x (ix2 (1 : Fin 4) co) := by
  unfold row4_1; rw [shapeCast_1a_a_apply]; exact slice2_axis0_apply 1 x _ 0 co 1 rfl
theorem row4_2_apply {F : FTy → Type} [FloatOps F] (x : FVec F Cert.ReferenceIdeal.S4x128 .f32) (co : Fin 128) : row4_2 x (ix1 co) = x (ix2 (2 : Fin 4) co) := by
  unfold row4_2; rw [shapeCast_1a_a_apply]; exact slice2_axis0_apply 2 x _ 0 co 2 rfl
theorem row4_3_apply {F : FTy → Type} [FloatOps F] (x : FVec F Cert.ReferenceIdeal.S4x128 .f32) (co : Fin 128) : row4_3 x (ix1 co) = x (ix2 (3 : Fin 4) co) := by
  unfold row4_3; rw [shapeCast_1a_a_apply]; exact slice2_axis0_apply 3 x _ 0 co 3 rfl
theorem row2_0_apply {F : FTy → Type} [FloatOps F] (x : FVec F Cert.ReferenceIdeal.S2x128 .f32) (co : Fin 128) : row2_0 x (ix1 co) = x (ix2 (0 : Fin 2) co) := by
  unfold row2_0; rw [shapeCast_1a_a_apply]; exact slice2_axis0_apply 0 x _ 0 co 0 rfl
theorem row2_1_apply {F : FTy → Type} [FloatOps F] (x : FVec F Cert.ReferenceIdeal.S2x128 .f32) (co : Fin 128) : row2_1 x (ix1 co) = x (ix2 (1 : Fin 2) co) := by
  unfold row2_1; rw [shapeCast_1a_a_apply]; exact slice2_axis0_apply 1 x _ 0 co 1 rfl

/-- A running total that starts at `z + k 0` and has `k (n+1)` added at each step is `z` plus the sum so far. -/
theorem running_total {M : Type} [AddCommMonoid M] (k : ℕ → M) (z : M) (S : ℕ → M) (h0 : S 0 = z + k 0)
    (hs : ∀ n, S (n + 1) = S n + k (n + 1)) (n : ℕ) : S n = z + ∑ i ∈ Finset.range (n + 1), k i := by
  induction n with
  | zero => rw [h0, Finset.sum_range_one]
  | succ n ih => rw [hs, ih, Finset.sum_range_succ _ (n + 1), add_assoc]

end Cert.Bridge

end
-- ==== Proof.BrCoef.lean ====
import proofs.«120137_g2000002162550304_pallasbulk_397_2_alg».proof.Proof.BridgeSums

set_option maxRecDepth 16384

noncomputable section

/-! # The same sums reach both hosts

If each entry of the reference's resident moment block is the sum over the images of the kernel's per-image blocks'
entries, then the rows the two hosts slice out — the reference from its block, the kernel from the sum of its blocks —
are the same 128-vectors, so the same scale and bias come out of the same arithmetic. -/

namespace Cert.Bridge

open Idealize.ShloMosaic Idealize.ShloMosaic.ValueIdx

theorem rows4_eq (stR : FVec Ideal Cert.ReferenceIdeal.S4x128 .f32) (stK : FVec Ideal Cert.KernelIdeal.S32x8x128 .f32)
    (h : ∀ (r : Fin 4) (co : Fin 128), stR (ix2 r co) = 0 + ∑ n : Fin 32, stK (ix3 n ⟨r.val, by omega⟩ co)) :
    row4_0 (F := Ideal) stR = row8_0 (sumImgs stK) ∧ row4_1 (F := Ideal) stR = row8_1 (sumImgs stK)
      ∧ row4_2 (F := Ideal) stR = row8_2 (sumImgs stK) ∧ row4_3 (F := Ideal) stR = row8_3 (sumImgs stK) := by
  refine ⟨funext fun j => ?_, funext fun j => ?_, funext fun j => ?_, funext fun j => ?_⟩
  · obtain ⟨co, rfl⟩ : ∃ co : Fin 128, j = ix1 co := ⟨j 0, eq_ix1 j⟩
    exact (row4_0_apply stR co).trans ((h 0 co).trans (((row8_0_apply (sumImgs stK) co).trans (sumImgs_apply stK 0 co)).symm))
  · obtain ⟨co, rfl⟩ : ∃ co : Fin 128, j = ix1 co := ⟨j 0, eq_ix1 j⟩
    exact (row4_1_apply stR co).trans ((h 1 co).trans (((row8_1_apply (sumImgs stK) co).trans (sumImgs_apply stK 1 co)).symm))
  · obtain ⟨co, rfl⟩ : ∃ co : Fin 128, j = ix1 co := ⟨j 0, eq_ix1 j⟩
    exact (row4_2_apply stR co).trans ((h 2 co).trans (((row8_2_apply (sumImgs stK) co).trans (sumImgs_apply stK 2 co)).symm))
  · obtain ⟨co, rfl⟩ : ∃ co : Fin 128, j = ix1 co := ⟨j 0, eq_ix1 j⟩
    exact (row4_3_apply stR co).trans ((h 3 co).trans (((row8_3_apply (sumImgs stK) co).trans (sumImgs_apply stK 3 co)).symm))

theorem rows2_eq (stR : FVec Ideal Cert.ReferenceIdeal.S2x128 .f32) (stK : FVec Ideal Cert.KernelIdeal.S32x8x128 .f32)
    (h : ∀ (r : Fin 2) (co : Fin 128), stR (ix2 r co) = 0 + ∑ n : Fin 32, stK (ix3 n ⟨r.val, by omega⟩ co)) :
    row2_0 (F := Ideal) stR = row8_0 (sumImgs stK) ∧ row2_1 (F := Ideal) stR = row8_1 (sumImgs stK) := by
  refine ⟨funext fun j => ?_, funext fun j => ?_⟩
  · obtain ⟨co, rfl⟩ : ∃ co : Fin 128, j = ix1 co := ⟨j 0, eq_ix1 j⟩
    exact (row2_0_apply stR co).trans ((h 0 co).trans (((row8_0_apply (sumImgs stK) co).trans (sumImgs_apply stK 0 co)).symm))
  · obtain ⟨co, rfl⟩ : ∃ co : Fin 128, j = ix1 co := ⟨j 0, eq_ix1 j⟩
    exact (row2_1_apply stR co).trans ((h 1 co).trans (((row8_1_apply (sumImgs stK) co).trans (sumImgs_apply stK 1 co)).symm))

end Cert.Bridge

end
-- ==== Proof.BrLast.lean ====
import proofs.«120137_g2000002162550304_pallasbulk_397_2_alg».proof.Proof.Gen.KernelIdeal.Launch
import proofs.«120137_g2000002162550304_pallasbulk_397_2_alg».proof.Proof.Gen.ReferenceIdeal.Launch
import Idealize.ShloMosaic.Lib.StableHlo.Run
import Idealize.ShloMosaic.Lib.Pipeline.Value
import Idealize.ShloMosaic.Lib.ValueIdx

set_option maxRecDepth 16384

noncomputable section

/-! # The two programs' last host operation

The kernel's third pass leaves `[32, 128, 3136]` (channels before positions) and the host only reshapes the positions to
`56 × 56`; the reference's third pass leaves `[32, 56, 56, 128]` and the host transposes the channels forward. Entry
`(n, co, p, q)` of the kernel's result is its pass's `(n, co, 56 p + q)`, of the reference's result its pass's `(n, p, q, co)`. -/

namespace Cert.Bridge

open Idealize.ShloMosaic Idealize.ShloMosaic.TcCoe Idealize.ShloMosaic.ValueIdx

variable {F : FTy → Type} [FloatOps F]

set_option maxHeartbeats 1000000 in
theorem lastK (Vb : Valuation Cert.KernelIdeal.τ Cert.KernelIdeal.sig (Elt F)) (n : Fin 32) (co : Fin 128) (p q : Fin 56) :
    StableHlo.after (Cert.KernelIdeal.Gen.hostOps3 (F := F)) Vb (Proc.devRef .tc Cert.KernelIdeal.main_v73) (ix4 n co p q)
      = Vb (Proc.devRef .tc Cert.KernelIdeal.main_v72) (ix3 n co ⟨p.val * 56 + q.val, by omega⟩) := by
  after_results
  show shapeCast Cert.KernelIdeal.S32x128x56x56 (Vb (Proc.devRef .tc Cert.KernelIdeal.main_v72)) _ (ix4 n co p q) = _
  refine shapeCast_apply _ _ _ _ ?_
  show ((⟨3, ![32, 128, 3136]⟩ : Shape).rowMajor (ix3 n co ⟨p.val * 56 + q.val, by omega⟩)).val = ((⟨4, ![32, 128, 56, 56]⟩ : Shape).rowMajor (ix4 n co p q)).val
  rw [Shape.rowMajor_val_three, Shape.rowMajor_val_four]
  show (n.val * 128 + co.val) * 3136 + (p.val * 56 + q.val) = ((n.val * 128 + co.val) * 56 + p.val) * 56 + q.val
  ring

set_option maxHeartbeats 1000000 in
theorem lastR (Vb : Valuation Cert.ReferenceIdeal.τ Cert.ReferenceIdeal.sig (Elt F)) (n : Fin 32) (co : Fin 128) (p q : Fin 56) :
    StableHlo.after (Cert.ReferenceIdeal.Gen.hostOps3 (F := F)) Vb (Proc.devRef .tc Cert.ReferenceIdeal.main_v80) (ix4 n co p q)
      = Vb (Proc.devRef .tc Cert.ReferenceIdeal.main_v79) (ix4 n p q co) := by
  after_results
  show transpose Cert.ReferenceIdeal.S32x128x56x56 [0, 3, 1, 2] (Vb (Proc.devRef .tc Cert.ReferenceIdeal.main_v79)) _ (ix4 n co p q) = _
  refine transpose_apply _ _ _ _ _ fun b => ?_
  match b with
  | ⟨0, _⟩ => rfl
  | ⟨1, _⟩ => rfl
  | ⟨2, _⟩ => rfl
  | ⟨3, _⟩ => rfl

end Cert.Bridge

end
-- ==== Proof.RIPrologue.lean ====
import proofs.«120137_g2000002162550304_pallasbulk_397_2_alg».proof.Proof.RIRun
import Idealize.ShloMosaic.Lib.StableHlo.Run

set_option maxRecDepth 16384

noncomputable section

set_option maxHeartbeats 2000000

/-! # The reference program's operands, as functions of the arguments

The twenty first stretches of host operations turn the arguments into the passes' operands: the input is transposed,
padded by a one-pixel halo and to 128 channels, and narrowed; the first convolution's and the shortcut's weights are padded
to 128 input channels, reshaped and narrowed; the second convolution's weights and the six coefficient vectors pass through
a padding of zero widths. This module reads each operand off the fold as that function of the launch memory. -/

namespace Cert.ReferenceIdeal.Run

open Cert.ReferenceIdeal Cert.ReferenceIdeal.Gen
open Idealize.ShloMosaic Idealize.ShloMosaic.TcCoe Idealize.ShloMosaic.StableHlo

variable {F : FTy → Type} [FloatOps F]
variable (m : (ℓ : Loc nD τ sig) → Buf (Elt F) ℓ)

theorem W20_v2_of (Vb : Valuation τ sig (Elt F)) :
    (StableHlo.after hostOps0_2 (StableHlo.after hostOps0_1 (StableHlo.after hostOps0 Vb))) (Proc.devRef .tc main_v2) = truncf .bf16 (pad S32x58x58x128 ![0, 1, 1, 0] ![0, 1, 1, 64] ![0, 0, 0, 0] (transpose S32x56x56x64 [0, 2, 3, 1] (Vb (Proc.devRef .tc main_arg0)) transposes_S32x64x56x56_S32x56x56x64_0_2_3_1) (sitofp .f32 (constantI S_ 32 0#32)) pads_S32x56x56x64_S32x58x58x128_000_110_110_0640 h_S_) bitsLt_bf16_f32 := by
  after_results; rfl

theorem W20_v2 (c : Dev nD) :
    W20 m c (Proc.devRef .tc main_v2) = truncf .bf16 (pad S32x58x58x128 ![0, 1, 1, 0] ![0, 1, 1, 64] ![0, 0, 0, 0] (transpose S32x56x56x64 [0, 2, 3, 1] (m ((c : Thread nD τ).loc main_arg0)) transposes_S32x64x56x56_S32x56x56x64_0_2_3_1) (sitofp .f32 (constantI S_ 32 0#32)) pads_S32x56x56x64_S32x58x58x128_000_110_110_0640 h_S_) bitsLt_bf16_f32 := by
  have h1 : W20 m c (Proc.devRef .tc main_v2) = V3 m c main_v2 := (V20_of m c main_v2 (by decide)).trans <| (V19_of m c main_v2 (by decide)).trans <| (V18_of m c main_v2 (by decide)).trans <| (V17_of m c main_v2 (by decide)).trans <| (V16_of m c main_v2 (by decide)).trans <| (V15_of m c main_v2 (by decide)).trans <| (V14_of m c main_v2 (by decide)).trans <| (V13_of m c main_v2 (by decide)).trans <| (V12_of m c main_v2 (by decide)).trans <| (V11_of m c main_v2 (by decide)).trans <| (V10_of m c main_v2 (by decide)).trans <| (V9_of m c main_v2 (by decide)).trans <| (V8_of m c main_v2 (by decide)).trans <| (V7_of m c main_v2 (by decide)).trans <| (V6_of m c main_v2 (by decide)).trans <| (V5_of m c main_v2 (by decide)).trans <| (V4_of m c main_v2 (by decide)).trans <| rfl
  have h2 : V0 m c main_arg0 = m ((c : Thread nD τ).loc main_arg0) := rfl
  rw [h1]
  exact (W20_v2_of (V0 m c)).trans (by rw [show V0 m c (Proc.devRef .tc main_arg0) = m ((c : Thread nD τ).loc main_arg0) from h2])

theorem W20_v5_of (Vb : Valuation τ sig (Elt F)) :
    (StableHlo.after hostOps0_4 (StableHlo.after hostOps0_3 (StableHlo.after hostOps0_2 Vb))) (Proc.devRef .tc main_v5) = truncf .bf16 (shapeCast S1152x128 (pad S3x3x128x128 ![0, 0, 0, 0] ![0, 0, 64, 0] ![0, 0, 0, 0] (Vb (Proc.devRef .tc main_arg1)) (sitofp .f32 (constantI S_ 32 0#32)) pads_S3x3x64x128_S3x3x128x128_000_000_0640_000 h_S_) shapeCasts_S3x3x128x128_S1152x128) bitsLt_bf16_f32 := by
  after_results; rfl

theorem W20_v5 (c : Dev nD) :
    W20 m c (Proc.devRef .tc main_v5) = truncf .bf16 (shapeCast S1152x128 (pad S3x3x128x128 ![0, 0, 0, 0] ![0, 0, 64, 0] ![0, 0, 0, 0] (m ((c : Thread nD τ).loc main_arg1)) (sitofp .f32 (constantI S_ 32 0#32)) pads_S3x3x64x128_S3x3x128x128_000_000_0640_000 h_S_) shapeCasts_S3x3x128x128_S1152x128) bitsLt_bf16_f32 := by
  have h1 : W20 m c (Proc.devRef .tc main_v5) = V5 m c main_v5 := (V20_of m c main_v5 (by decide)).trans <| (V19_of m c main_v5 (by decide)).trans <| (V18_of m c main_v5 (by decide)).trans <| (V17_of m c main_v5 (by decide)).trans <| (V16_of m c main_v5 (by decide)).trans <| (V15_of m c main_v5 (by decide)).trans <| (V14_of m c main_v5 (by decide)).trans <| (V13_of m c main_v5 (by decide)).trans <| (V12_of m c main_v5 (by decide)).trans <| (V11_of m c main_v5 (by decide)).trans <| (V10_of m c main_v5 (by decide)).trans <| (V9_of m c main_v5 (by decide)).trans <| (V8_of m c main_v5 (by decide)).trans <| (V7_of m c main_v5 (by decide)).trans <| (V6_of m c main_v5 (by decide)).trans <| rfl
  have h2 : V2 m c main_arg1 = m ((c : Thread nD τ).loc main_arg1) := (V2_of m c main_arg1 (by decide)).trans <| (V1_of m c main_arg1 (by decide)).trans <| rfl
  rw [h1]
  exact (W20_v5_of (V2 m c)).trans (by rw [show V2 m c (Proc.devRef .tc main_arg1) = m ((c : Thread nD τ).loc main_arg1) from h2])

theorem W20_v8_of (Vb : Valuation τ sig (Elt F)) :
    (StableHlo.after hostOps0_6 (StableHlo.after hostOps0_5 (StableHlo.after hostOps0_4 Vb))) (Proc.devRef .tc main_v8) = truncf .bf16 (shapeCast S1152x128 (pad S3x3x128x128 ![0, 0, 0, 0] ![0, 0, 0, 0] ![0, 0, 0, 0] (Vb (Proc.devRef .tc main_arg2)) (sitofp .f32 (constantI S_ 32 0#32)) pads_S3x3x128x128_S3x3x128x128_000_000_000_000 h_S_) shapeCasts_S3x3x128x128_S1152x128) bitsLt_bf16_f32 := by
  after_results; rfl

theorem W20_v8 (c : Dev nD) :
    W20 m c (Proc.devRef .tc main_v8) = truncf .bf16 (shapeCast S1152x128 (pad S3x3x128x128 ![0, 0, 0, 0] ![0, 0, 0, 0] ![0, 0, 0, 0] (m ((c : Thread nD τ).loc main_arg2)) (sitofp .f32 (constantI S_ 32 0#32)) pads_S3x3x128x128_S3x3x128x128_000_000_000_000 h_S_) shapeCasts_S3x3x128x128_S1152x128) bitsLt_bf16_f32 := by
  have h1 : W20 m c (Proc.devRef .tc main_v8) = V7 m c main_v8 := (V20_of m c main_v8 (by decide)).trans <| (V19_of m c main_v8 (by decide)).trans <| (V18_of m c main_v8 (by decide)).trans <| (V17_of m c main_v8 (by decide)).trans <| (V16_of m c main_v8 (by decide)).trans <| (V15_of m c main_v8 (by decide)).trans <| (V14_of m c main_v8 (by decide)).trans <| (V13_of m c main_v8 (by decide)).trans <| (V12_of m c main_v8 (by decide)).trans <| (V11_of m c main_v8 (by decide)).trans <| (V10_of m c main_v8 (by decide)).trans <| (V9_of m c main_v8 (by decide)).trans <| (V8_of m c main_v8 (by decide)).trans <| rfl
  have h2 : V4 m c main_arg2 = m ((c : Thread nD τ).loc main_arg2) := (V4_of m c main_arg2 (by decide)).trans <| (V3_of m c main_arg2 (by decide)).trans <| (V2_of m c main_arg2 (by decide)).trans <| (V1_of m c main_arg2 (by decide)).trans <| rfl
  rw [h1]
  exact (W20_v8_of (V4 m c)).trans (by rw [show V4 m c (Proc.devRef .tc main_arg2) = m ((c : Thread nD τ).loc main_arg2) from h2])

theorem W20_v10_of (Vb : Valuation τ sig (Elt F)) :
    (StableHlo.after hostOps0_8 (StableHlo.after hostOps0_7 (StableHlo.after hostOps0_6 Vb))) (Proc.devRef .tc main_v10) = truncf .bf16 (pad S128x128 ![0, 0] ![64, 0] ![0, 0] (Vb (Proc.devRef .tc main_arg3)) (sitofp .f32 (constantI S_ 32 0#32)) pads_S64x128_S128x128_0640_000 h_S_) bitsLt_bf16_f32 := by
  after_results; rfl

theorem W20_v10 (c : Dev nD) :
    W20 m c (Proc.devRef .tc main_v10) = truncf .bf16 (pad S128x128 ![0, 0] ![64, 0] ![0, 0] (m ((c : Thread nD τ).loc main_arg3)) (sitofp .f32 (constantI S_ 32 0#32)) pads_S64x128_S128x128_0640_000 h_S_) bitsLt_bf16_f32 := by
  have h1 : W20 m c (Proc.devRef .tc main_v10) = V9 m c main_v10 := (V20_of m c main_v10 (by decide)).trans <| (V19_of m c main_v10 (by decide)).trans <| (V18_of m c main_v10 (by decide)).trans <| (V17_of m c main_v10 (by decide)).trans <| (V16_of m c main_v10 (by decide)).trans <| (V15_of m c main_v10 (by decide)).trans <| (V14_of m c main_v10 (by decide)).trans <| (V13_of m c main_v10 (by decide)).trans <| (V12_of m c main_v10 (by decide)).trans <| (V11_of m c main_v10 (by decide)).trans <| (V10_of m c main_v10 (by decide)).trans <| rfl
  have h2 : V6 m c main_arg3 = m ((c : Thread nD τ).loc main_arg3) := (V6_of m c main_arg3 (by decide)).trans <| (V5_of m c main_arg3 (by decide)).trans <| (V4_of m c main_arg3 (by decide)).trans <| (V3_of m c main_arg3 (by decide)).trans <| (V2_of m c main_arg3 (by decide)).trans <| (V1_of m c main_arg3 (by decide)).trans <| rfl
  rw [h1]
  exact (W20_v10_of (V6 m c)).trans (by rw [show V6 m c (Proc.devRef .tc main_arg3) = m ((c : Thread nD τ).loc main_arg3) from h2])

theorem W20_v11_of (Vb : Valuation τ sig (Elt F)) :
    (StableHlo.after hostOps0_9 (StableHlo.after hostOps0_8 Vb)) (Proc.devRef .tc main_v11) = pad S128 ![0] ![0] ![0] (Vb (Proc.devRef .tc main_arg4)) (sitofp .f32 (constantI S_ 32 0#32)) pads_S128_S128_000 h_S_ := by
  after_results; rfl

theorem W20_v11 (c : Dev nD) :
    W20 m c (Proc.devRef .tc main_v11) = pad S128 ![0] ![0] ![0] (m ((c : Thread nD τ).loc main_arg4)) (sitofp .f32 (constantI S_ 32 0#32)) pads_S128_S128_000 h_S_ := by
  have h1 : W20 m c (Proc.devRef .tc main_v11) = V10 m c main_v11 := (V20_of m c main_v11 (by decide)).trans <| (V19_of m c main_v11 (by decide)).trans <| (V18_of m c main_v11 (by decide)).trans <| (V17_of m c main_v11 (by decide)).trans <| (V16_of m c main_v11 (by decide)).trans <| (V15_of m c main_v11 (by decide)).trans <| (V14_of m c main_v11 (by decide)).trans <| (V13_of m c main_v11 (by decide)).trans <| (V12_of m c main_v11 (by decide)).trans <| (V11_of m c main_v11 (by decide)).trans <| rfl
  have h2 : V8 m c main_arg4 = m ((c : Thread nD τ).loc main_arg4) := (V8_of m c main_arg4 (by decide)).trans <| (V7_of m c main_arg4 (by decide)).trans <| (V6_of m c main_arg4 (by decide)).trans <| (V5_of m c main_arg4 (by decide)).trans <| (V4_of m c main_arg4 (by decide)).trans <| (V3_of m c main_arg4 (by decide)).trans <| (V2_of m c main_arg4 (by decide)).trans <| (V1_of m c main_arg4 (by decide)).trans <| rfl
  rw [h1]
  exact (W20_v11_of (V8 m c)).trans (by rw [show V8 m c (Proc.devRef .tc main_arg4) = m ((c : Thread nD τ).loc main_arg4) from h2])

theorem W20_v12_of (Vb : Valuation τ sig (Elt F)) :
    (StableHlo.after hostOps0_11 (StableHlo.after hostOps0_10 Vb)) (Proc.devRef .tc main_v12) = pad S128 ![0] ![0] ![0] (Vb (Proc.devRef .tc main_arg5)) (sitofp .f32 (constantI S_ 32 0#32)) pads_S128_S128_000 h_S_ := by
  after_results; rfl

theorem W20_v12 (c : Dev nD) :
    W20 m c (Proc.devRef .tc main_v12) = pad S128 ![0] ![0] ![0] (m ((c : Thread nD τ).loc main_arg5)) (sitofp .f32 (constantI S_ 32 0#32)) pads_S128_S128_000 h_S_ := by
  have h1 : W20 m c (Proc.devRef .tc main_v12) = V12 m c main_v12 := (V20_of m c main_v12 (by decide)).trans <| (V19_of m c main_v12 (by decide)).trans <| (V18_of m c main_v12 (by decide)).trans <| (V17_of m c main_v12 (by decide)).trans <| (V16_of m c main_v12 (by decide)).trans <| (V15_of m c main_v12 (by decide)).trans <| (V14_of m c main_v12 (by decide)).trans <| (V13_of m c main_v12 (by decide)).trans <| rfl
  have h2 : V10 m c main_arg5 = m ((c : Thread nD τ).loc main_arg5) := (V10_of m c main_arg5 (by decide)).trans <| (V9_of m c main_arg5 (by decide)).trans <| (V8_of m c main_arg5 (by decide)).trans <| (V7_of m c main_arg5 (by decide)).trans <| (V6_of m c main_arg5 (by decide)).trans <| (V5_of m c main_arg5 (by decide)).trans <| (V4_of m c main_arg5 (by decide)).trans <| (V3_of m c main_arg5 (by decide)).trans <| (V2_of m c main_arg5 (by decide)).trans <| (V1_of m c main_arg5 (by decide)).trans <| rfl
  rw [h1]
  exact (W20_v12_of (V10 m c)).trans (by rw [show V10 m c (Proc.devRef .tc main_arg5) = m ((c : Thread nD τ).loc main_arg5) from h2])

theorem W20_v13_of (Vb : Valuation τ sig (Elt F)) :
    (StableHlo.after hostOps0_13 (StableHlo.after hostOps0_12 Vb)) (Proc.devRef .tc main_v13) = pad S128 ![0] ![0] ![0] (Vb (Proc.devRef .tc main_arg6)) (sitofp .f32 (constantI S_ 32 0#32)) pads_S128_S128_000 h_S_ := by
  after_results; rfl

theorem W20_v13 (c : Dev nD) :
    W20 m c (Proc.devRef .tc main_v13) = pad S128 ![0] ![0] ![0] (m ((c : Thread nD τ).loc main_arg6)) (sitofp .f32 (constantI S_ 32 0#32)) pads_S128_S128_000 h_S_ := by
  have h1 : W20 m c (Proc.devRef .tc main_v13) = V14 m c main_v13 := (V20_of m c main_v13 (by decide)).trans <| (V19_of m c main_v13 (by decide)).trans <| (V18_of m c main_v13 (by decide)).trans <| (V17_of m c main_v13 (by decide)).trans <| (V16_of m c main_v13 (by decide)).trans <| (V15_of m c main_v13 (by decide)).trans <| rfl
  have h2 : V12 m c main_arg6 = m ((c : Thread nD τ).loc main_arg6) := (V12_of m c main_arg6 (by decide)).trans <| (V11_of m c main_arg6 (by decide)).trans <| (V10_of m c main_arg6 (by decide)).trans <| (V9_of m c main_arg6 (by decide)).trans <| (V8_of m c main_arg6 (by decide)).trans <| (V7_of m c main_arg6 (by decide)).trans <| (V6_of m c main_arg6 (by decide)).trans <| (V5_of m c main_arg6 (by decide)).trans <| (V4_of m c main_arg6 (by decide)).trans <| (V3_of m c main_arg6 (by decide)).trans <| (V2_of m c main_arg6 (by decide)).trans <| (V1_of m c main_arg6 (by decide)).trans <| rfl
  rw [h1]
  exact (W20_v13_of (V12 m c)).trans (by rw [show V12 m c (Proc.devRef .tc main_arg6) = m ((c : Thread nD τ).loc main_arg6) from h2])

theorem W20_v14_of (Vb : Valuation τ sig (Elt F)) :
    (StableHlo.after hostOps0_15 (StableHlo.after hostOps0_14 Vb)) (Proc.devRef .tc main_v14) = pad S128 ![0] ![0] ![0] (Vb (Proc.devRef .tc main_arg7)) (sitofp .f32 (constantI S_ 32 0#32)) pads_S128_S128_000 h_S_ := by
  after_results; rfl

theorem W20_v14 (c : Dev nD) :
    W20 m c (Proc.devRef .tc main_v14) = pad S128 ![0] ![0] ![0] (m ((c : Thread nD τ).loc main_arg7)) (sitofp .f32 (constantI S_ 32 0#32)) pads_S128_S128_000 h_S_ := by
  have h1 : W20 m c (Proc.devRef .tc main_v14) = V16 m c main_v14 := (V20_of m c main_v14 (by decide)).trans <| (V19_of m c main_v14 (by decide)).trans <| (V18_of m c main_v14 (by decide)).trans <| (V17_of m c main_v14 (by decide)).trans <| rfl
  have h2 : V14 m c main_arg7 = m ((c : Thread nD τ).loc main_arg7) := (V14_of m c main_arg7 (by decide)).trans <| (V13_of m c main_arg7 (by decide)).trans <| (V12_of m c main_arg7 (by decide)).trans <| (V11_of m c main_arg7 (by decide)).trans <| (V10_of m c main_arg7 (by decide)).trans <| (V9_of m c main_arg7 (by decide)).trans <| (V8_of m c main_arg7 (by decide)).trans <| (V7_of m c main_arg7 (by decide)).trans <| (V6_of m c main_arg7 (by decide)).trans <| (V5_of m c main_arg7 (by decide)).trans <| (V4_of m c main_arg7 (by decide)).trans <| (V3_of m c main_arg7 (by decide)).trans <| (V2_of m c main_arg7 (by decide)).trans <| (V1_of m c main_arg7 (by decide)).trans <| rfl
  rw [h1]
  exact (W20_v14_of (V14 m c)).trans (by rw [show V14 m c (Proc.devRef .tc main_arg7) = m ((c : Thread nD τ).loc main_arg7) from h2])

theorem W20_v15_of (Vb : Valuation τ sig (Elt F)) :
    (StableHlo.after hostOps0_17 (StableHlo.after hostOps0_16 Vb)) (Proc.devRef .tc main_v15) = pad S128 ![0] ![0] ![0] (Vb (Proc.devRef .tc main_arg8)) (sitofp .f32 (constantI S_ 32 0#32)) pads_S128_S128_000 h_S_ := by
  after_results; rfl

theorem W20_v15 (c : Dev nD) :
    W20 m c (Proc.devRef .tc main_v15) = pad S128 ![0] ![0] ![0] (m ((c : Thread nD τ).loc main_arg8)) (sitofp .f32 (constantI S_ 32 0#32)) pads_S128_S128_000 h_S_ := by
  have h1 : W20 m c (Proc.devRef .tc main_v15) = V18 m c main_v15 := (V20_of m c main_v15 (by decide)).trans <| (V19_of m c main_v15 (by decide)).trans <| rfl
  have h2 : V16 m c main_arg8 = m ((c : Thread nD τ).loc main_arg8) := (V16_of m c main_arg8 (by decide)).trans <| (V15_of m c main_arg8 (by decide)).trans <| (V14_of m c main_arg8 (by decide)).trans <| (V13_of m c main_arg8 (by decide)).trans <| (V12_of m c main_arg8 (by decide)).trans <| (V11_of m c main_arg8 (by decide)).trans <| (V10_of m c main_arg8 (by decide)).trans <| (V9_of m c main_arg8 (by decide)).trans <| (V8_of m c main_arg8 (by decide)).trans <| (V7_of m c main_arg8 (by decide)).trans <| (V6_of m c main_arg8 (by decide)).trans <| (V5_of m c main_arg8 (by decide)).trans <| (V4_of m c main_arg8 (by decide)).trans <| (V3_of m c main_arg8 (by decide)).trans <| (V2_of m c main_arg8 (by decide)).trans <| (V1_of m c main_arg8 (by decide)).trans <| rfl
  rw [h1]
  exact (W20_v15_of (V16 m c)).trans (by rw [show V16 m c (Proc.devRef .tc main_arg8) = m ((c : Thread nD τ).loc main_arg8) from h2])

theorem W20_v16_of (Vb : Valuation τ sig (Elt F)) :
    (StableHlo.after hostOps0_19 (StableHlo.after hostOps0_18 Vb)) (Proc.devRef .tc main_v16) = pad S128 ![0] ![0] ![0] (Vb (Proc.devRef .tc main_arg9)) (sitofp .f32 (constantI S_ 32 0#32)) pads_S128_S128_000 h_S_ := by
  after_results; rfl

theorem W20_v16 (c : Dev nD) :
    W20 m c (Proc.devRef .tc main_v16) = pad S128 ![0] ![0] ![0] (m ((c : Thread nD τ).loc main_arg9)) (sitofp .f32 (constantI S_ 32 0#32)) pads_S128_S128_000 h_S_ := by
  have h1 : W20 m c (Proc.devRef .tc main_v16) = V20 m c main_v16 := rfl
  have h2 : V18 m c main_arg9 = m ((c : Thread nD τ).loc main_arg9) := (V18_of m c main_arg9 (by decide)).trans <| (V17_of m c main_arg9 (by decide)).trans <| (V16_of m c main_arg9 (by decide)).trans <| (V15_of m c main_arg9 (by decide)).trans <| (V14_of m c main_arg9 (by decide)).trans <| (V13_of m c main_arg9 (by decide)).trans <| (V12_of m c main_arg9 (by decide)).trans <| (V11_of m c main_arg9 (by decide)).trans <| (V10_of m c main_arg9 (by decide)).trans <| (V9_of m c main_arg9 (by decide)).trans <| (V8_of m c main_arg9 (by decide)).trans <| (V7_of m c main_arg9 (by decide)).trans <| (V6_of m c main_arg9 (by decide)).trans <| (V5_of m c main_arg9 (by decide)).trans <| (V4_of m c main_arg9 (by decide)).trans <| (V3_of m c main_arg9 (by decide)).trans <| (V2_of m c main_arg9 (by decide)).trans <| (V1_of m c main_arg9 (by decide)).trans <| rfl
  rw [h1]
  exact (W20_v16_of (V18 m c)).trans (by rw [show V18 m c (Proc.devRef .tc main_arg9) = m ((c : Thread nD τ).loc main_arg9) from h2])

end Cert.ReferenceIdeal.Run

end
-- ==== Proof.BridgeDefs.lean ====
import proofs.«120137_g2000002162550304_pallasbulk_397_2_alg».proof.Proof.KIPass1Body
import proofs.«120137_g2000002162550304_pallasbulk_397_2_alg».proof.Proof.KIPass3Body
import proofs.«120137_g2000002162550304_pallasbulk_397_2_alg».proof.Proof.RIPass1Body
import proofs.«120137_g2000002162550304_pallasbulk_397_2_alg».proof.Proof.RIPass3Body
import Idealize.ShloMosaic.Lib.ValueIdx
import Idealize.ShloMosaic.PureOps.Ideal.Laws

set_option maxRecDepth 16384

noncomputable section

/-! # The two programs side by side: how their operands correspond

The kernel keeps the input at its 64 channels; the reference pads the input, conv1's weights and the shortcut's weights
to 128 channels with zeros. At the ideal instance every float element is an extended real whatever its format, so the
kernel's bf16 blocks and the reference's f32 blocks are functions into the same type and can be equated directly.
This module states the correspondences between operands under which the two programs' passes compute the same values. -/

namespace Cert.Bridge

open Idealize.ShloMosaic Idealize.ShloMosaic.ValueIdx

/-- The reference's padded image block is the kernel's with 64 zero channels appended. -/
def ExtX (xK : Vec Ideal Cert.KernelIdeal.S1x58x58x64 .bf16) (xR : Vec Ideal Cert.ReferenceIdeal.S1x58x58x128 .bf16) : Prop :=
  ∀ (i j : Fin 58) (ci : Fin 128), xR (ix4 (n0 := 1) 0 i j ci) = if h : ci.val < 64 then xK (ix4 (n0 := 1) 0 i j ⟨ci.val, h⟩) else 0

/-- The reference's conv1 weights: per tap a 128-row slab whose first 64 rows are the kernel's slab, the rest zero. -/
def ExtW1 (wK : Vec Ideal Cert.KernelIdeal.S576x128 .bf16) (wR : Vec Ideal Cert.ReferenceIdeal.S1152x128 .bf16) : Prop :=
  ∀ (t : Fin 9) (ci : Fin 128) (co : Fin 128),
    wR (ix2 (n0 := 1152) ⟨t.val * 128 + ci.val, by omega⟩ co) = if h : ci.val < 64 then wK (ix2 (n0 := 576) ⟨t.val * 64 + ci.val, by omega⟩ co) else 0

/-- The reference's shortcut weights: the kernel's 64 rows, then 64 zero rows. -/
def ExtWs (wK : Vec Ideal Cert.KernelIdeal.S64x128 .bf16) (wR : Vec Ideal Cert.ReferenceIdeal.S128x128 .bf16) : Prop :=
  ∀ (ci : Fin 128) (co : Fin 128), wR (ix2 ci co) = if h : ci.val < 64 then wK (ix2 (n0 := 64) ⟨ci.val, h⟩ co) else 0

/-- The kernel's shortcut product on one image: the centre tap (3136 rows of 64 channels) times the shortcut's weights. -/
def shortK (xK : Vec Ideal Cert.KernelIdeal.S1x58x58x64 .bf16) (wsK : Vec Ideal Cert.KernelIdeal.S64x128 .bf16) : FVec Ideal Cert.KernelIdeal.S3136x128 .f32 :=
  Cert.KernelIdeal.Gen.k0_pay7 (Cert.KernelIdeal.Gen.k0_pay3 (View.ld xK Cert.KernelIdeal.Run.r0_x)) (View.ld wsK Cert.KernelIdeal.Run.r0_s)

end Cert.Bridge

end
-- ==== Proof.BrPrologue.lean ====
import proofs.«120137_g2000002162550304_pallasbulk_397_2_alg».proof.Proof.KIRun
import proofs.«120137_g2000002162550304_pallasbulk_397_2_alg».proof.Proof.RIPrologue
import proofs.«120137_g2000002162550304_pallasbulk_397_2_alg».proof.Proof.BridgeDefs
import Idealize.ShloMosaic.Lib.StableHlo.Run
import Idealize.ShloMosaic.Lib.KernelVsHost
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

set_option maxHeartbeats 2000000

/-! # The two programs' operands correspond

Both programs start by laying the arguments out for their passes. The kernel keeps the input at its 64 channels; the
reference pads the input, the first convolution's weights and the shortcut's weights to 128 channels with zeros, and sends
the other arguments through paddings of zero widths. This module reads the kernel's operands off its fold as functions of
its arguments, reads both programs' operands at an index, and proves, for launch memories that agree on the arguments, the
correspondences between the two programs' operands at the ideal instance. -/

namespace Cert.Bridge

open Idealize.ShloMosaic Idealize.ShloMosaic.TcCoe Idealize.ShloMosaic.StableHlo Idealize.ShloMosaic.ValueIdx

/-- The padding value is zero at the ideal instance. -/
theorem zval {s : Shape} (i : s.Idx) : (sitofp .f32 (constantI s 32 0#32) : FVec Ideal s .f32) i = 0 := by
  show (((0#32 : BitVec 32).toInt : ℝ) : EReal) = 0
  simp

/-! ## The kernel's operands, as functions of its arguments -/

section Kernel
open Cert.KernelIdeal Cert.KernelIdeal.Gen

section Generic
variable {F : FTy → Type} [FloatOps F]

theorem K_v2_of (Vb : Valuation τ sig (Elt F)) :
    (StableHlo.after hostOps0_2 (StableHlo.after hostOps0_1 (StableHlo.after hostOps0 Vb))) (Proc.devRef .tc main_v2)
      = truncf .bf16 (pad S32x58x58x64 ![0, 1, 1, 0] ![0, 1, 1, 0] ![0, 0, 0, 0] (transpose S32x56x56x64 [0, 2, 3, 1] (Vb (Proc.devRef .tc main_arg0)) transposes_S32x64x56x56_S32x56x56x64_0_2_3_1) (sitofp .f32 (constantI S_ 32 0#32)) pads_S32x56x56x64_S32x58x58x64_000_110_110_000 h_S_) bitsLt_bf16_f32 := by
  after_results; try rfl
theorem K_v4_of (Vb : Valuation τ sig (Elt F)) :
    (StableHlo.after hostOps0_2 Vb) (Proc.devRef .tc main_v4)
      = truncf .bf16 (shapeCast S576x128 (Vb (Proc.devRef .tc main_arg1)) shapeCasts_S3x3x64x128_S576x128) bitsLt_bf16_f32 := by
  after_results; try rfl
theorem K_v6_of (Vb : Valuation τ sig (Elt F)) :
    (StableHlo.after hostOps0_2 Vb) (Proc.devRef .tc main_v6)
      = truncf .bf16 (shapeCast S1152x128 (Vb (Proc.devRef .tc main_arg2)) shapeCasts_S3x3x128x128_S1152x128) bitsLt_bf16_f32 := by
  after_results; try rfl
theorem K_v7_of (Vb : Valuation τ sig (Elt F)) :
    (StableHlo.after hostOps0_2 Vb) (Proc.devRef .tc main_v7)
      = truncf .bf16 (Vb (Proc.devRef .tc main_arg3)) bitsLt_bf16_f32 := by
  after_results; try rfl

variable (m : (ℓ : Loc nD τ sig) → Buf (Elt F) ℓ) (ρ : Dev nD → PrngReg)

/-- No operation of the two first stretches writes an argument. -/
theorem K_W2_arg (c : Dev nD) (r : Ref sig .tc) (h0 : r ∉ hostOps0_W) (h1 : r ∉ hostOps0_1_W) :
    Cert.KernelIdeal.Run.W2 m ρ c (Proc.devRef .tc r) = m ((c : Thread nD τ).loc r) :=
  (StableHlo.after_of_writes_sub hostOps0_1 _ hostOps0_1_writes h1).trans <|
  (StableHlo.after_of_writes_sub hostOps0 _ hostOps0_writes h0).trans rfl

theorem K_v2 (c : Dev nD) :
    Cert.KernelIdeal.Run.W3 m ρ c (Proc.devRef .tc main_v2)
      = truncf .bf16 (pad S32x58x58x64 ![0, 1, 1, 0] ![0, 1, 1, 0] ![0, 0, 0, 0] (transpose S32x56x56x64 [0, 2, 3, 1] (m ((c : Thread nD τ).loc main_arg0)) transposes_S32x64x56x56_S32x56x56x64_0_2_3_1) (sitofp .f32 (constantI S_ 32 0#32)) pads_S32x56x56x64_S32x58x58x64_000_110_110_000 h_S_) bitsLt_bf16_f32 :=
  K_v2_of (Cert.KernelIdeal.Run.W0 m ρ c)
theorem K_v4 (c : Dev nD) :
    Cert.KernelIdeal.Run.W3 m ρ c (Proc.devRef .tc main_v4)
      = truncf .bf16 (shapeCast S576x128 (m ((c : Thread nD τ).loc main_arg1)) shapeCasts_S3x3x64x128_S576x128) bitsLt_bf16_f32 :=
  (K_v4_of (Cert.KernelIdeal.Run.W2 m ρ c)).trans (by rw [K_W2_arg m ρ c main_arg1 (by decide) (by decide)])
theorem K_v6 (c : Dev nD) :
    Cert.KernelIdeal.Run.W3 m ρ c (Proc.devRef .tc main_v6)
      = truncf .bf16 (shapeCast S1152x128 (m ((c : Thread nD τ).loc main_arg2)) shapeCasts_S3x3x128x128_S1152x128) bitsLt_bf16_f32 :=
  (K_v6_of (Cert.KernelIdeal.Run.W2 m ρ c)).trans (by rw [K_W2_arg m ρ c main_arg2 (by decide) (by decide)])
theorem K_v7 (c : Dev nD) :
    Cert.KernelIdeal.Run.W3 m ρ c (Proc.devRef .tc main_v7)
      = truncf .bf16 (m ((c : Thread nD τ).loc main_arg3)) bitsLt_bf16_f32 :=
  (K_v7_of (Cert.KernelIdeal.Run.W2 m ρ c)).trans (by rw [K_W2_arg m ρ c main_arg3 (by decide) (by decide)])

end Generic

/-! ### Read at an index, at the ideal instance -/

/-- The kernel's padded image at `(n, i, j, cj)`: the input at `(n, cj, i - 1, j - 1)` inside the halo, zero on it. -/
theorem K_x_apply (A : FVec Ideal S32x64x56x56 .f32) (n : Fin 32) (i j : Fin 58) (cj : Fin 64) :
    (truncf .bf16 (pad S32x58x58x64 ![0, 1, 1, 0] ![0, 1, 1, 0] ![0, 0, 0, 0] (transpose S32x56x56x64 [0, 2, 3, 1] A transposes_S32x64x56x56_S32x56x56x64_0_2_3_1) (sitofp .f32 (constantI S_ 32 0#32) : FVec Ideal S_ .f32) pads_S32x56x56x64_S32x58x58x64_000_110_110_000 h_S_) bitsLt_bf16_f32 : FVec Ideal S32x58x58x64 .bf16) (ix4 n i j cj)
      = if h : 1 ≤ i.val ∧ i.val ≤ 56 ∧ 1 ≤ j.val ∧ j.val ≤ 56 then A (ix4 (n1 := 64) (n2 := 56) (n3 := 56) n cj ⟨i.val - 1, by omega⟩ ⟨j.val - 1, by omega⟩) else 0 := by
  have hi : i.val < 58 := i.isLt
  have hj : j.val < 58 := j.isLt
  show pad S32x58x58x64 ![0, 1, 1, 0] ![0, 1, 1, 0] ![0, 0, 0, 0] (transpose S32x56x56x64 [0, 2, 3, 1] A transposes_S32x64x56x56_S32x56x56x64_0_2_3_1) (sitofp .f32 (constantI S_ 32 0#32) : FVec Ideal S_ .f32) pads_S32x56x56x64_S32x58x58x64_000_110_110_000 h_S_ (ix4 n i j cj) = _
  by_cases hin : 1 ≤ i.val ∧ i.val ≤ 56 ∧ 1 ≤ j.val ∧ j.val ≤ 56
  · rw [dif_pos hin]
    refine (pad_apply_of_inside _ _ _ _ _ _ _ (ix4 n i j cj) (ix4 (n1 := 56) (n2 := 56) (n3 := 64) n ⟨i.val - 1, by omega⟩ ⟨j.val - 1, by omega⟩ cj) (fun a => match a with
      | ⟨0, _⟩ => by show n.val = 0 + n.val * (0 + 1); omega
      | ⟨1, _⟩ => by show i.val = 1 + (i.val - 1) * (0 + 1); omega
      | ⟨2, _⟩ => by show j.val = 1 + (j.val - 1) * (0 + 1); omega
      | ⟨3, _⟩ => by show cj.val = 0 + cj.val * (0 + 1); omega)).trans ?_
    exact transpose_apply _ A _ _ _ (fun b => match b with
      | ⟨0, _⟩ => rfl | ⟨1, _⟩ => rfl | ⟨2, _⟩ => rfl | ⟨3, _⟩ => rfl)
  · rw [dif_neg hin]
    have hax : (¬(1 ≤ i.val ∧ (i.val - 1) % (0 + 1) = 0 ∧ (i.val - 1) / (0 + 1) < 56)) ∨ (¬(1 ≤ j.val ∧ (j.val - 1) % (0 + 1) = 0 ∧ (j.val - 1) / (0 + 1) < 56)) := by
      by_contra hcon
      rw [not_or, not_not, not_not] at hcon
      obtain ⟨⟨a1, -, a3⟩, ⟨b1, -, b3⟩⟩ := hcon
      exact hin ⟨a1, by omega, b1, by omega⟩
    rcases hax with hax | hax
    · exact (pad_apply_of_not_inside _ _ _ _ _ _ _ (ix4 n i j cj) (1 : Fin 4) hax).trans (zval _)
    · exact (pad_apply_of_not_inside _ _ _ _ _ _ _ (ix4 n i j cj) (2 : Fin 4) hax).trans (zval _)

/-- The kernel's first-convolution weights at row `t * 64 + cj`: the argument at `(t / 3, t % 3, cj)`. -/
theorem K_w1_apply (A : FVec Ideal S3x3x64x128 .f32) (t : Fin 9) (cj : Fin 64) (co : Fin 128) :
    (truncf .bf16 (shapeCast S576x128 A shapeCasts_S3x3x64x128_S576x128) bitsLt_bf16_f32 : FVec Ideal S576x128 .bf16) (ix2 (n0 := 576) (n1 := 128) ⟨t.val * 64 + cj.val, by omega⟩ co)
      = A (ix4 (n0 := 3) (n1 := 3) (n2 := 64) (n3 := 128) ⟨t.val / 3, by omega⟩ ⟨t.val % 3, by omega⟩ cj co) := by
  have ht : t.val < 9 := t.isLt
  have hcj : cj.val < 64 := cj.isLt
  have hco : co.val < 128 := co.isLt
  show shapeCast S576x128 A shapeCasts_S3x3x64x128_S576x128 (ix2 (n0 := 576) (n1 := 128) ⟨t.val * 64 + cj.val, by omega⟩ co) = _
  exact shapeCast_apply A _ _ _ (by
    rw [Shape.rowMajor_val_four, Shape.rowMajor_val_two]
    show (((t.val / 3) * 3 + t.val % 3) * 64 + cj.val) * 128 + co.val = (t.val * 64 + cj.val) * 128 + co.val
    omega)

end Kernel

/-! ## The reference's operands, read at an index -/

section Reference
open Cert.ReferenceIdeal Cert.ReferenceIdeal.Gen

section Generic
variable {F : FTy → Type} [FloatOps F]

/-- A padding of zero widths changes nothing. -/
theorem pad0_S128 (x : S128.Idx → Elt F .f32) (v : S_.Idx → Elt F .f32) :
    pad S128 ![0] ![0] ![0] x v pads_S128_S128_000 h_S_ = x := by
  funext j
  exact pad_apply_of_inside _ _ _ x v _ _ j j (fun a => match a with
    | ⟨0, _⟩ => by show (j 0).val = 0 + (j 0).val * (0 + 1); omega)

theorem pad0_S3x3x128x128 (x : S3x3x128x128.Idx → Elt F .f32) (v : S_.Idx → Elt F .f32) :
    pad S3x3x128x128 ![0, 0, 0, 0] ![0, 0, 0, 0] ![0, 0, 0, 0] x v pads_S3x3x128x128_S3x3x128x128_000_000_000_000 h_S_ = x := by
  funext j
  exact pad_apply_of_inside _ _ _ x v _ _ j j (fun a => match a with
    | ⟨0, _⟩ => by show (j 0).val = 0 + (j 0).val * (0 + 1); omega
    | ⟨1, _⟩ => by show (j 1).val = 0 + (j 1).val * (0 + 1); omega
    | ⟨2, _⟩ => by show (j 2).val = 0 + (j 2).val * (0 + 1); omega
    | ⟨3, _⟩ => by show (j 3).val = 0 + (j 3).val * (0 + 1); omega)

end Generic

/-- The reference's padded image at `(n, i, j, ci)`: the input at `(n, ci, i - 1, j - 1)` inside the halo and below channel
    64, zero elsewhere. -/
theorem R_x_apply (A : FVec Ideal S32x64x56x56 .f32) (n : Fin 32) (i j : Fin 58) (ci : Fin 128) :
    (truncf .bf16 (pad S32x58x58x128 ![0, 1, 1, 0] ![0, 1, 1, 64] ![0, 0, 0, 0] (transpose S32x56x56x64 [0, 2, 3, 1] A transposes_S32x64x56x56_S32x56x56x64_0_2_3_1) (sitofp .f32 (constantI S_ 32 0#32) : FVec Ideal S_ .f32) pads_S32x56x56x64_S32x58x58x128_000_110_110_0640 h_S_) bitsLt_bf16_f32 : FVec Ideal S32x58x58x128 .bf16) (ix4 n i j ci)
      = if h : (1 ≤ i.val ∧ i.val ≤ 56 ∧ 1 ≤ j.val ∧ j.val ≤ 56) ∧ ci.val < 64 then A (ix4 (n1 := 64) (n2 := 56) (n3 := 56) n ⟨ci.val, h.2⟩ ⟨i.val - 1, by omega⟩ ⟨j.val - 1, by omega⟩) else 0 := by
  have hi : i.val < 58 := i.isLt
  have hj : j.val < 58 := j.isLt
  show pad S32x58x58x128 ![0, 1, 1, 0] ![0, 1, 1, 64] ![0, 0, 0, 0] (transpose S32x56x56x64 [0, 2, 3, 1] A transposes_S32x64x56x56_S32x56x56x64_0_2_3_1) (sitofp .f32 (constantI S_ 32 0#32) : FVec Ideal S_ .f32) pads_S32x56x56x64_S32x58x58x128_000_110_110_0640 h_S_ (ix4 n i j ci) = _
  by_cases hin : (1 ≤ i.val ∧ i.val ≤ 56 ∧ 1 ≤ j.val ∧ j.val ≤ 56) ∧ ci.val < 64
  · rw [dif_pos hin]
    refine (pad_apply_of_inside _ _ _ _ _ _ _ (ix4 n i j ci) (ix4 (n1 := 56) (n2 := 56) (n3 := 64) n ⟨i.val - 1, by omega⟩ ⟨j.val - 1, by omega⟩ ⟨ci.val, hin.2⟩) (fun a => match a with
      | ⟨0, _⟩ => by show n.val = 0 + n.val * (0 + 1); omega
      | ⟨1, _⟩ => by show i.val = 1 + (i.val - 1) * (0 + 1); omega
      | ⟨2, _⟩ => by show j.val = 1 + (j.val - 1) * (0 + 1); omega
      | ⟨3, _⟩ => by show ci.val = 0 + ci.val * (0 + 1); omega)).trans ?_
    exact transpose_apply _ A _ _ _ (fun b => match b with
      | ⟨0, _⟩ => rfl | ⟨1, _⟩ => rfl | ⟨2, _⟩ => rfl | ⟨3, _⟩ => rfl)
  · rw [dif_neg hin]
    have hax : (¬(1 ≤ i.val ∧ (i.val - 1) % (0 + 1) = 0 ∧ (i.val - 1) / (0 + 1) < 56)) ∨ (¬(1 ≤ j.val ∧ (j.val - 1) % (0 + 1) = 0 ∧ (j.val - 1) / (0 + 1) < 56))
        ∨ (¬(0 ≤ ci.val ∧ (ci.val - 0) % (0 + 1) = 0 ∧ (ci.val - 0) / (0 + 1) < 64)) := by
      by_contra hcon
      rw [not_or, not_or, not_not, not_not, not_not] at hcon
      obtain ⟨⟨a1, -, a3⟩, ⟨b1, -, b3⟩, ⟨-, -, c3⟩⟩ := hcon
      exact hin ⟨⟨a1, by omega, b1, by omega⟩, by omega⟩
    rcases hax with hax | hax | hax
    · exact (pad_apply_of_not_inside _ _ _ _ _ _ _ (ix4 n i j ci) (1 : Fin 4) hax).trans (zval _)
    · exact (pad_apply_of_not_inside _ _ _ _ _ _ _ (ix4 n i j ci) (2 : Fin 4) hax).trans (zval _)
    · exact (pad_apply_of_not_inside _ _ _ _ _ _ _ (ix4 n i j ci) (3 : Fin 4) hax).trans (zval _)

/-- The reference's first-convolution weights at row `t * 128 + ci`: the argument at `(t / 3, t % 3, ci)` below row 64 of
    the slab, zero from there. -/
theorem R_w1_apply (A : FVec Ideal S3x3x64x128 .f32) (t : Fin 9) (ci : Fin 128) (co : Fin 128) :
    (truncf .bf16 (shapeCast S1152x128 (pad S3x3x128x128 ![0, 0, 0, 0] ![0, 0, 64, 0] ![0, 0, 0, 0] A (sitofp .f32 (constantI S_ 32 0#32) : FVec Ideal S_ .f32) pads_S3x3x64x128_S3x3x128x128_000_000_0640_000 h_S_) shapeCasts_S3x3x128x128_S1152x128) bitsLt_bf16_f32 : FVec Ideal S1152x128 .bf16) (ix2 (n0 := 1152) (n1 := 128) ⟨t.val * 128 + ci.val, by omega⟩ co)
      = if h : ci.val < 64 then A (ix4 (n0 := 3) (n1 := 3) (n2 := 64) (n3 := 128) ⟨t.val / 3, by omega⟩ ⟨t.val % 3, by omega⟩ ⟨ci.val, h⟩ co) else 0 := by
  have ht : t.val < 9 := t.isLt
  have hci : ci.val < 128 := ci.isLt
  have hco : co.val < 128 := co.isLt
  show shapeCast S1152x128 (pad S3x3x128x128 ![0, 0, 0, 0] ![0, 0, 64, 0] ![0, 0, 0, 0] A (sitofp .f32 (constantI S_ 32 0#32) : FVec Ideal S_ .f32) pads_S3x3x64x128_S3x3x128x128_000_000_0640_000 h_S_) shapeCasts_S3x3x128x128_S1152x128 (ix2 (n0 := 1152) (n1 := 128) ⟨t.val * 128 + ci.val, by omega⟩ co) = _
  refine (shapeCast_apply _ _ _ (ix4 (n0 := 3) (n1 := 3) (n2 := 128) (n3 := 128) ⟨t.val / 3, by omega⟩ ⟨t.val % 3, by omega⟩ ci co) (by
    rw [Shape.rowMajor_val_four, Shape.rowMajor_val_two]
    show (((t.val / 3) * 3 + t.val % 3) * 128 + ci.val) * 128 + co.val = (t.val * 128 + ci.val) * 128 + co.val
    omega)).trans ?_
  by_cases h : ci.val < 64
  · rw [dif_pos h]
    exact pad_apply_of_inside _ _ _ _ _ _ _ (ix4 (n0 := 3) (n1 := 3) (n2 := 128) (n3 := 128) ⟨t.val / 3, by omega⟩ ⟨t.val % 3, by omega⟩ ci co)
      (ix4 (n0 := 3) (n1 := 3) (n2 := 64) (n3 := 128) ⟨t.val / 3, by omega⟩ ⟨t.val % 3, by omega⟩ ⟨ci.val, h⟩ co) (fun a => match a with
        | ⟨0, _⟩ => by show t.val / 3 = 0 + (t.val / 3) * (0 + 1); omega
        | ⟨1, _⟩ => by show t.val % 3 = 0 + (t.val % 3) * (0 + 1); omega
        | ⟨2, _⟩ => by show ci.val = 0 + ci.val * (0 + 1); omega
        | ⟨3, _⟩ => by show co.val = 0 + co.val * (0 + 1); omega)
  · rw [dif_neg h]
    refine (pad_apply_of_not_inside _ _ _ _ _ _ _ (ix4 (n0 := 3) (n1 := 3) (n2 := 128) (n3 := 128) ⟨t.val / 3, by omega⟩ ⟨t.val % 3, by omega⟩ ci co) (2 : Fin 4) (fun hh => h ?_)).trans (zval _)
    have h3 : (ci.val - 0) / (0 + 1) < 64 := hh.2.2
    omega

/-- The reference's shortcut weights at `(ci, co)`: the argument below row 64, zero from there. -/
theorem R_ws_apply (A : FVec Ideal S64x128 .f32) (ci co : Fin 128) :
    (truncf .bf16 (pad S128x128 ![0, 0] ![64, 0] ![0, 0] A (sitofp .f32 (constantI S_ 32 0#32) : FVec Ideal S_ .f32) pads_S64x128_S128x128_0640_000 h_S_) bitsLt_bf16_f32 : FVec Ideal S128x128 .bf16) (ix2 ci co)
      = if h : ci.val < 64 then A (ix2 (n0 := 64) (n1 := 128) ⟨ci.val, h⟩ co) else 0 := by
  show pad S128x128 ![0, 0] ![64, 0] ![0, 0] A (sitofp .f32 (constantI S_ 32 0#32) : FVec Ideal S_ .f32) pads_S64x128_S128x128_0640_000 h_S_ (ix2 ci co) = _
  by_cases h : ci.val < 64
  · rw [dif_pos h]
    exact pad_apply_of_inside _ _ _ _ _ _ _ (ix2 ci co) (ix2 (n0 := 64) (n1 := 128) ⟨ci.val, h⟩ co) (fun a => match a with
      | ⟨0, _⟩ => by show ci.val = 0 + ci.val * (0 + 1); omega
      | ⟨1, _⟩ => by show co.val = 0 + co.val * (0 + 1); omega)
  · rw [dif_neg h]
    refine (pad_apply_of_not_inside _ _ _ _ _ _ _ (ix2 ci co) (0 : Fin 2) (fun hh => h ?_)).trans (zval _)
    have h3 : (ci.val - 0) / (0 + 1) < 64 := hh.2.2
    omega

end Reference

/-! ## The correspondences, for launch memories that agree on the arguments -/

section Agree
variable (mK : (ℓ : Loc Cert.KernelIdeal.nD Cert.KernelIdeal.τ Cert.KernelIdeal.sig) → Buf (Elt Ideal) ℓ) (ρK : Dev Cert.KernelIdeal.nD → PrngReg)
variable (mR : (ℓ : Loc Cert.ReferenceIdeal.nD Cert.ReferenceIdeal.τ Cert.ReferenceIdeal.sig) → Buf (Elt Ideal) ℓ)
variable (c : Dev Cert.KernelIdeal.nD)

/-- The reference's operand for `g1` is the kernel's argument. -/
theorem pro_g1 (hagree : mR ((c.tc : Thread Cert.ReferenceIdeal.nD Cert.ReferenceIdeal.τ).loc Cert.ReferenceIdeal.main_arg4) = mK ((c.tc : Thread Cert.KernelIdeal.nD Cert.KernelIdeal.τ).loc Cert.KernelIdeal.main_arg4)) :
    Cert.ReferenceIdeal.Run.W20 mR c (Proc.devRef .tc Cert.ReferenceIdeal.main_v11) = mK ((c.tc : Thread Cert.KernelIdeal.nD Cert.KernelIdeal.τ).loc Cert.KernelIdeal.main_arg4) := by
  rw [Cert.ReferenceIdeal.Run.W20_v11, pad0_S128]; exact hagree

/-- The reference's operand for `b1` is the kernel's argument. -/
theorem pro_b1 (hagree : mR ((c.tc : Thread Cert.ReferenceIdeal.nD Cert.ReferenceIdeal.τ).loc Cert.ReferenceIdeal.main_arg5) = mK ((c.tc : Thread Cert.KernelIdeal.nD Cert.KernelIdeal.τ).loc Cert.KernelIdeal.main_arg5)) :
    Cert.ReferenceIdeal.Run.W20 mR c (Proc.devRef .tc Cert.ReferenceIdeal.main_v12) = mK ((c.tc : Thread Cert.KernelIdeal.nD Cert.KernelIdeal.τ).loc Cert.KernelIdeal.main_arg5) := by
  rw [Cert.ReferenceIdeal.Run.W20_v12, pad0_S128]; exact hagree

/-- The reference's operand for `g2` is the kernel's argument. -/
theorem pro_g2 (hagree : mR ((c.tc : Thread Cert.ReferenceIdeal.nD Cert.ReferenceIdeal.τ).loc Cert.ReferenceIdeal.main_arg6) = mK ((c.tc : Thread Cert.KernelIdeal.nD Cert.KernelIdeal.τ).loc Cert.KernelIdeal.main_arg6)) :
    Cert.ReferenceIdeal.Run.W20 mR c (Proc.devRef .tc Cert.ReferenceIdeal.main_v13) = mK ((c.tc : Thread Cert.KernelIdeal.nD Cert.KernelIdeal.τ).loc Cert.KernelIdeal.main_arg6) := by
  rw [Cert.ReferenceIdeal.Run.W20_v13, pad0_S128]; exact hagree

/-- The reference's operand for `b2` is the kernel's argument. -/
theorem pro_b2 (hagree : mR ((c.tc : Thread Cert.ReferenceIdeal.nD Cert.ReferenceIdeal.τ).loc Cert.ReferenceIdeal.main_arg7) = mK ((c.tc : Thread Cert.KernelIdeal.nD Cert.KernelIdeal.τ).loc Cert.KernelIdeal.main_arg7)) :
    Cert.ReferenceIdeal.Run.W20 mR c (Proc.devRef .tc Cert.ReferenceIdeal.main_v14) = mK ((c.tc : Thread Cert.KernelIdeal.nD Cert.KernelIdeal.τ).loc Cert.KernelIdeal.main_arg7) := by
  rw [Cert.ReferenceIdeal.Run.W20_v14, pad0_S128]; exact hagree

/-- The reference's operand for `gs` is the kernel's argument. -/
theorem pro_gs (hagree : mR ((c.tc : Thread Cert.ReferenceIdeal.nD Cert.ReferenceIdeal.τ).loc Cert.ReferenceIdeal.main_arg8) = mK ((c.tc : Thread Cert.KernelIdeal.nD Cert.KernelIdeal.τ).loc Cert.KernelIdeal.main_arg8)) :
    Cert.ReferenceIdeal.Run.W20 mR c (Proc.devRef .tc Cert.ReferenceIdeal.main_v15) = mK ((c.tc : Thread Cert.KernelIdeal.nD Cert.KernelIdeal.τ).loc Cert.KernelIdeal.main_arg8) := by
  rw [Cert.ReferenceIdeal.Run.W20_v15, pad0_S128]; exact hagree

/-- The reference's operand for `bs` is the kernel's argument. -/
theorem pro_bs (hagree : mR ((c.tc : Thread Cert.ReferenceIdeal.nD Cert.ReferenceIdeal.τ).loc Cert.ReferenceIdeal.main_arg9) = mK ((c.tc : Thread Cert.KernelIdeal.nD Cert.KernelIdeal.τ).loc Cert.KernelIdeal.main_arg9)) :
    Cert.ReferenceIdeal.Run.W20 mR c (Proc.devRef .tc Cert.ReferenceIdeal.main_v16) = mK ((c.tc : Thread Cert.KernelIdeal.nD Cert.KernelIdeal.τ).loc Cert.KernelIdeal.main_arg9) := by
  rw [Cert.ReferenceIdeal.Run.W20_v16, pad0_S128]; exact hagree

/-- The two programs' second-convolution weights are the same block. -/
theorem pro_w2 (hagree : mR ((c.tc : Thread Cert.ReferenceIdeal.nD Cert.ReferenceIdeal.τ).loc Cert.ReferenceIdeal.main_arg2) = mK ((c.tc : Thread Cert.KernelIdeal.nD Cert.KernelIdeal.τ).loc Cert.KernelIdeal.main_arg2)) :
    Cert.ReferenceIdeal.Run.W20 mR c (Proc.devRef .tc Cert.ReferenceIdeal.main_v8) = Cert.KernelIdeal.Run.W3 mK ρK c (Proc.devRef .tc Cert.KernelIdeal.main_v6) := by
  rw [Cert.ReferenceIdeal.Run.W20_v8, pad0_S3x3x128x128, K_v6, hagree]
  try rfl

/-- The reference's shortcut weights are the kernel's 64 rows, then 64 zero rows. -/
theorem pro_ws (hagree : mR ((c.tc : Thread Cert.ReferenceIdeal.nD Cert.ReferenceIdeal.τ).loc Cert.ReferenceIdeal.main_arg3) = mK ((c.tc : Thread Cert.KernelIdeal.nD Cert.KernelIdeal.τ).loc Cert.KernelIdeal.main_arg3)) :
    ExtWs (Cert.KernelIdeal.Run.W3 mK ρK c (Proc.devRef .tc Cert.KernelIdeal.main_v7)) (Cert.ReferenceIdeal.Run.W20 mR c (Proc.devRef .tc Cert.ReferenceIdeal.main_v10)) := by
  intro ci co
  rw [Cert.ReferenceIdeal.Run.W20_v10, K_v7, hagree]
  exact R_ws_apply _ ci co

/-- The reference's padded image is the kernel's with 64 zero channels appended, image by image. -/
theorem pro_x (hagree : mR ((c.tc : Thread Cert.ReferenceIdeal.nD Cert.ReferenceIdeal.τ).loc Cert.ReferenceIdeal.main_arg0) = mK ((c.tc : Thread Cert.KernelIdeal.nD Cert.KernelIdeal.τ).loc Cert.KernelIdeal.main_arg0)) (n : Fin 32) :
    ExtX (fun y => Cert.KernelIdeal.Run.W3 mK ρK c (Proc.devRef .tc Cert.KernelIdeal.main_v2) (ix4 n (y 1) (y 2) (y 3)))
      (fun y => Cert.ReferenceIdeal.Run.W20 mR c (Proc.devRef .tc Cert.ReferenceIdeal.main_v2) (ix4 n (y 1) (y 2) (y 3))) := by
  intro i j ci
  rw [Cert.ReferenceIdeal.Run.W20_v2, K_v2, hagree]
  refine (R_x_apply _ n i j ci).trans ?_
  by_cases hc : ci.val < 64
  · rw [dif_pos hc]
    refine Eq.trans ?_ (K_x_apply _ n i j ⟨ci.val, hc⟩).symm
    by_cases hin : 1 ≤ i.val ∧ i.val ≤ 56 ∧ 1 ≤ j.val ∧ j.val ≤ 56
    · rw [dif_pos ⟨hin, hc⟩, dif_pos hin]
    · rw [dif_neg (fun h => hin h.1), dif_neg hin]
  · rw [dif_neg hc, dif_neg (fun h => hc h.2)]

/-- The reference's first-convolution weights: per tap the kernel's 64-row slab, then 64 zero rows. -/
theorem pro_w1 (hagree : mR ((c.tc : Thread Cert.ReferenceIdeal.nD Cert.ReferenceIdeal.τ).loc Cert.ReferenceIdeal.main_arg1) = mK ((c.tc : Thread Cert.KernelIdeal.nD Cert.KernelIdeal.τ).loc Cert.KernelIdeal.main_arg1)) :
    ExtW1 (Cert.KernelIdeal.Run.W3 mK ρK c (Proc.devRef .tc Cert.KernelIdeal.main_v4)) (Cert.ReferenceIdeal.Run.W20 mR c (Proc.devRef .tc Cert.ReferenceIdeal.main_v5)) := by
  intro t ci co
  rw [Cert.ReferenceIdeal.Run.W20_v5, K_v4, hagree]
  refine (R_w1_apply _ t ci co).trans ?_
  by_cases h : ci.val < 64
  · rw [dif_pos h, dif_pos h]
    exact (K_w1_apply _ t ⟨ci.val, h⟩ co).symm
  · rw [dif_neg h, dif_neg h]

end Agree

end Cert.Bridge

end
-- ==== Proof.BrPass1Tap.lean ====
import proofs.«120137_g2000002162550304_pallasbulk_397_2_alg».proof.Proof.BridgeDefs
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

/-! # One tap of the first convolution at an index, in both programs

Each tap of a 3x3 convolution is a shifted 56x56 window of the padded image, flattened to 3136 rows, times a slab of the
weights, accumulated from zero. This module reads such a product at an output index as a plain sum over the channels,
once for the program that keeps 64 channels and once for the one padded to 128. -/

namespace Cert.Bridge

open Idealize.ShloMosaic Idealize.ShloMosaic.ValueIdx
open scoped BigOperators

abbrev DK := Cert.KernelIdeal.dot_S3136x64_S64x128_S3136x128_1_0_0_1_n_n
abbrev DR := Cert.ReferenceIdeal.dot_S3136x128_S128x128_S3136x128_1_0_0_1_n_n

theorem DK_lhs0 (j : Cert.KernelIdeal.S3136x128.Idx) (k : DK.contr.Idx) : (DK.lhsIdx j k 0 : ℕ) = j 0 := by
  simp [DotDims.lhsIdx, DK, Cert.KernelIdeal.dot_S3136x64_S64x128_S3136x128_1_0_0_1_n_n]; rfl
theorem DK_rhs1 (j : Cert.KernelIdeal.S3136x128.Idx) (k : DK.contr.Idx) : (DK.rhsIdx j k 1 : ℕ) = j 1 := by
  simp [DotDims.rhsIdx, DK, Cert.KernelIdeal.dot_S3136x64_S64x128_S3136x128_1_0_0_1_n_n]; rfl
theorem DR_lhs0 (j : Cert.ReferenceIdeal.S3136x128.Idx) (k : DR.contr.Idx) : (DR.lhsIdx j k 0 : ℕ) = j 0 := by
  simp [DotDims.lhsIdx, DR, Cert.ReferenceIdeal.dot_S3136x128_S128x128_S3136x128_1_0_0_1_n_n]; rfl
theorem DR_rhs1 (j : Cert.ReferenceIdeal.S3136x128.Idx) (k : DR.contr.Idx) : (DR.rhsIdx j k 1 : ℕ) = j 1 := by
  simp [DotDims.rhsIdx, DR, Cert.ReferenceIdeal.dot_S3136x128_S128x128_S3136x128_1_0_0_1_n_n]; rfl

/-- A 3136x64 by 64x128 product into the zero accumulator, at an index: the sum over the 64 channels. -/
theorem mmK (lhs : FVec Ideal Cert.KernelIdeal.S3136x64 .bf16) (rhs : FVec Ideal Cert.KernelIdeal.S64x128 .bf16) (r : Fin 3136) (co : Fin 128) :
    matmul (F := Ideal) Cert.KernelIdeal.dot_S3136x64_S64x128_S3136x128_1_0_0_1_n_n none lhs rhs
        (constant (F := Ideal) Cert.KernelIdeal.S3136x128 .f32 0x00000000#32) (ix2 r co)
      = ∑ ci : Fin 64, lhs (ix2 r ci) * rhs (ix2 ci co) := by
  refine (Ideal.matmul_constant_zero_apply DK none lhs rhs (ix2 r co)).trans ?_
  rw [← Equiv.sum_comp (contrEquiv1 DK 64 rfl rfl).symm]
  refine Finset.sum_congr rfl fun ci _ => ?_
  have hl : DK.lhsIdx (ix2 r co) ((contrEquiv1 DK 64 rfl rfl).symm ci) = ix2 r ci := by
    funext a; apply Fin.ext
    match a with
    | ⟨0, _⟩ => exact DK_lhs0 _ _
    | ⟨1, _⟩ => exact (DK.lhsIdx_val_of_single (cl := 1) rfl _ _).trans (contrEquiv1_symm_val DK 64 rfl rfl ci)
  have hr : DK.rhsIdx (ix2 r co) ((contrEquiv1 DK 64 rfl rfl).symm ci) = ix2 ci co := by
    funext a; apply Fin.ext
    match a with
    | ⟨0, _⟩ => exact (DK.rhsIdx_val_of_single (cr := 0) rfl _ _).trans (contrEquiv1_symm_val DK 64 rfl rfl ci)
    | ⟨1, _⟩ => exact DK_rhs1 _ _
  show lhs (DK.lhsIdx _ _) * rhs (DK.rhsIdx _ _) = _
  rw [hl, hr]

/-- A 3136x128 by 128x128 product into the zero accumulator, at an index: the sum over the 128 channels. -/
theorem mmR (lhs : FVec Ideal Cert.ReferenceIdeal.S3136x128 .bf16) (rhs : FVec Ideal Cert.ReferenceIdeal.S128x128 .bf16) (r : Fin 3136) (co : Fin 128) :
    matmul (F := Ideal) Cert.ReferenceIdeal.dot_S3136x128_S128x128_S3136x128_1_0_0_1_n_n none lhs rhs
        (constant (F := Ideal) Cert.ReferenceIdeal.S3136x128 .f32 0x00000000#32) (ix2 r co)
      = ∑ ci : Fin 128, lhs (ix2 r ci) * rhs (ix2 ci co) := by
  refine (Ideal.matmul_constant_zero_apply DR none lhs rhs (ix2 r co)).trans ?_
  rw [← Equiv.sum_comp (contrEquiv1 DR 128 rfl rfl).symm]
  refine Finset.sum_congr rfl fun ci _ => ?_
  have hl : DR.lhsIdx (ix2 r co) ((contrEquiv1 DR 128 rfl rfl).symm ci) = ix2 r ci := by
    funext a; apply Fin.ext
    match a with
    | ⟨0, _⟩ => exact DR_lhs0 _ _
    | ⟨1, _⟩ => exact (DR.lhsIdx_val_of_single (cl := 1) rfl _ _).trans (contrEquiv1_symm_val DR 128 rfl rfl ci)
  have hr : DR.rhsIdx (ix2 r co) ((contrEquiv1 DR 128 rfl rfl).symm ci) = ix2 ci co := by
    funext a; apply Fin.ext
    match a with
    | ⟨0, _⟩ => exact (DR.rhsIdx_val_of_single (cr := 0) rfl _ _).trans (contrEquiv1_symm_val DR 128 rfl rfl ci)
    | ⟨1, _⟩ => exact DR_rhs1 _ _
  show lhs (DR.lhsIdx _ _) * rhs (DR.rhsIdx _ _) = _
  rw [hl, hr]

/-- One tap in the 64-channel program: the window at offset (dy, dx), flattened, times a slab, at row p * 56 + q. -/
theorem tapMM_K (v : FVec Ideal Cert.KernelIdeal.S58x58x64 .bf16) (w : FVec Ideal Cert.KernelIdeal.S64x128 .bf16)
    (off : Fin 3 → Nat) (h : Cert.KernelIdeal.S58x58x64.Slices off Cert.KernelIdeal.S56x56x64)
    (dy dx : Nat) (hoff : off = ![dy, dx, 0]) (hdy : dy < 3) (hdx : dx < 3) (p q : Fin 56) (co : Fin 128) :
    matmul (F := Ideal) Cert.KernelIdeal.dot_S3136x64_S64x128_S3136x128_1_0_0_1_n_n none
        (shapeCast Cert.KernelIdeal.S3136x64 (extractStridedSlice Cert.KernelIdeal.S56x56x64 off v h) Cert.KernelIdeal.Gen.shapeCasts_S56x56x64_S3136x64)
        (shapeCast Cert.KernelIdeal.S64x128 w Cert.KernelIdeal.Gen.shapeCasts_S64x128_S64x128)
        (constant (F := Ideal) Cert.KernelIdeal.S3136x128 .f32 0x00000000#32) (ix2 (n0 := 3136) ⟨p.val * 56 + q.val, by omega⟩ co)
      = ∑ ci : Fin 64, v (ix3 (n0 := 58) (n1 := 58) ⟨dy + p.val, by omega⟩ ⟨dx + q.val, by omega⟩ ci) * w (ix2 ci co) := by
  subst hoff
  refine (mmK _ _ _ _).trans (Finset.sum_congr rfl fun ci _ => ?_)
  rw [shapeCast_self]
  refine congrArg (· * _) ?_
  refine (shapeCast_apply _ _ _ (ix3 p q ci) ?_).trans (extractStridedSlice_apply _ _ _ _ _ ?_)
  · rw [Shape.rowMajor_val_three, Shape.rowMajor_val_two]; rfl
  · intro a
    match a with
    | ⟨0, _⟩ => rfl
    | ⟨1, _⟩ => rfl
    | ⟨2, _⟩ => show ci.val = 0 + ci.val; omega

/-- One tap in the 128-channel program. -/
theorem tapMM_R (v : FVec Ideal Cert.ReferenceIdeal.S58x58x128 .bf16) (w : FVec Ideal Cert.ReferenceIdeal.S128x128 .bf16)
    (off : Fin 3 → Nat) (h : Cert.ReferenceIdeal.S58x58x128.Slices off Cert.ReferenceIdeal.S56x56x128)
    (dy dx : Nat) (hoff : off = ![dy, dx, 0]) (hdy : dy < 3) (hdx : dx < 3) (p q : Fin 56) (co : Fin 128) :
    matmul (F := Ideal) Cert.ReferenceIdeal.dot_S3136x128_S128x128_S3136x128_1_0_0_1_n_n none
        (shapeCast Cert.ReferenceIdeal.S3136x128 (extractStridedSlice Cert.ReferenceIdeal.S56x56x128 off v h) Cert.ReferenceIdeal.Gen.shapeCasts_S56x56x128_S3136x128)
        (shapeCast Cert.ReferenceIdeal.S128x128 w Cert.ReferenceIdeal.Gen.shapeCasts_S128x128_S128x128)
        (constant (F := Ideal) Cert.ReferenceIdeal.S3136x128 .f32 0x00000000#32) (ix2 (n0 := 3136) ⟨p.val * 56 + q.val, by omega⟩ co)
      = ∑ ci : Fin 128, v (ix3 (n0 := 58) (n1 := 58) ⟨dy + p.val, by omega⟩ ⟨dx + q.val, by omega⟩ ci) * w (ix2 ci co) := by
  subst hoff
  refine (mmR _ _ _ _).trans (Finset.sum_congr rfl fun ci _ => ?_)
  rw [shapeCast_self]
  refine congrArg (· * _) ?_
  refine (shapeCast_apply _ _ _ (ix3 p q ci) ?_).trans (extractStridedSlice_apply _ _ _ _ _ ?_)
  · rw [Shape.rowMajor_val_three, Shape.rowMajor_val_two]; rfl
  · intro a
    match a with
    | ⟨0, _⟩ => rfl
    | ⟨1, _⟩ => rfl
    | ⟨2, _⟩ => show ci.val = 0 + ci.val; omega

theorem hz4 : (![0, 0, 0, 0] : Fin 4 → Nat) = fun _ => 0 := by
  funext a; fin_cases a <;> rfl

/-- The image block with its unit axis dropped, at a pixel and channel (64 channels). -/
theorem imgK_apply (xK : Vec Ideal Cert.KernelIdeal.S1x58x58x64 .bf16) (a b : Fin 58) (c : Fin 64) :
    Cert.KernelIdeal.Gen.k0_pay2 (View.ld xK Cert.KernelIdeal.Run.r0_x) (ix3 a b c) = xK (ix4 (n0 := 1) 0 a b c) := by
  unfold Cert.KernelIdeal.Gen.k0_pay2
  rw [View.ld_unit_zero hz4]
  simp only [shapeCast_self]
  exact shapeCast_1abc_abc_apply _ _ a b c

/-- The image block with its unit axis dropped, at a pixel and channel (128 channels). -/
theorem imgR_apply (xR : Vec Ideal Cert.ReferenceIdeal.S1x58x58x128 .bf16) (a b : Fin 58) (c : Fin 128) :
    Cert.ReferenceIdeal.Gen.k0_pay3 (View.ld xR Cert.ReferenceIdeal.Run.r0_x) (ix3 a b c) = xR (ix4 (n0 := 1) 0 a b c) := by
  unfold Cert.ReferenceIdeal.Gen.k0_pay3
  rw [View.ld_unit_zero hz4]
  simp only [shapeCast_self]
  exact shapeCast_1abc_abc_apply _ _ a b c

/-- A 64-row slab of conv1's weights, at a row and column: the row offset by the tap's 64 * t. -/
theorem slabK_apply (wK : Vec Ideal Cert.KernelIdeal.S576x128 .bf16) (woff : Fin 2 → Nat)
    (inb : ∀ a, woff a + Cert.KernelIdeal.S64x128.size a ≤ Cert.KernelIdeal.S576x128.size a) (t : Nat) (ht : t < 9) (hw : woff = ![t * 64, 0])
    (ci : Fin 64) (co : Fin 128) :
    View.ld wK (Rect.unit (s := Cert.KernelIdeal.S576x128) woff Cert.KernelIdeal.S64x128.size inb) (ix2 ci co)
      = wK (ix2 (n0 := 576) ⟨t * 64 + ci.val, by omega⟩ co) := by
  subst hw
  refine congrArg wK (funext fun a => Fin.ext ?_)
  match a with
  | ⟨0, _⟩ => show t * 64 + 1 * ci.val = t * 64 + ci.val; omega
  | ⟨1, _⟩ => show 0 + 1 * co.val = co.val; omega

/-- A 128-row slab of conv1's padded weights, at a row and column. -/
theorem slabR_apply (wR : Vec Ideal Cert.ReferenceIdeal.S1152x128 .bf16) (woff : Fin 2 → Nat)
    (inb : ∀ a, woff a + Cert.ReferenceIdeal.S128x128.size a ≤ Cert.ReferenceIdeal.S1152x128.size a) (t : Nat) (ht : t < 9) (hw : woff = ![t * 128, 0])
    (ci : Fin 128) (co : Fin 128) :
    View.ld wR (Rect.unit (s := Cert.ReferenceIdeal.S1152x128) woff Cert.ReferenceIdeal.S128x128.size inb) (ix2 ci co)
      = wR (ix2 (n0 := 1152) ⟨t * 128 + ci.val, by omega⟩ co) := by
  subst hw
  refine congrArg wR (funext fun a => Fin.ext ?_)
  match a with
  | ⟨0, _⟩ => show t * 128 + 1 * ci.val = t * 128 + ci.val; omega
  | ⟨1, _⟩ => show 0 + 1 * co.val = co.val; omega

/-- One tap's contribution in the 64-channel program: pixel (dy + p, dx + q) against slab t, summed over the channels. -/
def tapK (xK : Vec Ideal Cert.KernelIdeal.S1x58x58x64 .bf16) (wK : Vec Ideal Cert.KernelIdeal.S576x128 .bf16)
    (dy dx t : Nat) (hdy : dy < 3) (hdx : dx < 3) (ht : t < 9) (p q : Fin 56) (co : Fin 128) : EReal :=
  ∑ ci : Fin 64, xK (ix4 (n0 := 1) (n1 := 58) (n2 := 58) 0 ⟨dy + p.val, by omega⟩ ⟨dx + q.val, by omega⟩ ci)
    * wK (ix2 (n0 := 576) ⟨t * 64 + ci.val, by omega⟩ co)

/-- One tap's contribution in the 128-channel program. -/
def tapR (xR : Vec Ideal Cert.ReferenceIdeal.S1x58x58x128 .bf16) (wR : Vec Ideal Cert.ReferenceIdeal.S1152x128 .bf16)
    (dy dx t : Nat) (hdy : dy < 3) (hdx : dx < 3) (ht : t < 9) (p q : Fin 56) (co : Fin 128) : EReal :=
  ∑ ci : Fin 128, xR (ix4 (n0 := 1) (n1 := 58) (n2 := 58) 0 ⟨dy + p.val, by omega⟩ ⟨dx + q.val, by omega⟩ ci)
    * wR (ix2 (n0 := 1152) ⟨t * 128 + ci.val, by omega⟩ co)

/-- The 64-channel program's tap product at an index is the tap's channel sum. -/
theorem tapProdK (xK : Vec Ideal Cert.KernelIdeal.S1x58x58x64 .bf16) (wK : Vec Ideal Cert.KernelIdeal.S576x128 .bf16)
    (off : Fin 3 → Nat) (h : Cert.KernelIdeal.S58x58x64.Slices off Cert.KernelIdeal.S56x56x64)
    (woff : Fin 2 → Nat) (inb : ∀ a, woff a + Cert.KernelIdeal.S64x128.size a ≤ Cert.KernelIdeal.S576x128.size a)
    (dy dx t : Nat) (hdy : dy < 3) (hdx : dx < 3) (ht : t < 9) (hoff : off = ![dy, dx, 0]) (hw : woff = ![t * 64, 0]) (p q : Fin 56) (co : Fin 128) :
    matmul (F := Ideal) (φ₁ := .bf16) (φ₂ := .bf16) Cert.KernelIdeal.dot_S3136x64_S64x128_S3136x128_1_0_0_1_n_n none
        (shapeCast Cert.KernelIdeal.S3136x64 (extractStridedSlice Cert.KernelIdeal.S56x56x64 off (Cert.KernelIdeal.Gen.k0_pay2 (View.ld xK Cert.KernelIdeal.Run.r0_x)) h)
          Cert.KernelIdeal.Gen.shapeCasts_S56x56x64_S3136x64)
        (shapeCast Cert.KernelIdeal.S64x128 (View.ld wK (Rect.unit (s := Cert.KernelIdeal.S576x128) woff Cert.KernelIdeal.S64x128.size inb) : Vec Ideal Cert.KernelIdeal.S64x128 .bf16) Cert.KernelIdeal.Gen.shapeCasts_S64x128_S64x128)
        (constant (F := Ideal) Cert.KernelIdeal.S3136x128 .f32 0x00000000#32) (ix2 (n0 := 3136) ⟨p.val * 56 + q.val, by omega⟩ co)
      = tapK xK wK dy dx t hdy hdx ht p q co := by
  refine (tapMM_K _ _ off h dy dx hoff hdy hdx p q co).trans (Finset.sum_congr rfl fun ci _ => ?_)
  rw [imgK_apply, slabK_apply wK woff inb t ht hw ci co]

/-- The 128-channel program's tap product at an index is the tap's channel sum. -/
theorem tapProdR (xR : Vec Ideal Cert.ReferenceIdeal.S1x58x58x128 .bf16) (wR : Vec Ideal Cert.ReferenceIdeal.S1152x128 .bf16)
    (off : Fin 3 → Nat) (h : Cert.ReferenceIdeal.S58x58x128.Slices off Cert.ReferenceIdeal.S56x56x128)
    (woff : Fin 2 → Nat) (inb : ∀ a, woff a + Cert.ReferenceIdeal.S128x128.size a ≤ Cert.ReferenceIdeal.S1152x128.size a)
    (dy dx t : Nat) (hdy : dy < 3) (hdx : dx < 3) (ht : t < 9) (hoff : off = ![dy, dx, 0]) (hw : woff = ![t * 128, 0]) (p q : Fin 56) (co : Fin 128) :
    matmul (F := Ideal) (φ₁ := .bf16) (φ₂ := .bf16) Cert.ReferenceIdeal.dot_S3136x128_S128x128_S3136x128_1_0_0_1_n_n none
        (shapeCast Cert.ReferenceIdeal.S3136x128 (extractStridedSlice Cert.ReferenceIdeal.S56x56x128 off (Cert.ReferenceIdeal.Gen.k0_pay3 (View.ld xR Cert.ReferenceIdeal.Run.r0_x)) h)
          Cert.ReferenceIdeal.Gen.shapeCasts_S56x56x128_S3136x128)
        (shapeCast Cert.ReferenceIdeal.S128x128 (View.ld wR (Rect.unit (s := Cert.ReferenceIdeal.S1152x128) woff Cert.ReferenceIdeal.S128x128.size inb) : Vec Ideal Cert.ReferenceIdeal.S128x128 .bf16) Cert.ReferenceIdeal.Gen.shapeCasts_S128x128_S128x128)
        (constant (F := Ideal) Cert.ReferenceIdeal.S3136x128 .f32 0x00000000#32) (ix2 (n0 := 3136) ⟨p.val * 56 + q.val, by omega⟩ co)
      = tapR xR wR dy dx t hdy hdx ht p q co := by
  refine (tapMM_R _ _ off h dy dx hoff hdy hdx p q co).trans (Finset.sum_congr rfl fun ci _ => ?_)
  rw [imgR_apply, slabR_apply wR woff inb t ht hw ci co]

/-- Under the zero extension of the image and of the weights a tap's sum over 128 channels is its sum over the first 64. -/
theorem tap_ext {xK : Vec Ideal Cert.KernelIdeal.S1x58x58x64 .bf16} {xR : Vec Ideal Cert.ReferenceIdeal.S1x58x58x128 .bf16}
    {wK : Vec Ideal Cert.KernelIdeal.S576x128 .bf16} {wR : Vec Ideal Cert.ReferenceIdeal.S1152x128 .bf16}
    (hx : ExtX xK xR) (hw : ExtW1 wK wR) (dy dx t : Nat) (hdy : dy < 3) (hdx : dx < 3) (ht : t < 9) (p q : Fin 56) (co : Fin 128) :
    tapR xR wR dy dx t hdy hdx ht p q co = tapK xK wK dy dx t hdy hdx ht p q co := by
  unfold tapR tapK
  have hsplit := Fin.sum_univ_add (M := EReal) (a := 64) (b := 64) (fun ci : Fin (64 + 64) =>
    xR (ix4 (n0 := 1) (n1 := 58) (n2 := 58) 0 ⟨dy + p.val, by omega⟩ ⟨dx + q.val, by omega⟩ ci)
      * wR (ix2 (n0 := 1152) ⟨t * 128 + ci.val, by have := ci.isLt; omega⟩ co))
  refine hsplit.trans ?_
  have h2 : ∀ i : Fin 64, xR (ix4 (n0 := 1) (n1 := 58) (n2 := 58) 0 ⟨dy + p.val, by omega⟩ ⟨dx + q.val, by omega⟩ (Fin.natAdd 64 i))
      * wR (ix2 (n0 := 1152) ⟨t * 128 + (Fin.natAdd 64 i).val, by have := i.isLt; simp only [Fin.val_natAdd]; omega⟩ co) = 0 := by
    intro i
    have e := hx ⟨dy + p.val, by omega⟩ ⟨dx + q.val, by omega⟩ (Fin.natAdd 64 i)
    rw [dif_neg (by simp only [Fin.val_natAdd]; omega)] at e
    rw [e, zero_mul]
  rw [Finset.sum_eq_zero (fun i _ => h2 i), add_zero]
  refine Finset.sum_congr rfl fun i _ => ?_
  have e1 := hx ⟨dy + p.val, by omega⟩ ⟨dx + q.val, by omega⟩ (Fin.castAdd 64 i)
  rw [dif_pos (by simp only [Fin.val_castAdd]; exact i.isLt)] at e1
  have e2 := hw ⟨t, ht⟩ (Fin.castAdd 64 i) co
  rw [dif_pos (by simp only [Fin.val_castAdd]; exact i.isLt)] at e2
  exact congrArg₂ (· * ·) e1 e2

end Cert.Bridge

end
-- ==== Proof.BrPass1Conv.lean ====
import proofs.«120137_g2000002162550304_pallasbulk_397_2_alg».proof.Proof.BrPass1Tap

set_option maxRecDepth 16384

noncomputable section

/-! # The first convolution in both programs: the same nine taps

Both programs add the nine tap products left to right onto a zero accumulator. With the image and the weights of one
program the zero extensions of the other's, each tap's sum over 128 channels is the sum over the first 64, so the two
accumulators agree at every pixel and output channel, and so do the blocks the two programs store. -/

namespace Cert.Bridge

open Idealize.ShloMosaic Idealize.ShloMosaic.ValueIdx
open scoped BigOperators

/-- The f32 zero both programs start their accumulators from. -/
def z32 : EReal := (Scalar.ofBits (F := Ideal) .f32 0x00000000#32 : Ideal .f32)

/-- conv1's accumulator at a pixel and output channel in the 64-channel program: nine taps added left to right from zero. -/
def convK (xK : Vec Ideal Cert.KernelIdeal.S1x58x58x64 .bf16) (wK : Vec Ideal Cert.KernelIdeal.S576x128 .bf16) (p q : Fin 56) (co : Fin 128) : EReal :=
  z32
    + tapK xK wK 0 0 0 (by omega) (by omega) (by omega) p q co
    + tapK xK wK 0 1 1 (by omega) (by omega) (by omega) p q co
    + tapK xK wK 0 2 2 (by omega) (by omega) (by omega) p q co
    + tapK xK wK 1 0 3 (by omega) (by omega) (by omega) p q co
    + tapK xK wK 1 1 4 (by omega) (by omega) (by omega) p q co
    + tapK xK wK 1 2 5 (by omega) (by omega) (by omega) p q co
    + tapK xK wK 2 0 6 (by omega) (by omega) (by omega) p q co
    + tapK xK wK 2 1 7 (by omega) (by omega) (by omega) p q co
    + tapK xK wK 2 2 8 (by omega) (by omega) (by omega) p q co

/-- conv1's accumulator at a pixel and output channel in the 128-channel program. -/
def convR (xR : Vec Ideal Cert.ReferenceIdeal.S1x58x58x128 .bf16) (wR : Vec Ideal Cert.ReferenceIdeal.S1152x128 .bf16) (p q : Fin 56) (co : Fin 128) : EReal :=
  z32
    + tapR xR wR 0 0 0 (by omega) (by omega) (by omega) p q co
    + tapR xR wR 0 1 1 (by omega) (by omega) (by omega) p q co
    + tapR xR wR 0 2 2 (by omega) (by omega) (by omega) p q co
    + tapR xR wR 1 0 3 (by omega) (by omega) (by omega) p q co
    + tapR xR wR 1 1 4 (by omega) (by omega) (by omega) p q co
    + tapR xR wR 1 2 5 (by omega) (by omega) (by omega) p q co
    + tapR xR wR 2 0 6 (by omega) (by omega) (by omega) p q co
    + tapR xR wR 2 1 7 (by omega) (by omega) (by omega) p q co
    + tapR xR wR 2 2 8 (by omega) (by omega) (by omega) p q co

/-- Under the zero extensions the two accumulators agree. -/
theorem conv_ext {xK : Vec Ideal Cert.KernelIdeal.S1x58x58x64 .bf16} {xR : Vec Ideal Cert.ReferenceIdeal.S1x58x58x128 .bf16}
    {wK : Vec Ideal Cert.KernelIdeal.S576x128 .bf16} {wR : Vec Ideal Cert.ReferenceIdeal.S1152x128 .bf16}
    (hx : ExtX xK xR) (hw : ExtW1 wK wR) (p q : Fin 56) (co : Fin 128) : convR xR wR p q co = convK xK wK p q co := by
  unfold convR convK
  simp only [tap_ext hx hw]

/-- The 64-channel program's accumulator payload at row p * 56 + q. -/
theorem accK_apply (xK : Vec Ideal Cert.KernelIdeal.S1x58x58x64 .bf16) (wK : Vec Ideal Cert.KernelIdeal.S576x128 .bf16) (p q : Fin 56) (co : Fin 128) :
    Cert.KernelIdeal.Gen.k0_pay6 (F := Ideal) (Cert.KernelIdeal.Gen.k0_pay2 (View.ld xK Cert.KernelIdeal.Run.r0_x))
        (Cert.KernelIdeal.Gen.k0_pay4 (View.ld xK Cert.KernelIdeal.Run.r0_x) (View.ld wK Cert.KernelIdeal.Run.r0_w0) (View.ld wK Cert.KernelIdeal.Run.r0_w1)
          (View.ld wK Cert.KernelIdeal.Run.r0_w2) (View.ld wK Cert.KernelIdeal.Run.r0_w3) (View.ld wK Cert.KernelIdeal.Run.r0_w4))
        (Cert.KernelIdeal.Gen.k0_pay5 (View.ld xK Cert.KernelIdeal.Run.r0_x))
        (View.ld wK Cert.KernelIdeal.Run.r0_w5) (View.ld wK Cert.KernelIdeal.Run.r0_w6) (View.ld wK Cert.KernelIdeal.Run.r0_w7) (View.ld wK Cert.KernelIdeal.Run.r0_w8)
        (ix2 (n0 := 3136) ⟨p.val * 56 + q.val, by omega⟩ co)
      = convK xK wK p q co := by
  unfold Cert.KernelIdeal.Gen.k0_pay6 Cert.KernelIdeal.Gen.k0_pay4 Cert.KernelIdeal.Gen.k0_pay5 Cert.KernelIdeal.Gen.k0_pay3 convK
  simp only [addf_apply, broadcast_apply]
  refine congrArg₂ (· + ·) (congrArg₂ (· + ·) (congrArg₂ (· + ·) (congrArg₂ (· + ·) (congrArg₂ (· + ·)
    (congrArg₂ (· + ·) (congrArg₂ (· + ·) (congrArg₂ (· + ·) (congrArg₂ (· + ·) rfl ?_) ?_) ?_) ?_) ?_) ?_) ?_) ?_) ?_
  · exact tapProdK xK wK ![0, 0, 0] _ ![0, 0] _ 0 0 0 (by omega) (by omega) (by omega) rfl rfl p q co
  · exact tapProdK xK wK ![0, 1, 0] _ ![64, 0] _ 0 1 1 (by omega) (by omega) (by omega) rfl rfl p q co
  · exact tapProdK xK wK ![0, 2, 0] _ ![128, 0] _ 0 2 2 (by omega) (by omega) (by omega) rfl rfl p q co
  · exact tapProdK xK wK ![1, 0, 0] _ ![192, 0] _ 1 0 3 (by omega) (by omega) (by omega) rfl rfl p q co
  · exact tapProdK xK wK ![1, 1, 0] _ ![256, 0] _ 1 1 4 (by omega) (by omega) (by omega) rfl rfl p q co
  · exact tapProdK xK wK ![1, 2, 0] _ ![320, 0] _ 1 2 5 (by omega) (by omega) (by omega) rfl rfl p q co
  · exact tapProdK xK wK ![2, 0, 0] _ ![384, 0] _ 2 0 6 (by omega) (by omega) (by omega) rfl rfl p q co
  · exact tapProdK xK wK ![2, 1, 0] _ ![448, 0] _ 2 1 7 (by omega) (by omega) (by omega) rfl rfl p q co
  · exact tapProdK xK wK ![2, 2, 0] _ ![512, 0] _ 2 2 8 (by omega) (by omega) (by omega) rfl rfl p q co

/-- The 128-channel program's accumulator payload at row p * 56 + q. -/
theorem accR_apply (xR : Vec Ideal Cert.ReferenceIdeal.S1x58x58x128 .bf16) (wR : Vec Ideal Cert.ReferenceIdeal.S1152x128 .bf16) (p q : Fin 56) (co : Fin 128) :
    Cert.ReferenceIdeal.Run.acc0_1 (F := Ideal) xR wR (ix2 (n0 := 3136) ⟨p.val * 56 + q.val, by omega⟩ co) = convR xR wR p q co := by
  unfold Cert.ReferenceIdeal.Run.acc0_1 Cert.ReferenceIdeal.Gen.k0_pay7 Cert.ReferenceIdeal.Gen.k0_pay4 Cert.ReferenceIdeal.Gen.k0_pay6 Cert.ReferenceIdeal.Gen.k0_pay5 convR
  simp only [addf_apply, broadcast_apply]
  refine congrArg₂ (· + ·) (congrArg₂ (· + ·) (congrArg₂ (· + ·) (congrArg₂ (· + ·) (congrArg₂ (· + ·)
    (congrArg₂ (· + ·) (congrArg₂ (· + ·) (congrArg₂ (· + ·) (congrArg₂ (· + ·) rfl ?_) ?_) ?_) ?_) ?_) ?_) ?_) ?_) ?_
  · exact tapProdR xR wR ![0, 0, 0] _ ![0, 0] _ 0 0 0 (by omega) (by omega) (by omega) rfl rfl p q co
  · exact tapProdR xR wR ![0, 1, 0] _ ![128, 0] _ 0 1 1 (by omega) (by omega) (by omega) rfl rfl p q co
  · exact tapProdR xR wR ![0, 2, 0] _ ![256, 0] _ 0 2 2 (by omega) (by omega) (by omega) rfl rfl p q co
  · exact tapProdR xR wR ![1, 0, 0] _ ![384, 0] _ 1 0 3 (by omega) (by omega) (by omega) rfl rfl p q co
  · exact tapProdR xR wR ![1, 1, 0] _ ![512, 0] _ 1 1 4 (by omega) (by omega) (by omega) rfl rfl p q co
  · exact tapProdR xR wR ![1, 2, 0] _ ![640, 0] _ 1 2 5 (by omega) (by omega) (by omega) rfl rfl p q co
  · exact tapProdR xR wR ![2, 0, 0] _ ![768, 0] _ 2 0 6 (by omega) (by omega) (by omega) rfl rfl p q co
  · exact tapProdR xR wR ![2, 1, 0] _ ![896, 0] _ 2 1 7 (by omega) (by omega) (by omega) rfl rfl p q co
  · exact tapProdR xR wR ![2, 2, 0] _ ![1024, 0] _ 2 2 8 (by omega) (by omega) (by omega) rfl rfl p q co

/-- The two accumulators agree at every row of the 3136, not only at rows written p * 56 + q. -/
theorem acc_row_eq {xK : Vec Ideal Cert.KernelIdeal.S1x58x58x64 .bf16} {xR : Vec Ideal Cert.ReferenceIdeal.S1x58x58x128 .bf16}
    {wK : Vec Ideal Cert.KernelIdeal.S576x128 .bf16} {wR : Vec Ideal Cert.ReferenceIdeal.S1152x128 .bf16}
    (hx : ExtX xK xR) (hw : ExtW1 wK wR) (r : Fin 3136) (co : Fin 128) :
    Cert.ReferenceIdeal.Run.acc0_1 (F := Ideal) xR wR (ix2 r co)
      = Cert.KernelIdeal.Gen.k0_pay6 (F := Ideal) (Cert.KernelIdeal.Gen.k0_pay2 (View.ld xK Cert.KernelIdeal.Run.r0_x))
        (Cert.KernelIdeal.Gen.k0_pay4 (View.ld xK Cert.KernelIdeal.Run.r0_x) (View.ld wK Cert.KernelIdeal.Run.r0_w0) (View.ld wK Cert.KernelIdeal.Run.r0_w1)
          (View.ld wK Cert.KernelIdeal.Run.r0_w2) (View.ld wK Cert.KernelIdeal.Run.r0_w3) (View.ld wK Cert.KernelIdeal.Run.r0_w4))
        (Cert.KernelIdeal.Gen.k0_pay5 (View.ld xK Cert.KernelIdeal.Run.r0_x))
        (View.ld wK Cert.KernelIdeal.Run.r0_w5) (View.ld wK Cert.KernelIdeal.Run.r0_w6) (View.ld wK Cert.KernelIdeal.Run.r0_w7) (View.ld wK Cert.KernelIdeal.Run.r0_w8)
        (ix2 r co) := by
  have hr : r = ⟨(⟨r.val / 56, by omega⟩ : Fin 56).val * 56 + (⟨r.val % 56, by omega⟩ : Fin 56).val, by omega⟩ := Fin.ext (by show r.val = r.val / 56 * 56 + r.val % 56; omega)
  rw [hr]
  exact (accR_apply xR wR _ _ co).trans ((conv_ext hx hw _ _ co).trans (accK_apply xK wK _ _ co).symm)

/-- The block the 64-channel program stores, at a pixel and output channel. -/
theorem outK3_apply (xK : Vec Ideal Cert.KernelIdeal.S1x58x58x64 .bf16) (wK : Vec Ideal Cert.KernelIdeal.S576x128 .bf16) (p q : Fin 56) (co : Fin 128) :
    Cert.KernelIdeal.Run.out0_3 (F := Ideal) xK wK (ix4 (n0 := 1) 0 p q co) = convK xK wK p q co := by
  unfold Cert.KernelIdeal.Run.out0_3
  rw [View.canon_unit_zero hz4]
  unfold Cert.KernelIdeal.Gen.k0_pay8
  refine (shapeCast_apply _ _ _ (ix2 (n0 := 3136) ⟨p.val * 56 + q.val, by omega⟩ co) ?_).trans ?_
  · rw [Shape.rowMajor_val_two, Shape.rowMajor_val_four]
    show (p.val * 56 + q.val) * 128 + co.val = ((0 * 56 + p.val) * 56 + q.val) * 128 + co.val
    omega
  · exact accK_apply xK wK p q co

/-- The block the 128-channel program stores, at a pixel and output channel. -/
theorem outR3_apply (xR : Vec Ideal Cert.ReferenceIdeal.S1x58x58x128 .bf16) (wR : Vec Ideal Cert.ReferenceIdeal.S1152x128 .bf16) (p q : Fin 56) (co : Fin 128) :
    Cert.ReferenceIdeal.Run.out0_3 (F := Ideal) xR wR (ix4 (n0 := 1) 0 p q co) = convR xR wR p q co := by
  unfold Cert.ReferenceIdeal.Run.out0_3
  rw [View.canon_unit_zero hz4]
  unfold Cert.ReferenceIdeal.Gen.k0_pay9
  refine (shapeCast_apply _ _ _ (ix2 (n0 := 3136) ⟨p.val * 56 + q.val, by omega⟩ co) ?_).trans ?_
  · rw [Shape.rowMajor_val_two, Shape.rowMajor_val_four]
    show (p.val * 56 + q.val) * 128 + co.val = ((0 * 56 + p.val) * 56 + q.val) * 128 + co.val
    omega
  · exact accR_apply xR wR p q co

/-- The first pass stores the same conv1 block in both programs. -/
theorem pass1_conv {xK : Vec Ideal Cert.KernelIdeal.S1x58x58x64 .bf16} {xR : Vec Ideal Cert.ReferenceIdeal.S1x58x58x128 .bf16}
    {w1K : Vec Ideal Cert.KernelIdeal.S576x128 .bf16} {w1R : Vec Ideal Cert.ReferenceIdeal.S1152x128 .bf16}
    (hx : ExtX xK xR) (hw : ExtW1 w1K w1R) :
    Cert.ReferenceIdeal.Run.out0_3 (F := Ideal) xR w1R = Cert.KernelIdeal.Run.out0_3 (F := Ideal) xK w1K := by
  funext j
  obtain ⟨u, p, q, co, rfl⟩ : ∃ (u : Fin 1) (p q : Fin 56) (co : Fin 128), j = ix4 u p q co := ⟨j 0, j 1, j 2, j 3, eq_ix4 j⟩
  obtain rfl : u = 0 := Fin.ext (by omega)
  exact (outR3_apply xR w1R p q co).trans ((conv_ext hx hw p q co).trans (outK3_apply xK w1K p q co).symm)

end Cert.Bridge

end
-- ==== Proof.BrPass1Short.lean ====
import proofs.«120137_g2000002162550304_pallasbulk_397_2_alg».proof.Proof.BrPass1Conv

set_option maxRecDepth 16384

noncomputable section

/-! # The shortcut product in both programs

The 1x1 shortcut is the centre tap of the padded image, 3136 rows of channels, times the shortcut's weights, into a
zero accumulator. With the image and the weights of one program the zero extensions of the other's, the sum over 128
channels is the sum over the first 64, so the block one program stores is the product the other only takes moments of. -/

namespace Cert.Bridge

open Idealize.ShloMosaic Idealize.ShloMosaic.ValueIdx
open scoped BigOperators

theorem hz2 : (![0, 0] : Fin 2 → Nat) = fun _ => 0 := by
  funext a; fin_cases a <;> rfl

/-- The shortcut product at a pixel and output channel in the 64-channel program. -/
def shortSumK (xK : Vec Ideal Cert.KernelIdeal.S1x58x58x64 .bf16) (wsK : Vec Ideal Cert.KernelIdeal.S64x128 .bf16) (p q : Fin 56) (co : Fin 128) : EReal :=
  ∑ ci : Fin 64, xK (ix4 (n0 := 1) (n1 := 58) (n2 := 58) 0 ⟨1 + p.val, by omega⟩ ⟨1 + q.val, by omega⟩ ci) * wsK (ix2 ci co)

/-- The shortcut product at a pixel and output channel in the 128-channel program. -/
def shortSumR (xR : Vec Ideal Cert.ReferenceIdeal.S1x58x58x128 .bf16) (wsR : Vec Ideal Cert.ReferenceIdeal.S128x128 .bf16) (p q : Fin 56) (co : Fin 128) : EReal :=
  ∑ ci : Fin 128, xR (ix4 (n0 := 1) (n1 := 58) (n2 := 58) 0 ⟨1 + p.val, by omega⟩ ⟨1 + q.val, by omega⟩ ci) * wsR (ix2 ci co)

/-- Under the zero extensions the two shortcut products agree. -/
theorem short_ext {xK : Vec Ideal Cert.KernelIdeal.S1x58x58x64 .bf16} {xR : Vec Ideal Cert.ReferenceIdeal.S1x58x58x128 .bf16}
    {wsK : Vec Ideal Cert.KernelIdeal.S64x128 .bf16} {wsR : Vec Ideal Cert.ReferenceIdeal.S128x128 .bf16}
    (hx : ExtX xK xR) (hs : ExtWs wsK wsR) (p q : Fin 56) (co : Fin 128) : shortSumR xR wsR p q co = shortSumK xK wsK p q co := by
  unfold shortSumR shortSumK
  have hsplit := Fin.sum_univ_add (M := EReal) (a := 64) (b := 64) (fun ci : Fin (64 + 64) =>
    xR (ix4 (n0 := 1) (n1 := 58) (n2 := 58) 0 ⟨1 + p.val, by omega⟩ ⟨1 + q.val, by omega⟩ ci) * wsR (ix2 (n0 := 128) ci co))
  refine hsplit.trans ?_
  have h2 : ∀ i : Fin 64, xR (ix4 (n0 := 1) (n1 := 58) (n2 := 58) 0 ⟨1 + p.val, by omega⟩ ⟨1 + q.val, by omega⟩ (Fin.natAdd 64 i))
      * wsR (ix2 (n0 := 128) (Fin.natAdd 64 i) co) = 0 := by
    intro i
    have e := hx ⟨1 + p.val, by omega⟩ ⟨1 + q.val, by omega⟩ (Fin.natAdd 64 i)
    rw [dif_neg (by simp only [Fin.val_natAdd]; omega)] at e
    rw [e, zero_mul]
  rw [Finset.sum_eq_zero (fun i _ => h2 i), add_zero]
  refine Finset.sum_congr rfl fun i _ => ?_
  have e1 := hx ⟨1 + p.val, by omega⟩ ⟨1 + q.val, by omega⟩ (Fin.castAdd 64 i)
  rw [dif_pos (by simp only [Fin.val_castAdd]; exact i.isLt)] at e1
  have e2 := hs (Fin.castAdd 64 i) co
  rw [dif_pos (by simp only [Fin.val_castAdd]; exact i.isLt)] at e2
  exact congrArg₂ (· * ·) e1 e2

/-- The 64-channel program's shortcut product at row p * 56 + q. -/
theorem shortK_apply (xK : Vec Ideal Cert.KernelIdeal.S1x58x58x64 .bf16) (wsK : Vec Ideal Cert.KernelIdeal.S64x128 .bf16) (p q : Fin 56) (co : Fin 128) :
    shortK xK wsK (ix2 (n0 := 3136) ⟨p.val * 56 + q.val, by omega⟩ co) = shortSumK xK wsK p q co := by
  unfold shortK Cert.KernelIdeal.Gen.k0_pay7 Cert.KernelIdeal.Gen.k0_pay3 shortSumK
  refine (tapMM_K _ _ ![1, 1, 0] _ 1 1 rfl (by omega) (by omega) p q co).trans (Finset.sum_congr rfl fun ci _ => ?_)
  rw [imgK_apply, View.ld_unit_zero hz2]

/-- The 128-channel program's shortcut accumulator at row p * 56 + q. -/
theorem shortR_apply (xR : Vec Ideal Cert.ReferenceIdeal.S1x58x58x128 .bf16) (wsR : Vec Ideal Cert.ReferenceIdeal.S128x128 .bf16) (p q : Fin 56) (co : Fin 128) :
    Cert.ReferenceIdeal.Run.acc0_s (F := Ideal) xR wsR (ix2 (n0 := 3136) ⟨p.val * 56 + q.val, by omega⟩ co) = shortSumR xR wsR p q co := by
  unfold Cert.ReferenceIdeal.Run.acc0_s Cert.ReferenceIdeal.Gen.k0_pay8 Cert.ReferenceIdeal.Gen.k0_pay5 shortSumR
  refine (tapMM_R _ _ ![1, 1, 0] _ 1 1 rfl (by omega) (by omega) p q co).trans (Finset.sum_congr rfl fun ci _ => ?_)
  rw [imgR_apply, View.ld_unit_zero hz2]

/-- The two shortcut accumulators agree at every row of the 3136. -/
theorem short_row_eq {xK : Vec Ideal Cert.KernelIdeal.S1x58x58x64 .bf16} {xR : Vec Ideal Cert.ReferenceIdeal.S1x58x58x128 .bf16}
    {wsK : Vec Ideal Cert.KernelIdeal.S64x128 .bf16} {wsR : Vec Ideal Cert.ReferenceIdeal.S128x128 .bf16}
    (hx : ExtX xK xR) (hs : ExtWs wsK wsR) (r : Fin 3136) (co : Fin 128) :
    Cert.ReferenceIdeal.Run.acc0_s (F := Ideal) xR wsR (ix2 r co) = shortK xK wsK (ix2 r co) := by
  have hr : r = ⟨(⟨r.val / 56, by omega⟩ : Fin 56).val * 56 + (⟨r.val % 56, by omega⟩ : Fin 56).val, by omega⟩ := Fin.ext (by show r.val = r.val / 56 * 56 + r.val % 56; omega)
  rw [hr]
  exact (shortR_apply xR wsR _ _ co).trans ((short_ext hx hs _ _ co).trans (shortK_apply xK wsK _ _ co).symm)

/-- The shortcut block the 128-channel program stores is the 64-channel program's shortcut product. -/
theorem pass1_short {xK : Vec Ideal Cert.KernelIdeal.S1x58x58x64 .bf16} {xR : Vec Ideal Cert.ReferenceIdeal.S1x58x58x128 .bf16}
    {wsK : Vec Ideal Cert.KernelIdeal.S64x128 .bf16} {wsR : Vec Ideal Cert.ReferenceIdeal.S128x128 .bf16}
    (hx : ExtX xK xR) (hs : ExtWs wsK wsR) (p q : Fin 56) (co : Fin 128) :
    Cert.ReferenceIdeal.Run.out0_4 (F := Ideal) xR wsR (ix4 (n0 := 1) 0 p q co)
      = shortK xK wsK (ix2 (n0 := 3136) ⟨p.val * 56 + q.val, by omega⟩ co) := by
  unfold Cert.ReferenceIdeal.Run.out0_4
  rw [View.canon_unit_zero hz4]
  unfold Cert.ReferenceIdeal.Gen.k0_pay10
  refine (shapeCast_apply _ _ _ (ix2 (n0 := 3136) ⟨p.val * 56 + q.val, by omega⟩ co) ?_).trans ?_
  · rw [Shape.rowMajor_val_two, Shape.rowMajor_val_four]
    show (p.val * 56 + q.val) * 128 + co.val = ((0 * 56 + p.val) * 56 + q.val) * 128 + co.val
    omega
  · exact (shortR_apply xR wsR p q co).trans ((short_ext hx hs p q co).trans (shortK_apply xK wsK p q co).symm)

end Cert.Bridge

end
-- ==== Proof.BrPass1.lean ====
import proofs.«120137_g2000002162550304_pallasbulk_397_2_alg».proof.Proof.BrPass1Short

set_option maxRecDepth 16384

noncomputable section

/-! # The moment rows of the first pass in both programs

Both programs take four column sums over the 3136 rows of one image: of conv1's accumulator, of its square, of the
shortcut product and of its square. One program adds the four rows to a running block; the other stores them as the
first four rows of an eight-row block. The accumulators agree row by row, so the sums do. -/

namespace Cert.Bridge

open Idealize.ShloMosaic Idealize.ShloMosaic.ValueIdx
open scoped BigOperators

theorem hz3 : (![0, 0, 0] : Fin 3 → Nat) = fun _ => 0 := by
  funext a; fin_cases a <;> rfl

/-- A column sum kept as one row: the reduction over the 3136 rows, read at row 0 and a column. -/
theorem colsum_apply (v : FVec Ideal (⟨2, ![3136, 128]⟩ : Shape) .f32) (h : (⟨2, ![3136, 128]⟩ : Shape).Reduces [0] ⟨1, ![128]⟩)
    (hφ : FKind.Formats .f32) (hacc : (0x00000000#32 : BitVec (FTy.f32).bits) = FKind.add.neutral .f32 hφ)
    (hc : (⟨1, ![128]⟩ : Shape).ShapeCasts ⟨2, ![1, 128]⟩) (co : Fin 128) :
    shapeCast ⟨2, ![1, 128]⟩ (multiReduction (F := Ideal) .add [0] ⟨1, ![128]⟩ v 0x00000000#32 h hφ hacc) hc (ix2 (n0 := 1) 0 co)
      = ∑ r : Fin 3136, v (ix2 r co) := by
  refine (shapeCast_a_1a_apply _ hc 0 co).trans ?_
  refine (Ideal.multiReduction_add_single v 0x00000000#32 h hφ hacc (ix1 co)).trans ?_
  refine Finset.sum_congr rfl fun r _ => congrArg v (funext fun c => Fin.ext ?_)
  match c with
  | ⟨0, _⟩ => rfl
  | ⟨1, _⟩ => rfl

/-- conv1's accumulator in the 64-channel program, as the payload spells it. -/
abbrev accK (xK : Vec Ideal Cert.KernelIdeal.S1x58x58x64 .bf16) (wK : Vec Ideal Cert.KernelIdeal.S576x128 .bf16) : FVec Ideal Cert.KernelIdeal.S3136x128 .f32 :=
  Cert.KernelIdeal.Gen.k0_pay6 (F := Ideal) (Cert.KernelIdeal.Gen.k0_pay2 (View.ld xK Cert.KernelIdeal.Run.r0_x))
    (Cert.KernelIdeal.Gen.k0_pay4 (View.ld xK Cert.KernelIdeal.Run.r0_x) (View.ld wK Cert.KernelIdeal.Run.r0_w0) (View.ld wK Cert.KernelIdeal.Run.r0_w1)
      (View.ld wK Cert.KernelIdeal.Run.r0_w2) (View.ld wK Cert.KernelIdeal.Run.r0_w3) (View.ld wK Cert.KernelIdeal.Run.r0_w4))
    (Cert.KernelIdeal.Gen.k0_pay5 (View.ld xK Cert.KernelIdeal.Run.r0_x))
    (View.ld wK Cert.KernelIdeal.Run.r0_w5) (View.ld wK Cert.KernelIdeal.Run.r0_w6) (View.ld wK Cert.KernelIdeal.Run.r0_w7) (View.ld wK Cert.KernelIdeal.Run.r0_w8)

/-- The four moment rows of an image from its two accumulators: sums, then sums of squares. -/
def momRows (a1 a2 : (⟨2, ![3136, 128]⟩ : Shape).Idx → EReal) (co : Fin 128) : Fin 4 → EReal :=
  ![∑ r : Fin 3136, a1 (ix2 r co), ∑ r : Fin 3136, a1 (ix2 r co) * a1 (ix2 r co),
    ∑ r : Fin 3136, a2 (ix2 r co), ∑ r : Fin 3136, a2 (ix2 r co) * a2 (ix2 r co)]

/-- The 128-channel program's moments payload: the running block plus the four moment rows. -/
theorem rowsR_apply (a1 a2 : FVec Ideal Cert.ReferenceIdeal.S3136x128 .f32) (s : Vec Ideal Cert.ReferenceIdeal.S4x128 .f32) (row : Fin 4) (co : Fin 128) :
    Cert.ReferenceIdeal.Gen.k0_pay1 (F := Ideal) a1 a2 s (ix2 row co) = s (ix2 row co) + momRows a1 a2 co row := by
  unfold Cert.ReferenceIdeal.Gen.k0_pay1
  refine (addf_apply _ _ _).trans (congrArg₂ (· + ·) ?_ ?_)
  · rw [shapeCast_self]
  · have hi : ∀ (k : Fin 4) (b : Fin 2), b.cast (rfl : (2 : Nat) = 2) ≠ (0 : Fin 2) →
        ((ix2 (n0 := 1) (n1 := 128) 0 co) b).val = ((ix2 (n0 := 4) (n1 := 128) k co) (b.cast rfl)).val := by
      intro k b hb
      match b with
      | ⟨0, _⟩ => exact absurd rfl hb
      | ⟨1, _⟩ => rfl
    match row with
    | ⟨0, _⟩ =>
      refine Eq.trans (concatenate_apply_piece (0 : Fin 2) _ _ (ix2 (n0 := 4) 0 co) 0 (by show (0 : Nat) < 4; omega) Cert.ReferenceIdeal.S1x128 _ rfl rfl 0 rfl (ix2 (n0 := 1) 0 co) (hi 0) rfl) ?_
      exact colsum_apply a1 _ _ _ _ co
    | ⟨1, _⟩ =>
      refine Eq.trans (concatenate_apply_piece (0 : Fin 2) _ _ (ix2 (n0 := 4) 1 co) 1 (by show (1 : Nat) < 4; omega) Cert.ReferenceIdeal.S1x128 _ rfl rfl 1 rfl (ix2 (n0 := 1) 0 co) (hi 1) rfl) ?_
      exact colsum_apply (mulf a1 a1) _ _ _ _ co
    | ⟨2, _⟩ =>
      refine Eq.trans (concatenate_apply_piece (0 : Fin 2) _ _ (ix2 (n0 := 4) 2 co) 2 (by show (2 : Nat) < 4; omega) Cert.ReferenceIdeal.S1x128 _ rfl rfl 2 rfl (ix2 (n0 := 1) 0 co) (hi 2) rfl) ?_
      exact colsum_apply a2 _ _ _ _ co
    | ⟨3, _⟩ =>
      refine Eq.trans (concatenate_apply_piece (0 : Fin 2) _ _ (ix2 (n0 := 4) 3 co) 3 (by show (3 : Nat) < 4; omega) Cert.ReferenceIdeal.S1x128 _ rfl rfl 3 rfl (ix2 (n0 := 1) 0 co) (hi 3) rfl) ?_
      exact colsum_apply (mulf a2 a2) _ _ _ _ co

/-- The 64-channel program's moments payload at one of its first four rows: that row's one-row piece. -/
theorem rowsK_apply (v0 v1 v2 v3 : FVec Ideal Cert.KernelIdeal.S1x128 .f32) (c : Ideal .f32) (row : Fin 4) (co : Fin 128) :
    Cert.KernelIdeal.Gen.k0_pay1 (F := Ideal) v0 v1 v2 v3 c (ix3 (n0 := 1) (n1 := 8) 0 ⟨row.val, by omega⟩ co)
      = ![v0, v1, v2, v3] row (ix2 (n0 := 1) 0 co) := by
  unfold Cert.KernelIdeal.Gen.k0_pay1
  refine (shapeCast_ab_1ab_apply _ _ 0 _ co).trans ?_
  have hi : ∀ (k : Fin 8) (b : Fin 2), b.cast (rfl : (2 : Nat) = 2) ≠ (0 : Fin 2) →
      ((ix2 (n0 := 1) (n1 := 128) 0 co) b).val = ((ix2 (n0 := 8) (n1 := 128) k co) (b.cast rfl)).val := by
    intro k b hb
    match b with
    | ⟨0, _⟩ => exact absurd rfl hb
    | ⟨1, _⟩ => rfl
  match row with
  | ⟨0, _⟩ =>
    refine Eq.trans (concatenate_apply_piece (0 : Fin 2) _ _ (ix2 (n0 := 8) 0 co) 0 (by show (0 : Nat) < 5; omega) Cert.KernelIdeal.S1x128 v0 rfl rfl 0 rfl (ix2 (n0 := 1) 0 co) (hi 0) rfl) ?_
    rfl
  | ⟨1, _⟩ =>
    refine Eq.trans (concatenate_apply_piece (0 : Fin 2) _ _ (ix2 (n0 := 8) 1 co) 1 (by show (1 : Nat) < 5; omega) Cert.KernelIdeal.S1x128 v1 rfl rfl 1 rfl (ix2 (n0 := 1) 0 co) (hi 1) rfl) ?_
    rfl
  | ⟨2, _⟩ =>
    refine Eq.trans (concatenate_apply_piece (0 : Fin 2) _ _ (ix2 (n0 := 8) 2 co) 2 (by show (2 : Nat) < 5; omega) Cert.KernelIdeal.S1x128 v2 rfl rfl 2 rfl (ix2 (n0 := 1) 0 co) (hi 2) rfl) ?_
    rfl
  | ⟨3, _⟩ =>
    refine Eq.trans (concatenate_apply_piece (0 : Fin 2) _ _ (ix2 (n0 := 8) 3 co) 3 (by show (3 : Nat) < 5; omega) Cert.KernelIdeal.S1x128 v3 rfl rfl 3 rfl (ix2 (n0 := 1) 0 co) (hi 3) rfl) ?_
    rfl

/-- The 64-channel program's moments block at one of its first four rows: the moment rows of its two accumulators. -/
theorem momK_apply (xK : Vec Ideal Cert.KernelIdeal.S1x58x58x64 .bf16) (w1K : Vec Ideal Cert.KernelIdeal.S576x128 .bf16)
    (wsK : Vec Ideal Cert.KernelIdeal.S64x128 .bf16) (row : Fin 4) (co : Fin 128) :
    Cert.KernelIdeal.Run.out0_4 (F := Ideal) xK w1K wsK (ix3 (n0 := 1) (n1 := 8) 0 ⟨row.val, by omega⟩ co)
      = momRows (accK xK w1K) (shortK xK wsK) co row := by
  unfold Cert.KernelIdeal.Run.out0_4
  rw [View.canon_unit_zero hz3]
  refine (rowsK_apply _ _ _ _ _ row co).trans ?_
  match row with
  | ⟨0, _⟩ =>
    show Cert.KernelIdeal.Gen.k0_pay9 _ _ _ _ _ _ _ (ix2 (n0 := 1) 0 co) = ∑ r : Fin 3136, accK xK w1K (ix2 r co)
    unfold Cert.KernelIdeal.Gen.k0_pay9
    exact colsum_apply (accK xK w1K) _ _ _ _ co
  | ⟨1, _⟩ =>
    show Cert.KernelIdeal.Gen.k0_pay10 _ _ _ _ _ _ _ (ix2 (n0 := 1) 0 co) = ∑ r : Fin 3136, accK xK w1K (ix2 r co) * accK xK w1K (ix2 r co)
    unfold Cert.KernelIdeal.Gen.k0_pay10
    exact colsum_apply (mulf (accK xK w1K) (accK xK w1K)) _ _ _ _ co
  | ⟨2, _⟩ =>
    show Cert.KernelIdeal.Gen.k0_pay11 _ _ (ix2 (n0 := 1) 0 co) = ∑ r : Fin 3136, shortK xK wsK (ix2 r co)
    unfold Cert.KernelIdeal.Gen.k0_pay11
    exact colsum_apply (shortK xK wsK) _ _ _ _ co
  | ⟨3, _⟩ =>
    show Cert.KernelIdeal.Gen.k0_pay12 _ _ (ix2 (n0 := 1) 0 co) = ∑ r : Fin 3136, shortK xK wsK (ix2 r co) * shortK xK wsK (ix2 r co)
    unfold Cert.KernelIdeal.Gen.k0_pay12
    exact colsum_apply (mulf (shortK xK wsK) (shortK xK wsK)) _ _ _ _ co

/-- The first pass's moments: the 128-channel program leaves its running block plus the four rows the 64-channel program stores. -/
theorem pass1_moments {xK : Vec Ideal Cert.KernelIdeal.S1x58x58x64 .bf16} {xR : Vec Ideal Cert.ReferenceIdeal.S1x58x58x128 .bf16}
    {w1K : Vec Ideal Cert.KernelIdeal.S576x128 .bf16} {w1R : Vec Ideal Cert.ReferenceIdeal.S1152x128 .bf16}
    {wsK : Vec Ideal Cert.KernelIdeal.S64x128 .bf16} {wsR : Vec Ideal Cert.ReferenceIdeal.S128x128 .bf16}
    (hx : ExtX xK xR) (hw : ExtW1 w1K w1R) (hs : ExtWs wsK wsR) (s : Vec Ideal Cert.ReferenceIdeal.S4x128 .f32) (row : Fin 4) (co : Fin 128) :
    Cert.ReferenceIdeal.Run.out0_5 (F := Ideal) xR w1R wsR s (ix2 row co)
      = s (ix2 row co) + Cert.KernelIdeal.Run.out0_4 (F := Ideal) xK w1K wsK (ix3 (n0 := 1) (n1 := 8) 0 ⟨row.val, by omega⟩ co) := by
  unfold Cert.ReferenceIdeal.Run.out0_5
  rw [View.canon_unit_zero hz2, rowsR_apply, View.ld_unit_zero hz2, momK_apply]
  refine congrArg (s (ix2 row co) + ·) ?_
  have h1 : ∀ r : Fin 3136, Cert.ReferenceIdeal.Run.acc0_1 (F := Ideal) xR w1R (ix2 r co) = accK xK w1K (ix2 r co) := fun r => acc_row_eq hx hw r co
  have h2 : ∀ r : Fin 3136, Cert.ReferenceIdeal.Run.acc0_s (F := Ideal) xR wsR (ix2 r co) = shortK xK wsK (ix2 r co) := fun r => short_row_eq hx hs r co
  unfold momRows
  simp only [h1, h2]

end Cert.Bridge

end
-- ==== Proof.BrBlocksR.lean ====
import proofs.«120137_g2000002162550304_pallasbulk_397_2_alg».proof.Proof.RIArrays

set_option maxRecDepth 16384

noncomputable section

/-! # The passes' input blocks

An operand that moves with the grid is read one image at a time: its block at point `n` is the array at `(n, …)`. An
operand that stays (weights, coefficient rows) is one block, the whole array, at every point. -/

namespace Cert.ReferenceIdeal.Run

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
variable {F : FTy → Type} [FloatOps F]

variable (V : (c : Dev nD) → (b : Ref sig .tc) → Buf (Elt F) ((c : Thread nD τ).loc b))

theorem idxIn0_0 : ∀ t : Fin cfg0.N, win0_0.index t (0 : Fin 4) = t.val ∧ win0_0.index t (1 : Fin 4) = 0 ∧ win0_0.index t (2 : Fin 4) = 0 ∧ win0_0.index t (3 : Fin 4) = 0 :=
  (by decide +kernel : ∀ t : Fin grid0.N, _)
/-- Window 0 of pass 1 at image `n`: the array at `(n, …)`. -/
theorem iblk0_0_eq (c : Dev nD) (n : Fin 32) :
    iblk0 V c 0 (pt0 n) = fun y => V c main_v2 (ix4 n (y 1) (y 2) (y 3)) := by
  funext y
  show V c main_v2 (((cfg0.win 0).blk (pt0 n)).view.emb y) = _
  obtain ⟨e0, e1, e2, e3⟩ := idxIn0_0 (pt0 n)
  have hy0 : (y 0).val < 1 := (y 0).isLt
  refine congrArg _ (funext fun a => Fin.ext (match a with
    | ⟨0, _⟩ => by show win0_0.index (pt0 n) (0 : Fin 4) * 1 + 1 * (y 0).val = n.val; rw [e0]; show n.val * 1 + 1 * (y 0).val = n.val; omega
    | ⟨1, _⟩ => by show win0_0.index (pt0 n) (1 : Fin 4) * 58 + 1 * (y 1).val = (y 1).val; rw [e1]; omega
    | ⟨2, _⟩ => by show win0_0.index (pt0 n) (2 : Fin 4) * 58 + 1 * (y 2).val = (y 2).val; rw [e2]; omega
    | ⟨3, _⟩ => by show win0_0.index (pt0 n) (3 : Fin 4) * 128 + 1 * (y 3).val = (y 3).val; rw [e3]; omega))

theorem idxIn0_1 : ∀ t : Fin cfg0.N, win0_1.index t (0 : Fin 2) = 0 ∧ win0_1.index t (1 : Fin 2) = 0 :=
  (by decide +kernel : ∀ t : Fin grid0.N, _)
/-- Window 1 of pass 1 stays: its block is the whole array at every point. -/
theorem iblk0_1_eq (c : Dev nD) (t : Fin cfg0.N) : iblk0 V c 1 t = V c main_v5 := by
  funext y
  show V c main_v5 (((cfg0.win 1).blk t).view.emb y) = V c main_v5 y
  obtain ⟨e0, e1⟩ := idxIn0_1 t
  refine congrArg _ (funext fun a => Fin.ext (match a with
    | ⟨0, _⟩ => by show win0_1.index t (0 : Fin 2) * 1152 + 1 * (y 0).val = (y 0).val; rw [e0]; omega
    | ⟨1, _⟩ => by show win0_1.index t (1 : Fin 2) * 128 + 1 * (y 1).val = (y 1).val; rw [e1]; omega))

theorem idxIn0_2 : ∀ t : Fin cfg0.N, win0_2.index t (0 : Fin 2) = 0 ∧ win0_2.index t (1 : Fin 2) = 0 :=
  (by decide +kernel : ∀ t : Fin grid0.N, _)
/-- Window 2 of pass 1 stays: its block is the whole array at every point. -/
theorem iblk0_2_eq (c : Dev nD) (t : Fin cfg0.N) : iblk0 V c 2 t = V c main_v10 := by
  funext y
  show V c main_v10 (((cfg0.win 2).blk t).view.emb y) = V c main_v10 y
  obtain ⟨e0, e1⟩ := idxIn0_2 t
  refine congrArg _ (funext fun a => Fin.ext (match a with
    | ⟨0, _⟩ => by show win0_2.index t (0 : Fin 2) * 128 + 1 * (y 0).val = (y 0).val; rw [e0]; omega
    | ⟨1, _⟩ => by show win0_2.index t (1 : Fin 2) * 128 + 1 * (y 1).val = (y 1).val; rw [e1]; omega))

theorem idxIn1_0 : ∀ t : Fin cfg1.N, win1_0.index t (0 : Fin 4) = t.val ∧ win1_0.index t (1 : Fin 4) = 0 ∧ win1_0.index t (2 : Fin 4) = 0 ∧ win1_0.index t (3 : Fin 4) = 0 :=
  (by decide +kernel : ∀ t : Fin grid1.N, _)
/-- Window 0 of pass 2 at image `n`: the array at `(n, …)`. -/
theorem iblk1_0_eq (c : Dev nD) (n : Fin 32) :
    iblk1 V c 0 (pt1 n) = fun y => V c main_v17_0 (ix4 n (y 1) (y 2) (y 3)) := by
  funext y
  show V c main_v17_0 (((cfg1.win 0).blk (pt1 n)).view.emb y) = _
  obtain ⟨e0, e1, e2, e3⟩ := idxIn1_0 (pt1 n)
  have hy0 : (y 0).val < 1 := (y 0).isLt
  refine congrArg _ (funext fun a => Fin.ext (match a with
    | ⟨0, _⟩ => by show win1_0.index (pt1 n) (0 : Fin 4) * 1 + 1 * (y 0).val = n.val; rw [e0]; show n.val * 1 + 1 * (y 0).val = n.val; omega
    | ⟨1, _⟩ => by show win1_0.index (pt1 n) (1 : Fin 4) * 56 + 1 * (y 1).val = (y 1).val; rw [e1]; omega
    | ⟨2, _⟩ => by show win1_0.index (pt1 n) (2 : Fin 4) * 56 + 1 * (y 2).val = (y 2).val; rw [e2]; omega
    | ⟨3, _⟩ => by show win1_0.index (pt1 n) (3 : Fin 4) * 128 + 1 * (y 3).val = (y 3).val; rw [e3]; omega))

theorem idxIn1_1 : ∀ t : Fin cfg1.N, win1_1.index t (0 : Fin 2) = 0 ∧ win1_1.index t (1 : Fin 2) = 0 :=
  (by decide +kernel : ∀ t : Fin grid1.N, _)
/-- Window 1 of pass 2 stays: its block is the whole array at every point. -/
theorem iblk1_1_eq (c : Dev nD) (t : Fin cfg1.N) : iblk1 V c 1 t = V c main_v34 := by
  funext y
  show V c main_v34 (((cfg1.win 1).blk t).view.emb y) = V c main_v34 y
  obtain ⟨e0, e1⟩ := idxIn1_1 t
  refine congrArg _ (funext fun a => Fin.ext (match a with
    | ⟨0, _⟩ => by show win1_1.index t (0 : Fin 2) * 1 + 1 * (y 0).val = (y 0).val; rw [e0]; omega
    | ⟨1, _⟩ => by show win1_1.index t (1 : Fin 2) * 128 + 1 * (y 1).val = (y 1).val; rw [e1]; omega))

theorem idxIn1_2 : ∀ t : Fin cfg1.N, win1_2.index t (0 : Fin 2) = 0 ∧ win1_2.index t (1 : Fin 2) = 0 :=
  (by decide +kernel : ∀ t : Fin grid1.N, _)
/-- Window 2 of pass 2 stays: its block is the whole array at every point. -/
theorem iblk1_2_eq (c : Dev nD) (t : Fin cfg1.N) : iblk1 V c 2 t = V c main_v37 := by
  funext y
  show V c main_v37 (((cfg1.win 2).blk t).view.emb y) = V c main_v37 y
  obtain ⟨e0, e1⟩ := idxIn1_2 t
  refine congrArg _ (funext fun a => Fin.ext (match a with
    | ⟨0, _⟩ => by show win1_2.index t (0 : Fin 2) * 1 + 1 * (y 0).val = (y 0).val; rw [e0]; omega
    | ⟨1, _⟩ => by show win1_2.index t (1 : Fin 2) * 128 + 1 * (y 1).val = (y 1).val; rw [e1]; omega))

theorem idxIn1_3 : ∀ t : Fin cfg1.N, win1_3.index t (0 : Fin 2) = 0 ∧ win1_3.index t (1 : Fin 2) = 0 :=
  (by decide +kernel : ∀ t : Fin grid1.N, _)
/-- Window 3 of pass 2 stays: its block is the whole array at every point. -/
theorem iblk1_3_eq (c : Dev nD) (t : Fin cfg1.N) : iblk1 V c 3 t = V c main_v8 := by
  funext y
  show V c main_v8 (((cfg1.win 3).blk t).view.emb y) = V c main_v8 y
  obtain ⟨e0, e1⟩ := idxIn1_3 t
  refine congrArg _ (funext fun a => Fin.ext (match a with
    | ⟨0, _⟩ => by show win1_3.index t (0 : Fin 2) * 1152 + 1 * (y 0).val = (y 0).val; rw [e0]; omega
    | ⟨1, _⟩ => by show win1_3.index t (1 : Fin 2) * 128 + 1 * (y 1).val = (y 1).val; rw [e1]; omega))

theorem idxIn2_0 : ∀ t : Fin cfg2.N, win2_0.index t (0 : Fin 4) = t.val ∧ win2_0.index t (1 : Fin 4) = 0 ∧ win2_0.index t (2 : Fin 4) = 0 ∧ win2_0.index t (3 : Fin 4) = 0 :=
  (by decide +kernel : ∀ t : Fin grid2.N, _)
/-- Window 0 of pass 3 at image `n`: the array at `(n, …)`. -/
theorem iblk2_0_eq (c : Dev nD) (n : Fin 32) :
    iblk2 V c 0 (pt2 n) = fun y => V c main_v58_0 (ix4 n (y 1) (y 2) (y 3)) := by
  funext y
  show V c main_v58_0 (((cfg2.win 0).blk (pt2 n)).view.emb y) = _
  obtain ⟨e0, e1, e2, e3⟩ := idxIn2_0 (pt2 n)
  have hy0 : (y 0).val < 1 := (y 0).isLt
  refine congrArg _ (funext fun a => Fin.ext (match a with
    | ⟨0, _⟩ => by show win2_0.index (pt2 n) (0 : Fin 4) * 1 + 1 * (y 0).val = n.val; rw [e0]; show n.val * 1 + 1 * (y 0).val = n.val; omega
    | ⟨1, _⟩ => by show win2_0.index (pt2 n) (1 : Fin 4) * 56 + 1 * (y 1).val = (y 1).val; rw [e1]; omega
    | ⟨2, _⟩ => by show win2_0.index (pt2 n) (2 : Fin 4) * 56 + 1 * (y 2).val = (y 2).val; rw [e2]; omega
    | ⟨3, _⟩ => by show win2_0.index (pt2 n) (3 : Fin 4) * 128 + 1 * (y 3).val = (y 3).val; rw [e3]; omega))

theorem idxIn2_1 : ∀ t : Fin cfg2.N, win2_1.index t (0 : Fin 4) = t.val ∧ win2_1.index t (1 : Fin 4) = 0 ∧ win2_1.index t (2 : Fin 4) = 0 ∧ win2_1.index t (3 : Fin 4) = 0 :=
  (by decide +kernel : ∀ t : Fin grid2.N, _)
/-- Window 1 of pass 3 at image `n`: the array at `(n, …)`. -/
theorem iblk2_1_eq (c : Dev nD) (n : Fin 32) :
    iblk2 V c 1 (pt2 n) = fun y => V c main_v17_1 (ix4 n (y 1) (y 2) (y 3)) := by
  funext y
  show V c main_v17_1 (((cfg2.win 1).blk (pt2 n)).view.emb y) = _
  obtain ⟨e0, e1, e2, e3⟩ := idxIn2_1 (pt2 n)
  have hy0 : (y 0).val < 1 := (y 0).isLt
  refine congrArg _ (funext fun a => Fin.ext (match a with
    | ⟨0, _⟩ => by show win2_1.index (pt2 n) (0 : Fin 4) * 1 + 1 * (y 0).val = n.val; rw [e0]; show n.val * 1 + 1 * (y 0).val = n.val; omega
    | ⟨1, _⟩ => by show win2_1.index (pt2 n) (1 : Fin 4) * 56 + 1 * (y 1).val = (y 1).val; rw [e1]; omega
    | ⟨2, _⟩ => by show win2_1.index (pt2 n) (2 : Fin 4) * 56 + 1 * (y 2).val = (y 2).val; rw [e2]; omega
    | ⟨3, _⟩ => by show win2_1.index (pt2 n) (3 : Fin 4) * 128 + 1 * (y 3).val = (y 3).val; rw [e3]; omega))

theorem idxIn2_2 : ∀ t : Fin cfg2.N, win2_2.index t (0 : Fin 2) = 0 ∧ win2_2.index t (1 : Fin 2) = 0 :=
  (by decide +kernel : ∀ t : Fin grid2.N, _)
/-- Window 2 of pass 3 stays: its block is the whole array at every point. -/
theorem iblk2_2_eq (c : Dev nD) (t : Fin cfg2.N) : iblk2 V c 2 t = V c main_v75 := by
  funext y
  show V c main_v75 (((cfg2.win 2).blk t).view.emb y) = V c main_v75 y
  obtain ⟨e0, e1⟩ := idxIn2_2 t
  refine congrArg _ (funext fun a => Fin.ext (match a with
    | ⟨0, _⟩ => by show win2_2.index t (0 : Fin 2) * 1 + 1 * (y 0).val = (y 0).val; rw [e0]; omega
    | ⟨1, _⟩ => by show win2_2.index t (1 : Fin 2) * 128 + 1 * (y 1).val = (y 1).val; rw [e1]; omega))

theorem idxIn2_3 : ∀ t : Fin cfg2.N, win2_3.index t (0 : Fin 2) = 0 ∧ win2_3.index t (1 : Fin 2) = 0 :=
  (by decide +kernel : ∀ t : Fin grid2.N, _)
/-- Window 3 of pass 3 stays: its block is the whole array at every point. -/
theorem iblk2_3_eq (c : Dev nD) (t : Fin cfg2.N) : iblk2 V c 3 t = V c main_v78 := by
  funext y
  show V c main_v78 (((cfg2.win 3).blk t).view.emb y) = V c main_v78 y
  obtain ⟨e0, e1⟩ := idxIn2_3 t
  refine congrArg _ (funext fun a => Fin.ext (match a with
    | ⟨0, _⟩ => by show win2_3.index t (0 : Fin 2) * 1 + 1 * (y 0).val = (y 0).val; rw [e0]; omega
    | ⟨1, _⟩ => by show win2_3.index t (1 : Fin 2) * 128 + 1 * (y 1).val = (y 1).val; rw [e1]; omega))

theorem idxIn2_4 : ∀ t : Fin cfg2.N, win2_4.index t (0 : Fin 2) = 0 ∧ win2_4.index t (1 : Fin 2) = 0 :=
  (by decide +kernel : ∀ t : Fin grid2.N, _)
/-- Window 4 of pass 3 stays: its block is the whole array at every point. -/
theorem iblk2_4_eq (c : Dev nD) (t : Fin cfg2.N) : iblk2 V c 4 t = V c main_v54 := by
  funext y
  show V c main_v54 (((cfg2.win 4).blk t).view.emb y) = V c main_v54 y
  obtain ⟨e0, e1⟩ := idxIn2_4 t
  refine congrArg _ (funext fun a => Fin.ext (match a with
    | ⟨0, _⟩ => by show win2_4.index t (0 : Fin 2) * 1 + 1 * (y 0).val = (y 0).val; rw [e0]; omega
    | ⟨1, _⟩ => by show win2_4.index t (1 : Fin 2) * 128 + 1 * (y 1).val = (y 1).val; rw [e1]; omega))

theorem idxIn2_5 : ∀ t : Fin cfg2.N, win2_5.index t (0 : Fin 2) = 0 ∧ win2_5.index t (1 : Fin 2) = 0 :=
  (by decide +kernel : ∀ t : Fin grid2.N, _)
/-- Window 5 of pass 3 stays: its block is the whole array at every point. -/
theorem iblk2_5_eq (c : Dev nD) (t : Fin cfg2.N) : iblk2 V c 5 t = V c main_v57 := by
  funext y
  show V c main_v57 (((cfg2.win 5).blk t).view.emb y) = V c main_v57 y
  obtain ⟨e0, e1⟩ := idxIn2_5 t
  refine congrArg _ (funext fun a => Fin.ext (match a with
    | ⟨0, _⟩ => by show win2_5.index t (0 : Fin 2) * 1 + 1 * (y 0).val = (y 0).val; rw [e0]; omega
    | ⟨1, _⟩ => by show win2_5.index t (1 : Fin 2) * 128 + 1 * (y 1).val = (y 1).val; rw [e1]; omega))

end Cert.ReferenceIdeal.Run

end
-- ==== Proof.BrStage1.lean ====
import proofs.«120137_g2000002162550304_pallasbulk_397_2_alg».proof.Proof.BrPass1
import proofs.«120137_g2000002162550304_pallasbulk_397_2_alg».proof.Proof.KIBlocks
import proofs.«120137_g2000002162550304_pallasbulk_397_2_alg».proof.Proof.BrBlocksR

set_option maxRecDepth 16384

noncomputable section

/-! # The first pass over the whole batch, in both programs

Image by image the two programs' first passes read corresponding blocks, so the conv1 arrays agree, the shortcut array
one program stores is the product the other recomputes, and the running moments block of one program ends at the sum
over the images of the per-image blocks of the other. -/

namespace Cert.Bridge

open Idealize.ShloMosaic Idealize.ShloMosaic.TcCoe Idealize.ShloMosaic.ValueIdx
open scoped BigOperators

variable (V3K : (c : Dev Cert.KernelIdeal.nD) → (b : Ref Cert.KernelIdeal.sig .tc) →
  Buf (Elt Ideal) ((c : Thread Cert.KernelIdeal.nD Cert.KernelIdeal.τ).loc b))
variable (T20R : (c : Dev Cert.ReferenceIdeal.nD) → (b : Ref Cert.ReferenceIdeal.sig .tc) →
  Buf (Elt Ideal) ((c : Thread Cert.ReferenceIdeal.nD Cert.ReferenceIdeal.τ).loc b))

/-- Image n of the 64-channel program's padded input. -/
abbrev imgK (c : Dev Cert.KernelIdeal.nD) (n : Fin 32) : Vec Ideal Cert.KernelIdeal.S1x58x58x64 .bf16 :=
  fun y => V3K c Cert.KernelIdeal.main_v2 (ix4 n (y 1) (y 2) (y 3))

/-- Image n of the 128-channel program's padded input. -/
abbrev imgR (c : Dev Cert.ReferenceIdeal.nD) (n : Fin 32) : Vec Ideal Cert.ReferenceIdeal.S1x58x58x128 .bf16 :=
  fun y => T20R c Cert.ReferenceIdeal.main_v2 (ix4 n (y 1) (y 2) (y 3))

/-- The 64-channel program's moments array after the first pass, its entries read as extended reals. -/
abbrev st1K (c : Dev Cert.KernelIdeal.nD) : FVec Ideal Cert.KernelIdeal.S32x8x128 .f32 := Cert.KernelIdeal.Run.G0_4 V3K c

/-- The 64-channel program's conv1 array at image n: that image's block. -/
theorem G0_3K_apply (c : Dev Cert.KernelIdeal.nD) (n : Fin 32) (p q : Fin 56) (co : Fin 128) :
    Cert.KernelIdeal.Run.G0_3 V3K c (ix4 n p q co)
      = Cert.KernelIdeal.Run.out0_3 (F := Ideal) (imgK V3K c n) (V3K c Cert.KernelIdeal.main_v4) (ix4 (n0 := 1) 0 p q co) := by
  show (Cert.KernelIdeal.Run.dat0 V3K c).after 3 (Cert.KernelIdeal.Run.pt0 n) (ix4 (n0 := 1) 0 p q co) = _
  rw [Cert.KernelIdeal.Run.after0_3, Cert.KernelIdeal.Run.iblk0_0_eq, Cert.KernelIdeal.Run.iblk0_1_eq]
  rfl

/-- The 64-channel program's moments array at image n: that image's block. -/
theorem G0_4K_apply (c : Dev Cert.KernelIdeal.nD) (n : Fin 32) (row : Fin 8) (co : Fin 128) :
    Cert.KernelIdeal.Run.G0_4 V3K c (ix3 n row co)
      = Cert.KernelIdeal.Run.out0_4 (F := Ideal) (imgK V3K c n) (V3K c Cert.KernelIdeal.main_v4) (V3K c Cert.KernelIdeal.main_v7) (ix3 (n0 := 1) 0 row co) := by
  show (Cert.KernelIdeal.Run.dat0 V3K c).after 4 (Cert.KernelIdeal.Run.pt0 n) (ix3 (n0 := 1) 0 row co) = _
  rw [Cert.KernelIdeal.Run.after0_4, Cert.KernelIdeal.Run.iblk0_0_eq, Cert.KernelIdeal.Run.iblk0_1_eq, Cert.KernelIdeal.Run.iblk0_2_eq]
  rfl

/-- The 128-channel program's conv1 array at image n: that image's block. -/
theorem G0_3R_apply (c : Dev Cert.ReferenceIdeal.nD) (n : Fin 32) (p q : Fin 56) (co : Fin 128) :
    Cert.ReferenceIdeal.Run.G0_3 T20R c (ix4 n p q co)
      = Cert.ReferenceIdeal.Run.out0_3 (F := Ideal) (imgR T20R c n) (T20R c Cert.ReferenceIdeal.main_v5) (ix4 (n0 := 1) 0 p q co) := by
  show (Cert.ReferenceIdeal.Run.dat0 T20R c).after 3 (Cert.ReferenceIdeal.Run.pt0 n) (ix4 (n0 := 1) 0 p q co) = _
  rw [Cert.ReferenceIdeal.Run.after0_3, Cert.ReferenceIdeal.Run.iblk0_0_eq, Cert.ReferenceIdeal.Run.iblk0_1_eq]
  rfl

/-- The 128-channel program's shortcut array at image n: that image's block. -/
theorem G0_4R_apply (c : Dev Cert.ReferenceIdeal.nD) (n : Fin 32) (p q : Fin 56) (co : Fin 128) :
    Cert.ReferenceIdeal.Run.G0_4 T20R c (ix4 n p q co)
      = Cert.ReferenceIdeal.Run.out0_4 (F := Ideal) (imgR T20R c n) (T20R c Cert.ReferenceIdeal.main_v10) (ix4 (n0 := 1) 0 p q co) := by
  show (Cert.ReferenceIdeal.Run.dat0 T20R c).after 4 (Cert.ReferenceIdeal.Run.pt0 n) (ix4 (n0 := 1) 0 p q co) = _
  rw [Cert.ReferenceIdeal.Run.after0_4, Cert.ReferenceIdeal.Run.iblk0_0_eq, Cert.ReferenceIdeal.Run.iblk0_2_eq]
  rfl

/-- The reset moments block is zero everywhere. -/
theorem zero0_5_apply (i : Cert.ReferenceIdeal.S4x128.Idx) : Cert.ReferenceIdeal.Run.zero0_5 (F := Ideal) i = 0 := by
  unfold Cert.ReferenceIdeal.Run.zero0_5
  rw [View.canon_unit_zero hz2]
  unfold Cert.ReferenceIdeal.Gen.k0_pay2
  exact Ideal.ofBits_zero_f32

section Stage
variable (c : Dev Cert.KernelIdeal.nD)
variable (hx : ∀ n : Fin 32, ExtX (imgK V3K c n) (imgR T20R c n))
variable (hw : ExtW1 (V3K c Cert.KernelIdeal.main_v4) (T20R c Cert.ReferenceIdeal.main_v5))
variable (hs : ExtWs (V3K c Cert.KernelIdeal.main_v7) (T20R c Cert.ReferenceIdeal.main_v10))
include hx hw hs

/-- One image's step of the running moments block: what it held plus the other program's block for that image. -/
theorem stats_step (n : Fin 32) (s : Vec Ideal Cert.ReferenceIdeal.S4x128 .f32) (r : Fin 4) (co : Fin 128) :
    Cert.ReferenceIdeal.Run.out0_5 (F := Ideal) (Cert.ReferenceIdeal.Run.iblk0 T20R c 0 (Cert.ReferenceIdeal.Run.pt0 n))
        (Cert.ReferenceIdeal.Run.iblk0 T20R c 1 (Cert.ReferenceIdeal.Run.pt0 n)) (Cert.ReferenceIdeal.Run.iblk0 T20R c 2 (Cert.ReferenceIdeal.Run.pt0 n)) s (ix2 r co)
      = s (ix2 r co) + Cert.KernelIdeal.Run.G0_4 V3K c (ix3 n ⟨r.val, by omega⟩ co) := by
  rw [Cert.ReferenceIdeal.Run.iblk0_0_eq, Cert.ReferenceIdeal.Run.iblk0_1_eq, Cert.ReferenceIdeal.Run.iblk0_2_eq, G0_4K_apply]
  exact pass1_moments (hx n) hw hs s r co

/-- The per-image entries the running block accumulates, as a sequence over the naturals (zero past the batch). -/
def kSeq (r : Fin 4) (co : Fin 128) (i : ℕ) : EReal :=
  if h : i < 32 then Cert.KernelIdeal.Run.G0_4 V3K c (ix3 ⟨i, h⟩ ⟨r.val, by omega⟩ co) else 0

/-- After image n the running block holds zero plus the entries of images 0 to n. -/
theorem stats_total (r : Fin 4) (co : Fin 128) : ∀ (n : ℕ) (hn : n < Cert.ReferenceIdeal.cfg0.N) (h32 : n < 32),
    Cert.ReferenceIdeal.Run.stats0 T20R c n hn (ix2 r co) = 0 + ∑ i ∈ Finset.range (n + 1), kSeq V3K c r co i := by
  intro n
  induction n with
  | zero =>
    intro hn h32
    show Cert.ReferenceIdeal.Run.out0_5 (F := Ideal) (Cert.ReferenceIdeal.Run.iblk0 T20R c 0 (Cert.ReferenceIdeal.Run.pt0 ⟨0, h32⟩))
        (Cert.ReferenceIdeal.Run.iblk0 T20R c 1 (Cert.ReferenceIdeal.Run.pt0 ⟨0, h32⟩)) (Cert.ReferenceIdeal.Run.iblk0 T20R c 2 (Cert.ReferenceIdeal.Run.pt0 ⟨0, h32⟩))
        Cert.ReferenceIdeal.Run.zero0_5 (ix2 r co) = _
    rw [stats_step V3K T20R c hx hw hs, zero0_5_apply, Finset.sum_range_one]
    unfold kSeq
    rw [dif_pos h32]
  | succ n ih =>
    intro hn h32
    show Cert.ReferenceIdeal.Run.out0_5 (F := Ideal) (Cert.ReferenceIdeal.Run.iblk0 T20R c 0 (Cert.ReferenceIdeal.Run.pt0 ⟨n + 1, h32⟩))
        (Cert.ReferenceIdeal.Run.iblk0 T20R c 1 (Cert.ReferenceIdeal.Run.pt0 ⟨n + 1, h32⟩)) (Cert.ReferenceIdeal.Run.iblk0 T20R c 2 (Cert.ReferenceIdeal.Run.pt0 ⟨n + 1, h32⟩))
        (Cert.ReferenceIdeal.Run.stats0 T20R c n (Nat.lt_of_succ_lt hn)) (ix2 r co) = _
    rw [stats_step V3K T20R c hx hw hs, ih (Nat.lt_of_succ_lt hn) (by omega), Finset.sum_range_succ _ (n + 1), add_assoc]
    refine congrArg (0 + ·) (congrArg (_ + ·) ?_)
    unfold kSeq
    rw [dif_pos h32]

/-- THE FIRST PASS over the batch: the conv1 arrays agree; the stored shortcut array is the recomputed product; the
    running moments block ends at zero plus the sum over the images of the per-image moment blocks. -/
theorem stage1 :
    Cert.ReferenceIdeal.Run.G0_3 T20R c = Cert.KernelIdeal.Run.G0_3 V3K c
    ∧ (∀ (n : Fin 32) (p q : Fin 56) (co : Fin 128),
        Cert.ReferenceIdeal.Run.G0_4 T20R c (ix4 n p q co)
          = shortK (imgK V3K c n) (V3K c Cert.KernelIdeal.main_v7) (ix2 (n0 := 3136) ⟨p.val * 56 + q.val, by omega⟩ co))
    ∧ ∀ (r : Fin 4) (co : Fin 128),
        Cert.ReferenceIdeal.Run.G0_5 T20R c (ix2 r co)
          = (0 : EReal) + ∑ n : Fin 32, st1K V3K c (ix3 n ⟨r.val, by omega⟩ co) := by
  refine ⟨?_, ?_, ?_⟩
  · funext j
    obtain ⟨n, p, q, co, rfl⟩ : ∃ (n : Fin 32) (p q : Fin 56) (co : Fin 128), j = ix4 n p q co := ⟨j 0, j 1, j 2, j 3, eq_ix4 j⟩
    rw [G0_3R_apply, G0_3K_apply]
    exact congrFun (pass1_conv (hx n) hw) _
  · intro n p q co
    rw [G0_4R_apply]
    exact pass1_short (hx n) hs p q co
  · intro r co
    rw [Cert.ReferenceIdeal.Run.G0_5_eq]
    refine (stats_total V3K T20R c hx hw hs r co 31 _ (by omega)).trans (congrArg ((0 : EReal) + ·) ?_)
    rw [← Fin.sum_univ_eq_sum_range (kSeq V3K c r co) 32]
    refine Finset.sum_congr rfl fun n _ => ?_
    unfold kSeq
    rw [dif_pos n.isLt]

end Stage

end Cert.Bridge

end
-- ==== Proof.BrPass3.lean ====
import proofs.«120137_g2000002162550304_pallasbulk_397_2_alg».proof.Proof.BridgeDefs
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

/-! # The third pass: the two programs store the same values

The kernel recomputes the shortcut product from the centre tap, forms relu((y2 · s2 + b2) + (short · ss + bs)) on
`[3136, 128]` and stores its transpose; the reference reads the stored shortcut and forms the same expression pointwise
on `[1, 56, 56, 128]`. Read at an output element both are the same expression of the same elements, once the
reference's stored shortcut is the kernel's product at row `p * 56 + q`. -/

namespace Cert.Bridge

open Idealize.ShloMosaic Idealize.ShloMosaic.ValueIdx

/-- The kernel's stored value at channel `co`, pixel `(p, q)`: the transposed element of relu of the two affine terms. -/
theorem k2K_apply (v0 : Vec Ideal Cert.KernelIdeal.S1x58x58x64 .bf16) (v5 : Vec Ideal Cert.KernelIdeal.S64x128 .bf16)
    (v8 : Vec Ideal Cert.KernelIdeal.S1x56x56x128 .bf16) (v11 v16 v20 v24 : Vec Ideal Cert.KernelIdeal.S1x128 .f32)
    (co : Fin 128) (p q : Fin 56) :
    Cert.KernelIdeal.Gen.k2_pay1 (F := Ideal) v0 v5 v8 v11 v16 v20 v24 (ix3 (n0 := 1) 0 co ⟨p.val * 56 + q.val, by omega⟩)
      = max ((v8 (ix4 (n0 := 1) 0 p q co) * v11 (ix2 (n0 := 1) 0 co) + v16 (ix2 (n0 := 1) 0 co))
          + (Cert.KernelIdeal.Gen.k0_pay7 (Cert.KernelIdeal.Gen.k0_pay3 v0) v5 (ix2 (n0 := 3136) ⟨p.val * 56 + q.val, by omega⟩ co) * v20 (ix2 (n0 := 1) 0 co)
            + v24 (ix2 (n0 := 1) 0 co)))
        (Scalar.ofBits (F := Ideal) .f32 0x00000000#32) := by
  unfold Cert.KernelIdeal.Gen.k2_pay1
  refine (shapeCast_ab_1ab_apply _ _ 0 co _).trans ?_
  refine (transpose_ix2_apply _ _ co _).trans ?_
  simp only [maximumf_apply, addf_apply, mulf_apply, extf_apply, broadcast_apply, shapeCast_self, broadcastTo_1b_ab_apply]
  have hsc : shapeCast Cert.KernelIdeal.S3136x128 v8 Cert.KernelIdeal.Gen.shapeCasts_S1x56x56x128_S3136x128
      (ix2 (n0 := 3136) ⟨p.val * 56 + q.val, by omega⟩ co) = v8 (ix4 (n0 := 1) 0 p q co) :=
    shapeCast_apply v8 _ _ _ (by
      rw [Shape.rowMajor_val_four, Shape.rowMajor_val_two]
      show ((0 * 56 + p.val) * 56 + q.val) * 128 + co.val = (p.val * 56 + q.val) * 128 + co.val
      omega)
  rw [hsc]
  unfold Cert.KernelIdeal.Gen.k0_pay7 Cert.KernelIdeal.Gen.k0_pay3 Cert.KernelIdeal.Gen.k0_pay2
  simp only [shapeCast_self]

/-- A coefficient row reshaped to `[1, 1, 1, 128]` and broadcast over the image reads its channel's entry everywhere. -/
theorem row_bcast4 {α : Type} (v : Cert.ReferenceIdeal.S1x128.Idx → α) (p q : Fin 56) (co : Fin 128) :
    broadcastTo Cert.ReferenceIdeal.S1x56x56x128
        (shapeCast Cert.ReferenceIdeal.S1x1x1x128 v Cert.ReferenceIdeal.Gen.shapeCasts_S1x128_S1x1x1x128)
        Cert.ReferenceIdeal.Gen.broadcasts_S1x1x1x128_S1x56x56x128 (ix4 (n0 := 1) 0 p q co)
      = v (ix2 (n0 := 1) 0 co) := by
  refine (broadcastTo_apply _ _ _ (ix4 (n0 := 1) (n1 := 1) (n2 := 1) 0 0 0 co) fun a => ?_).trans ?_
  · match a with
    | ⟨0, _⟩ => rfl
    | ⟨1, _⟩ => rfl
    | ⟨2, _⟩ => rfl
    | ⟨3, _⟩ => rfl
  · exact shapeCast_apply v _ _ _ (by
      rw [Shape.rowMajor_val_two, Shape.rowMajor_val_four]
      show 0 * 128 + co.val = ((0 * 1 + 0) * 1 + 0) * 128 + co.val
      omega)

/-- The reference's stored value at pixel `(p, q)`, channel `co`. -/
theorem k2R_apply (v0 v12 : Vec Ideal Cert.ReferenceIdeal.S1x56x56x128 .f32) (v2 v7 v14 v19 : Vec Ideal Cert.ReferenceIdeal.S1x128 .f32)
    (co : Fin 128) (p q : Fin 56) :
    Cert.ReferenceIdeal.Gen.k2_pay1 (F := Ideal) v0 v2 v7 v12 v14 v19 (ix4 (n0 := 1) 0 p q co)
      = max ((v0 (ix4 (n0 := 1) 0 p q co) * v2 (ix2 (n0 := 1) 0 co) + v7 (ix2 (n0 := 1) 0 co))
          + (v12 (ix4 (n0 := 1) 0 p q co) * v14 (ix2 (n0 := 1) 0 co) + v19 (ix2 (n0 := 1) 0 co)))
        (Scalar.ofBits (F := Ideal) .f32 0x00000000#32) := by
  unfold Cert.ReferenceIdeal.Gen.k2_pay1
  simp only [maximumf_apply, addf_apply, mulf_apply, extf_apply, broadcast_apply, shapeCast_self, row_bcast4]

/-- The zero offsets of a whole-block access, rank 2, 3 and 4. -/
theorem zeros2 : (![0, 0] : Fin 2 → Nat) = fun _ => 0 := by
  funext a; match a with | ⟨0, _⟩ => rfl | ⟨1, _⟩ => rfl
theorem zeros3 : (![0, 0, 0] : Fin 3 → Nat) = fun _ => 0 := by
  funext a; match a with | ⟨0, _⟩ => rfl | ⟨1, _⟩ => rfl | ⟨2, _⟩ => rfl
theorem zeros4 : (![0, 0, 0, 0] : Fin 4 → Nat) = fun _ => 0 := by
  funext a; match a with | ⟨0, _⟩ => rfl | ⟨1, _⟩ => rfl | ⟨2, _⟩ => rfl | ⟨3, _⟩ => rfl

/-- THE THIRD PASS: with the reference's stored shortcut equal to the kernel's recomputed product, the kernel's block at
    `(0, co, p * 56 + q)` is the reference's block at `(0, p, q, co)`. -/
theorem pass3_out (y2 : Vec Ideal Cert.KernelIdeal.S1x56x56x128 .bf16) (xK : Vec Ideal Cert.KernelIdeal.S1x58x58x64 .bf16)
    (wsK : Vec Ideal Cert.KernelIdeal.S64x128 .bf16) (ys : Vec Ideal Cert.ReferenceIdeal.S1x56x56x128 .f32)
    (s2 b2 ss bs : Vec Ideal Cert.KernelIdeal.S1x128 .f32)
    (hys : ∀ (p q : Fin 56) (co : Fin 128),
      ys (ix4 (n0 := 1) 0 p q co) = shortK xK wsK (ix2 (n0 := 3136) ⟨p.val * 56 + q.val, by omega⟩ co))
    (co : Fin 128) (p q : Fin 56) :
    Cert.KernelIdeal.Run.out2_7 (F := Ideal) y2 xK wsK s2 b2 ss bs (ix3 (n0 := 1) 0 co ⟨p.val * 56 + q.val, by omega⟩)
      = Cert.ReferenceIdeal.Run.out2_6 (F := Ideal) y2 ys s2 b2 ss bs (ix4 (n0 := 1) 0 p q co) := by
  unfold Cert.KernelIdeal.Run.out2_7 Cert.ReferenceIdeal.Run.out2_6
  rw [View.canon_unit_zero zeros3, View.canon_unit_zero zeros4]
  simp only [View.ld_unit_zero (S := Cert.KernelIdeal.S1x56x56x128) zeros4, View.ld_unit_zero (S := Cert.KernelIdeal.S1x58x58x64) zeros4, View.ld_unit_zero (S := Cert.KernelIdeal.S64x128) zeros2, View.ld_unit_zero (S := Cert.KernelIdeal.S1x128) zeros2]
  rw [k2K_apply, k2R_apply, hys]
  unfold shortK
  simp only [View.ld_unit_zero (S := Cert.KernelIdeal.S1x56x56x128) zeros4, View.ld_unit_zero (S := Cert.KernelIdeal.S1x58x58x64) zeros4, View.ld_unit_zero (S := Cert.KernelIdeal.S64x128) zeros2, View.ld_unit_zero (S := Cert.KernelIdeal.S1x128) zeros2]

end Cert.Bridge

end
-- ==== Proof.BrPass2.lean ====
import proofs.«120137_g2000002162550304_pallasbulk_397_2_alg».proof.Proof.BrPass3
import proofs.«120137_g2000002162550304_pallasbulk_397_2_alg».proof.Proof.KIPass2Body
import proofs.«120137_g2000002162550304_pallasbulk_397_2_alg».proof.Proof.RIPass2Body
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

set_option maxRecDepth 16384

noncomputable section

namespace Cert.Bridge

open Idealize.ShloMosaic Idealize.ShloMosaic.ValueIdx

/-! # The second pass: the two programs compute the same values

Both programs normalise and clamp the first convolution's block, lay it in the middle of a 58 × 58 image whose border is
zero, and take the nine taps' products with the same nine weight slabs, added in the same order. The kernel writes its
zero border at every point; the reference wrote zeros once and only rewrites the middle, so its border is whatever the
scratch held there: zero. -/

/-- The normalised, clamped first-convolution block is the same expression in both programs (a format change is the identity). -/
theorem act1_eq (y1 : Vec Ideal Cert.KernelIdeal.S1x56x56x128 .bf16) (s1 b1 : Vec Ideal Cert.KernelIdeal.S1x128 .f32) :
    Cert.ReferenceIdeal.Run.act1 (F := Ideal) y1 s1 b1 = Cert.KernelIdeal.Run.act1 (F := Ideal) y1 s1 b1 := rfl

/-- The nine taps' products of one padded image with the nine slabs, added in order: the same chain in both programs. -/
theorem acc_eq (S : Vec Ideal Cert.KernelIdeal.S58x58x128 .bf16) (w : Vec Ideal Cert.KernelIdeal.S1152x128 .bf16) :
    Cert.ReferenceIdeal.Gen.k1_pay1 (F := Ideal) (Cert.ReferenceIdeal.Run.acc1 S w) (Cert.ReferenceIdeal.Gen.k1_pay11 S) (View.ld w Cert.ReferenceIdeal.Run.r1_w8)
      = Cert.KernelIdeal.Gen.k1_pay10 (F := Ideal) S
          (Cert.KernelIdeal.Gen.k1_pay8 S (View.ld w Cert.KernelIdeal.Run.r1_w0) (View.ld w Cert.KernelIdeal.Run.r1_w1) (View.ld w Cert.KernelIdeal.Run.r1_w2) (View.ld w Cert.KernelIdeal.Run.r1_w3))
          (Cert.KernelIdeal.Gen.k1_pay9 S (View.ld w Cert.KernelIdeal.Run.r1_w4))
          (View.ld w Cert.KernelIdeal.Run.r1_w5) (View.ld w Cert.KernelIdeal.Run.r1_w6) (View.ld w Cert.KernelIdeal.Run.r1_w7) (View.ld w Cert.KernelIdeal.Run.r1_w8) := rfl

/-- A scratch image whose one-pixel border is zero. -/
def ZeroBorder (P : Vec Ideal Cert.ReferenceIdeal.S58x58x128 .bf16) : Prop :=
  ∀ y : Cert.ReferenceIdeal.S58x58x128.Idx, ¬(1 ≤ (y 0).val ∧ (y 0).val ≤ 56 ∧ 1 ≤ (y 1).val ∧ (y 1).val ≤ 56) → P y = 0

/-- The reference's scratch after its reset is zero everywhere. -/
theorem zeroPad_apply (y : Cert.ReferenceIdeal.S58x58x128.Idx) : Cert.ReferenceIdeal.Run.zeroPad (F := Ideal) y = 0 := by
  unfold Cert.ReferenceIdeal.Run.zeroPad Cert.ReferenceIdeal.Run.padWZ
  rw [View.canon_unit_zero zeros3]
  unfold Cert.ReferenceIdeal.Gen.k1_pay4
  rw [shapeCast_self]
  exact Ideal.ofBits_zero_bf16

/-- So its border is zero. -/
theorem zeroBorder_zeroPad : ZeroBorder (Cert.ReferenceIdeal.Run.zeroPad (F := Ideal)) := fun y _ => zeroPad_apply y

/-- Rewriting the middle keeps the border. -/
theorem zeroBorder_padIn {P : Vec Ideal Cert.ReferenceIdeal.S58x58x128 .bf16} (hP : ZeroBorder P)
    (a : Vec Ideal Cert.ReferenceIdeal.S56x56x128 .bf16) : ZeroBorder (Cert.ReferenceIdeal.Run.padIn P a) := by
  intro y hy
  show (if h : 1 ≤ (y 0).val ∧ (y 0).val ≤ 56 ∧ 1 ≤ (y 1).val ∧ (y 1).val ≤ 56 then _ else P y) = 0
  rw [dif_neg hy]
  exact hP y hy

/-- The kernel's four border strips (top, bottom, left, right) are zero. -/
theorem k1K_pay1_apply (i : Cert.KernelIdeal.S1x58x128.Idx) : Cert.KernelIdeal.Gen.k1_pay1 (F := Ideal) i = 0 := by
  unfold Cert.KernelIdeal.Gen.k1_pay1; rw [shapeCast_self]; exact Ideal.ofBits_zero_bf16
theorem k1K_pay2_apply (i : Cert.KernelIdeal.S1x58x128.Idx) : Cert.KernelIdeal.Gen.k1_pay2 (F := Ideal) i = 0 := by
  unfold Cert.KernelIdeal.Gen.k1_pay2; rw [shapeCast_self]; exact Ideal.ofBits_zero_bf16
theorem k1K_pay3_apply (i : Cert.KernelIdeal.S58x1x128.Idx) : Cert.KernelIdeal.Gen.k1_pay3 (F := Ideal) i = 0 := by
  unfold Cert.KernelIdeal.Gen.k1_pay3; rw [shapeCast_self]; exact Ideal.ofBits_zero_bf16
theorem k1K_pay4_apply (i : Cert.KernelIdeal.S58x1x128.Idx) : Cert.KernelIdeal.Gen.k1_pay4 (F := Ideal) i = 0 := by
  unfold Cert.KernelIdeal.Gen.k1_pay4; rw [shapeCast_self]; exact Ideal.ofBits_zero_bf16

/-- With a zero border the reference's scratch after a point is the kernel's padded image. -/
theorem padIn_eq_padded {P : Vec Ideal Cert.ReferenceIdeal.S58x58x128 .bf16} (hP : ZeroBorder P)
    (a : Vec Ideal Cert.KernelIdeal.S56x56x128 .bf16) :
    Cert.ReferenceIdeal.Run.padIn P a = Cert.KernelIdeal.Run.padded a := by
  funext y
  unfold Cert.ReferenceIdeal.Run.padIn Cert.KernelIdeal.Run.padded
  by_cases hin : 1 ≤ (y 0).val ∧ (y 0).val ≤ 56 ∧ 1 ≤ (y 1).val ∧ (y 1).val ≤ 56
  · simp only [dif_pos hin]
  · simp only [dif_neg hin, hP y hin, k1K_pay1_apply, k1K_pay2_apply, k1K_pay3_apply, k1K_pay4_apply, ite_self]

/-- THE SECOND PASS, the convolution's block: the reference's block is the kernel's. -/
theorem pass2_conv {P : Vec Ideal Cert.ReferenceIdeal.S58x58x128 .bf16} (hP : ZeroBorder P)
    (y1 : Vec Ideal Cert.KernelIdeal.S1x56x56x128 .bf16) (s1 b1 : Vec Ideal Cert.KernelIdeal.S1x128 .f32)
    (w : Vec Ideal Cert.KernelIdeal.S1152x128 .bf16) :
    Cert.ReferenceIdeal.Run.out1_4 (F := Ideal) (Cert.ReferenceIdeal.Run.padIn P (Cert.ReferenceIdeal.Run.act1 y1 s1 b1)) w
      = Cert.KernelIdeal.Run.out1_4 (F := Ideal) y1 s1 b1 w := by
  unfold Cert.ReferenceIdeal.Run.out1_4 Cert.KernelIdeal.Run.out1_4
  rw [View.canon_unit_zero zeros4, View.canon_unit_zero zeros4, padIn_eq_padded hP, act1_eq]
  rfl

/-- Row 0 of the reference's two stacked moment rows is the first. -/
theorem catR_row0 {α : Type} (x₁ x₂ : Cert.ReferenceIdeal.S1x128.Idx → α)
    (h : Shape.Concatenates [Cert.ReferenceIdeal.S1x128, Cert.ReferenceIdeal.S1x128] Cert.ReferenceIdeal.S2x128 0) (co : Fin 128) :
    concatenate Cert.ReferenceIdeal.S2x128 0 [⟨Cert.ReferenceIdeal.S1x128, x₁⟩, ⟨Cert.ReferenceIdeal.S1x128, x₂⟩] h (ix2 (n0 := 2) 0 co)
      = x₁ (ix2 (n0 := 1) 0 co) :=
  concatenate_pair_apply_left 0 x₁ x₂ h _ rfl (ix2 (n0 := 1) 0 co) (fun b => match b with | ⟨0, _⟩ => rfl | ⟨1, _⟩ => rfl)

/-- Row 1 of the reference's two stacked moment rows is the second. -/
theorem catR_row1 {α : Type} (x₁ x₂ : Cert.ReferenceIdeal.S1x128.Idx → α)
    (h : Shape.Concatenates [Cert.ReferenceIdeal.S1x128, Cert.ReferenceIdeal.S1x128] Cert.ReferenceIdeal.S2x128 0) (co : Fin 128) :
    concatenate Cert.ReferenceIdeal.S2x128 0 [⟨Cert.ReferenceIdeal.S1x128, x₁⟩, ⟨Cert.ReferenceIdeal.S1x128, x₂⟩] h (ix2 (n0 := 2) 1 co)
      = x₂ (ix2 (n0 := 1) 0 co) :=
  concatenate_pair_apply_right 0 x₁ x₂ h _ rfl rfl (ix2 (n0 := 1) 0 co)
    (fun b hb => match b, hb with | ⟨0, _⟩, hb => absurd rfl hb | ⟨1, _⟩, _ => rfl) rfl

/-- Row 0 of the kernel's eight stacked rows is the first piece. -/
theorem catK_row0 {α : Type} (x₁ x₂ : Cert.KernelIdeal.S1x128.Idx → α) (x₃ : Cert.KernelIdeal.S6x128.Idx → α)
    (h : Shape.Concatenates (([⟨Cert.KernelIdeal.S1x128, x₁⟩, ⟨Cert.KernelIdeal.S1x128, x₂⟩, ⟨Cert.KernelIdeal.S6x128, x₃⟩] : List ((s : Shape) × (s.Idx → α))).map (·.1)) Cert.KernelIdeal.S8x128 0)
    (co : Fin 128) :
    concatenate Cert.KernelIdeal.S8x128 0 [⟨Cert.KernelIdeal.S1x128, x₁⟩, ⟨Cert.KernelIdeal.S1x128, x₂⟩, ⟨Cert.KernelIdeal.S6x128, x₃⟩] h (ix2 (n0 := 8) 0 co)
      = x₁ (ix2 (n0 := 1) 0 co) :=
  concatenate_apply_piece (t := Cert.KernelIdeal.S8x128) 0
    [⟨Cert.KernelIdeal.S1x128, x₁⟩, ⟨Cert.KernelIdeal.S1x128, x₂⟩, ⟨Cert.KernelIdeal.S6x128, x₃⟩] h (ix2 (n0 := 8) 0 co)
    0 (by show 0 < 3; omega) Cert.KernelIdeal.S1x128 x₁ rfl rfl 0 rfl (ix2 (n0 := 1) 0 co)
    (fun b hb => match b, hb with | ⟨0, _⟩, hb => absurd rfl hb | ⟨1, _⟩, _ => rfl) rfl

/-- Row 1 of the kernel's eight stacked rows is the second piece. -/
theorem catK_row1 {α : Type} (x₁ x₂ : Cert.KernelIdeal.S1x128.Idx → α) (x₃ : Cert.KernelIdeal.S6x128.Idx → α)
    (h : Shape.Concatenates (([⟨Cert.KernelIdeal.S1x128, x₁⟩, ⟨Cert.KernelIdeal.S1x128, x₂⟩, ⟨Cert.KernelIdeal.S6x128, x₃⟩] : List ((s : Shape) × (s.Idx → α))).map (·.1)) Cert.KernelIdeal.S8x128 0)
    (co : Fin 128) :
    concatenate Cert.KernelIdeal.S8x128 0 [⟨Cert.KernelIdeal.S1x128, x₁⟩, ⟨Cert.KernelIdeal.S1x128, x₂⟩, ⟨Cert.KernelIdeal.S6x128, x₃⟩] h (ix2 (n0 := 8) 1 co)
      = x₂ (ix2 (n0 := 1) 0 co) :=
  concatenate_apply_piece (t := Cert.KernelIdeal.S8x128) 0
    [⟨Cert.KernelIdeal.S1x128, x₁⟩, ⟨Cert.KernelIdeal.S1x128, x₂⟩, ⟨Cert.KernelIdeal.S6x128, x₃⟩] h (ix2 (n0 := 8) 1 co)
    1 (by show 1 < 3; omega) Cert.KernelIdeal.S1x128 x₂ rfl rfl 1 rfl (ix2 (n0 := 1) 0 co)
    (fun b hb => match b, hb with | ⟨0, _⟩, hb => absurd rfl hb | ⟨1, _⟩, _ => rfl) rfl

/-- THE SECOND PASS, the moments: the reference's running block gains rows 0 and 1 of the kernel's per-image block. -/
theorem pass2_moments {P : Vec Ideal Cert.ReferenceIdeal.S58x58x128 .bf16} (hP : ZeroBorder P)
    (y1 : Vec Ideal Cert.KernelIdeal.S1x56x56x128 .bf16) (s1 b1 : Vec Ideal Cert.KernelIdeal.S1x128 .f32)
    (w : Vec Ideal Cert.KernelIdeal.S1152x128 .bf16) (s : Vec Ideal Cert.ReferenceIdeal.S2x128 .f32) (r : Fin 2) (co : Fin 128) :
    Cert.ReferenceIdeal.Run.out1_5 (F := Ideal) (Cert.ReferenceIdeal.Run.padIn P (Cert.ReferenceIdeal.Run.act1 y1 s1 b1)) w s (ix2 r co)
      = s (ix2 r co) + Cert.KernelIdeal.Run.out1_5 (F := Ideal) y1 s1 b1 w (ix3 (n0 := 1) 0 ⟨r.val, by omega⟩ co) := by
  unfold Cert.ReferenceIdeal.Run.out1_5 Cert.KernelIdeal.Run.out1_5
  rw [View.canon_unit_zero zeros2, View.canon_unit_zero zeros3, padIn_eq_padded hP, act1_eq]
  unfold Cert.ReferenceIdeal.Gen.k1_pay3 Cert.KernelIdeal.Gen.k1_pay12 Cert.KernelIdeal.Run.taps1a Cert.KernelIdeal.Run.taps1b
  rw [acc_eq]
  rw [addf_apply, shapeCast_self, View.ld_unit_zero (S := Cert.ReferenceIdeal.S2x128) zeros2]
  refine congrArg (s (ix2 r co) + ·) ?_
  refine Eq.trans ?_ (shapeCast_ab_1ab_apply _ _ 0 _ co).symm
  match r with
  | ⟨0, _⟩ => exact (catR_row0 _ _ _ co).trans (catK_row0 _ _ _ _ co).symm
  | ⟨1, _⟩ => exact (catR_row1 _ _ _ co).trans (catK_row1 _ _ _ _ co).symm

end Cert.Bridge

end
-- ==== Proof.BrStage23.lean ====
import proofs.«120137_g2000002162550304_pallasbulk_397_2_alg».proof.Proof.BrPass2
import proofs.«120137_g2000002162550304_pallasbulk_397_2_alg».proof.Proof.KIBlocks
import proofs.«120137_g2000002162550304_pallasbulk_397_2_alg».proof.Proof.BrBlocksR
import Idealize.ShloMosaic.Lib.ValueIdx
import Idealize.ShloMosaic.Lib.IdealHost
import Idealize.ShloMosaic.PureOps.Ideal.Laws

set_option maxRecDepth 16384

noncomputable section

/-! # The second and third passes over the whole grid

Each pass runs its body once per image. Fed arrays that agree (the reference's as extended reals equal to the kernel's),
image `n`'s blocks agree, so the per-image statements of the two passes give the arrays after the pass: the second
convolution's array is the same; the reference's one running moments block is zero plus the sum over the images of the
kernel's per-image rows; the third pass's output arrays agree element by element, the kernel's being the transpose. -/

namespace Cert.Bridge

open Idealize.ShloMosaic Idealize.ShloMosaic.ValueIdx Idealize.ShloMosaic.TcCoe
open scoped BigOperators

variable (VK : (c : Dev Cert.KernelIdeal.nD) → (b : Ref Cert.KernelIdeal.sig .tc) → Buf (Elt Ideal) ((c : Thread Cert.KernelIdeal.nD Cert.KernelIdeal.τ).loc b))
variable (VR : (c : Dev Cert.ReferenceIdeal.nD) → (b : Ref Cert.ReferenceIdeal.sig .tc) → Buf (Elt Ideal) ((c : Thread Cert.ReferenceIdeal.nD Cert.ReferenceIdeal.τ).loc b))

/-- THE THIRD PASS over the grid: with the reference's stored shortcut equal to the kernel's recomputed product, image by
    image, the kernel's output at `(n, co, p * 56 + q)` is the reference's at `(n, p, q, co)`. -/
theorem stage3 (c : Dev Cert.KernelIdeal.nD)
    (h_y2 : VR c Cert.ReferenceIdeal.main_v58_0 = VK c Cert.KernelIdeal.main_v50_0)
    (h_ys : ∀ (n : Fin 32) (p q : Fin 56) (co : Fin 128), VR c Cert.ReferenceIdeal.main_v17_1 (ix4 n p q co)
      = shortK (fun y => VK c Cert.KernelIdeal.main_v2 (ix4 n (y 1) (y 2) (y 3))) (VK c Cert.KernelIdeal.main_v7) (ix2 (n0 := 3136) ⟨p.val * 56 + q.val, by omega⟩ co))
    (h_s2 : VR c Cert.ReferenceIdeal.main_v75 = VK c Cert.KernelIdeal.main_v68)
    (h_b2 : VR c Cert.ReferenceIdeal.main_v78 = VK c Cert.KernelIdeal.main_v71)
    (h_ss : VR c Cert.ReferenceIdeal.main_v54 = VK c Cert.KernelIdeal.main_v46)
    (h_bs : VR c Cert.ReferenceIdeal.main_v57 = VK c Cert.KernelIdeal.main_v49)
    (n : Fin 32) (co : Fin 128) (p q : Fin 56) :
    Cert.KernelIdeal.Run.G2_7 VK c (ix3 n co ⟨p.val * 56 + q.val, by omega⟩) = Cert.ReferenceIdeal.Run.G2_6 VR c (ix4 n p q co) := by
  have key := pass3_out (y2 := fun y => VK c Cert.KernelIdeal.main_v50_0 (ix4 n (y 1) (y 2) (y 3)))
    (xK := fun y => VK c Cert.KernelIdeal.main_v2 (ix4 n (y 1) (y 2) (y 3))) (wsK := VK c Cert.KernelIdeal.main_v7)
    (ys := fun y => VR c Cert.ReferenceIdeal.main_v17_1 (ix4 n (y 1) (y 2) (y 3)))
    (s2 := VK c Cert.KernelIdeal.main_v68) (b2 := VK c Cert.KernelIdeal.main_v71)
    (ss := VK c Cert.KernelIdeal.main_v46) (bs := VK c Cert.KernelIdeal.main_v49)
    (fun p q co => h_ys n p q co) co p q
  show (Cert.KernelIdeal.Run.dat2 VK c).after 7 (Cert.KernelIdeal.Run.pt2 n) (ix3 (n0 := 1) 0 co ⟨p.val * 56 + q.val, by omega⟩)
    = (Cert.ReferenceIdeal.Run.dat2 VR c).after 6 (Cert.ReferenceIdeal.Run.pt2 n) (ix4 (n0 := 1) 0 p q co)
  rw [Cert.KernelIdeal.Run.after2_7, Cert.ReferenceIdeal.Run.after2_6,
    Cert.KernelIdeal.Run.iblk2_0_eq, Cert.KernelIdeal.Run.iblk2_1_eq, Cert.KernelIdeal.Run.iblk2_2_eq, Cert.KernelIdeal.Run.iblk2_3_eq,
    Cert.KernelIdeal.Run.iblk2_4_eq, Cert.KernelIdeal.Run.iblk2_5_eq, Cert.KernelIdeal.Run.iblk2_6_eq,
    Cert.ReferenceIdeal.Run.iblk2_0_eq, Cert.ReferenceIdeal.Run.iblk2_1_eq, Cert.ReferenceIdeal.Run.iblk2_2_eq, Cert.ReferenceIdeal.Run.iblk2_3_eq,
    Cert.ReferenceIdeal.Run.iblk2_4_eq, Cert.ReferenceIdeal.Run.iblk2_5_eq, h_y2, h_s2, h_b2, h_ss, h_bs]
  exact key

/-! ## The second pass over the whole grid -/

/-- The reference's scratch after every point has a zero border: zeros at the reset, and the middle's rewrite keeps it. -/
theorem zeroBorder_pad1 (c : Dev Cert.ReferenceIdeal.nD) :
    ∀ (k : ℕ) (hk : k < Cert.ReferenceIdeal.cfg1.N), ZeroBorder (Cert.ReferenceIdeal.Run.pad1 VR c k hk)
  | 0, hk => zeroBorder_padIn zeroBorder_zeroPad _
  | k + 1, hk => zeroBorder_padIn (zeroBorder_pad1 c k (Nat.lt_of_succ_lt hk)) _

/-- The scratch after point `t`: the point's activation laid into an image with a zero border. -/
theorem pad1_form (c : Dev Cert.ReferenceIdeal.nD) (t : Fin Cert.ReferenceIdeal.cfg1.N) :
    ∃ P, ZeroBorder P ∧ Cert.ReferenceIdeal.Run.pad1 VR c t.val t.isLt
      = Cert.ReferenceIdeal.Run.padIn P (Cert.ReferenceIdeal.Run.act1 (Cert.ReferenceIdeal.Run.iblk1 VR c 0 t)
          (Cert.ReferenceIdeal.Run.iblk1 VR c 1 t) (Cert.ReferenceIdeal.Run.iblk1 VR c 2 t)) := by
  by_cases h0 : t.val = 0
  · exact ⟨_, zeroBorder_zeroPad, Cert.ReferenceIdeal.Run.pad1_A VR c t h0⟩
  · exact ⟨_, zeroBorder_pad1 VR c _ _, Cert.ReferenceIdeal.Run.pad1_B VR c t h0⟩

/-- The reference's moments block after its reset is zero. -/
theorem zero1_5_apply (i : Cert.ReferenceIdeal.S2x128.Idx) : Cert.ReferenceIdeal.Run.zero1_5 (F := Ideal) i = 0 := by
  unfold Cert.ReferenceIdeal.Run.zero1_5
  rw [View.canon_unit_zero zeros2]
  unfold Cert.ReferenceIdeal.Gen.k1_pay5
  exact Ideal.ofBits_zero_f32

section Stage2
variable (c : Dev Cert.KernelIdeal.nD)
  (h_y1 : VR c Cert.ReferenceIdeal.main_v17_0 = VK c Cert.KernelIdeal.main_v8_0)
  (h_s1 : VR c Cert.ReferenceIdeal.main_v34 = VK c Cert.KernelIdeal.main_v26)
  (h_b1 : VR c Cert.ReferenceIdeal.main_v37 = VK c Cert.KernelIdeal.main_v29)
  (h_w2 : VR c Cert.ReferenceIdeal.main_v8 = VK c Cert.KernelIdeal.main_v6)
include h_y1 h_s1 h_b1 h_w2

/-- Image `n`'s second-convolution block is the same in both programs. -/
theorem point2_conv (n : Fin 32) :
    Cert.ReferenceIdeal.Run.out1_4 (Cert.ReferenceIdeal.Run.pad1 VR c (Cert.ReferenceIdeal.Run.pt1 n).val (Cert.ReferenceIdeal.Run.pt1 n).isLt)
        (Cert.ReferenceIdeal.Run.iblk1 VR c 3 (Cert.ReferenceIdeal.Run.pt1 n))
      = Cert.KernelIdeal.Run.out1_4 (Cert.KernelIdeal.Run.iblk1 VK c 0 (Cert.KernelIdeal.Run.pt1 n)) (Cert.KernelIdeal.Run.iblk1 VK c 1 (Cert.KernelIdeal.Run.pt1 n))
          (Cert.KernelIdeal.Run.iblk1 VK c 2 (Cert.KernelIdeal.Run.pt1 n)) (Cert.KernelIdeal.Run.iblk1 VK c 3 (Cert.KernelIdeal.Run.pt1 n)) := by
  obtain ⟨P, hP, e⟩ := pad1_form VR c (Cert.ReferenceIdeal.Run.pt1 n)
  rw [e, Cert.ReferenceIdeal.Run.iblk1_0_eq, Cert.ReferenceIdeal.Run.iblk1_1_eq, Cert.ReferenceIdeal.Run.iblk1_2_eq, Cert.ReferenceIdeal.Run.iblk1_3_eq,
    Cert.KernelIdeal.Run.iblk1_0_eq, Cert.KernelIdeal.Run.iblk1_1_eq, Cert.KernelIdeal.Run.iblk1_2_eq, Cert.KernelIdeal.Run.iblk1_3_eq,
    h_y1, h_s1, h_b1, h_w2]
  exact pass2_conv hP _ _ _ _

/-- Image `n`'s moments: the reference's running block gains rows 0 and 1 of the kernel's block for the image. -/
theorem point2_moments (n : Fin 32) (s : Vec Ideal Cert.ReferenceIdeal.S2x128 .f32) (r : Fin 2) (co : Fin 128) :
    Cert.ReferenceIdeal.Run.out1_5 (Cert.ReferenceIdeal.Run.pad1 VR c (Cert.ReferenceIdeal.Run.pt1 n).val (Cert.ReferenceIdeal.Run.pt1 n).isLt)
        (Cert.ReferenceIdeal.Run.iblk1 VR c 3 (Cert.ReferenceIdeal.Run.pt1 n)) s (ix2 r co)
      = s (ix2 r co) + Cert.KernelIdeal.Run.out1_5 (Cert.KernelIdeal.Run.iblk1 VK c 0 (Cert.KernelIdeal.Run.pt1 n)) (Cert.KernelIdeal.Run.iblk1 VK c 1 (Cert.KernelIdeal.Run.pt1 n))
          (Cert.KernelIdeal.Run.iblk1 VK c 2 (Cert.KernelIdeal.Run.pt1 n)) (Cert.KernelIdeal.Run.iblk1 VK c 3 (Cert.KernelIdeal.Run.pt1 n))
          (ix3 (n0 := 1) 0 ⟨r.val, by omega⟩ co) := by
  obtain ⟨P, hP, e⟩ := pad1_form VR c (Cert.ReferenceIdeal.Run.pt1 n)
  rw [e, Cert.ReferenceIdeal.Run.iblk1_0_eq, Cert.ReferenceIdeal.Run.iblk1_1_eq, Cert.ReferenceIdeal.Run.iblk1_2_eq, Cert.ReferenceIdeal.Run.iblk1_3_eq,
    Cert.KernelIdeal.Run.iblk1_0_eq, Cert.KernelIdeal.Run.iblk1_1_eq, Cert.KernelIdeal.Run.iblk1_2_eq, Cert.KernelIdeal.Run.iblk1_3_eq,
    h_y1, h_s1, h_b1, h_w2]
  exact pass2_moments hP _ _ _ _ s r co

omit h_y1 h_s1 h_b1 h_w2 in
/-- Entry `(row, co)` of the kernel's moments block of image `n`, as an extended real. -/
def kMomAt (c : Dev Cert.KernelIdeal.nD) (n : Fin 32) (row : Fin 8) (co : Fin 128) : EReal :=
  Cert.KernelIdeal.Run.G1_5 VK c (ix3 n row co)

omit h_y1 h_s1 h_b1 h_w2 in
/-- The kernel's moment entry `(r, co)` of image `i`, as a function of the image's number (zero past the last image). -/
def kMom (c : Dev Cert.KernelIdeal.nD) (r : Fin 2) (co : Fin 128) (i : ℕ) : EReal :=
  if h : i < 32 then Cert.KernelIdeal.Run.G1_5 VK c (ix3 (⟨i, h⟩ : Fin 32) (⟨r.val, by omega⟩ : Fin 8) co) else 0

/-- The reference's running moments block after point `k`: zero plus the kernel's entries of images 0 to `k`. -/
theorem stats1_sum (r : Fin 2) (co : Fin 128) (k : ℕ) (hk : k < 32) :
    Cert.ReferenceIdeal.Run.stats1 VR c (Cert.ReferenceIdeal.Run.pt1 ⟨k, hk⟩).val (Cert.ReferenceIdeal.Run.pt1 ⟨k, hk⟩).isLt (ix2 r co)
      = 0 + ∑ i ∈ Finset.range (k + 1), kMom VK c r co i := by
  induction k with
  | zero =>
    rw [Cert.ReferenceIdeal.Run.stats1_A VR c (Cert.ReferenceIdeal.Run.pt1 ⟨0, hk⟩) rfl,
      point2_moments VK VR c h_y1 h_s1 h_b1 h_w2 (⟨0, hk⟩ : Fin 32) Cert.ReferenceIdeal.Run.zero1_5 r co, zero1_5_apply, Finset.sum_range_one]
    refine congrArg (0 + ·) ?_
    unfold kMom
    rw [dif_pos hk]
    unfold Cert.KernelIdeal.Run.G1_5
    rw [Cert.KernelIdeal.Run.after1_5]
  | succ k ih =>
    have ih' := ih (Nat.lt_of_succ_lt hk)
    rw [Cert.ReferenceIdeal.Run.stats1_B VR c (Cert.ReferenceIdeal.Run.pt1 ⟨k + 1, hk⟩) (Nat.succ_ne_zero k),
      point2_moments VK VR c h_y1 h_s1 h_b1 h_w2 (⟨k + 1, hk⟩ : Fin 32) _ r co, Finset.sum_range_succ _ (k + 1), ← add_assoc]
    refine congrArg₂ (· + ·) ih' ?_
    unfold kMom
    rw [dif_pos hk]
    unfold Cert.KernelIdeal.Run.G1_5
    rw [Cert.KernelIdeal.Run.after1_5]

/-- THE SECOND PASS over the grid, the convolution: the reference's second-convolution array is the kernel's. -/
theorem stage2_conv : Cert.ReferenceIdeal.Run.G1_4 VR c = Cert.KernelIdeal.Run.G1_4 VK c := by
  funext i
  unfold Cert.ReferenceIdeal.Run.G1_4 Cert.KernelIdeal.Run.G1_4
  rw [Cert.ReferenceIdeal.Run.after1_4, Cert.KernelIdeal.Run.after1_4]
  exact congrFun (point2_conv VK VR c h_y1 h_s1 h_b1 h_w2 (i 0)) _

/-- THE SECOND PASS over the grid, the moments: the reference's block is zero plus the sum over the 32 images of rows 0
    and 1 of the kernel's per-image blocks. -/
theorem stage2_moments (r : Fin 2) (co : Fin 128) :
    Cert.ReferenceIdeal.Run.G1_5 VR c (ix2 r co)
      = 0 + ∑ n : Fin 32, kMomAt VK c n (⟨r.val, by omega⟩ : Fin 8) co := by
  rw [Cert.ReferenceIdeal.Run.G1_5_eq]
  refine (stats1_sum VK VR c h_y1 h_s1 h_b1 h_w2 r co 31 (by omega)).trans (congrArg (0 + ·) ?_)
  rw [Finset.sum_range]
  refine Finset.sum_congr rfl fun n _ => ?_
  unfold kMom kMomAt
  rw [dif_pos n.isLt]

/-- THE SECOND PASS over the grid. -/
theorem stage2 :
    Cert.ReferenceIdeal.Run.G1_4 VR c = Cert.KernelIdeal.Run.G1_4 VK c
    ∧ ∀ (r : Fin 2) (co : Fin 128), Cert.ReferenceIdeal.Run.G1_5 VR c (ix2 r co)
        = 0 + ∑ n : Fin 32, kMomAt VK c n (⟨r.val, by omega⟩ : Fin 8) co :=
  ⟨stage2_conv VK VR c h_y1 h_s1 h_b1 h_w2, stage2_moments VK VR c h_y1 h_s1 h_b1 h_w2⟩

end Stage2

end Cert.Bridge

end
-- ==== Proof.BrFinal.lean ====
import proofs.«120137_g2000002162550304_pallasbulk_397_2_alg».proof.Proof.KIChain
import proofs.«120137_g2000002162550304_pallasbulk_397_2_alg».proof.Proof.KIArgs
import proofs.«120137_g2000002162550304_pallasbulk_397_2_alg».proof.Proof.KIPost
import proofs.«120137_g2000002162550304_pallasbulk_397_2_alg».proof.Proof.BrChainR
import proofs.«120137_g2000002162550304_pallasbulk_397_2_alg».proof.Proof.BrCoef
import proofs.«120137_g2000002162550304_pallasbulk_397_2_alg».proof.Proof.BrLast
import proofs.«120137_g2000002162550304_pallasbulk_397_2_alg».proof.Proof.BrPrologue
import proofs.«120137_g2000002162550304_pallasbulk_397_2_alg».proof.Proof.BrStage1
import proofs.«120137_g2000002162550304_pallasbulk_397_2_alg».proof.Proof.BrStage23
import proofs.«120137_g2000002162550304_pallasbulk_397_2_alg».proof.Proof.RIFrame

set_option maxRecDepth 16384

noncomputable section

/-! # The two idealized programs end with the same result

Pass by pass, from memories that agree on the arguments. The prologues give operands that correspond (the reference's
are the kernel's with zero channels appended). Pass 1 then leaves the same conv1 output, the reference's stored shortcut
equal to the kernel's recomputed one, and the reference's running moments equal to the sum of the kernel's per-image
moments; so both hosts compute the same BN1 and shortcut coefficients. Pass 2 then leaves the same conv2 output and the
same moment sums; so the same BN2 coefficients. Pass 3 then leaves the same values, the kernel's transposed, which the
two last host operations bring to the same layout. -/

namespace Cert.Bridge

open Idealize.ShloMosaic Idealize.ShloMosaic.TcCoe Idealize.ShloMosaic.ValueIdx

variable (mK : (ℓ : Loc Cert.KernelIdeal.nD Cert.KernelIdeal.τ Cert.KernelIdeal.sig) → Buf (Elt Ideal) ℓ) (ρK : Dev Cert.KernelIdeal.nD → PrngReg)
variable (mR : (ℓ : Loc Cert.ReferenceIdeal.nD Cert.ReferenceIdeal.τ Cert.ReferenceIdeal.sig) → Buf (Elt Ideal) ℓ)
variable (c : Dev Cert.KernelIdeal.nD)

/-- Pass 1 on the two sides. -/
theorem s1 (h0 : mR ((c.tc : Thread Cert.ReferenceIdeal.nD Cert.ReferenceIdeal.τ).loc Cert.ReferenceIdeal.main_arg0) = mK ((c.tc : Thread Cert.KernelIdeal.nD Cert.KernelIdeal.τ).loc Cert.KernelIdeal.main_arg0)) (h1 : mR ((c.tc : Thread Cert.ReferenceIdeal.nD Cert.ReferenceIdeal.τ).loc Cert.ReferenceIdeal.main_arg1) = mK ((c.tc : Thread Cert.KernelIdeal.nD Cert.KernelIdeal.τ).loc Cert.KernelIdeal.main_arg1)) (h3 : mR ((c.tc : Thread Cert.ReferenceIdeal.nD Cert.ReferenceIdeal.τ).loc Cert.ReferenceIdeal.main_arg3) = mK ((c.tc : Thread Cert.KernelIdeal.nD Cert.KernelIdeal.τ).loc Cert.KernelIdeal.main_arg3)) :
    Cert.ReferenceIdeal.Run.G0_3 (Cert.ReferenceIdeal.Run.T20 mR) c = Cert.KernelIdeal.Run.G0_3 (Cert.KernelIdeal.Run.V3 mK ρK) c
    ∧ (∀ (n : Fin 32) (p q : Fin 56) (co : Fin 128), Cert.ReferenceIdeal.Run.G0_4 (Cert.ReferenceIdeal.Run.T20 mR) c (ix4 n p q co)
        = shortK (imgK (Cert.KernelIdeal.Run.V3 mK ρK) c n) (Cert.KernelIdeal.Run.V3 mK ρK c Cert.KernelIdeal.main_v7) (ix2 (n0 := 3136) ⟨p.val * 56 + q.val, by omega⟩ co))
    ∧ ∀ (r : Fin 4) (co : Fin 128), Cert.ReferenceIdeal.Run.G0_5 (Cert.ReferenceIdeal.Run.T20 mR) c (ix2 r co) = (0 : EReal) + ∑ n : Fin 32, st1K (Cert.KernelIdeal.Run.V3 mK ρK) c (ix3 n ⟨r.val, by omega⟩ co) :=
  stage1 (Cert.KernelIdeal.Run.V3 mK ρK) (Cert.ReferenceIdeal.Run.T20 mR) c (fun n => pro_x mK ρK mR c h0 n) (pro_w1 mK ρK mR c h1) (pro_ws mK ρK mR c h3)

/-- The operands a later pass or host re-reads are what the first host stretches left. -/
theorem K_keep_x (b : Ref Cert.KernelIdeal.sig .tc) (h4 : b ∉ ([Cert.KernelIdeal.main_v8_0, Cert.KernelIdeal.main_v8_1] : List (Ref Cert.KernelIdeal.sig .tc)) := by decide)
    (hin : ∀ w, Pipeline.arrRef Cert.KernelIdeal.spec0 w = b → w.val < 3 := by decide) (h5 : b ∉ Cert.KernelIdeal.Gen.hostOps1_W := by decide)
    (h6 : ∀ w, Pipeline.arrRef Cert.KernelIdeal.spec1 w ≠ b := by decide) (h7 : b ∉ Cert.KernelIdeal.Gen.hostOps2_W := by decide) :
    Cert.KernelIdeal.Run.W7 mK ρK c (Proc.devRef .tc b) = Cert.KernelIdeal.Run.W3 mK ρK c (Proc.devRef .tc b) :=
  (Cert.KernelIdeal.Run.W7_keep mK ρK c b h7).trans <| (Cert.KernelIdeal.Run.W6_keep mK ρK c b h6).trans <| (Cert.KernelIdeal.Run.W5_keep mK ρK c b h5).trans (Cert.KernelIdeal.Run.W4_keep mK ρK c b h4 hin)

/-- The four coefficient rows the host computes after pass 1 are the same on both sides. -/
theorem coefs1 (h0 : mR ((c.tc : Thread Cert.ReferenceIdeal.nD Cert.ReferenceIdeal.τ).loc Cert.ReferenceIdeal.main_arg0) = mK ((c.tc : Thread Cert.KernelIdeal.nD Cert.KernelIdeal.τ).loc Cert.KernelIdeal.main_arg0)) (h1 : mR ((c.tc : Thread Cert.ReferenceIdeal.nD Cert.ReferenceIdeal.τ).loc Cert.ReferenceIdeal.main_arg1) = mK ((c.tc : Thread Cert.KernelIdeal.nD Cert.KernelIdeal.τ).loc Cert.KernelIdeal.main_arg1)) (h3 : mR ((c.tc : Thread Cert.ReferenceIdeal.nD Cert.ReferenceIdeal.τ).loc Cert.ReferenceIdeal.main_arg3) = mK ((c.tc : Thread Cert.KernelIdeal.nD Cert.KernelIdeal.τ).loc Cert.KernelIdeal.main_arg3)) (h4 : mR ((c.tc : Thread Cert.ReferenceIdeal.nD Cert.ReferenceIdeal.τ).loc Cert.ReferenceIdeal.main_arg4) = mK ((c.tc : Thread Cert.KernelIdeal.nD Cert.KernelIdeal.τ).loc Cert.KernelIdeal.main_arg4)) (h5 : mR ((c.tc : Thread Cert.ReferenceIdeal.nD Cert.ReferenceIdeal.τ).loc Cert.ReferenceIdeal.main_arg5) = mK ((c.tc : Thread Cert.KernelIdeal.nD Cert.KernelIdeal.τ).loc Cert.KernelIdeal.main_arg5)) (h8 : mR ((c.tc : Thread Cert.ReferenceIdeal.nD Cert.ReferenceIdeal.τ).loc Cert.ReferenceIdeal.main_arg8) = mK ((c.tc : Thread Cert.KernelIdeal.nD Cert.KernelIdeal.τ).loc Cert.KernelIdeal.main_arg8)) (h9 : mR ((c.tc : Thread Cert.ReferenceIdeal.nD Cert.ReferenceIdeal.τ).loc Cert.ReferenceIdeal.main_arg9) = mK ((c.tc : Thread Cert.KernelIdeal.nD Cert.KernelIdeal.τ).loc Cert.KernelIdeal.main_arg9)) :
    Cert.ReferenceIdeal.Run.W22 mR c (Proc.devRef .tc Cert.ReferenceIdeal.main_v34) = Cert.KernelIdeal.Run.W5 mK ρK c (Proc.devRef .tc Cert.KernelIdeal.main_v26)
    ∧ Cert.ReferenceIdeal.Run.W22 mR c (Proc.devRef .tc Cert.ReferenceIdeal.main_v37) = Cert.KernelIdeal.Run.W5 mK ρK c (Proc.devRef .tc Cert.KernelIdeal.main_v29)
    ∧ Cert.ReferenceIdeal.Run.W22 mR c (Proc.devRef .tc Cert.ReferenceIdeal.main_v54) = Cert.KernelIdeal.Run.W5 mK ρK c (Proc.devRef .tc Cert.KernelIdeal.main_v46)
    ∧ Cert.ReferenceIdeal.Run.W22 mR c (Proc.devRef .tc Cert.ReferenceIdeal.main_v57) = Cert.KernelIdeal.Run.W5 mK ρK c (Proc.devRef .tc Cert.KernelIdeal.main_v49) := by
  have hrel := (s1 mK ρK mR c h0 h1 h3).2.2
  unfold st1K at hrel
  rw [← Cert.ReferenceIdeal.Run.W21_st1 mR c, ← Cert.KernelIdeal.Run.W4_st1 mK ρK c] at hrel
  obtain ⟨e0, e1, e2, e3⟩ := rows4_eq _ _ hrel
  have g1 : Cert.ReferenceIdeal.Run.W21 mR c (Proc.devRef .tc Cert.ReferenceIdeal.main_v11) = Cert.KernelIdeal.Run.W4 mK ρK c (Proc.devRef .tc Cert.KernelIdeal.main_arg4) :=
    (Cert.ReferenceIdeal.Run.W21_keep mR c Cert.ReferenceIdeal.main_v11).trans ((pro_g1 mK mR c h4).trans (Cert.KernelIdeal.Run.W4_arg4 mK ρK c).symm)
  have b1 : Cert.ReferenceIdeal.Run.W21 mR c (Proc.devRef .tc Cert.ReferenceIdeal.main_v12) = Cert.KernelIdeal.Run.W4 mK ρK c (Proc.devRef .tc Cert.KernelIdeal.main_arg5) :=
    (Cert.ReferenceIdeal.Run.W21_keep mR c Cert.ReferenceIdeal.main_v12).trans ((pro_b1 mK mR c h5).trans (Cert.KernelIdeal.Run.W4_arg5 mK ρK c).symm)
  have gs : Cert.ReferenceIdeal.Run.W21 mR c (Proc.devRef .tc Cert.ReferenceIdeal.main_v15) = Cert.KernelIdeal.Run.W4 mK ρK c (Proc.devRef .tc Cert.KernelIdeal.main_arg8) :=
    (Cert.ReferenceIdeal.Run.W21_keep mR c Cert.ReferenceIdeal.main_v15).trans ((pro_gs mK mR c h8).trans (Cert.KernelIdeal.Run.W4_arg8 mK ρK c).symm)
  have bs : Cert.ReferenceIdeal.Run.W21 mR c (Proc.devRef .tc Cert.ReferenceIdeal.main_v16) = Cert.KernelIdeal.Run.W4 mK ρK c (Proc.devRef .tc Cert.KernelIdeal.main_arg9) :=
    (Cert.ReferenceIdeal.Run.W21_keep mR c Cert.ReferenceIdeal.main_v16).trans ((pro_bs mK mR c h9).trans (Cert.KernelIdeal.Run.W4_arg9 mK ρK c).symm)
  refine ⟨?_, ?_, ?_, ?_⟩
  · rw [Cert.ReferenceIdeal.Run.W22_s1, Cert.KernelIdeal.Run.W5_s1, e0, e1, g1]
  · rw [Cert.ReferenceIdeal.Run.W22_b1, Cert.KernelIdeal.Run.W5_b1, e0, e1, g1, b1]
  · rw [Cert.ReferenceIdeal.Run.W22_ss, Cert.KernelIdeal.Run.W5_ss, e2, e3, gs]
  · rw [Cert.ReferenceIdeal.Run.W22_bs, Cert.KernelIdeal.Run.W5_bs, e2, e3, gs, bs]

/-- Pass 2 on the two sides. -/
theorem s2 (h0 : mR ((c.tc : Thread Cert.ReferenceIdeal.nD Cert.ReferenceIdeal.τ).loc Cert.ReferenceIdeal.main_arg0) = mK ((c.tc : Thread Cert.KernelIdeal.nD Cert.KernelIdeal.τ).loc Cert.KernelIdeal.main_arg0)) (h1 : mR ((c.tc : Thread Cert.ReferenceIdeal.nD Cert.ReferenceIdeal.τ).loc Cert.ReferenceIdeal.main_arg1) = mK ((c.tc : Thread Cert.KernelIdeal.nD Cert.KernelIdeal.τ).loc Cert.KernelIdeal.main_arg1)) (h2 : mR ((c.tc : Thread Cert.ReferenceIdeal.nD Cert.ReferenceIdeal.τ).loc Cert.ReferenceIdeal.main_arg2) = mK ((c.tc : Thread Cert.KernelIdeal.nD Cert.KernelIdeal.τ).loc Cert.KernelIdeal.main_arg2)) (h3 : mR ((c.tc : Thread Cert.ReferenceIdeal.nD Cert.ReferenceIdeal.τ).loc Cert.ReferenceIdeal.main_arg3) = mK ((c.tc : Thread Cert.KernelIdeal.nD Cert.KernelIdeal.τ).loc Cert.KernelIdeal.main_arg3)) (h4 : mR ((c.tc : Thread Cert.ReferenceIdeal.nD Cert.ReferenceIdeal.τ).loc Cert.ReferenceIdeal.main_arg4) = mK ((c.tc : Thread Cert.KernelIdeal.nD Cert.KernelIdeal.τ).loc Cert.KernelIdeal.main_arg4)) (h5 : mR ((c.tc : Thread Cert.ReferenceIdeal.nD Cert.ReferenceIdeal.τ).loc Cert.ReferenceIdeal.main_arg5) = mK ((c.tc : Thread Cert.KernelIdeal.nD Cert.KernelIdeal.τ).loc Cert.KernelIdeal.main_arg5)) (h8 : mR ((c.tc : Thread Cert.ReferenceIdeal.nD Cert.ReferenceIdeal.τ).loc Cert.ReferenceIdeal.main_arg8) = mK ((c.tc : Thread Cert.KernelIdeal.nD Cert.KernelIdeal.τ).loc Cert.KernelIdeal.main_arg8)) (h9 : mR ((c.tc : Thread Cert.ReferenceIdeal.nD Cert.ReferenceIdeal.τ).loc Cert.ReferenceIdeal.main_arg9) = mK ((c.tc : Thread Cert.KernelIdeal.nD Cert.KernelIdeal.τ).loc Cert.KernelIdeal.main_arg9)) :
    Cert.ReferenceIdeal.Run.G1_4 (Cert.ReferenceIdeal.Run.T22 mR) c = Cert.KernelIdeal.Run.G1_4 (Cert.KernelIdeal.Run.V5 mK ρK) c
    ∧ ∀ (r : Fin 2) (co : Fin 128), Cert.ReferenceIdeal.Run.G1_5 (Cert.ReferenceIdeal.Run.T22 mR) c (ix2 r co) = 0 + ∑ n : Fin 32, kMomAt (Cert.KernelIdeal.Run.V5 mK ρK) c n (⟨r.val, by omega⟩ : Fin 8) co :=
  stage2 (Cert.KernelIdeal.Run.V5 mK ρK) (Cert.ReferenceIdeal.Run.T22 mR) c
    (show Cert.ReferenceIdeal.Run.W22 mR c (Proc.devRef .tc Cert.ReferenceIdeal.main_v17_0) = Cert.KernelIdeal.Run.W5 mK ρK c (Proc.devRef .tc Cert.KernelIdeal.main_v8_0) from
      (Cert.ReferenceIdeal.Run.W22_keep mR c Cert.ReferenceIdeal.main_v17_0).trans <| (Cert.ReferenceIdeal.Run.W21_y1 mR c).trans <| (s1 mK ρK mR c h0 h1 h3).1.trans <|
        (Cert.KernelIdeal.Run.W4_y1 mK ρK c).symm.trans (Cert.KernelIdeal.Run.W5_keep mK ρK c Cert.KernelIdeal.main_v8_0).symm)
    (coefs1 mK ρK mR c h0 h1 h3 h4 h5 h8 h9).1
    (coefs1 mK ρK mR c h0 h1 h3 h4 h5 h8 h9).2.1
    (show Cert.ReferenceIdeal.Run.W22 mR c (Proc.devRef .tc Cert.ReferenceIdeal.main_v8) = Cert.KernelIdeal.Run.W5 mK ρK c (Proc.devRef .tc Cert.KernelIdeal.main_v6) from
      (Cert.ReferenceIdeal.Run.W22_keep mR c Cert.ReferenceIdeal.main_v8).trans <| (Cert.ReferenceIdeal.Run.W21_keep mR c Cert.ReferenceIdeal.main_v8).trans <| (pro_w2 mK ρK mR c h2).trans <|
        (Cert.KernelIdeal.Run.W4_keep mK ρK c Cert.KernelIdeal.main_v6).symm.trans (Cert.KernelIdeal.Run.W5_keep mK ρK c Cert.KernelIdeal.main_v6).symm)

/-- The two BN2 rows the host computes after pass 2 are the same on both sides. -/
theorem coefs2 (h0 : mR ((c.tc : Thread Cert.ReferenceIdeal.nD Cert.ReferenceIdeal.τ).loc Cert.ReferenceIdeal.main_arg0) = mK ((c.tc : Thread Cert.KernelIdeal.nD Cert.KernelIdeal.τ).loc Cert.KernelIdeal.main_arg0)) (h1 : mR ((c.tc : Thread Cert.ReferenceIdeal.nD Cert.ReferenceIdeal.τ).loc Cert.ReferenceIdeal.main_arg1) = mK ((c.tc : Thread Cert.KernelIdeal.nD Cert.KernelIdeal.τ).loc Cert.KernelIdeal.main_arg1)) (h2 : mR ((c.tc : Thread Cert.ReferenceIdeal.nD Cert.ReferenceIdeal.τ).loc Cert.ReferenceIdeal.main_arg2) = mK ((c.tc : Thread Cert.KernelIdeal.nD Cert.KernelIdeal.τ).loc Cert.KernelIdeal.main_arg2)) (h3 : mR ((c.tc : Thread Cert.ReferenceIdeal.nD Cert.ReferenceIdeal.τ).loc Cert.ReferenceIdeal.main_arg3) = mK ((c.tc : Thread Cert.KernelIdeal.nD Cert.KernelIdeal.τ).loc Cert.KernelIdeal.main_arg3)) (h4 : mR ((c.tc : Thread Cert.ReferenceIdeal.nD Cert.ReferenceIdeal.τ).loc Cert.ReferenceIdeal.main_arg4) = mK ((c.tc : Thread Cert.KernelIdeal.nD Cert.KernelIdeal.τ).loc Cert.KernelIdeal.main_arg4)) (h5 : mR ((c.tc : Thread Cert.ReferenceIdeal.nD Cert.ReferenceIdeal.τ).loc Cert.ReferenceIdeal.main_arg5) = mK ((c.tc : Thread Cert.KernelIdeal.nD Cert.KernelIdeal.τ).loc Cert.KernelIdeal.main_arg5)) (h6 : mR ((c.tc : Thread Cert.ReferenceIdeal.nD Cert.ReferenceIdeal.τ).loc Cert.ReferenceIdeal.main_arg6) = mK ((c.tc : Thread Cert.KernelIdeal.nD Cert.KernelIdeal.τ).loc Cert.KernelIdeal.main_arg6)) (h7 : mR ((c.tc : Thread Cert.ReferenceIdeal.nD Cert.ReferenceIdeal.τ).loc Cert.ReferenceIdeal.main_arg7) = mK ((c.tc : Thread Cert.KernelIdeal.nD Cert.KernelIdeal.τ).loc Cert.KernelIdeal.main_arg7)) (h8 : mR ((c.tc : Thread Cert.ReferenceIdeal.nD Cert.ReferenceIdeal.τ).loc Cert.ReferenceIdeal.main_arg8) = mK ((c.tc : Thread Cert.KernelIdeal.nD Cert.KernelIdeal.τ).loc Cert.KernelIdeal.main_arg8)) (h9 : mR ((c.tc : Thread Cert.ReferenceIdeal.nD Cert.ReferenceIdeal.τ).loc Cert.ReferenceIdeal.main_arg9) = mK ((c.tc : Thread Cert.KernelIdeal.nD Cert.KernelIdeal.τ).loc Cert.KernelIdeal.main_arg9)) :
    Cert.ReferenceIdeal.Run.W24 mR c (Proc.devRef .tc Cert.ReferenceIdeal.main_v75) = Cert.KernelIdeal.Run.W7 mK ρK c (Proc.devRef .tc Cert.KernelIdeal.main_v68)
    ∧ Cert.ReferenceIdeal.Run.W24 mR c (Proc.devRef .tc Cert.ReferenceIdeal.main_v78) = Cert.KernelIdeal.Run.W7 mK ρK c (Proc.devRef .tc Cert.KernelIdeal.main_v71) := by
  have hrel := (s2 mK ρK mR c h0 h1 h2 h3 h4 h5 h8 h9).2
  unfold kMomAt at hrel
  rw [← Cert.ReferenceIdeal.Run.W23_st2 mR c, ← Cert.KernelIdeal.Run.W6_st2 mK ρK c] at hrel
  obtain ⟨e0, e1⟩ := rows2_eq _ _ hrel
  have g2 : Cert.ReferenceIdeal.Run.W23 mR c (Proc.devRef .tc Cert.ReferenceIdeal.main_v13) = Cert.KernelIdeal.Run.W6 mK ρK c (Proc.devRef .tc Cert.KernelIdeal.main_arg6) :=
    (Cert.ReferenceIdeal.Run.W23_keep mR c Cert.ReferenceIdeal.main_v13).trans <| (Cert.ReferenceIdeal.Run.W22_keep mR c Cert.ReferenceIdeal.main_v13).trans <| (Cert.ReferenceIdeal.Run.W21_keep mR c Cert.ReferenceIdeal.main_v13).trans <|
      (pro_g2 mK mR c h6).trans (Cert.KernelIdeal.Run.W6_arg6 mK ρK c).symm
  have b2 : Cert.ReferenceIdeal.Run.W23 mR c (Proc.devRef .tc Cert.ReferenceIdeal.main_v14) = Cert.KernelIdeal.Run.W6 mK ρK c (Proc.devRef .tc Cert.KernelIdeal.main_arg7) :=
    (Cert.ReferenceIdeal.Run.W23_keep mR c Cert.ReferenceIdeal.main_v14).trans <| (Cert.ReferenceIdeal.Run.W22_keep mR c Cert.ReferenceIdeal.main_v14).trans <| (Cert.ReferenceIdeal.Run.W21_keep mR c Cert.ReferenceIdeal.main_v14).trans <|
      (pro_b2 mK mR c h7).trans (Cert.KernelIdeal.Run.W6_arg7 mK ρK c).symm
  refine ⟨?_, ?_⟩
  · rw [Cert.ReferenceIdeal.Run.W24_s2, Cert.KernelIdeal.Run.W7_s2, e0, e1, g2]
  · rw [Cert.ReferenceIdeal.Run.W24_b2, Cert.KernelIdeal.Run.W7_b2, e0, e1, g2, b2]

/-- Pass 3 on the two sides. -/
theorem s3 (h0 : mR ((c.tc : Thread Cert.ReferenceIdeal.nD Cert.ReferenceIdeal.τ).loc Cert.ReferenceIdeal.main_arg0) = mK ((c.tc : Thread Cert.KernelIdeal.nD Cert.KernelIdeal.τ).loc Cert.KernelIdeal.main_arg0))
    (h1 : mR ((c.tc : Thread Cert.ReferenceIdeal.nD Cert.ReferenceIdeal.τ).loc Cert.ReferenceIdeal.main_arg1) = mK ((c.tc : Thread Cert.KernelIdeal.nD Cert.KernelIdeal.τ).loc Cert.KernelIdeal.main_arg1))
    (h2 : mR ((c.tc : Thread Cert.ReferenceIdeal.nD Cert.ReferenceIdeal.τ).loc Cert.ReferenceIdeal.main_arg2) = mK ((c.tc : Thread Cert.KernelIdeal.nD Cert.KernelIdeal.τ).loc Cert.KernelIdeal.main_arg2))
    (h3 : mR ((c.tc : Thread Cert.ReferenceIdeal.nD Cert.ReferenceIdeal.τ).loc Cert.ReferenceIdeal.main_arg3) = mK ((c.tc : Thread Cert.KernelIdeal.nD Cert.KernelIdeal.τ).loc Cert.KernelIdeal.main_arg3))
    (h4 : mR ((c.tc : Thread Cert.ReferenceIdeal.nD Cert.ReferenceIdeal.τ).loc Cert.ReferenceIdeal.main_arg4) = mK ((c.tc : Thread Cert.KernelIdeal.nD Cert.KernelIdeal.τ).loc Cert.KernelIdeal.main_arg4))
    (h5 : mR ((c.tc : Thread Cert.ReferenceIdeal.nD Cert.ReferenceIdeal.τ).loc Cert.ReferenceIdeal.main_arg5) = mK ((c.tc : Thread Cert.KernelIdeal.nD Cert.KernelIdeal.τ).loc Cert.KernelIdeal.main_arg5))
    (h6 : mR ((c.tc : Thread Cert.ReferenceIdeal.nD Cert.ReferenceIdeal.τ).loc Cert.ReferenceIdeal.main_arg6) = mK ((c.tc : Thread Cert.KernelIdeal.nD Cert.KernelIdeal.τ).loc Cert.KernelIdeal.main_arg6))
    (h7 : mR ((c.tc : Thread Cert.ReferenceIdeal.nD Cert.ReferenceIdeal.τ).loc Cert.ReferenceIdeal.main_arg7) = mK ((c.tc : Thread Cert.KernelIdeal.nD Cert.KernelIdeal.τ).loc Cert.KernelIdeal.main_arg7))
    (h8 : mR ((c.tc : Thread Cert.ReferenceIdeal.nD Cert.ReferenceIdeal.τ).loc Cert.ReferenceIdeal.main_arg8) = mK ((c.tc : Thread Cert.KernelIdeal.nD Cert.KernelIdeal.τ).loc Cert.KernelIdeal.main_arg8))
    (h9 : mR ((c.tc : Thread Cert.ReferenceIdeal.nD Cert.ReferenceIdeal.τ).loc Cert.ReferenceIdeal.main_arg9) = mK ((c.tc : Thread Cert.KernelIdeal.nD Cert.KernelIdeal.τ).loc Cert.KernelIdeal.main_arg9)) :
    ∀ (n : Fin 32) (co : Fin 128) (p q : Fin 56),
      Cert.KernelIdeal.Run.G2_7 (Cert.KernelIdeal.Run.V7 mK ρK) c (ix3 n co ⟨p.val * 56 + q.val, by omega⟩) = Cert.ReferenceIdeal.Run.G2_6 (Cert.ReferenceIdeal.Run.T24 mR) c (ix4 n p q co) :=
  stage3 (Cert.KernelIdeal.Run.V7 mK ρK) (Cert.ReferenceIdeal.Run.T24 mR) c
    (show Cert.ReferenceIdeal.Run.W24 mR c (Proc.devRef .tc Cert.ReferenceIdeal.main_v58_0) = Cert.KernelIdeal.Run.W7 mK ρK c (Proc.devRef .tc Cert.KernelIdeal.main_v50_0) from
      (Cert.ReferenceIdeal.Run.W24_keep mR c Cert.ReferenceIdeal.main_v58_0).trans <| (Cert.ReferenceIdeal.Run.W23_y2 mR c).trans <| (s2 mK ρK mR c h0 h1 h2 h3 h4 h5 h8 h9).1.trans <|
        (Cert.KernelIdeal.Run.W6_y2 mK ρK c).symm.trans (Cert.KernelIdeal.Run.W7_keep mK ρK c Cert.KernelIdeal.main_v50_0).symm)
    (fun n p q co => by
      show Cert.ReferenceIdeal.Run.W24 mR c (Proc.devRef .tc Cert.ReferenceIdeal.main_v17_1) (ix4 n p q co) = _
      rw [Cert.ReferenceIdeal.Run.W24_keep mR c Cert.ReferenceIdeal.main_v17_1, Cert.ReferenceIdeal.Run.W23_keep mR c Cert.ReferenceIdeal.main_v17_1, Cert.ReferenceIdeal.Run.W22_keep mR c Cert.ReferenceIdeal.main_v17_1, Cert.ReferenceIdeal.Run.W21_ys mR c,
        (s1 mK ρK mR c h0 h1 h3).2.1 n p q co]
      show _ = shortK (fun y => Cert.KernelIdeal.Run.W7 mK ρK c (Proc.devRef .tc Cert.KernelIdeal.main_v2) (ix4 n (y 1) (y 2) (y 3))) (Cert.KernelIdeal.Run.W7 mK ρK c (Proc.devRef .tc Cert.KernelIdeal.main_v7)) _
      rw [K_keep_x mK ρK c Cert.KernelIdeal.main_v2, K_keep_x mK ρK c Cert.KernelIdeal.main_v7])
    (coefs2 mK ρK mR c h0 h1 h2 h3 h4 h5 h6 h7 h8 h9).1
    (coefs2 mK ρK mR c h0 h1 h2 h3 h4 h5 h6 h7 h8 h9).2
    (show Cert.ReferenceIdeal.Run.W24 mR c (Proc.devRef .tc Cert.ReferenceIdeal.main_v54) = Cert.KernelIdeal.Run.W7 mK ρK c (Proc.devRef .tc Cert.KernelIdeal.main_v46) from
      (Cert.ReferenceIdeal.Run.W24_keep mR c Cert.ReferenceIdeal.main_v54).trans <| (Cert.ReferenceIdeal.Run.W23_keep mR c Cert.ReferenceIdeal.main_v54).trans <| (coefs1 mK ρK mR c h0 h1 h3 h4 h5 h8 h9).2.2.1.trans <|
        (Cert.KernelIdeal.Run.W6_keep mK ρK c Cert.KernelIdeal.main_v46).symm.trans (Cert.KernelIdeal.Run.W7_keep mK ρK c Cert.KernelIdeal.main_v46).symm)
    (show Cert.ReferenceIdeal.Run.W24 mR c (Proc.devRef .tc Cert.ReferenceIdeal.main_v57) = Cert.KernelIdeal.Run.W7 mK ρK c (Proc.devRef .tc Cert.KernelIdeal.main_v49) from
      (Cert.ReferenceIdeal.Run.W24_keep mR c Cert.ReferenceIdeal.main_v57).trans <| (Cert.ReferenceIdeal.Run.W23_keep mR c Cert.ReferenceIdeal.main_v57).trans <| (coefs1 mK ρK mR c h0 h1 h3 h4 h5 h8 h9).2.2.2.trans <|
        (Cert.KernelIdeal.Run.W6_keep mK ρK c Cert.KernelIdeal.main_v49).symm.trans (Cert.KernelIdeal.Run.W7_keep mK ρK c Cert.KernelIdeal.main_v49).symm)

/-- The two results are the same array. -/
theorem results_eq (h0 : mR ((c.tc : Thread Cert.ReferenceIdeal.nD Cert.ReferenceIdeal.τ).loc Cert.ReferenceIdeal.main_arg0) = mK ((c.tc : Thread Cert.KernelIdeal.nD Cert.KernelIdeal.τ).loc Cert.KernelIdeal.main_arg0))
    (h1 : mR ((c.tc : Thread Cert.ReferenceIdeal.nD Cert.ReferenceIdeal.τ).loc Cert.ReferenceIdeal.main_arg1) = mK ((c.tc : Thread Cert.KernelIdeal.nD Cert.KernelIdeal.τ).loc Cert.KernelIdeal.main_arg1))
    (h2 : mR ((c.tc : Thread Cert.ReferenceIdeal.nD Cert.ReferenceIdeal.τ).loc Cert.ReferenceIdeal.main_arg2) = mK ((c.tc : Thread Cert.KernelIdeal.nD Cert.KernelIdeal.τ).loc Cert.KernelIdeal.main_arg2))
    (h3 : mR ((c.tc : Thread Cert.ReferenceIdeal.nD Cert.ReferenceIdeal.τ).loc Cert.ReferenceIdeal.main_arg3) = mK ((c.tc : Thread Cert.KernelIdeal.nD Cert.KernelIdeal.τ).loc Cert.KernelIdeal.main_arg3))
    (h4 : mR ((c.tc : Thread Cert.ReferenceIdeal.nD Cert.ReferenceIdeal.τ).loc Cert.ReferenceIdeal.main_arg4) = mK ((c.tc : Thread Cert.KernelIdeal.nD Cert.KernelIdeal.τ).loc Cert.KernelIdeal.main_arg4))
    (h5 : mR ((c.tc : Thread Cert.ReferenceIdeal.nD Cert.ReferenceIdeal.τ).loc Cert.ReferenceIdeal.main_arg5) = mK ((c.tc : Thread Cert.KernelIdeal.nD Cert.KernelIdeal.τ).loc Cert.KernelIdeal.main_arg5))
    (h6 : mR ((c.tc : Thread Cert.ReferenceIdeal.nD Cert.ReferenceIdeal.τ).loc Cert.ReferenceIdeal.main_arg6) = mK ((c.tc : Thread Cert.KernelIdeal.nD Cert.KernelIdeal.τ).loc Cert.KernelIdeal.main_arg6))
    (h7 : mR ((c.tc : Thread Cert.ReferenceIdeal.nD Cert.ReferenceIdeal.τ).loc Cert.ReferenceIdeal.main_arg7) = mK ((c.tc : Thread Cert.KernelIdeal.nD Cert.KernelIdeal.τ).loc Cert.KernelIdeal.main_arg7))
    (h8 : mR ((c.tc : Thread Cert.ReferenceIdeal.nD Cert.ReferenceIdeal.τ).loc Cert.ReferenceIdeal.main_arg8) = mK ((c.tc : Thread Cert.KernelIdeal.nD Cert.KernelIdeal.τ).loc Cert.KernelIdeal.main_arg8))
    (h9 : mR ((c.tc : Thread Cert.ReferenceIdeal.nD Cert.ReferenceIdeal.τ).loc Cert.ReferenceIdeal.main_arg9) = mK ((c.tc : Thread Cert.KernelIdeal.nD Cert.KernelIdeal.τ).loc Cert.KernelIdeal.main_arg9)) :
    Cert.ReferenceIdeal.Run.W26 mR c (Proc.devRef .tc Cert.ReferenceIdeal.main_v80) = Cert.KernelIdeal.Run.W9 mK ρK c (Proc.devRef .tc Cert.KernelIdeal.main_v73) := by
  funext i
  rw [eq_ix4 i]
  have hk := lastK (Cert.KernelIdeal.Run.W8 mK ρK c) (i 0) (i 1) (i 2) (i 3)
  have hr := lastR (Cert.ReferenceIdeal.Run.W25 mR c) (i 0) (i 1) (i 2) (i 3)
  refine hr.trans ?_
  refine Eq.trans ?_ hk.symm
  rw [Cert.ReferenceIdeal.Run.W25_out mR c, Cert.KernelIdeal.Run.W8_out mK ρK c]
  exact (s3 mK ρK mR c h0 h1 h2 h3 h4 h5 h6 h7 h8 h9 (i 0) (i 1) (i 2) (i 3)).symm

end Cert.Bridge

end
-- ==== Proof.lean ====
/- The certificate of a fused residual block: relu(BN2(conv3x3(relu(BN1(conv3x3 x)))) + BNs(conv1x1 x)) with training-mode batch
   moments, as three passes over the 32 images with the moment sums between them, against a reference that computes the
   same three passes with resident accumulators and 128 padded input channels.
   Each program's frame is its whole run read at the arguments: every pass's body is run once at a symbolic grid point
   (its stores read back as functions of the blocks it loaded), the passes and the host stretches between them are
   chained as segments, and no segment writes an argument. The idealization rewrote no operation, so `preserves` is
   trivial. The two idealized programs agree because at the ideal instance both compute the same sums, differently
   grouped: per-image partial moments added up afterwards against one running total, 64 channels against 128 of which
   the upper 64 are zero, the shortcut recomputed against stored, the result transposed in the last pass against after it. -/
import proofs.«120137_g2000002162550304_pallasbulk_397_2_alg».proof.Defs
import proofs.«120137_g2000002162550304_pallasbulk_397_2_alg».proof.Proof.Gen.Kernel
import proofs.«120137_g2000002162550304_pallasbulk_397_2_alg».proof.Proof.Gen.KernelIdeal
import proofs.«120137_g2000002162550304_pallasbulk_397_2_alg».proof.Proof.Gen.ReferenceIdeal
import proofs.«120137_g2000002162550304_pallasbulk_397_2_alg».proof.Proof.Gen.Pre_finite_inputs
import proofs.«120137_g2000002162550304_pallasbulk_397_2_alg».proof.Proof.KRun
import proofs.«120137_g2000002162550304_pallasbulk_397_2_alg».proof.Proof.KIRun
import proofs.«120137_g2000002162550304_pallasbulk_397_2_alg».proof.Proof.KIPost
import proofs.«120137_g2000002162550304_pallasbulk_397_2_alg».proof.Proof.RIFrame
import proofs.«120137_g2000002162550304_pallasbulk_397_2_alg».proof.Proof.BrFinal
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel (hKernel := Cert.Kernel.Gen.facts) (hPre_finite_inputs := Cert.Pre_finite_inputs.Gen.facts) :=
  fun m ρ _ => Cert.Kernel.Run.frame m ρ

/-- The idealized kernel runs and leaves its arguments unchanged. -/
theorem frame_ki : Cert.frame_KernelIdeal (hKernelIdeal := Cert.KernelIdeal.Gen.facts) (hPre_finite_inputs := Cert.Pre_finite_inputs.Gen.facts) :=
  fun m ρ _ => Cert.KernelIdeal.Run.frame m ρ

/-- The idealized reference runs and leaves its arguments unchanged. -/
theorem frame_ri : Cert.frame_ReferenceIdeal (hReferenceIdeal := Cert.ReferenceIdeal.Gen.facts) (hPre_finite_inputs := Cert.Pre_finite_inputs.Gen.facts) :=
  fun m ρ _ => Cert.ReferenceIdeal.Run.frame m ρ

/-- From memories that agree on the arguments both idealized programs run, end with the same result array — the kernel's
    last boundary's contents, which the reference's equal pass by pass — and leave their arguments unchanged. No use is
    made of the inputs being finite: the two sides are the same sums and products of the same extended reals. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m g m' g' _ hagree
  refine ⟨fun c => Cert.KernelIdeal.Run.W9 (F := Ideal) m g c (Proc.devRef .tc Cert.KernelIdeal.main_v73),
    Cert.KernelIdeal.Run.run_post (F := Ideal) m g, ?_⟩
  refine (θ_run Cert.ReferenceIdeal.defs _ _).mono (fun r h c => ?_) (Cert.ReferenceIdeal.Run.run_post (F := Ideal) m' g')
  obtain ⟨hv, hargs⟩ := h c
  obtain ⟨a0, a1, a2, a3, a4, a5, a6, a7, a8, a9⟩ := hagree c
  exact ⟨hv.trans (Cert.Bridge.results_eq m g m' c a0 a1 a2 a3 a4 a5 a6 a7 a8 a9), hargs⟩

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
